-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v273)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v273) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S16x2x64x64 : Shape := ⟨4, ![16, 2, 64, 64]⟩
abbrev S16x1x64x64 : Shape := ⟨4, ![16, 1, 64, 64]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel
  bcast_S_S16x2x64x64 : S_.BroadcastsInDim S16x2x64x64 (![] : Fin 0 → Fin S16x2x64x64.rank)
  reducesTo_S16x2x64x64_S_d0_1_2_3 : S16x2x64x64.ReducesTo [0, 1, 2, 3] S_
  bcast_S_S16x1x64x64 : S_.BroadcastsInDim S16x1x64x64 (![] : Fin 0 → Fin S16x1x64x64.rank)
  reducesTo_S16x1x64x64_S_d0_1_2_3 : S16x1x64x64.ReducesTo [0, 1, 2, 3] S_

variable [Facts]

def fn {F : FTy → Type} [FloatOps F] (main_arg0 : FVec F S16x256x64x64 .f32) (main_arg1 : FVec F S16x2x64x64 .f32) (main_arg2 : FVec F S16x1x64x64 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S16x2x64x64 .f32 := Host.absf main_arg1
  let main_cst_0 : FVec F S_ .f32 := constant S_ .f32 0x7F800000#32
  let main_v5 : FVec F S16x2x64x64 .f32 := broadcastInDim S16x2x64x64 ![] bcast_S_S16x2x64x64 main_cst_0
  let main_v6 : IVec S16x2x64x64 1 := cmpf .olt main_v4 main_v5
  let main_c_1 : IVec S_ 1 := constantI S_ 1 1#1
  let main_v7 : IVec S_ 1 := (fun x v => Host.reduce IntOp.andi x v reducesTo_S16x2x64x64_S_d0_1_2_3 h_S_) main_v6 main_c_1
  let main_v8 : IVec S_ 1 := andi main_v3 main_v7
  let main_v9 : FVec F S16x1x64x64 .f32 := Host.absf main_arg2
  let main_cst_2 : FVec F S_ .f32 := constant S_ .f32 0x7F800000#32
  let main_v10 : FVec F S16x1x64x64 .f32 := broadcastInDim S16x1x64x64 ![] bcast_S_S16x1x64x64 main_cst_2
  let main_v11 : IVec S16x1x64x64 1 := cmpf .olt main_v9 main_v10
  let main_c_3 : IVec S_ 1 := constantI S_ 1 1#1
  let main_v12 : IVec S_ 1 := (fun x v => Host.reduce IntOp.andi x v reducesTo_S16x1x64x64_S_d0_1_2_3 h_S_) main_v11 main_c_3
  let main_v13 : IVec S_ 1 := andi main_v8 main_v12
  main_v13
-- ==== Kernel.lean ====
abbrev S16x256x64x64 : Shape := ⟨4, ![16, 256, 64, 64]⟩
abbrev S16x2x64x64 : Shape := ⟨4, ![16, 2, 64, 64]⟩
abbrev S16x1x64x64 : Shape := ⟨4, ![16, 1, 64, 64]⟩
abbrev S192 : Shape := ⟨1, ![192]⟩
abbrev S_ : Shape := ⟨0, ![]⟩
abbrev S16x64x64 : Shape := ⟨3, ![16, 64, 64]⟩
abbrev S192x1 : Shape := ⟨2, ![192, 1]⟩
abbrev S16x192x64 : Shape := ⟨3, ![16, 192, 64]⟩
abbrev S16x192x192 : Shape := ⟨3, ![16, 192, 192]⟩
abbrev S1x192x1 : Shape := ⟨3, ![1, 192, 1]⟩
abbrev S1x192 : Shape := ⟨2, ![1, 192]⟩
abbrev S1x1x192 : Shape := ⟨3, ![1, 1, 192]⟩
abbrev S256x192x192 : Shape := ⟨3, ![256, 192, 192]⟩
abbrev S16x192x192x1 : Shape := ⟨4, ![16, 192, 192, 1]⟩
abbrev S16x192x192x2 : Shape := ⟨4, ![16, 192, 192, 2]⟩
abbrev S16x256x192x192 : Shape := ⟨4, ![16, 256, 192, 192]⟩
abbrev S192x192 : Shape := ⟨2, ![192, 192]⟩
abbrev S16x1x192x192 : Shape := ⟨4, ![16, 1, 192, 192]⟩
abbrev S1x256x192x192 : Shape := ⟨4, ![1, 256, 192, 192]⟩
abbrev S16x256x36864 : Shape := ⟨3, ![16, 256, 36864]⟩
abbrev S4x256x36864 : Shape := ⟨3, ![4, 256, 36864]⟩
abbrev S1x64x36864 : Shape := ⟨3, ![1, 64, 36864]⟩
abbrev S4x256x192x192 : Shape := ⟨4, ![4, 256, 192, 192]⟩

abbrev nBuf : Space → Nat
  | .hbm => 488
  | .vmem => 4
  | .smem => 0
  | _ => 0

abbrev hbmTy0_0 (i : Nat) : BufTy := match i % 128 with
  | 0 => ⟨S16x256x64x64, .f32⟩
  | 1 => ⟨S16x2x64x64, .f32⟩
  | 2 => ⟨S16x1x64x64, .f32⟩
  | 3 => ⟨S192, .i32⟩
  | 4 => ⟨S192, .i32⟩
  | 5 => ⟨S_, .i32⟩
  | 6 => ⟨S_, .i32⟩
  | 7 => ⟨S192, .i32⟩
  | 8 => ⟨S192, .i32⟩
  | 9 => ⟨S192, .i32⟩
  | 10 => ⟨S_, .i32⟩
  | 11 => ⟨S192, .i32⟩
  | 12 => ⟨S192, .i1⟩
  | 13 => ⟨S192, .i32⟩
  | 14 => ⟨S192, .i32⟩
  | 15 => ⟨S_, .i32⟩
  | 16 => ⟨S192, .i32⟩
  | 17 => ⟨S192, .i1⟩
  | 18 => ⟨S192, .i1⟩
  | 19 => ⟨S_, .i32⟩
  | 20 => ⟨S192, .i32⟩
  | 21 => ⟨S192, .i32⟩
  | 22 => ⟨S192, .i32⟩
  | 23 => ⟨S_, .i32⟩
  | 24 => ⟨S_, .i32⟩
  | 25 => ⟨S192, .i32⟩
  | 26 => ⟨S192, .i32⟩
  | 27 => ⟨S192, .i32⟩
  | 28 => ⟨S_, .i32⟩
  | 29 => ⟨S192, .i32⟩
  | 30 => ⟨S192, .i1⟩
  | 31 => ⟨S192, .i32⟩
  | 32 => ⟨S192, .i32⟩
  | 33 => ⟨S_, .i32⟩
  | 34 => ⟨S192, .i32⟩
  | 35 => ⟨S192, .i1⟩
  | 36 => ⟨S192, .i1⟩
  | 37 => ⟨S_, .i32⟩
  | 38 => ⟨S192, .i32⟩
  | 39 => ⟨S192, .i32⟩
  | 40 => ⟨S192, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S192, .i32⟩
  | 48 => ⟨S192, .i32⟩
  | 49 => ⟨S_, .i32⟩
  | 50 => ⟨S192, .i32⟩
  | 51 => ⟨S192, .i1⟩
  | 52 => ⟨S_, .i32⟩
  | 53 => ⟨S192, .i32⟩
  | 54 => ⟨S192, .i1⟩
  | 55 => ⟨S_, .i32⟩
  | 56 => ⟨S_, .i1⟩
  | 57 => ⟨S192, .i1⟩
  | 58 => ⟨S192, .i1⟩
  | 59 => ⟨S192, .i1⟩
  | 60 => ⟨S192, .i32⟩
  | 61 => ⟨S192, .i32⟩
  | 62 => ⟨S192, .i32⟩
  | 63 => ⟨S_, .i32⟩
  | 64 => ⟨S192, .i32⟩
  | 65 => ⟨S192, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S192, .i32⟩
  | 73 => ⟨S192, .i32⟩
  | 74 => ⟨S_, .i32⟩
  | 75 => ⟨S192, .i32⟩
  | 76 => ⟨S192, .i1⟩
  | 77 => ⟨S_, .i32⟩
  | 78 => ⟨S192, .i32⟩
  | 79 => ⟨S192, .i1⟩
  | 80 => ⟨S_, .i32⟩
  | 81 => ⟨S_, .i1⟩
  | 82 => ⟨S192, .i1⟩
  | 83 => ⟨S192, .i1⟩
  | 84 => ⟨S192, .i1⟩
  | 85 => ⟨S192, .i32⟩
  | 86 => ⟨S192, .i32⟩
  | 87 => ⟨S192, .i32⟩
  | 88 => ⟨S_, .i32⟩
  | 89 => ⟨S192, .i32⟩
  | 90 => ⟨S192, .i32⟩
  | 91 => ⟨S16x1x64x64, .f32⟩
  | 92 => ⟨S16x64x64, .f32⟩
  | 93 => ⟨S_, .i32⟩
  | 94 => ⟨S192, .i32⟩
  | 95 => ⟨S192, .i1⟩
  | 96 => ⟨S_, .i32⟩
  | 97 => ⟨S192, .i32⟩
  | 98 => ⟨S192, .i32⟩
  | 99 => ⟨S192, .i32⟩
  | 100 => ⟨S192x1, .i32⟩
  | 101 => ⟨S16x192x64, .f32⟩
  | 102 => ⟨S_, .i32⟩
  | 103 => ⟨S192, .i32⟩
  | 104 => ⟨S192, .i1⟩
  | 105 => ⟨S_, .i32⟩
  | 106 => ⟨S192, .i32⟩
  | 107 => ⟨S192, .i32⟩
  | 108 => ⟨S192, .i32⟩
  | 109 => ⟨S192x1, .i32⟩
  | 110 => ⟨S16x192x192, .f32⟩
  | 111 => ⟨S16x1x64x64, .f32⟩
  | 112 => ⟨S16x64x64, .f32⟩
  | 113 => ⟨S_, .i32⟩
  | 114 => ⟨S192, .i32⟩
  | 115 => ⟨S192, .i1⟩
  | 116 => ⟨S_, .i32⟩
  | 117 => ⟨S192, .i32⟩
  | 118 => ⟨S192, .i32⟩
  | 119 => ⟨S192, .i32⟩
  | 120 => ⟨S192x1, .i32⟩
  | 121 => ⟨S16x192x64, .f32⟩
  | 122 => ⟨S_, .i32⟩
  | 123 => ⟨S192, .i32⟩
  | 124 => ⟨S192, .i1⟩
  | 125 => ⟨S_, .i32⟩
  | 126 => ⟨S192, .i32⟩
  | 127 => ⟨S192, .i32⟩
  | _ => ⟨S16x256x64x64, .f32⟩

abbrev hbmTy0_1 (i : Nat) : BufTy := match i % 128 with
  | 0 => ⟨S192, .i32⟩
  | 1 => ⟨S192x1, .i32⟩
  | 2 => ⟨S16x192x192, .f32⟩
  | 3 => ⟨S192, .f32⟩
  | 4 => ⟨S192x1, .f32⟩
  | 5 => ⟨S192, .f32⟩
  | 6 => ⟨S192x1, .f32⟩
  | 7 => ⟨S192x1, .f32⟩
  | 8 => ⟨S1x192x1, .f32⟩
  | 9 => ⟨S16x192x192, .f32⟩
  | 10 => ⟨S16x192x192, .f32⟩
  | 11 => ⟨S192, .f32⟩
  | 12 => ⟨S1x192, .f32⟩
  | 13 => ⟨S192, .f32⟩
  | 14 => ⟨S1x192, .f32⟩
  | 15 => ⟨S1x192, .f32⟩
  | 16 => ⟨S1x1x192, .f32⟩
  | 17 => ⟨S16x192x192, .f32⟩
  | 18 => ⟨S16x192x192, .f32⟩
  | 19 => ⟨S16x64x64, .f32⟩
  | 20 => ⟨S_, .i32⟩
  | 21 => ⟨S192, .i32⟩
  | 22 => ⟨S192, .i1⟩
  | 23 => ⟨S_, .i32⟩
  | 24 => ⟨S192, .i32⟩
  | 25 => ⟨S192, .i32⟩
  | 26 => ⟨S192, .i32⟩
  | 27 => ⟨S192x1, .i32⟩
  | 28 => ⟨S16x192x64, .f32⟩
  | 29 => ⟨S_, .i32⟩
  | 30 => ⟨S192, .i32⟩
  | 31 => ⟨S192, .i1⟩
  | 32 => ⟨S_, .i32⟩
  | 33 => ⟨S192, .i32⟩
  | 34 => ⟨S192, .i32⟩
  | 35 => ⟨S192, .i32⟩
  | 36 => ⟨S192x1, .i32⟩
  | 37 => ⟨S16x192x192, .f32⟩
  | 38 => ⟨S16x192x192, .f32⟩
  | 39 => ⟨S16x192x192, .i32⟩
  | 40 => ⟨S16x192x192, .f32⟩
  | 41 => ⟨S16x192x192, .i32⟩
  | 42 => ⟨S_, .f32⟩
  | 43 => ⟨S256x192x192, .f32⟩
  | 44 => ⟨S_, .i32⟩
  | 45 => ⟨S16x192x192, .i32⟩
  | 46 => ⟨S16x192x192, .i32⟩
  | 47 => ⟨S_, .i32⟩
  | 48 => ⟨S16x192x192, .i32⟩
  | 49 => ⟨S16x192x192, .i32⟩
  | 50 => ⟨S16x192x192, .f32⟩
  | 51 => ⟨S16x192x192, .f32⟩
  | 52 => ⟨S16x192x192, .f32⟩
  | 53 => ⟨S_, .f32⟩
  | 54 => ⟨S16x192x192, .f32⟩
  | 55 => ⟨S16x192x192, .f32⟩
  | 56 => ⟨S16x192x192, .f32⟩
  | 57 => ⟨S16x192x192, .f32⟩
  | 58 => ⟨S16x192x192, .f32⟩
  | 59 => ⟨S_, .f32⟩
  | 60 => ⟨S16x192x192, .f32⟩
  | 61 => ⟨S16x192x192, .f32⟩
  | 62 => ⟨S16x192x192, .f32⟩
  | 63 => ⟨S_, .i32⟩
  | 64 => ⟨S16x192x192, .i32⟩
  | 65 => ⟨S16x192x192, .i1⟩
  | 66 => ⟨S_, .i32⟩
  | 67 => ⟨S16x192x192, .i32⟩
  | 68 => ⟨S16x192x192, .i1⟩
  | 69 => ⟨S16x192x192, .i1⟩
  | 70 => ⟨S_, .i32⟩
  | 71 => ⟨S16x192x192, .i32⟩
  | 72 => ⟨S16x192x192, .i1⟩
  | 73 => ⟨S16x192x192, .i1⟩
  | 74 => ⟨S_, .i32⟩
  | 75 => ⟨S16x192x192, .i32⟩
  | 76 => ⟨S16x192x192, .i1⟩
  | 77 => ⟨S16x192x192, .i1⟩
  | 78 => ⟨S_, .i32⟩
  | 79 => ⟨S_, .i32⟩
  | 80 => ⟨S_, .i32⟩
  | 81 => ⟨S16x192x192, .i32⟩
  | 82 => ⟨S16x192x192, .i32⟩
  | 83 => ⟨S_, .i32⟩
  | 84 => ⟨S16x192x192, .i32⟩
  | 85 => ⟨S16x192x192, .i32⟩
  | 86 => ⟨S_, .i32⟩
  | 87 => ⟨S_, .i32⟩
  | 88 => ⟨S_, .i32⟩
  | 89 => ⟨S16x192x192, .i32⟩
  | 90 => ⟨S16x192x192, .i32⟩
  | 91 => ⟨S_, .i32⟩
  | 92 => ⟨S16x192x192, .i32⟩
  | 93 => ⟨S16x192x192, .i32⟩
  | 94 => ⟨S_, .i32⟩
  | 95 => ⟨S16x192x192, .i32⟩
  | 96 => ⟨S16x192x192, .i1⟩
  | 97 => ⟨S_, .i32⟩
  | 98 => ⟨S16x192x192, .i32⟩
  | 99 => ⟨S16x192x192, .i32⟩
  | 100 => ⟨S16x192x192, .i32⟩
  | 101 => ⟨S_, .i32⟩
  | 102 => ⟨S16x192x192, .i32⟩
  | 103 => ⟨S16x192x192, .i1⟩
  | 104 => ⟨S_, .i32⟩
  | 105 => ⟨S16x192x192, .i32⟩
  | 106 => ⟨S16x192x192, .i32⟩
  | 107 => ⟨S16x192x192, .i32⟩
  | 108 => ⟨S16x192x192x1, .i32⟩
  | 109 => ⟨S16x192x192x1, .i32⟩
  | 110 => ⟨S16x192x192x2, .i32⟩
  | 111 => ⟨S16x256x192x192, .f32⟩
  | 112 => ⟨S_, .f32⟩
  | 113 => ⟨S_, .f32⟩
  | 114 => ⟨S192x192, .f32⟩
  | 115 => ⟨S16x192x192, .f32⟩
  | 116 => ⟨S16x192x192, .f32⟩
  | 117 => ⟨S16x1x192x192, .f32⟩
  | 118 => ⟨S16x256x192x192, .f32⟩
  | 119 => ⟨S16x256x192x192, .f32⟩
  | 120 => ⟨S1x256x192x192, .f32⟩
  | 121 => ⟨S16x256x192x192, .f32⟩
  | 122 => ⟨S16x256x192x192, .f32⟩
  | 123 => ⟨S_, .i32⟩
  | 124 => ⟨S16x192x192, .i32⟩
  | 125 => ⟨S16x192x192, .i32⟩
  | 126 => ⟨S_, .i32⟩
  | 127 => ⟨S16x192x192, .i32⟩
  | _ => ⟨S16x256x64x64, .f32⟩

abbrev hbmTy0_2 (i : Nat) : BufTy := match i % 128 with
  | 0 => ⟨S16x192x192, .i32⟩
  | 1 => ⟨S16x192x192, .f32⟩
  | 2 => ⟨S16x192x192, .f32⟩
  | 3 => ⟨S16x192x192, .f32⟩
  | 4 => ⟨S_, .f32⟩
  | 5 => ⟨S16x192x192, .f32⟩
  | 6 => ⟨S16x192x192, .f32⟩
  | 7 => ⟨S16x192x192, .f32⟩
  | 8 => ⟨S16x192x192, .f32⟩
  | 9 => ⟨S16x192x192, .f32⟩
  | 10 => ⟨S_, .f32⟩
  | 11 => ⟨S16x192x192, .f32⟩
  | 12 => ⟨S16x192x192, .f32⟩
  | 13 => ⟨S16x192x192, .f32⟩
  | 14 => ⟨S_, .i32⟩
  | 15 => ⟨S16x192x192, .i32⟩
  | 16 => ⟨S16x192x192, .i1⟩
  | 17 => ⟨S_, .i32⟩
  | 18 => ⟨S16x192x192, .i32⟩
  | 19 => ⟨S16x192x192, .i1⟩
  | 20 => ⟨S16x192x192, .i1⟩
  | 21 => ⟨S_, .i32⟩
  | 22 => ⟨S16x192x192, .i32⟩
  | 23 => ⟨S16x192x192, .i1⟩
  | 24 => ⟨S16x192x192, .i1⟩
  | 25 => ⟨S_, .i32⟩
  | 26 => ⟨S16x192x192, .i32⟩
  | 27 => ⟨S16x192x192, .i1⟩
  | 28 => ⟨S16x192x192, .i1⟩
  | 29 => ⟨S_, .i32⟩
  | 30 => ⟨S_, .i32⟩
  | 31 => ⟨S_, .i32⟩
  | 32 => ⟨S16x192x192, .i32⟩
  | 33 => ⟨S16x192x192, .i32⟩
  | 34 => ⟨S_, .i32⟩
  | 35 => ⟨S16x192x192, .i32⟩
  | 36 => ⟨S16x192x192, .i32⟩
  | 37 => ⟨S_, .i32⟩
  | 38 => ⟨S_, .i32⟩
  | 39 => ⟨S_, .i32⟩
  | 40 => ⟨S16x192x192, .i32⟩
  | 41 => ⟨S16x192x192, .i32⟩
  | 42 => ⟨S_, .i32⟩
  | 43 => ⟨S16x192x192, .i32⟩
  | 44 => ⟨S16x192x192, .i32⟩
  | 45 => ⟨S_, .i32⟩
  | 46 => ⟨S16x192x192, .i32⟩
  | 47 => ⟨S16x192x192, .i1⟩
  | 48 => ⟨S_, .i32⟩
  | 49 => ⟨S16x192x192, .i32⟩
  | 50 => ⟨S16x192x192, .i32⟩
  | 51 => ⟨S16x192x192, .i32⟩
  | 52 => ⟨S_, .i32⟩
  | 53 => ⟨S16x192x192, .i32⟩
  | 54 => ⟨S16x192x192, .i1⟩
  | 55 => ⟨S_, .i32⟩
  | 56 => ⟨S16x192x192, .i32⟩
  | 57 => ⟨S16x192x192, .i32⟩
  | 58 => ⟨S16x192x192, .i32⟩
  | 59 => ⟨S16x192x192x1, .i32⟩
  | 60 => ⟨S16x192x192x1, .i32⟩
  | 61 => ⟨S16x192x192x2, .i32⟩
  | 62 => ⟨S16x256x192x192, .f32⟩
  | 63 => ⟨S_, .f32⟩
  | 64 => ⟨S_, .f32⟩
  | 65 => ⟨S192x192, .f32⟩
  | 66 => ⟨S16x192x192, .f32⟩
  | 67 => ⟨S16x192x192, .f32⟩
  | 68 => ⟨S16x1x192x192, .f32⟩
  | 69 => ⟨S16x256x192x192, .f32⟩
  | 70 => ⟨S16x256x192x192, .f32⟩
  | 71 => ⟨S16x256x192x192, .f32⟩
  | 72 => ⟨S_, .i32⟩
  | 73 => ⟨S16x192x192, .i32⟩
  | 74 => ⟨S16x192x192, .i32⟩
  | 75 => ⟨S_, .i32⟩
  | 76 => ⟨S16x192x192, .i32⟩
  | 77 => ⟨S16x192x192, .i32⟩
  | 78 => ⟨S16x192x192, .f32⟩
  | 79 => ⟨S16x192x192, .f32⟩
  | 80 => ⟨S16x192x192, .f32⟩
  | 81 => ⟨S_, .f32⟩
  | 82 => ⟨S16x192x192, .f32⟩
  | 83 => ⟨S16x192x192, .f32⟩
  | 84 => ⟨S16x192x192, .f32⟩
  | 85 => ⟨S16x192x192, .f32⟩
  | 86 => ⟨S16x192x192, .f32⟩
  | 87 => ⟨S_, .f32⟩
  | 88 => ⟨S16x192x192, .f32⟩
  | 89 => ⟨S16x192x192, .f32⟩
  | 90 => ⟨S16x192x192, .f32⟩
  | 91 => ⟨S_, .i32⟩
  | 92 => ⟨S16x192x192, .i32⟩
  | 93 => ⟨S16x192x192, .i1⟩
  | 94 => ⟨S_, .i32⟩
  | 95 => ⟨S16x192x192, .i32⟩
  | 96 => ⟨S16x192x192, .i1⟩
  | 97 => ⟨S16x192x192, .i1⟩
  | 98 => ⟨S_, .i32⟩
  | 99 => ⟨S16x192x192, .i32⟩
  | 100 => ⟨S16x192x192, .i1⟩
  | 101 => ⟨S16x192x192, .i1⟩
  | 102 => ⟨S_, .i32⟩
  | 103 => ⟨S16x192x192, .i32⟩
  | 104 => ⟨S16x192x192, .i1⟩
  | 105 => ⟨S16x192x192, .i1⟩
  | 106 => ⟨S_, .i32⟩
  | 107 => ⟨S_, .i32⟩
  | 108 => ⟨S_, .i32⟩
  | 109 => ⟨S16x192x192, .i32⟩
  | 110 => ⟨S16x192x192, .i32⟩
  | 111 => ⟨S_, .i32⟩
  | 112 => ⟨S16x192x192, .i32⟩
  | 113 => ⟨S16x192x192, .i32⟩
  | 114 => ⟨S_, .i32⟩
  | 115 => ⟨S_, .i32⟩
  | 116 => ⟨S_, .i32⟩
  | 117 => ⟨S16x192x192, .i32⟩
  | 118 => ⟨S16x192x192, .i32⟩
  | 119 => ⟨S_, .i32⟩
  | 120 => ⟨S16x192x192, .i32⟩
  | 121 => ⟨S16x192x192, .i32⟩
  | 122 => ⟨S_, .i32⟩
  | 123 => ⟨S16x192x192, .i32⟩
  | 124 => ⟨S16x192x192, .i1⟩
  | 125 => ⟨S_, .i32⟩
  | 126 => ⟨S16x192x192, .i32⟩
  | 127 => ⟨S16x192x192, .i32⟩
  | _ => ⟨S16x256x64x64, .f32⟩

abbrev hbmTy0_3 (i : Nat) : BufTy := match i % 128 with
  | 0 => ⟨S16x192x192, .i32⟩
  | 1 => ⟨S_, .i32⟩
  | 2 => ⟨S16x192x192, .i32⟩
  | 3 => ⟨S16x192x192, .i1⟩
  | 4 => ⟨S_, .i32⟩
  | 5 => ⟨S16x192x192, .i32⟩
  | 6 => ⟨S16x192x192, .i32⟩
  | 7 => ⟨S16x192x192, .i32⟩
  | 8 => ⟨S16x192x192x1, .i32⟩
  | 9 => ⟨S16x192x192x1, .i32⟩
  | 10 => ⟨S16x192x192x2, .i32⟩
  | 11 => ⟨S16x256x192x192, .f32⟩
  | 12 => ⟨S_, .f32⟩
  | 13 => ⟨S_, .f32⟩
  | 14 => ⟨S192x192, .f32⟩
  | 15 => ⟨S16x192x192, .f32⟩
  | 16 => ⟨S16x192x192, .f32⟩
  | 17 => ⟨S16x1x192x192, .f32⟩
  | 18 => ⟨S16x256x192x192, .f32⟩
  | 19 => ⟨S16x256x192x192, .f32⟩
  | 20 => ⟨S16x256x192x192, .f32⟩
  | 21 => ⟨S_, .i32⟩
  | 22 => ⟨S16x192x192, .i32⟩
  | 23 => ⟨S16x192x192, .i32⟩
  | 24 => ⟨S_, .i32⟩
  | 25 => ⟨S16x192x192, .i32⟩
  | 26 => ⟨S16x192x192, .i32⟩
  | 27 => ⟨S16x192x192, .f32⟩
  | 28 => ⟨S16x192x192, .f32⟩
  | 29 => ⟨S16x192x192, .f32⟩
  | 30 => ⟨S_, .f32⟩
  | 31 => ⟨S16x192x192, .f32⟩
  | 32 => ⟨S16x192x192, .f32⟩
  | 33 => ⟨S16x192x192, .f32⟩
  | 34 => ⟨S16x192x192, .f32⟩
  | 35 => ⟨S16x192x192, .f32⟩
  | 36 => ⟨S_, .f32⟩
  | 37 => ⟨S16x192x192, .f32⟩
  | 38 => ⟨S16x192x192, .f32⟩
  | 39 => ⟨S16x192x192, .f32⟩
  | 40 => ⟨S_, .i32⟩
  | 41 => ⟨S16x192x192, .i32⟩
  | 42 => ⟨S16x192x192, .i1⟩
  | 43 => ⟨S_, .i32⟩
  | 44 => ⟨S16x192x192, .i32⟩
  | 45 => ⟨S16x192x192, .i1⟩
  | 46 => ⟨S16x192x192, .i1⟩
  | 47 => ⟨S_, .i32⟩
  | 48 => ⟨S16x192x192, .i32⟩
  | 49 => ⟨S16x192x192, .i1⟩
  | 50 => ⟨S16x192x192, .i1⟩
  | 51 => ⟨S_, .i32⟩
  | 52 => ⟨S16x192x192, .i32⟩
  | 53 => ⟨S16x192x192, .i1⟩
  | 54 => ⟨S16x192x192, .i1⟩
  | 55 => ⟨S_, .i32⟩
  | 56 => ⟨S_, .i32⟩
  | 57 => ⟨S_, .i32⟩
  | 58 => ⟨S16x192x192, .i32⟩
  | 59 => ⟨S16x192x192, .i32⟩
  | 60 => ⟨S_, .i32⟩
  | 61 => ⟨S16x192x192, .i32⟩
  | 62 => ⟨S16x192x192, .i32⟩
  | 63 => ⟨S_, .i32⟩
  | 64 => ⟨S_, .i32⟩
  | 65 => ⟨S_, .i32⟩
  | 66 => ⟨S16x192x192, .i32⟩
  | 67 => ⟨S16x192x192, .i32⟩
  | 68 => ⟨S_, .i32⟩
  | 69 => ⟨S16x192x192, .i32⟩
  | 70 => ⟨S16x192x192, .i32⟩
  | 71 => ⟨S_, .i32⟩
  | 72 => ⟨S16x192x192, .i32⟩
  | 73 => ⟨S16x192x192, .i1⟩
  | 74 => ⟨S_, .i32⟩
  | 75 => ⟨S16x192x192, .i32⟩
  | 76 => ⟨S16x192x192, .i32⟩
  | 77 => ⟨S16x192x192, .i32⟩
  | 78 => ⟨S_, .i32⟩
  | 79 => ⟨S16x192x192, .i32⟩
  | 80 => ⟨S16x192x192, .i1⟩
  | 81 => ⟨S_, .i32⟩
  | 82 => ⟨S16x192x192, .i32⟩
  | 83 => ⟨S16x192x192, .i32⟩
  | 84 => ⟨S16x192x192, .i32⟩
  | 85 => ⟨S16x192x192x1, .i32⟩
  | 86 => ⟨S16x192x192x1, .i32⟩
  | 87 => ⟨S16x192x192x2, .i32⟩
  | 88 => ⟨S16x256x192x192, .f32⟩
  | 89 => ⟨S_, .f32⟩
  | 90 => ⟨S_, .f32⟩
  | 91 => ⟨S192x192, .f32⟩
  | 92 => ⟨S16x192x192, .f32⟩
  | 93 => ⟨S16x192x192, .f32⟩
  | 94 => ⟨S16x1x192x192, .f32⟩
  | 95 => ⟨S16x256x192x192, .f32⟩
  | 96 => ⟨S16x256x192x192, .f32⟩
  | 97 => ⟨S16x256x192x192, .f32⟩
  | 98 => ⟨S16x1x192x192, .f32⟩
  | 99 => ⟨S16x256x192x192, .f32⟩
  | 100 => ⟨S16x256x192x192, .f32⟩
  | 101 => ⟨S16x256x36864, .f32⟩
  | 102 => ⟨S4x256x36864, .f32⟩
  | 103 => ⟨S4x256x192x192, .f32⟩
  | _ => ⟨S16x256x64x64, .f32⟩

abbrev hbmTy (i : Nat) : BufTy := match i / 128 with
  | 0 => hbmTy0_0 i
  | 1 => hbmTy0_1 i
  | 2 => hbmTy0_2 i
  | 3 => hbmTy0_3 i
  | _ => ⟨S16x256x64x64, .f32⟩

abbrev bufTy : (tb : Table) → Fin (tcTables nBuf tb) → BufTy
  | .hbm, ⟨i, _⟩ => hbmTy i
  | .local _ .vmem, ⟨0, _⟩ => ⟨S1x64x36864, .f32⟩
  | .local _ .vmem, ⟨1, _⟩ => ⟨S1x64x36864, .f32⟩
  | .local _ .vmem, ⟨2, _⟩ => ⟨S1x64x36864, .f32⟩
  | .local _ .vmem, ⟨3, _⟩ => ⟨S1x64x36864, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v3 : Ref sig .tc := ⟨.hbm, 40, rfl⟩
abbrev main_c_1 : Ref sig .tc := ⟨.hbm, 41, rfl⟩
abbrev main_call2_v0 : Ref sig .tc := ⟨.hbm, 42, rfl⟩
abbrev main_call2_c : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_1 : Ref sig .tc := ⟨.hbm, 49, rfl⟩
abbrev main_call2_v5 : Ref sig .tc := ⟨.hbm, 50, rfl⟩
abbrev main_call2_v6 : Ref sig .tc := ⟨.hbm, 51, rfl⟩
abbrev main_call2_c_2 : Ref sig .tc := ⟨.hbm, 52, rfl⟩
abbrev main_call2_v7 : Ref sig .tc := ⟨.hbm, 53, rfl⟩
abbrev main_call2_v8 : Ref sig .tc := ⟨.hbm, 54, rfl⟩
abbrev main_call2_c_3 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_v4 : Ref sig .tc := ⟨.hbm, 62, rfl⟩
abbrev main_c_2 : Ref sig .tc := ⟨.hbm, 63, rfl⟩
abbrev main_v5 : Ref sig .tc := ⟨.hbm, 64, rfl⟩
abbrev main_v6 : Ref sig .tc := ⟨.hbm, 65, rfl⟩
abbrev main_c_3 : Ref sig .tc := ⟨.hbm, 66, rfl⟩
abbrev main_call3_v0 : Ref sig .tc := ⟨.hbm, 67, rfl⟩
abbrev main_call3_c : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_c_1 : Ref sig .tc := ⟨.hbm, 74, rfl⟩
abbrev main_call3_v5 : Ref sig .tc := ⟨.hbm, 75, rfl⟩
abbrev main_call3_v6 : Ref sig .tc := ⟨.hbm, 76, rfl⟩
abbrev main_call3_c_2 : Ref sig .tc := ⟨.hbm, 77, rfl⟩
abbrev main_call3_v7 : Ref sig .tc := ⟨.hbm, 78, rfl⟩
abbrev main_call3_v8 : Ref sig .tc := ⟨.hbm, 79, rfl⟩
abbrev main_call3_c_3 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_v7 : Ref sig .tc := ⟨.hbm, 87, rfl⟩
abbrev main_c_4 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_c_5 : Ref sig .tc := ⟨.hbm, 93, rfl⟩
abbrev main_v12 : Ref sig .tc := ⟨.hbm, 94, rfl⟩
abbrev main_v13 : Ref sig .tc := ⟨.hbm, 95, rfl⟩
abbrev main_c_6 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_c_7 : Ref sig .tc := ⟨.hbm, 102, rfl⟩
abbrev main_v19 : Ref sig .tc := ⟨.hbm, 103, rfl⟩
abbrev main_v20 : Ref sig .tc := ⟨.hbm, 104, rfl⟩
abbrev main_c_8 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_c_9 : Ref sig .tc := ⟨.hbm, 113, rfl⟩
abbrev main_v28 : Ref sig .tc := ⟨.hbm, 114, rfl⟩
abbrev main_v29 : Ref sig .tc := ⟨.hbm, 115, rfl⟩
abbrev main_c_10 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_c_11 : Ref sig .tc := ⟨.hbm, 122, rfl⟩
abbrev main_v35 : Ref sig .tc := ⟨.hbm, 123, rfl⟩
abbrev main_v36 : Ref sig .tc := ⟨.hbm, 124, rfl⟩
abbrev main_c_12 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_c_13 : Ref sig .tc := ⟨.hbm, 148, rfl⟩
abbrev main_v59 : Ref sig .tc := ⟨.hbm, 149, rfl⟩
abbrev main_v60 : Ref sig .tc := ⟨.hbm, 150, rfl⟩
abbrev main_c_14 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_c_15 : Ref sig .tc := ⟨.hbm, 157, rfl⟩
abbrev main_v66 : Ref sig .tc := ⟨.hbm, 158, rfl⟩
abbrev main_v67 : Ref sig .tc := ⟨.hbm, 159, rfl⟩
abbrev main_c_16 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_cst : Ref sig .tc := ⟨.hbm, 170, rfl⟩
abbrev main_v77 : Ref sig .tc := ⟨.hbm, 171, rfl⟩
abbrev main_c_17 : Ref sig .tc := ⟨.hbm, 172, rfl⟩
abbrev main_v78 : Ref sig .tc := ⟨.hbm, 173, rfl⟩
abbrev main_v79 : Ref sig .tc := ⟨.hbm, 174, rfl⟩
abbrev main_c_18 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_cst_19 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_cst_20 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_c_21 : Ref sig .tc := ⟨.hbm, 191, rfl⟩
abbrev main_v93 : Ref sig .tc := ⟨.hbm, 192, rfl⟩
abbrev main_v94 : Ref sig .tc := ⟨.hbm, 193, rfl⟩
abbrev main_c_22 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_c_23 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_c_24 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_c_25 : Ref sig .tc := ⟨.hbm, 206, rfl⟩
abbrev main_c_26 : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_v104 : Ref sig .tc := ⟨.hbm, 213, rfl⟩
abbrev main_c_27 : Ref sig .tc := ⟨.hbm, 214, rfl⟩
abbrev main_c_28 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_v105 : Ref sig .tc := ⟨.hbm, 221, rfl⟩
abbrev main_c_29 : Ref sig .tc := ⟨.hbm, 222, rfl⟩
abbrev main_v106 : Ref sig .tc := ⟨.hbm, 223, rfl⟩
abbrev main_v107 : Ref sig .tc := ⟨.hbm, 224, rfl⟩
abbrev main_c_30 : Ref sig .tc := ⟨.hbm, 225, rfl⟩
abbrev main_v108 : Ref sig .tc := ⟨.hbm, 226, rfl⟩
abbrev main_v109 : Ref sig .tc := ⟨.hbm, 227, rfl⟩
abbrev main_v110 : Ref sig .tc := ⟨.hbm, 228, rfl⟩
abbrev main_c_31 : Ref sig .tc := ⟨.hbm, 229, rfl⟩
abbrev main_v111 : Ref sig .tc := ⟨.hbm, 230, rfl⟩
abbrev main_v112 : Ref sig .tc := ⟨.hbm, 231, rfl⟩
abbrev main_c_32 : Ref sig .tc := ⟨.hbm, 232, rfl⟩
abbrev main_v113 : Ref sig .tc := ⟨.hbm, 233, rfl⟩
abbrev main_v114 : Ref sig .tc := ⟨.hbm, 234, rfl⟩
abbrev main_v115 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_cst_33 : Ref sig .tc := ⟨.hbm, 240, rfl⟩
abbrev main_call6_v0 : Ref sig .tc := ⟨.hbm, 241, rfl⟩
abbrev main_call6_v1 : Ref sig .tc := ⟨.hbm, 242, rfl⟩
abbrev main_call6_v2 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_c_34 : Ref sig .tc := ⟨.hbm, 251, rfl⟩
abbrev main_v127 : Ref sig .tc := ⟨.hbm, 252, rfl⟩
abbrev main_v128 : Ref sig .tc := ⟨.hbm, 253, rfl⟩
abbrev main_c_35 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_cst_36 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_cst_37 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_c_38 : Ref sig .tc := ⟨.hbm, 270, rfl⟩
abbrev main_v142 : Ref sig .tc := ⟨.hbm, 271, rfl⟩
abbrev main_v143 : Ref sig .tc := ⟨.hbm, 272, rfl⟩
abbrev main_c_39 : Ref sig .tc := ⟨.hbm, 273, rfl⟩
abbrev main_v144 : Ref sig .tc := ⟨.hbm, 274, rfl⟩
abbrev main_v145 : Ref sig .tc := ⟨.hbm, 275, rfl⟩
abbrev main_v146 : Ref sig .tc := ⟨.hbm, 276, rfl⟩
abbrev main_c_40 : Ref sig .tc := ⟨.hbm, 277, rfl⟩
abbrev main_v147 : Ref sig .tc := ⟨.hbm, 278, rfl⟩
abbrev main_v148 : Ref sig .tc := ⟨.hbm, 279, rfl⟩
abbrev main_v149 : Ref sig .tc := ⟨.hbm, 280, rfl⟩
abbrev main_c_41 : Ref sig .tc := ⟨.hbm, 281, rfl⟩
abbrev main_v150 : Ref sig .tc := ⟨.hbm, 282, rfl⟩
abbrev main_v151 : Ref sig .tc := ⟨.hbm, 283, rfl⟩
abbrev main_v152 : Ref sig .tc := ⟨.hbm, 284, rfl⟩
abbrev main_c_42 : Ref sig .tc := ⟨.hbm, 285, rfl⟩
abbrev main_c_43 : Ref sig .tc := ⟨.hbm, 286, rfl⟩
abbrev main_call7_v0 : Ref sig .tc := ⟨.hbm, 287, rfl⟩
abbrev main_call7_v1 : Ref sig .tc := ⟨.hbm, 288, rfl⟩
abbrev main_call7_v2 : Ref sig .tc := ⟨.hbm, 289, rfl⟩
abbrev main_call7_v3 : Ref sig .tc := ⟨.hbm, 290, rfl⟩
abbrev main_call7_v4 : Ref sig .tc := ⟨.hbm, 291, rfl⟩
abbrev main_v153 : Ref sig .tc := ⟨.hbm, 292, rfl⟩
abbrev main_c_44 : Ref sig .tc := ⟨.hbm, 293, rfl⟩
abbrev main_c_45 : Ref sig .tc := ⟨.hbm, 294, rfl⟩
abbrev main_call8_v0 : Ref sig .tc := ⟨.hbm, 295, rfl⟩
abbrev main_call8_v1 : Ref sig .tc := ⟨.hbm, 296, rfl⟩
abbrev main_call8_v2 : Ref sig .tc := ⟨.hbm, 297, rfl⟩
abbrev main_call8_v3 : Ref sig .tc := ⟨.hbm, 298, rfl⟩
abbrev main_call8_v4 : Ref sig .tc := ⟨.hbm, 299, rfl⟩
abbrev main_v154 : Ref sig .tc := ⟨.hbm, 300, rfl⟩
abbrev main_c_46 : Ref sig .tc := ⟨.hbm, 301, rfl⟩
abbrev main_v155 : Ref sig .tc := ⟨.hbm, 302, rfl⟩
abbrev main_v156 : Ref sig .tc := ⟨.hbm, 303, rfl⟩
abbrev main_c_47 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_c_48 : Ref sig .tc := ⟨.hbm, 308, rfl⟩
abbrev main_v160 : Ref sig .tc := ⟨.hbm, 309, rfl⟩
abbrev main_v161 : Ref sig .tc := ⟨.hbm, 310, rfl⟩
abbrev main_c_49 : Ref sig .tc := ⟨.hbm, 311, rfl⟩
abbrev main_v162 : Ref sig .tc := ⟨.hbm, 312, rfl⟩
abbrev main_v163 : Ref sig .tc := ⟨.hbm, 313, rfl⟩
abbrev main_v164 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_cst_50 : Ref sig .tc := ⟨.hbm, 319, rfl⟩
abbrev main_call9_v0 : Ref sig .tc := ⟨.hbm, 320, rfl⟩
abbrev main_call9_v1 : Ref sig .tc := ⟨.hbm, 321, rfl⟩
abbrev main_call9_v2 : Ref sig .tc := ⟨.hbm, 322, rfl⟩
abbrev main_v169 : Ref sig .tc := ⟨.hbm, 323, rfl⟩
abbrev main_v170 : Ref sig .tc := ⟨.hbm, 324, rfl⟩
abbrev main_v171 : Ref sig .tc := ⟨.hbm, 325, rfl⟩
abbrev main_v172 : Ref sig .tc := ⟨.hbm, 326, rfl⟩
abbrev main_v173 : Ref sig .tc := ⟨.hbm, 327, rfl⟩
abbrev main_c_51 : Ref sig .tc := ⟨.hbm, 328, rfl⟩
abbrev main_v174 : Ref sig .tc := ⟨.hbm, 329, rfl⟩
abbrev main_v175 : Ref sig .tc := ⟨.hbm, 330, rfl⟩
abbrev main_c_52 : Ref sig .tc := ⟨.hbm, 331, rfl⟩
abbrev main_v176 : Ref sig .tc := ⟨.hbm, 332, rfl⟩
abbrev main_v177 : Ref sig .tc := ⟨.hbm, 333, rfl⟩
abbrev main_v178 : Ref sig .tc := ⟨.hbm, 334, rfl⟩
abbrev main_v179 : Ref sig .tc := ⟨.hbm, 335, rfl⟩
abbrev main_v180 : Ref sig .tc := ⟨.hbm, 336, rfl⟩
abbrev main_cst_53 : Ref sig .tc := ⟨.hbm, 337, rfl⟩
abbrev main_v181 : Ref sig .tc := ⟨.hbm, 338, rfl⟩
abbrev main_v182 : Ref sig .tc := ⟨.hbm, 339, rfl⟩
abbrev main_v183 : Ref sig .tc := ⟨.hbm, 340, rfl⟩
abbrev main_v184 : Ref sig .tc := ⟨.hbm, 341, rfl⟩
abbrev main_v185 : Ref sig .tc := ⟨.hbm, 342, rfl⟩
abbrev main_cst_54 : Ref sig .tc := ⟨.hbm, 343, rfl⟩
abbrev main_v186 : Ref sig .tc := ⟨.hbm, 344, rfl⟩
abbrev main_v187 : Ref sig .tc := ⟨.hbm, 345, rfl⟩
abbrev main_v188 : Ref sig .tc := ⟨.hbm, 346, rfl⟩
abbrev main_c_55 : Ref sig .tc := ⟨.hbm, 347, rfl⟩
abbrev main_v189 : Ref sig .tc := ⟨.hbm, 348, rfl⟩
abbrev main_v190 : Ref sig .tc := ⟨.hbm, 349, rfl⟩
abbrev main_c_56 : Ref sig .tc := ⟨.hbm, 350, rfl⟩
abbrev main_v191 : Ref sig .tc := ⟨.hbm, 351, rfl⟩
abbrev main_v192 : Ref sig .tc := ⟨.hbm, 352, rfl⟩
abbrev main_v193 : Ref sig .tc := ⟨.hbm, 353, rfl⟩
abbrev main_c_57 : Ref sig .tc := ⟨.hbm, 354, rfl⟩
abbrev main_v194 : Ref sig .tc := ⟨.hbm, 355, rfl⟩
abbrev main_v195 : Ref sig .tc := ⟨.hbm, 356, rfl⟩
abbrev main_v196 : Ref sig .tc := ⟨.hbm, 357, rfl⟩
abbrev main_c_58 : Ref sig .tc := ⟨.hbm, 358, rfl⟩
abbrev main_v197 : Ref sig .tc := ⟨.hbm, 359, rfl⟩
abbrev main_v198 : Ref sig .tc := ⟨.hbm, 360, rfl⟩
abbrev main_v199 : Ref sig .tc := ⟨.hbm, 361, rfl⟩
abbrev main_c_59 : Ref sig .tc := ⟨.hbm, 362, rfl⟩
abbrev main_c_60 : Ref sig .tc := ⟨.hbm, 363, rfl⟩
abbrev main_call10_v0 : Ref sig .tc := ⟨.hbm, 364, rfl⟩
abbrev main_call10_v1 : Ref sig .tc := ⟨.hbm, 365, rfl⟩
abbrev main_call10_v2 : Ref sig .tc := ⟨.hbm, 366, rfl⟩
abbrev main_call10_v3 : Ref sig .tc := ⟨.hbm, 367, rfl⟩
abbrev main_call10_v4 : Ref sig .tc := ⟨.hbm, 368, rfl⟩
abbrev main_v200 : Ref sig .tc := ⟨.hbm, 369, rfl⟩
abbrev main_c_61 : Ref sig .tc := ⟨.hbm, 370, rfl⟩
abbrev main_c_62 : Ref sig .tc := ⟨.hbm, 371, rfl⟩
abbrev main_call11_v0 : Ref sig .tc := ⟨.hbm, 372, rfl⟩
abbrev main_call11_v1 : Ref sig .tc := ⟨.hbm, 373, rfl⟩
abbrev main_call11_v2 : Ref sig .tc := ⟨.hbm, 374, rfl⟩
abbrev main_call11_v3 : Ref sig .tc := ⟨.hbm, 375, rfl⟩
abbrev main_call11_v4 : Ref sig .tc := ⟨.hbm, 376, rfl⟩
abbrev main_v201 : Ref sig .tc := ⟨.hbm, 377, rfl⟩
abbrev main_c_63 : Ref sig .tc := ⟨.hbm, 378, rfl⟩
abbrev main_v202 : Ref sig .tc := ⟨.hbm, 379, rfl⟩
abbrev main_v203 : Ref sig .tc := ⟨.hbm, 380, rfl⟩
abbrev main_c_64 : Ref sig .tc := ⟨.hbm, 381, rfl⟩
abbrev main_v204 : Ref sig .tc := ⟨.hbm, 382, rfl⟩
abbrev main_v205 : Ref sig .tc := ⟨.hbm, 383, rfl⟩
abbrev main_v206 : Ref sig .tc := ⟨.hbm, 384, rfl⟩
abbrev main_c_65 : Ref sig .tc := ⟨.hbm, 385, rfl⟩
abbrev main_v207 : Ref sig .tc := ⟨.hbm, 386, rfl⟩
abbrev main_v208 : Ref sig .tc := ⟨.hbm, 387, rfl⟩
abbrev main_c_66 : Ref sig .tc := ⟨.hbm, 388, rfl⟩
abbrev main_v209 : Ref sig .tc := ⟨.hbm, 389, rfl⟩
abbrev main_v210 : Ref sig .tc := ⟨.hbm, 390, rfl⟩
abbrev main_v211 : Ref sig .tc := ⟨.hbm, 391, rfl⟩
abbrev main_v212 : Ref sig .tc := ⟨.hbm, 392, rfl⟩
abbrev main_v213 : Ref sig .tc := ⟨.hbm, 393, rfl⟩
abbrev main_v214 : Ref sig .tc := ⟨.hbm, 394, rfl⟩
abbrev main_v215 : Ref sig .tc := ⟨.hbm, 395, rfl⟩
abbrev main_cst_67 : Ref sig .tc := ⟨.hbm, 396, rfl⟩
abbrev main_call12_v0 : Ref sig .tc := ⟨.hbm, 397, rfl⟩
abbrev main_call12_v1 : Ref sig .tc := ⟨.hbm, 398, rfl⟩
abbrev main_call12_v2 : Ref sig .tc := ⟨.hbm, 399, rfl⟩
abbrev main_v216 : Ref sig .tc := ⟨.hbm, 400, rfl⟩
abbrev main_v217 : Ref sig .tc := ⟨.hbm, 401, rfl⟩
abbrev main_v218 : Ref sig .tc := ⟨.hbm, 402, rfl⟩
abbrev main_v219 : Ref sig .tc := ⟨.hbm, 403, rfl⟩
abbrev main_v220 : Ref sig .tc := ⟨.hbm, 404, rfl⟩
abbrev main_c_68 : Ref sig .tc := ⟨.hbm, 405, rfl⟩
abbrev main_v221 : Ref sig .tc := ⟨.hbm, 406, rfl⟩
abbrev main_v222 : Ref sig .tc := ⟨.hbm, 407, rfl⟩
abbrev main_c_69 : Ref sig .tc := ⟨.hbm, 408, rfl⟩
abbrev main_v223 : Ref sig .tc := ⟨.hbm, 409, rfl⟩
abbrev main_v224 : Ref sig .tc := ⟨.hbm, 410, rfl⟩
abbrev main_v225 : Ref sig .tc := ⟨.hbm, 411, rfl⟩
abbrev main_v226 : Ref sig .tc := ⟨.hbm, 412, rfl⟩
abbrev main_v227 : Ref sig .tc := ⟨.hbm, 413, rfl⟩
abbrev main_cst_70 : Ref sig .tc := ⟨.hbm, 414, rfl⟩
abbrev main_v228 : Ref sig .tc := ⟨.hbm, 415, rfl⟩
abbrev main_v229 : Ref sig .tc := ⟨.hbm, 416, rfl⟩
abbrev main_v230 : Ref sig .tc := ⟨.hbm, 417, rfl⟩
abbrev main_v231 : Ref sig .tc := ⟨.hbm, 418, rfl⟩
abbrev main_v232 : Ref sig .tc := ⟨.hbm, 419, rfl⟩
abbrev main_cst_71 : Ref sig .tc := ⟨.hbm, 420, rfl⟩
abbrev main_v233 : Ref sig .tc := ⟨.hbm, 421, rfl⟩
abbrev main_v234 : Ref sig .tc := ⟨.hbm, 422, rfl⟩
abbrev main_v235 : Ref sig .tc := ⟨.hbm, 423, rfl⟩
abbrev main_c_72 : Ref sig .tc := ⟨.hbm, 424, rfl⟩
abbrev main_v236 : Ref sig .tc := ⟨.hbm, 425, rfl⟩
abbrev main_v237 : Ref sig .tc := ⟨.hbm, 426, rfl⟩
abbrev main_c_73 : Ref sig .tc := ⟨.hbm, 427, rfl⟩
abbrev main_v238 : Ref sig .tc := ⟨.hbm, 428, rfl⟩
abbrev main_v239 : Ref sig .tc := ⟨.hbm, 429, rfl⟩
abbrev main_v240 : Ref sig .tc := ⟨.hbm, 430, rfl⟩
abbrev main_c_74 : Ref sig .tc := ⟨.hbm, 431, rfl⟩
abbrev main_v241 : Ref sig .tc := ⟨.hbm, 432, rfl⟩
abbrev main_v242 : Ref sig .tc := ⟨.hbm, 433, rfl⟩
abbrev main_v243 : Ref sig .tc := ⟨.hbm, 434, rfl⟩
abbrev main_c_75 : Ref sig .tc := ⟨.hbm, 435, rfl⟩
abbrev main_v244 : Ref sig .tc := ⟨.hbm, 436, rfl⟩
abbrev main_v245 : Ref sig .tc := ⟨.hbm, 437, rfl⟩
abbrev main_v246 : Ref sig .tc := ⟨.hbm, 438, rfl⟩
abbrev main_c_76 : Ref sig .tc := ⟨.hbm, 439, rfl⟩
abbrev main_c_77 : Ref sig .tc := ⟨.hbm, 440, rfl⟩
abbrev main_call13_v0 : Ref sig .tc := ⟨.hbm, 441, rfl⟩
abbrev main_call13_v1 : Ref sig .tc := ⟨.hbm, 442, rfl⟩
abbrev main_call13_v2 : Ref sig .tc := ⟨.hbm, 443, rfl⟩
abbrev main_call13_v3 : Ref sig .tc := ⟨.hbm, 444, rfl⟩
abbrev main_call13_v4 : Ref sig .tc := ⟨.hbm, 445, rfl⟩
abbrev main_v247 : Ref sig .tc := ⟨.hbm, 446, rfl⟩
abbrev main_c_78 : Ref sig .tc := ⟨.hbm, 447, rfl⟩
abbrev main_c_79 : Ref sig .tc := ⟨.hbm, 448, rfl⟩
abbrev main_call14_v0 : Ref sig .tc := ⟨.hbm, 449, rfl⟩
abbrev main_call14_v1 : Ref sig .tc := ⟨.hbm, 450, rfl⟩
abbrev main_call14_v2 : Ref sig .tc := ⟨.hbm, 451, rfl⟩
abbrev main_call14_v3 : Ref sig .tc := ⟨.hbm, 452, rfl⟩
abbrev main_call14_v4 : Ref sig .tc := ⟨.hbm, 453, rfl⟩
abbrev main_v248 : Ref sig .tc := ⟨.hbm, 454, rfl⟩
abbrev main_c_80 : Ref sig .tc := ⟨.hbm, 455, rfl⟩
abbrev main_v249 : Ref sig .tc := ⟨.hbm, 456, rfl⟩
abbrev main_v250 : Ref sig .tc := ⟨.hbm, 457, rfl⟩
abbrev main_c_81 : Ref sig .tc := ⟨.hbm, 458, rfl⟩
abbrev main_v251 : Ref sig .tc := ⟨.hbm, 459, rfl⟩
abbrev main_v252 : Ref sig .tc := ⟨.hbm, 460, rfl⟩
abbrev main_v253 : Ref sig .tc := ⟨.hbm, 461, rfl⟩
abbrev main_c_82 : Ref sig .tc := ⟨.hbm, 462, rfl⟩
abbrev main_v254 : Ref sig .tc := ⟨.hbm, 463, rfl⟩
abbrev main_v255 : Ref sig .tc := ⟨.hbm, 464, rfl⟩
abbrev main_c_83 : Ref sig .tc := ⟨.hbm, 465, rfl⟩
abbrev main_v256 : Ref sig .tc := ⟨.hbm, 466, rfl⟩
abbrev main_v257 : Ref sig .tc := ⟨.hbm, 467, rfl⟩
abbrev main_v258 : Ref sig .tc := ⟨.hbm, 468, rfl⟩
abbrev main_v259 : Ref sig .tc := ⟨.hbm, 469, rfl⟩
abbrev main_v260 : Ref sig .tc := ⟨.hbm, 470, rfl⟩
abbrev main_v261 : Ref sig .tc := ⟨.hbm, 471, rfl⟩
abbrev main_v262 : Ref sig .tc := ⟨.hbm, 472, rfl⟩
abbrev main_cst_84 : Ref sig .tc := ⟨.hbm, 473, rfl⟩
abbrev main_call15_v0 : Ref sig .tc := ⟨.hbm, 474, rfl⟩
abbrev main_call15_v1 : Ref sig .tc := ⟨.hbm, 475, rfl⟩
abbrev main_call15_v2 : Ref sig .tc := ⟨.hbm, 476, rfl⟩
abbrev main_v263 : Ref sig .tc := ⟨.hbm, 477, rfl⟩
abbrev main_v264 : Ref sig .tc := ⟨.hbm, 478, rfl⟩
abbrev main_v265 : Ref sig .tc := ⟨.hbm, 479, rfl⟩
abbrev main_v266 : Ref sig .tc := ⟨.hbm, 480, rfl⟩
abbrev main_v267 : Ref sig .tc := ⟨.hbm, 481, rfl⟩
abbrev main_v268 : Ref sig .tc := ⟨.hbm, 482, rfl⟩
abbrev main_v269 : Ref sig .tc := ⟨.hbm, 483, rfl⟩
abbrev main_v270 : Ref sig .tc := ⟨.hbm, 484, rfl⟩
abbrev main_v271 : Ref sig .tc := ⟨.hbm, 485, rfl⟩
abbrev main_v272 : Ref sig .tc := ⟨.hbm, 486, rfl⟩
abbrev main_v273 : Ref sig .tc := ⟨.hbm, 487, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x64x36864 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x36864 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

class Facts₀ : Prop where
  bcast_S_S192 : S_.BroadcastsInDim S192 (![] : Fin 0 → Fin S192.rank)
  slices_S16x2x64x64_S16x1x64x64_0_0_0_0 : S16x2x64x64.Slices ![0, 0, 0, 0] S16x1x64x64
  shapeCasts_S16x1x64x64_S16x64x64 : S16x1x64x64.ShapeCasts S16x64x64
  bcast_S192_S192x1_0 : S192.BroadcastsInDim S192x1 (![0] : Fin 1 → Fin S192x1.rank)
  slices_S16x2x64x64_S16x1x64x64_0_1_0_0 : S16x2x64x64.Slices ![0, 1, 0, 0] S16x1x64x64
  bcast_S192x1_S1x192x1_1_2 : S192x1.BroadcastsInDim S1x192x1 (![1, 2] : Fin 2 → Fin S1x192x1.rank)
  bcast_S1x192x1_S16x192x192_0_1_2 : S1x192x1.BroadcastsInDim S16x192x192 (![0, 1, 2] : Fin 3 → Fin S16x192x192.rank)
  bcast_S192_S1x192_1 : S192.BroadcastsInDim S1x192 (![1] : Fin 1 → Fin S1x192.rank)
  bcast_S1x192_S1x1x192_1_2 : S1x192.BroadcastsInDim S1x1x192 (![1, 2] : Fin 2 → Fin S1x1x192.rank)
  bcast_S1x1x192_S16x192x192_0_1_2 : S1x1x192.BroadcastsInDim S16x192x192 (![0, 1, 2] : Fin 3 → Fin S16x192x192.rank)
  bcast_S_S256x192x192 : S_.BroadcastsInDim S256x192x192 (![] : Fin 0 → Fin S256x192x192.rank)
  bcast_S_S16x192x192 : S_.BroadcastsInDim S16x192x192 (![] : Fin 0 → Fin S16x192x192.rank)
  bcast_S16x192x192_S16x192x192x1_0_1_2 : S16x192x192.BroadcastsInDim S16x192x192x1 (![0, 1, 2] : Fin 3 → Fin S16x192x192x1.rank)
  concatenates_S16x192x192x1_S16x192x192x1_S16x192x192x2_d3 : Shape.Concatenates [S16x192x192x1, S16x192x192x1] S16x192x192x2 3
  bcast_S_S192x192 : S_.BroadcastsInDim S192x192 (![] : Fin 0 → Fin S192x192.rank)
  bcast_S192x192_S16x192x192_1_2 : S192x192.BroadcastsInDim S16x192x192 (![1, 2] : Fin 2 → Fin S16x192x192.rank)
  bcast_S16x192x192_S16x1x192x192_0_2_3 : S16x192x192.BroadcastsInDim S16x1x192x192 (![0, 2, 3] : Fin 3 → Fin S16x1x192x192.rank)
  bcast_S16x1x192x192_S16x256x192x192_0_1_2_3 : S16x1x192x192.BroadcastsInDim S16x256x192x192 (![0, 1, 2, 3] : Fin 4 → Fin S16x256x192x192.rank)
  bcast_S256x192x192_S1x256x192x192_1_2_3 : S256x192x192.BroadcastsInDim S1x256x192x192 (![1, 2, 3] : Fin 3 → Fin S1x256x192x192.rank)
  bcast_S1x256x192x192_S16x256x192x192_0_1_2_3 : S1x256x192x192.BroadcastsInDim S16x256x192x192 (![0, 1, 2, 3] : Fin 4 → Fin S16x256x192x192.rank)
  shapeCasts_S16x256x192x192_S16x256x36864 : S16x256x192x192.ShapeCasts S16x256x36864
  inb_S1x64x36864_S1x64x36864_0_0_0 : ∀ a, (![0, 0, 0] : Fin 3 → Nat) a + S1x64x36864.size a ≤ S1x64x36864.size a
  h_S1x64x36864 : 0 < S1x64x36864.numel
  shapeCasts_S1x64x36864_S1x64x36864 : S1x64x36864.ShapeCasts S1x64x36864
  shapeCasts_S4x256x36864_S4x256x192x192 : S4x256x36864.ShapeCasts S4x256x192x192
  gather_S16x64x64_S192x1_S16x192x64_02_1_n_n_1_1_16164_wf : GatherDims.WF S16x64x64 S192x1 S16x192x64 [0, 2] [1] [] [1] [] 1 ![16, 1, 64]
  gather_S16x192x64_S192x1_S16x192x192_01_2_n_n_2_1_161921_wf : GatherDims.WF S16x192x64 S192x1 S16x192x192 [0, 1] [2] [] [2] [] 1 ![16, 192, 1]
  gather_S16x256x64x64_S16x192x192x2_S16x256x192x192_1_23_0_0_23_3_125611_wf : GatherDims.WF S16x256x64x64 S16x192x192x2 S16x256x192x192 [1] [2, 3] [0] [2, 3] [0] 3 ![1, 256, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x36864.size a ≤ S16x256x36864.size a
  hwx0_0 : ∀ i : grid0.Coords, EltTy.bits .f32 = 32 ∨ (Rect.block (s := S16x256x36864) S1x64x36864.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x36864.size a ≤ S4x256x36864.size a
  hwx0_1 : ∀ i : grid0.Coords, EltTy.bits .f32 = 32 ∨ (Rect.block (s := S4x256x36864) S1x64x36864.size (cc0_transform_1 i) (hinb0_1 i)).WholeWords (EltTy.packing .f32)

variable [Facts₀]

def gather_S16x64x64_S192x1_S16x192x64_02_1_n_n_1_1_16164 : GatherDims S16x64x64 S192x1 S16x192x64 where
  offsetDims := [0, 2]
  collapsedSliceDims := [1]
  operandBatchingDims := []
  startIndicesBatchingDims := []
  startIndexMap := [1]
  indexVectorDim := 1
  sliceSizes := ![16, 1, 64]
  wf := gather_S16x64x64_S192x1_S16x192x64_02_1_n_n_1_1_16164_wf
def gather_S16x192x64_S192x1_S16x192x192_01_2_n_n_2_1_161921 : GatherDims S16x192x64 S192x1 S16x192x192 where
  offsetDims := [0, 1]
  collapsedSliceDims := [2]
  operandBatchingDims := []
  startIndicesBatchingDims := []
  startIndexMap := [2]
  indexVectorDim := 1
  sliceSizes := ![16, 192, 1]
  wf := gather_S16x192x64_S192x1_S16x192x192_01_2_n_n_2_1_161921_wf
def gather_S16x256x64x64_S16x192x192x2_S16x256x192x192_1_23_0_0_23_3_125611 : GatherDims S16x256x64x64 S16x192x192x2 S16x256x192x192 where
  offsetDims := [1]
  collapsedSliceDims := [2, 3]
  operandBatchingDims := [0]
  startIndicesBatchingDims := [0]
  startIndexMap := [2, 3]
  indexVectorDim := 3
  sliceSizes := ![1, 256, 1, 1]
  wf := gather_S16x256x64x64_S16x192x192x2_S16x256x192x192_1_23_0_0_23_3_125611_wf

abbrev win0_0 : Pipeline.Window sig grid0 :=
  Pipeline.Window.ofSpec (Memref.whole main_v271) S1x64x36864.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v272) S1x64x36864.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x64x64 : Shape := ⟨4, ![16, 256, 64, 64]⟩
abbrev S16x2x64x64 : Shape := ⟨4, ![16, 2, 64, 64]⟩
abbrev S16x1x64x64 : Shape := ⟨4, ![16, 1, 64, 64]⟩
abbrev S192 : Shape := ⟨1, ![192]⟩
abbrev S_ : Shape := ⟨0, ![]⟩
abbrev S16x64x64 : Shape := ⟨3, ![16, 64, 64]⟩
abbrev S192x1 : Shape := ⟨2, ![192, 1]⟩
abbrev S16x192x64 : Shape := ⟨3, ![16, 192, 64]⟩
abbrev S16x192x192 : Shape := ⟨3, ![16, 192, 192]⟩
abbrev S1x192x1 : Shape := ⟨3, ![1, 192, 1]⟩
abbrev S1x192 : Shape := ⟨2, ![1, 192]⟩
abbrev S1x1x192 : Shape := ⟨3, ![1, 1, 192]⟩
abbrev S256x192x192 : Shape := ⟨3, ![256, 192, 192]⟩
abbrev S16x192x192x1 : Shape := ⟨4, ![16, 192, 192, 1]⟩
abbrev S16x192x192x2 : Shape := ⟨4, ![16, 192, 192, 2]⟩
abbrev S16x256x192x192 : Shape := ⟨4, ![16, 256, 192, 192]⟩
abbrev S192x192 : Shape := ⟨2, ![192, 192]⟩
abbrev S16x1x192x192 : Shape := ⟨4, ![16, 1, 192, 192]⟩
abbrev S1x256x192x192 : Shape := ⟨4, ![1, 256, 192, 192]⟩
abbrev S16x1x192x64 : Shape := ⟨4, ![16, 1, 192, 64]⟩
abbrev S4x4x256x192x192 : Shape := ⟨5, ![4, 4, 256, 192, 192]⟩
abbrev S4x256x192x192 : Shape := ⟨4, ![4, 256, 192, 192]⟩

abbrev nBuf : Space → Nat
  | .hbm => 486
  | .vmem => 0
  | .smem => 0
  | _ => 0

abbrev hbmTy0_0 (i : Nat) : BufTy := match i % 128 with
  | 0 => ⟨S16x256x64x64, .f32⟩
  | 1 => ⟨S16x2x64x64, .f32⟩
  | 2 => ⟨S16x1x64x64, .f32⟩
  | 3 => ⟨S192, .i32⟩
  | 4 => ⟨S192, .i32⟩
  | 5 => ⟨S_, .i32⟩
  | 6 => ⟨S_, .i32⟩
  | 7 => ⟨S192, .i32⟩
  | 8 => ⟨S192, .i32⟩
  | 9 => ⟨S192, .i32⟩
  | 10 => ⟨S_, .i32⟩
  | 11 => ⟨S192, .i32⟩
  | 12 => ⟨S192, .i1⟩
  | 13 => ⟨S192, .i32⟩
  | 14 => ⟨S192, .i32⟩
  | 15 => ⟨S_, .i32⟩
  | 16 => ⟨S192, .i32⟩
  | 17 => ⟨S192, .i1⟩
  | 18 => ⟨S192, .i1⟩
  | 19 => ⟨S_, .i32⟩
  | 20 => ⟨S192, .i32⟩
  | 21 => ⟨S192, .i32⟩
  | 22 => ⟨S192, .i32⟩
  | 23 => ⟨S_, .i32⟩
  | 24 => ⟨S_, .i32⟩
  | 25 => ⟨S192, .i32⟩
  | 26 => ⟨S192, .i32⟩
  | 27 => ⟨S192, .i32⟩
  | 28 => ⟨S_, .i32⟩
  | 29 => ⟨S192, .i32⟩
  | 30 => ⟨S192, .i1⟩
  | 31 => ⟨S192, .i32⟩
  | 32 => ⟨S192, .i32⟩
  | 33 => ⟨S_, .i32⟩
  | 34 => ⟨S192, .i32⟩
  | 35 => ⟨S192, .i1⟩
  | 36 => ⟨S192, .i1⟩
  | 37 => ⟨S_, .i32⟩
  | 38 => ⟨S192, .i32⟩
  | 39 => ⟨S192, .i32⟩
  | 40 => ⟨S192, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S192, .i32⟩
  | 48 => ⟨S192, .i32⟩
  | 49 => ⟨S_, .i32⟩
  | 50 => ⟨S192, .i32⟩
  | 51 => ⟨S192, .i1⟩
  | 52 => ⟨S_, .i32⟩
  | 53 => ⟨S192, .i32⟩
  | 54 => ⟨S192, .i1⟩
  | 55 => ⟨S_, .i32⟩
  | 56 => ⟨S_, .i1⟩
  | 57 => ⟨S192, .i1⟩
  | 58 => ⟨S192, .i1⟩
  | 59 => ⟨S192, .i1⟩
  | 60 => ⟨S192, .i32⟩
  | 61 => ⟨S192, .i32⟩
  | 62 => ⟨S192, .i32⟩
  | 63 => ⟨S_, .i32⟩
  | 64 => ⟨S192, .i32⟩
  | 65 => ⟨S192, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S192, .i32⟩
  | 73 => ⟨S192, .i32⟩
  | 74 => ⟨S_, .i32⟩
  | 75 => ⟨S192, .i32⟩
  | 76 => ⟨S192, .i1⟩
  | 77 => ⟨S_, .i32⟩
  | 78 => ⟨S192, .i32⟩
  | 79 => ⟨S192, .i1⟩
  | 80 => ⟨S_, .i32⟩
  | 81 => ⟨S_, .i1⟩
  | 82 => ⟨S192, .i1⟩
  | 83 => ⟨S192, .i1⟩
  | 84 => ⟨S192, .i1⟩
  | 85 => ⟨S192, .i32⟩
  | 86 => ⟨S192, .i32⟩
  | 87 => ⟨S192, .i32⟩
  | 88 => ⟨S_, .i32⟩
  | 89 => ⟨S192, .i32⟩
  | 90 => ⟨S192, .i32⟩
  | 91 => ⟨S16x1x64x64, .f32⟩
  | 92 => ⟨S16x64x64, .f32⟩
  | 93 => ⟨S_, .i32⟩
  | 94 => ⟨S192, .i32⟩
  | 95 => ⟨S192, .i1⟩
  | 96 => ⟨S_, .i32⟩
  | 97 => ⟨S192, .i32⟩
  | 98 => ⟨S192, .i32⟩
  | 99 => ⟨S192, .i32⟩
  | 100 => ⟨S192x1, .i32⟩
  | 101 => ⟨S16x192x64, .f32⟩
  | 102 => ⟨S_, .i32⟩
  | 103 => ⟨S192, .i32⟩
  | 104 => ⟨S192, .i1⟩
  | 105 => ⟨S_, .i32⟩
  | 106 => ⟨S192, .i32⟩
  | 107 => ⟨S192, .i32⟩
  | 108 => ⟨S192, .i32⟩
  | 109 => ⟨S192x1, .i32⟩
  | 110 => ⟨S16x192x192, .f32⟩
  | 111 => ⟨S16x1x64x64, .f32⟩
  | 112 => ⟨S16x64x64, .f32⟩
  | 113 => ⟨S_, .i32⟩
  | 114 => ⟨S192, .i32⟩
  | 115 => ⟨S192, .i1⟩
  | 116 => ⟨S_, .i32⟩
  | 117 => ⟨S192, .i32⟩
  | 118 => ⟨S192, .i32⟩
  | 119 => ⟨S192, .i32⟩
  | 120 => ⟨S192x1, .i32⟩
  | 121 => ⟨S16x192x64, .f32⟩
  | 122 => ⟨S_, .i32⟩
  | 123 => ⟨S192, .i32⟩
  | 124 => ⟨S192, .i1⟩
  | 125 => ⟨S_, .i32⟩
  | 126 => ⟨S192, .i32⟩
  | 127 => ⟨S192, .i32⟩
  | _ => ⟨S16x256x64x64, .f32⟩

abbrev hbmTy0_1 (i : Nat) : BufTy := match i % 128 with
  | 0 => ⟨S192, .i32⟩
  | 1 => ⟨S192x1, .i32⟩
  | 2 => ⟨S16x192x192, .f32⟩
  | 3 => ⟨S192, .f32⟩
  | 4 => ⟨S192x1, .f32⟩
  | 5 => ⟨S192, .f32⟩
  | 6 => ⟨S192x1, .f32⟩
  | 7 => ⟨S192x1, .f32⟩
  | 8 => ⟨S1x192x1, .f32⟩
  | 9 => ⟨S16x192x192, .f32⟩
  | 10 => ⟨S16x192x192, .f32⟩
  | 11 => ⟨S192, .f32⟩
  | 12 => ⟨S1x192, .f32⟩
  | 13 => ⟨S192, .f32⟩
  | 14 => ⟨S1x192, .f32⟩
  | 15 => ⟨S1x192, .f32⟩
  | 16 => ⟨S1x1x192, .f32⟩
  | 17 => ⟨S16x192x192, .f32⟩
  | 18 => ⟨S16x192x192, .f32⟩
  | 19 => ⟨S16x192x192, .f32⟩
  | 20 => ⟨S16x192x192, .i32⟩
  | 21 => ⟨S16x192x192, .f32⟩
  | 22 => ⟨S16x192x192, .i32⟩
  | 23 => ⟨S_, .f32⟩
  | 24 => ⟨S256x192x192, .f32⟩
  | 25 => ⟨S_, .i32⟩
  | 26 => ⟨S16x192x192, .i32⟩
  | 27 => ⟨S16x192x192, .i32⟩
  | 28 => ⟨S_, .i32⟩
  | 29 => ⟨S16x192x192, .i32⟩
  | 30 => ⟨S16x192x192, .i32⟩
  | 31 => ⟨S16x192x192, .f32⟩
  | 32 => ⟨S16x192x192, .f32⟩
  | 33 => ⟨S16x192x192, .f32⟩
  | 34 => ⟨S_, .f32⟩
  | 35 => ⟨S16x192x192, .f32⟩
  | 36 => ⟨S16x192x192, .f32⟩
  | 37 => ⟨S16x192x192, .f32⟩
  | 38 => ⟨S16x192x192, .f32⟩
  | 39 => ⟨S16x192x192, .f32⟩
  | 40 => ⟨S_, .f32⟩
  | 41 => ⟨S16x192x192, .f32⟩
  | 42 => ⟨S16x192x192, .f32⟩
  | 43 => ⟨S16x192x192, .f32⟩
  | 44 => ⟨S_, .i32⟩
  | 45 => ⟨S16x192x192, .i32⟩
  | 46 => ⟨S16x192x192, .i1⟩
  | 47 => ⟨S_, .i32⟩
  | 48 => ⟨S16x192x192, .i32⟩
  | 49 => ⟨S16x192x192, .i1⟩
  | 50 => ⟨S16x192x192, .i1⟩
  | 51 => ⟨S_, .i32⟩
  | 52 => ⟨S16x192x192, .i32⟩
  | 53 => ⟨S16x192x192, .i1⟩
  | 54 => ⟨S16x192x192, .i1⟩
  | 55 => ⟨S_, .i32⟩
  | 56 => ⟨S16x192x192, .i32⟩
  | 57 => ⟨S16x192x192, .i1⟩
  | 58 => ⟨S16x192x192, .i1⟩
  | 59 => ⟨S_, .i32⟩
  | 60 => ⟨S_, .i32⟩
  | 61 => ⟨S_, .i32⟩
  | 62 => ⟨S16x192x192, .i32⟩
  | 63 => ⟨S16x192x192, .i32⟩
  | 64 => ⟨S_, .i32⟩
  | 65 => ⟨S16x192x192, .i32⟩
  | 66 => ⟨S16x192x192, .i32⟩
  | 67 => ⟨S_, .i32⟩
  | 68 => ⟨S_, .i32⟩
  | 69 => ⟨S_, .i32⟩
  | 70 => ⟨S16x192x192, .i32⟩
  | 71 => ⟨S16x192x192, .i32⟩
  | 72 => ⟨S_, .i32⟩
  | 73 => ⟨S16x192x192, .i32⟩
  | 74 => ⟨S16x192x192, .i32⟩
  | 75 => ⟨S_, .i32⟩
  | 76 => ⟨S16x192x192, .i32⟩
  | 77 => ⟨S16x192x192, .i1⟩
  | 78 => ⟨S_, .i32⟩
  | 79 => ⟨S16x192x192, .i32⟩
  | 80 => ⟨S16x192x192, .i32⟩
  | 81 => ⟨S16x192x192, .i32⟩
  | 82 => ⟨S_, .i32⟩
  | 83 => ⟨S16x192x192, .i32⟩
  | 84 => ⟨S16x192x192, .i1⟩
  | 85 => ⟨S_, .i32⟩
  | 86 => ⟨S16x192x192, .i32⟩
  | 87 => ⟨S16x192x192, .i32⟩
  | 88 => ⟨S16x192x192, .i32⟩
  | 89 => ⟨S16x192x192x1, .i32⟩
  | 90 => ⟨S16x192x192x1, .i32⟩
  | 91 => ⟨S16x192x192x2, .i32⟩
  | 92 => ⟨S16x256x192x192, .f32⟩
  | 93 => ⟨S_, .f32⟩
  | 94 => ⟨S_, .f32⟩
  | 95 => ⟨S192x192, .f32⟩
  | 96 => ⟨S16x192x192, .f32⟩
  | 97 => ⟨S16x192x192, .f32⟩
  | 98 => ⟨S16x1x192x192, .f32⟩
  | 99 => ⟨S16x256x192x192, .f32⟩
  | 100 => ⟨S16x256x192x192, .f32⟩
  | 101 => ⟨S1x256x192x192, .f32⟩
  | 102 => ⟨S16x256x192x192, .f32⟩
  | 103 => ⟨S16x256x192x192, .f32⟩
  | 104 => ⟨S_, .i32⟩
  | 105 => ⟨S16x192x192, .i32⟩
  | 106 => ⟨S16x192x192, .i32⟩
  | 107 => ⟨S_, .i32⟩
  | 108 => ⟨S16x192x192, .i32⟩
  | 109 => ⟨S16x192x192, .i32⟩
  | 110 => ⟨S16x192x192, .f32⟩
  | 111 => ⟨S16x192x192, .f32⟩
  | 112 => ⟨S16x192x192, .f32⟩
  | 113 => ⟨S_, .f32⟩
  | 114 => ⟨S16x192x192, .f32⟩
  | 115 => ⟨S16x192x192, .f32⟩
  | 116 => ⟨S16x192x192, .f32⟩
  | 117 => ⟨S16x192x192, .f32⟩
  | 118 => ⟨S16x192x192, .f32⟩
  | 119 => ⟨S_, .f32⟩
  | 120 => ⟨S16x192x192, .f32⟩
  | 121 => ⟨S16x192x192, .f32⟩
  | 122 => ⟨S16x192x192, .f32⟩
  | 123 => ⟨S_, .i32⟩
  | 124 => ⟨S16x192x192, .i32⟩
  | 125 => ⟨S16x192x192, .i1⟩
  | 126 => ⟨S_, .i32⟩
  | 127 => ⟨S16x192x192, .i32⟩
  | _ => ⟨S16x256x64x64, .f32⟩

abbrev hbmTy0_2 (i : Nat) : BufTy := match i % 128 with
  | 0 => ⟨S16x192x192, .i1⟩
  | 1 => ⟨S16x192x192, .i1⟩
  | 2 => ⟨S_, .i32⟩
  | 3 => ⟨S16x192x192, .i32⟩
  | 4 => ⟨S16x192x192, .i1⟩
  | 5 => ⟨S16x192x192, .i1⟩
  | 6 => ⟨S_, .i32⟩
  | 7 => ⟨S16x192x192, .i32⟩
  | 8 => ⟨S16x192x192, .i1⟩
  | 9 => ⟨S16x192x192, .i1⟩
  | 10 => ⟨S_, .i32⟩
  | 11 => ⟨S_, .i32⟩
  | 12 => ⟨S_, .i32⟩
  | 13 => ⟨S16x192x192, .i32⟩
  | 14 => ⟨S16x192x192, .i32⟩
  | 15 => ⟨S_, .i32⟩
  | 16 => ⟨S16x192x192, .i32⟩
  | 17 => ⟨S16x192x192, .i32⟩
  | 18 => ⟨S_, .i32⟩
  | 19 => ⟨S_, .i32⟩
  | 20 => ⟨S_, .i32⟩
  | 21 => ⟨S16x192x192, .i32⟩
  | 22 => ⟨S16x192x192, .i32⟩
  | 23 => ⟨S_, .i32⟩
  | 24 => ⟨S16x192x192, .i32⟩
  | 25 => ⟨S16x192x192, .i32⟩
  | 26 => ⟨S_, .i32⟩
  | 27 => ⟨S16x192x192, .i32⟩
  | 28 => ⟨S16x192x192, .i1⟩
  | 29 => ⟨S_, .i32⟩
  | 30 => ⟨S16x192x192, .i32⟩
  | 31 => ⟨S16x192x192, .i32⟩
  | 32 => ⟨S16x192x192, .i32⟩
  | 33 => ⟨S_, .i32⟩
  | 34 => ⟨S16x192x192, .i32⟩
  | 35 => ⟨S16x192x192, .i1⟩
  | 36 => ⟨S_, .i32⟩
  | 37 => ⟨S16x192x192, .i32⟩
  | 38 => ⟨S16x192x192, .i32⟩
  | 39 => ⟨S16x192x192, .i32⟩
  | 40 => ⟨S16x192x192x1, .i32⟩
  | 41 => ⟨S16x192x192x1, .i32⟩
  | 42 => ⟨S16x192x192x2, .i32⟩
  | 43 => ⟨S16x256x192x192, .f32⟩
  | 44 => ⟨S_, .f32⟩
  | 45 => ⟨S_, .f32⟩
  | 46 => ⟨S192x192, .f32⟩
  | 47 => ⟨S16x192x192, .f32⟩
  | 48 => ⟨S16x192x192, .f32⟩
  | 49 => ⟨S16x1x192x192, .f32⟩
  | 50 => ⟨S16x256x192x192, .f32⟩
  | 51 => ⟨S16x256x192x192, .f32⟩
  | 52 => ⟨S16x256x192x192, .f32⟩
  | 53 => ⟨S_, .i32⟩
  | 54 => ⟨S16x192x192, .i32⟩
  | 55 => ⟨S16x192x192, .i32⟩
  | 56 => ⟨S_, .i32⟩
  | 57 => ⟨S16x192x192, .i32⟩
  | 58 => ⟨S16x192x192, .i32⟩
  | 59 => ⟨S16x192x192, .f32⟩
  | 60 => ⟨S16x192x192, .f32⟩
  | 61 => ⟨S16x192x192, .f32⟩
  | 62 => ⟨S_, .f32⟩
  | 63 => ⟨S16x192x192, .f32⟩
  | 64 => ⟨S16x192x192, .f32⟩
  | 65 => ⟨S16x192x192, .f32⟩
  | 66 => ⟨S16x192x192, .f32⟩
  | 67 => ⟨S16x192x192, .f32⟩
  | 68 => ⟨S_, .f32⟩
  | 69 => ⟨S16x192x192, .f32⟩
  | 70 => ⟨S16x192x192, .f32⟩
  | 71 => ⟨S16x192x192, .f32⟩
  | 72 => ⟨S_, .i32⟩
  | 73 => ⟨S16x192x192, .i32⟩
  | 74 => ⟨S16x192x192, .i1⟩
  | 75 => ⟨S_, .i32⟩
  | 76 => ⟨S16x192x192, .i32⟩
  | 77 => ⟨S16x192x192, .i1⟩
  | 78 => ⟨S16x192x192, .i1⟩
  | 79 => ⟨S_, .i32⟩
  | 80 => ⟨S16x192x192, .i32⟩
  | 81 => ⟨S16x192x192, .i1⟩
  | 82 => ⟨S16x192x192, .i1⟩
  | 83 => ⟨S_, .i32⟩
  | 84 => ⟨S16x192x192, .i32⟩
  | 85 => ⟨S16x192x192, .i1⟩
  | 86 => ⟨S16x192x192, .i1⟩
  | 87 => ⟨S_, .i32⟩
  | 88 => ⟨S_, .i32⟩
  | 89 => ⟨S_, .i32⟩
  | 90 => ⟨S16x192x192, .i32⟩
  | 91 => ⟨S16x192x192, .i32⟩
  | 92 => ⟨S_, .i32⟩
  | 93 => ⟨S16x192x192, .i32⟩
  | 94 => ⟨S16x192x192, .i32⟩
  | 95 => ⟨S_, .i32⟩
  | 96 => ⟨S_, .i32⟩
  | 97 => ⟨S_, .i32⟩
  | 98 => ⟨S16x192x192, .i32⟩
  | 99 => ⟨S16x192x192, .i32⟩
  | 100 => ⟨S_, .i32⟩
  | 101 => ⟨S16x192x192, .i32⟩
  | 102 => ⟨S16x192x192, .i32⟩
  | 103 => ⟨S_, .i32⟩
  | 104 => ⟨S16x192x192, .i32⟩
  | 105 => ⟨S16x192x192, .i1⟩
  | 106 => ⟨S_, .i32⟩
  | 107 => ⟨S16x192x192, .i32⟩
  | 108 => ⟨S16x192x192, .i32⟩
  | 109 => ⟨S16x192x192, .i32⟩
  | 110 => ⟨S_, .i32⟩
  | 111 => ⟨S16x192x192, .i32⟩
  | 112 => ⟨S16x192x192, .i1⟩
  | 113 => ⟨S_, .i32⟩
  | 114 => ⟨S16x192x192, .i32⟩
  | 115 => ⟨S16x192x192, .i32⟩
  | 116 => ⟨S16x192x192, .i32⟩
  | 117 => ⟨S16x192x192x1, .i32⟩
  | 118 => ⟨S16x192x192x1, .i32⟩
  | 119 => ⟨S16x192x192x2, .i32⟩
  | 120 => ⟨S16x256x192x192, .f32⟩
  | 121 => ⟨S_, .f32⟩
  | 122 => ⟨S_, .f32⟩
  | 123 => ⟨S192x192, .f32⟩
  | 124 => ⟨S16x192x192, .f32⟩
  | 125 => ⟨S16x192x192, .f32⟩
  | 126 => ⟨S16x1x192x192, .f32⟩
  | 127 => ⟨S16x256x192x192, .f32⟩
  | _ => ⟨S16x256x64x64, .f32⟩

abbrev hbmTy0_3 (i : Nat) : BufTy := match i % 128 with
  | 0 => ⟨S16x256x192x192, .f32⟩
  | 1 => ⟨S16x256x192x192, .f32⟩
  | 2 => ⟨S_, .i32⟩
  | 3 => ⟨S16x192x192, .i32⟩
  | 4 => ⟨S16x192x192, .i32⟩
  | 5 => ⟨S_, .i32⟩
  | 6 => ⟨S16x192x192, .i32⟩
  | 7 => ⟨S16x192x192, .i32⟩
  | 8 => ⟨S16x192x192, .f32⟩
  | 9 => ⟨S16x192x192, .f32⟩
  | 10 => ⟨S16x192x192, .f32⟩
  | 11 => ⟨S_, .f32⟩
  | 12 => ⟨S16x192x192, .f32⟩
  | 13 => ⟨S16x192x192, .f32⟩
  | 14 => ⟨S16x192x192, .f32⟩
  | 15 => ⟨S16x192x192, .f32⟩
  | 16 => ⟨S16x192x192, .f32⟩
  | 17 => ⟨S_, .f32⟩
  | 18 => ⟨S16x192x192, .f32⟩
  | 19 => ⟨S16x192x192, .f32⟩
  | 20 => ⟨S16x192x192, .f32⟩
  | 21 => ⟨S_, .i32⟩
  | 22 => ⟨S16x192x192, .i32⟩
  | 23 => ⟨S16x192x192, .i1⟩
  | 24 => ⟨S_, .i32⟩
  | 25 => ⟨S16x192x192, .i32⟩
  | 26 => ⟨S16x192x192, .i1⟩
  | 27 => ⟨S16x192x192, .i1⟩
  | 28 => ⟨S_, .i32⟩
  | 29 => ⟨S16x192x192, .i32⟩
  | 30 => ⟨S16x192x192, .i1⟩
  | 31 => ⟨S16x192x192, .i1⟩
  | 32 => ⟨S_, .i32⟩
  | 33 => ⟨S16x192x192, .i32⟩
  | 34 => ⟨S16x192x192, .i1⟩
  | 35 => ⟨S16x192x192, .i1⟩
  | 36 => ⟨S_, .i32⟩
  | 37 => ⟨S_, .i32⟩
  | 38 => ⟨S_, .i32⟩
  | 39 => ⟨S16x192x192, .i32⟩
  | 40 => ⟨S16x192x192, .i32⟩
  | 41 => ⟨S_, .i32⟩
  | 42 => ⟨S16x192x192, .i32⟩
  | 43 => ⟨S16x192x192, .i32⟩
  | 44 => ⟨S_, .i32⟩
  | 45 => ⟨S_, .i32⟩
  | 46 => ⟨S_, .i32⟩
  | 47 => ⟨S16x192x192, .i32⟩
  | 48 => ⟨S16x192x192, .i32⟩
  | 49 => ⟨S_, .i32⟩
  | 50 => ⟨S16x192x192, .i32⟩
  | 51 => ⟨S16x192x192, .i32⟩
  | 52 => ⟨S_, .i32⟩
  | 53 => ⟨S16x192x192, .i32⟩
  | 54 => ⟨S16x192x192, .i1⟩
  | 55 => ⟨S_, .i32⟩
  | 56 => ⟨S16x192x192, .i32⟩
  | 57 => ⟨S16x192x192, .i32⟩
  | 58 => ⟨S16x192x192, .i32⟩
  | 59 => ⟨S_, .i32⟩
  | 60 => ⟨S16x192x192, .i32⟩
  | 61 => ⟨S16x192x192, .i1⟩
  | 62 => ⟨S_, .i32⟩
  | 63 => ⟨S16x192x192, .i32⟩
  | 64 => ⟨S16x192x192, .i32⟩
  | 65 => ⟨S16x192x192, .i32⟩
  | 66 => ⟨S16x192x192x1, .i32⟩
  | 67 => ⟨S16x192x192x1, .i32⟩
  | 68 => ⟨S16x192x192x2, .i32⟩
  | 69 => ⟨S16x256x192x192, .f32⟩
  | 70 => ⟨S_, .f32⟩
  | 71 => ⟨S_, .f32⟩
  | 72 => ⟨S192x192, .f32⟩
  | 73 => ⟨S16x192x192, .f32⟩
  | 74 => ⟨S16x192x192, .f32⟩
  | 75 => ⟨S16x1x192x192, .f32⟩
  | 76 => ⟨S16x256x192x192, .f32⟩
  | 77 => ⟨S16x256x192x192, .f32⟩
  | 78 => ⟨S16x256x192x192, .f32⟩
  | 79 => ⟨S_, .i32⟩
  | 80 => ⟨S192, .i32⟩
  | 81 => ⟨S192, .i1⟩
  | 82 => ⟨S_, .i32⟩
  | 83 => ⟨S192, .i32⟩
  | 84 => ⟨S192, .i32⟩
  | 85 => ⟨S192, .i32⟩
  | 86 => ⟨S192x1, .i32⟩
  | 87 => ⟨S16x1x192x64, .f32⟩
  | 88 => ⟨S_, .i32⟩
  | 89 => ⟨S192, .i32⟩
  | 90 => ⟨S192, .i1⟩
  | 91 => ⟨S_, .i32⟩
  | 92 => ⟨S192, .i32⟩
  | 93 => ⟨S192, .i32⟩
  | 94 => ⟨S192, .i32⟩
  | 95 => ⟨S192x1, .i32⟩
  | 96 => ⟨S16x1x192x192, .f32⟩
  | 97 => ⟨S16x256x192x192, .f32⟩
  | 98 => ⟨S16x256x192x192, .f32⟩
  | 99 => ⟨S4x4x256x192x192, .f32⟩
  | 100 => ⟨S_, .f32⟩
  | 101 => ⟨S4x256x192x192, .f32⟩
  | _ => ⟨S16x256x64x64, .f32⟩

abbrev hbmTy (i : Nat) : BufTy := match i / 128 with
  | 0 => hbmTy0_0 i
  | 1 => hbmTy0_1 i
  | 2 => hbmTy0_2 i
  | 3 => hbmTy0_3 i
  | _ => ⟨S16x256x64x64, .f32⟩

abbrev bufTy : (tb : Table) → Fin (tcTables nBuf tb) → BufTy
  | .hbm, ⟨i, _⟩ => hbmTy i
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v3 : Ref sig .tc := ⟨.hbm, 40, rfl⟩
abbrev main_c_1 : Ref sig .tc := ⟨.hbm, 41, rfl⟩
abbrev main_call2_v0 : Ref sig .tc := ⟨.hbm, 42, rfl⟩
abbrev main_call2_c : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_1 : Ref sig .tc := ⟨.hbm, 49, rfl⟩
abbrev main_call2_v5 : Ref sig .tc := ⟨.hbm, 50, rfl⟩
abbrev main_call2_v6 : Ref sig .tc := ⟨.hbm, 51, rfl⟩
abbrev main_call2_c_2 : Ref sig .tc := ⟨.hbm, 52, rfl⟩
abbrev main_call2_v7 : Ref sig .tc := ⟨.hbm, 53, rfl⟩
abbrev main_call2_v8 : Ref sig .tc := ⟨.hbm, 54, rfl⟩
abbrev main_call2_c_3 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_v4 : Ref sig .tc := ⟨.hbm, 62, rfl⟩
abbrev main_c_2 : Ref sig .tc := ⟨.hbm, 63, rfl⟩
abbrev main_v5 : Ref sig .tc := ⟨.hbm, 64, rfl⟩
abbrev main_v6 : Ref sig .tc := ⟨.hbm, 65, rfl⟩
abbrev main_c_3 : Ref sig .tc := ⟨.hbm, 66, rfl⟩
abbrev main_call3_v0 : Ref sig .tc := ⟨.hbm, 67, rfl⟩
abbrev main_call3_c : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_c_1 : Ref sig .tc := ⟨.hbm, 74, rfl⟩
abbrev main_call3_v5 : Ref sig .tc := ⟨.hbm, 75, rfl⟩
abbrev main_call3_v6 : Ref sig .tc := ⟨.hbm, 76, rfl⟩
abbrev main_call3_c_2 : Ref sig .tc := ⟨.hbm, 77, rfl⟩
abbrev main_call3_v7 : Ref sig .tc := ⟨.hbm, 78, rfl⟩
abbrev main_call3_v8 : Ref sig .tc := ⟨.hbm, 79, rfl⟩
abbrev main_call3_c_3 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_v7 : Ref sig .tc := ⟨.hbm, 87, rfl⟩
abbrev main_c_4 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_c_5 : Ref sig .tc := ⟨.hbm, 93, rfl⟩
abbrev main_v12 : Ref sig .tc := ⟨.hbm, 94, rfl⟩
abbrev main_v13 : Ref sig .tc := ⟨.hbm, 95, rfl⟩
abbrev main_c_6 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_c_7 : Ref sig .tc := ⟨.hbm, 102, rfl⟩
abbrev main_v19 : Ref sig .tc := ⟨.hbm, 103, rfl⟩
abbrev main_v20 : Ref sig .tc := ⟨.hbm, 104, rfl⟩
abbrev main_c_8 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_c_9 : Ref sig .tc := ⟨.hbm, 113, rfl⟩
abbrev main_v28 : Ref sig .tc := ⟨.hbm, 114, rfl⟩
abbrev main_v29 : Ref sig .tc := ⟨.hbm, 115, rfl⟩
abbrev main_c_10 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_c_11 : Ref sig .tc := ⟨.hbm, 122, rfl⟩
abbrev main_v35 : Ref sig .tc := ⟨.hbm, 123, rfl⟩
abbrev main_v36 : Ref sig .tc := ⟨.hbm, 124, rfl⟩
abbrev main_c_12 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_cst : Ref sig .tc := ⟨.hbm, 151, rfl⟩
abbrev main_v62 : Ref sig .tc := ⟨.hbm, 152, rfl⟩
abbrev main_c_13 : Ref sig .tc := ⟨.hbm, 153, rfl⟩
abbrev main_v63 : Ref sig .tc := ⟨.hbm, 154, rfl⟩
abbrev main_v64 : Ref sig .tc := ⟨.hbm, 155, rfl⟩
abbrev main_c_14 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_cst_15 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_cst_16 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_c_17 : Ref sig .tc := ⟨.hbm, 172, rfl⟩
abbrev main_v78 : Ref sig .tc := ⟨.hbm, 173, rfl⟩
abbrev main_v79 : Ref sig .tc := ⟨.hbm, 174, rfl⟩
abbrev main_c_18 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_c_19 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_c_20 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_c_21 : Ref sig .tc := ⟨.hbm, 187, rfl⟩
abbrev main_c_22 : Ref sig .tc := ⟨.hbm, 188, rfl⟩
abbrev main_call4_v0 : Ref sig .tc := ⟨.hbm, 189, rfl⟩
abbrev main_call4_v1 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_v89 : Ref sig .tc := ⟨.hbm, 194, rfl⟩
abbrev main_c_23 : Ref sig .tc := ⟨.hbm, 195, rfl⟩
abbrev main_c_24 : Ref sig .tc := ⟨.hbm, 196, rfl⟩
abbrev main_call5_v0 : Ref sig .tc := ⟨.hbm, 197, rfl⟩
abbrev main_call5_v1 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_v90 : Ref sig .tc := ⟨.hbm, 202, rfl⟩
abbrev main_c_25 : Ref sig .tc := ⟨.hbm, 203, rfl⟩
abbrev main_v91 : Ref sig .tc := ⟨.hbm, 204, rfl⟩
abbrev main_v92 : Ref sig .tc := ⟨.hbm, 205, rfl⟩
abbrev main_c_26 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_c_27 : Ref sig .tc := ⟨.hbm, 210, rfl⟩
abbrev main_v96 : Ref sig .tc := ⟨.hbm, 211, rfl⟩
abbrev main_v97 : Ref sig .tc := ⟨.hbm, 212, rfl⟩
abbrev main_c_28 : Ref sig .tc := ⟨.hbm, 213, rfl⟩
abbrev main_v98 : Ref sig .tc := ⟨.hbm, 214, rfl⟩
abbrev main_v99 : Ref sig .tc := ⟨.hbm, 215, rfl⟩
abbrev main_v100 : Ref sig .tc := ⟨.hbm, 216, rfl⟩
abbrev main_v101 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_cst_29 : Ref sig .tc := ⟨.hbm, 221, rfl⟩
abbrev main_call6_v0 : Ref sig .tc := ⟨.hbm, 222, rfl⟩
abbrev main_call6_v1 : Ref sig .tc := ⟨.hbm, 223, rfl⟩
abbrev main_call6_v2 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_c_30 : Ref sig .tc := ⟨.hbm, 232, rfl⟩
abbrev main_v112 : Ref sig .tc := ⟨.hbm, 233, rfl⟩
abbrev main_v113 : Ref sig .tc := ⟨.hbm, 234, rfl⟩
abbrev main_c_31 : Ref sig .tc := ⟨.hbm, 235, rfl⟩
abbrev main_v114 : Ref sig .tc := ⟨.hbm, 236, rfl⟩
abbrev main_v115 : Ref sig .tc := ⟨.hbm, 237, rfl⟩
abbrev main_v116 : Ref sig .tc := ⟨.hbm, 238, rfl⟩
abbrev main_v117 : Ref sig .tc := ⟨.hbm, 239, rfl⟩
abbrev main_v118 : Ref sig .tc := ⟨.hbm, 240, rfl⟩
abbrev main_cst_32 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_cst_33 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_c_34 : Ref sig .tc := ⟨.hbm, 251, rfl⟩
abbrev main_v127 : Ref sig .tc := ⟨.hbm, 252, rfl⟩
abbrev main_v128 : Ref sig .tc := ⟨.hbm, 253, rfl⟩
abbrev main_c_35 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_c_36 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_c_37 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_c_38 : Ref sig .tc := ⟨.hbm, 266, rfl⟩
abbrev main_c_39 : Ref sig .tc := ⟨.hbm, 267, rfl⟩
abbrev main_call7_v0 : Ref sig .tc := ⟨.hbm, 268, rfl⟩
abbrev main_call7_v1 : Ref sig .tc := ⟨.hbm, 269, rfl⟩
abbrev main_call7_v2 : Ref sig .tc := ⟨.hbm, 270, rfl⟩
abbrev main_call7_v3 : Ref sig .tc := ⟨.hbm, 271, rfl⟩
abbrev main_call7_v4 : Ref sig .tc := ⟨.hbm, 272, rfl⟩
abbrev main_v138 : Ref sig .tc := ⟨.hbm, 273, rfl⟩
abbrev main_c_40 : Ref sig .tc := ⟨.hbm, 274, rfl⟩
abbrev main_c_41 : Ref sig .tc := ⟨.hbm, 275, rfl⟩
abbrev main_call8_v0 : Ref sig .tc := ⟨.hbm, 276, rfl⟩
abbrev main_call8_v1 : Ref sig .tc := ⟨.hbm, 277, rfl⟩
abbrev main_call8_v2 : Ref sig .tc := ⟨.hbm, 278, rfl⟩
abbrev main_call8_v3 : Ref sig .tc := ⟨.hbm, 279, rfl⟩
abbrev main_call8_v4 : Ref sig .tc := ⟨.hbm, 280, rfl⟩
abbrev main_v139 : Ref sig .tc := ⟨.hbm, 281, rfl⟩
abbrev main_c_42 : Ref sig .tc := ⟨.hbm, 282, rfl⟩
abbrev main_v140 : Ref sig .tc := ⟨.hbm, 283, rfl⟩
abbrev main_v141 : Ref sig .tc := ⟨.hbm, 284, rfl⟩
abbrev main_c_43 : Ref sig .tc := ⟨.hbm, 285, rfl⟩
abbrev main_v142 : Ref sig .tc := ⟨.hbm, 286, rfl⟩
abbrev main_v143 : Ref sig .tc := ⟨.hbm, 287, rfl⟩
abbrev main_v144 : Ref sig .tc := ⟨.hbm, 288, rfl⟩
abbrev main_c_44 : Ref sig .tc := ⟨.hbm, 289, rfl⟩
abbrev main_v145 : Ref sig .tc := ⟨.hbm, 290, rfl⟩
abbrev main_v146 : Ref sig .tc := ⟨.hbm, 291, rfl⟩
abbrev main_c_45 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_v153 : Ref sig .tc := ⟨.hbm, 299, rfl⟩
abbrev main_cst_46 : Ref sig .tc := ⟨.hbm, 300, rfl⟩
abbrev main_call9_v0 : Ref sig .tc := ⟨.hbm, 301, rfl⟩
abbrev main_call9_v1 : Ref sig .tc := ⟨.hbm, 302, rfl⟩
abbrev main_call9_v2 : Ref sig .tc := ⟨.hbm, 303, rfl⟩
abbrev main_v154 : Ref sig .tc := ⟨.hbm, 304, rfl⟩
abbrev main_v155 : Ref sig .tc := ⟨.hbm, 305, rfl⟩
abbrev main_v156 : Ref sig .tc := ⟨.hbm, 306, rfl⟩
abbrev main_v157 : Ref sig .tc := ⟨.hbm, 307, rfl⟩
abbrev main_v158 : Ref sig .tc := ⟨.hbm, 308, rfl⟩
abbrev main_c_47 : Ref sig .tc := ⟨.hbm, 309, rfl⟩
abbrev main_v159 : Ref sig .tc := ⟨.hbm, 310, rfl⟩
abbrev main_v160 : Ref sig .tc := ⟨.hbm, 311, rfl⟩
abbrev main_c_48 : Ref sig .tc := ⟨.hbm, 312, rfl⟩
abbrev main_v161 : Ref sig .tc := ⟨.hbm, 313, rfl⟩
abbrev main_v162 : Ref sig .tc := ⟨.hbm, 314, rfl⟩
abbrev main_v163 : Ref sig .tc := ⟨.hbm, 315, rfl⟩
abbrev main_v164 : Ref sig .tc := ⟨.hbm, 316, rfl⟩
abbrev main_v165 : Ref sig .tc := ⟨.hbm, 317, rfl⟩
abbrev main_cst_49 : Ref sig .tc := ⟨.hbm, 318, rfl⟩
abbrev main_v166 : Ref sig .tc := ⟨.hbm, 319, rfl⟩
abbrev main_v167 : Ref sig .tc := ⟨.hbm, 320, rfl⟩
abbrev main_v168 : Ref sig .tc := ⟨.hbm, 321, rfl⟩
abbrev main_v169 : Ref sig .tc := ⟨.hbm, 322, rfl⟩
abbrev main_v170 : Ref sig .tc := ⟨.hbm, 323, rfl⟩
abbrev main_cst_50 : Ref sig .tc := ⟨.hbm, 324, rfl⟩
abbrev main_v171 : Ref sig .tc := ⟨.hbm, 325, rfl⟩
abbrev main_v172 : Ref sig .tc := ⟨.hbm, 326, rfl⟩
abbrev main_v173 : Ref sig .tc := ⟨.hbm, 327, rfl⟩
abbrev main_c_51 : Ref sig .tc := ⟨.hbm, 328, rfl⟩
abbrev main_v174 : Ref sig .tc := ⟨.hbm, 329, rfl⟩
abbrev main_v175 : Ref sig .tc := ⟨.hbm, 330, rfl⟩
abbrev main_c_52 : Ref sig .tc := ⟨.hbm, 331, rfl⟩
abbrev main_v176 : Ref sig .tc := ⟨.hbm, 332, rfl⟩
abbrev main_v177 : Ref sig .tc := ⟨.hbm, 333, rfl⟩
abbrev main_v178 : Ref sig .tc := ⟨.hbm, 334, rfl⟩
abbrev main_c_53 : Ref sig .tc := ⟨.hbm, 335, rfl⟩
abbrev main_v179 : Ref sig .tc := ⟨.hbm, 336, rfl⟩
abbrev main_v180 : Ref sig .tc := ⟨.hbm, 337, rfl⟩
abbrev main_v181 : Ref sig .tc := ⟨.hbm, 338, rfl⟩
abbrev main_c_54 : Ref sig .tc := ⟨.hbm, 339, rfl⟩
abbrev main_v182 : Ref sig .tc := ⟨.hbm, 340, rfl⟩
abbrev main_v183 : Ref sig .tc := ⟨.hbm, 341, rfl⟩
abbrev main_v184 : Ref sig .tc := ⟨.hbm, 342, rfl⟩
abbrev main_c_55 : Ref sig .tc := ⟨.hbm, 343, rfl⟩
abbrev main_c_56 : Ref sig .tc := ⟨.hbm, 344, rfl⟩
abbrev main_call10_v0 : Ref sig .tc := ⟨.hbm, 345, rfl⟩
abbrev main_call10_v1 : Ref sig .tc := ⟨.hbm, 346, rfl⟩
abbrev main_call10_v2 : Ref sig .tc := ⟨.hbm, 347, rfl⟩
abbrev main_call10_v3 : Ref sig .tc := ⟨.hbm, 348, rfl⟩
abbrev main_call10_v4 : Ref sig .tc := ⟨.hbm, 349, rfl⟩
abbrev main_v185 : Ref sig .tc := ⟨.hbm, 350, rfl⟩
abbrev main_c_57 : Ref sig .tc := ⟨.hbm, 351, rfl⟩
abbrev main_c_58 : Ref sig .tc := ⟨.hbm, 352, rfl⟩
abbrev main_call11_v0 : Ref sig .tc := ⟨.hbm, 353, rfl⟩
abbrev main_call11_v1 : Ref sig .tc := ⟨.hbm, 354, rfl⟩
abbrev main_call11_v2 : Ref sig .tc := ⟨.hbm, 355, rfl⟩
abbrev main_call11_v3 : Ref sig .tc := ⟨.hbm, 356, rfl⟩
abbrev main_call11_v4 : Ref sig .tc := ⟨.hbm, 357, rfl⟩
abbrev main_v186 : Ref sig .tc := ⟨.hbm, 358, rfl⟩
abbrev main_c_59 : Ref sig .tc := ⟨.hbm, 359, rfl⟩
abbrev main_v187 : Ref sig .tc := ⟨.hbm, 360, rfl⟩
abbrev main_v188 : Ref sig .tc := ⟨.hbm, 361, rfl⟩
abbrev main_c_60 : Ref sig .tc := ⟨.hbm, 362, rfl⟩
abbrev main_v189 : Ref sig .tc := ⟨.hbm, 363, rfl⟩
abbrev main_v190 : Ref sig .tc := ⟨.hbm, 364, rfl⟩
abbrev main_v191 : Ref sig .tc := ⟨.hbm, 365, rfl⟩
abbrev main_c_61 : Ref sig .tc := ⟨.hbm, 366, rfl⟩
abbrev main_v192 : Ref sig .tc := ⟨.hbm, 367, rfl⟩
abbrev main_v193 : Ref sig .tc := ⟨.hbm, 368, rfl⟩
abbrev main_c_62 : Ref sig .tc := ⟨.hbm, 369, rfl⟩
abbrev main_v194 : Ref sig .tc := ⟨.hbm, 370, rfl⟩
abbrev main_v195 : Ref sig .tc := ⟨.hbm, 371, rfl⟩
abbrev main_v196 : Ref sig .tc := ⟨.hbm, 372, rfl⟩
abbrev main_v197 : Ref sig .tc := ⟨.hbm, 373, rfl⟩
abbrev main_v198 : Ref sig .tc := ⟨.hbm, 374, rfl⟩
abbrev main_v199 : Ref sig .tc := ⟨.hbm, 375, rfl⟩
abbrev main_v200 : Ref sig .tc := ⟨.hbm, 376, rfl⟩
abbrev main_cst_63 : Ref sig .tc := ⟨.hbm, 377, rfl⟩
abbrev main_call12_v0 : Ref sig .tc := ⟨.hbm, 378, rfl⟩
abbrev main_call12_v1 : Ref sig .tc := ⟨.hbm, 379, rfl⟩
abbrev main_call12_v2 : Ref sig .tc := ⟨.hbm, 380, rfl⟩
abbrev main_v201 : Ref sig .tc := ⟨.hbm, 381, rfl⟩
abbrev main_v202 : Ref sig .tc := ⟨.hbm, 382, rfl⟩
abbrev main_v203 : Ref sig .tc := ⟨.hbm, 383, rfl⟩
abbrev main_v204 : Ref sig .tc := ⟨.hbm, 384, rfl⟩
abbrev main_v205 : Ref sig .tc := ⟨.hbm, 385, rfl⟩
abbrev main_c_64 : Ref sig .tc := ⟨.hbm, 386, rfl⟩
abbrev main_v206 : Ref sig .tc := ⟨.hbm, 387, rfl⟩
abbrev main_v207 : Ref sig .tc := ⟨.hbm, 388, rfl⟩
abbrev main_c_65 : Ref sig .tc := ⟨.hbm, 389, rfl⟩
abbrev main_v208 : Ref sig .tc := ⟨.hbm, 390, rfl⟩
abbrev main_v209 : Ref sig .tc := ⟨.hbm, 391, rfl⟩
abbrev main_v210 : Ref sig .tc := ⟨.hbm, 392, rfl⟩
abbrev main_v211 : Ref sig .tc := ⟨.hbm, 393, rfl⟩
abbrev main_v212 : Ref sig .tc := ⟨.hbm, 394, rfl⟩
abbrev main_cst_66 : Ref sig .tc := ⟨.hbm, 395, rfl⟩
abbrev main_v213 : Ref sig .tc := ⟨.hbm, 396, rfl⟩
abbrev main_v214 : Ref sig .tc := ⟨.hbm, 397, rfl⟩
abbrev main_v215 : Ref sig .tc := ⟨.hbm, 398, rfl⟩
abbrev main_v216 : Ref sig .tc := ⟨.hbm, 399, rfl⟩
abbrev main_v217 : Ref sig .tc := ⟨.hbm, 400, rfl⟩
abbrev main_cst_67 : Ref sig .tc := ⟨.hbm, 401, rfl⟩
abbrev main_v218 : Ref sig .tc := ⟨.hbm, 402, rfl⟩
abbrev main_v219 : Ref sig .tc := ⟨.hbm, 403, rfl⟩
abbrev main_v220 : Ref sig .tc := ⟨.hbm, 404, rfl⟩
abbrev main_c_68 : Ref sig .tc := ⟨.hbm, 405, rfl⟩
abbrev main_v221 : Ref sig .tc := ⟨.hbm, 406, rfl⟩
abbrev main_v222 : Ref sig .tc := ⟨.hbm, 407, rfl⟩
abbrev main_c_69 : Ref sig .tc := ⟨.hbm, 408, rfl⟩
abbrev main_v223 : Ref sig .tc := ⟨.hbm, 409, rfl⟩
abbrev main_v224 : Ref sig .tc := ⟨.hbm, 410, rfl⟩
abbrev main_v225 : Ref sig .tc := ⟨.hbm, 411, rfl⟩
abbrev main_c_70 : Ref sig .tc := ⟨.hbm, 412, rfl⟩
abbrev main_v226 : Ref sig .tc := ⟨.hbm, 413, rfl⟩
abbrev main_v227 : Ref sig .tc := ⟨.hbm, 414, rfl⟩
abbrev main_v228 : Ref sig .tc := ⟨.hbm, 415, rfl⟩
abbrev main_c_71 : Ref sig .tc := ⟨.hbm, 416, rfl⟩
abbrev main_v229 : Ref sig .tc := ⟨.hbm, 417, rfl⟩
abbrev main_v230 : Ref sig .tc := ⟨.hbm, 418, rfl⟩
abbrev main_v231 : Ref sig .tc := ⟨.hbm, 419, rfl⟩
abbrev main_c_72 : Ref sig .tc := ⟨.hbm, 420, rfl⟩
abbrev main_c_73 : Ref sig .tc := ⟨.hbm, 421, rfl⟩
abbrev main_call13_v0 : Ref sig .tc := ⟨.hbm, 422, rfl⟩
abbrev main_call13_v1 : Ref sig .tc := ⟨.hbm, 423, rfl⟩
abbrev main_call13_v2 : Ref sig .tc := ⟨.hbm, 424, rfl⟩
abbrev main_call13_v3 : Ref sig .tc := ⟨.hbm, 425, rfl⟩
abbrev main_call13_v4 : Ref sig .tc := ⟨.hbm, 426, rfl⟩
abbrev main_v232 : Ref sig .tc := ⟨.hbm, 427, rfl⟩
abbrev main_c_74 : Ref sig .tc := ⟨.hbm, 428, rfl⟩
abbrev main_c_75 : Ref sig .tc := ⟨.hbm, 429, rfl⟩
abbrev main_call14_v0 : Ref sig .tc := ⟨.hbm, 430, rfl⟩
abbrev main_call14_v1 : Ref sig .tc := ⟨.hbm, 431, rfl⟩
abbrev main_call14_v2 : Ref sig .tc := ⟨.hbm, 432, rfl⟩
abbrev main_call14_v3 : Ref sig .tc := ⟨.hbm, 433, rfl⟩
abbrev main_call14_v4 : Ref sig .tc := ⟨.hbm, 434, rfl⟩
abbrev main_v233 : Ref sig .tc := ⟨.hbm, 435, rfl⟩
abbrev main_c_76 : Ref sig .tc := ⟨.hbm, 436, rfl⟩
abbrev main_v234 : Ref sig .tc := ⟨.hbm, 437, rfl⟩
abbrev main_v235 : Ref sig .tc := ⟨.hbm, 438, rfl⟩
abbrev main_c_77 : Ref sig .tc := ⟨.hbm, 439, rfl⟩
abbrev main_v236 : Ref sig .tc := ⟨.hbm, 440, rfl⟩
abbrev main_v237 : Ref sig .tc := ⟨.hbm, 441, rfl⟩
abbrev main_v238 : Ref sig .tc := ⟨.hbm, 442, rfl⟩
abbrev main_c_78 : Ref sig .tc := ⟨.hbm, 443, rfl⟩
abbrev main_v239 : Ref sig .tc := ⟨.hbm, 444, rfl⟩
abbrev main_v240 : Ref sig .tc := ⟨.hbm, 445, rfl⟩
abbrev main_c_79 : Ref sig .tc := ⟨.hbm, 446, rfl⟩
abbrev main_v241 : Ref sig .tc := ⟨.hbm, 447, rfl⟩
abbrev main_v242 : Ref sig .tc := ⟨.hbm, 448, rfl⟩
abbrev main_v243 : Ref sig .tc := ⟨.hbm, 449, rfl⟩
abbrev main_v244 : Ref sig .tc := ⟨.hbm, 450, rfl⟩
abbrev main_v245 : Ref sig .tc := ⟨.hbm, 451, rfl⟩
abbrev main_v246 : Ref sig .tc := ⟨.hbm, 452, rfl⟩
abbrev main_v247 : Ref sig .tc := ⟨.hbm, 453, rfl⟩
abbrev main_cst_80 : Ref sig .tc := ⟨.hbm, 454, rfl⟩
abbrev main_call15_v0 : Ref sig .tc := ⟨.hbm, 455, rfl⟩
abbrev main_call15_v1 : Ref sig .tc := ⟨.hbm, 456, rfl⟩
abbrev main_call15_v2 : Ref sig .tc := ⟨.hbm, 457, rfl⟩
abbrev main_v248 : Ref sig .tc := ⟨.hbm, 458, rfl⟩
abbrev main_v249 : Ref sig .tc := ⟨.hbm, 459, rfl⟩
abbrev main_v250 : Ref sig .tc := ⟨.hbm, 460, rfl⟩
abbrev main_v251 : Ref sig .tc := ⟨.hbm, 461, rfl⟩
abbrev main_v252 : Ref sig .tc := ⟨.hbm, 462, rfl⟩
abbrev main_c_81 : Ref sig .tc := ⟨.hbm, 463, rfl⟩
abbrev main_v253 : Ref sig .tc := ⟨.hbm, 464, rfl⟩
abbrev main_v254 : Ref sig .tc := ⟨.hbm, 465, rfl⟩
abbrev main_c_82 : Ref sig .tc := ⟨.hbm, 466, rfl⟩
abbrev main_v255 : Ref sig .tc := ⟨.hbm, 467, rfl⟩
abbrev main_v256 : Ref sig .tc := ⟨.hbm, 468, rfl⟩
abbrev main_v257 : Ref sig .tc := ⟨.hbm, 469, rfl⟩
abbrev main_v258 : Ref sig .tc := ⟨.hbm, 470, rfl⟩
abbrev main_v259 : Ref sig .tc := ⟨.hbm, 471, rfl⟩
abbrev main_c_83 : Ref sig .tc := ⟨.hbm, 472, rfl⟩
abbrev main_v260 : Ref sig .tc := ⟨.hbm, 473, rfl⟩
abbrev main_v261 : Ref sig .tc := ⟨.hbm, 474, rfl⟩
abbrev main_c_84 : Ref sig .tc := ⟨.hbm, 475, rfl⟩
abbrev main_v262 : Ref sig .tc := ⟨.hbm, 476, rfl⟩
abbrev main_v263 : Ref sig .tc := ⟨.hbm, 477, rfl⟩
abbrev main_v264 : Ref sig .tc := ⟨.hbm, 478, rfl⟩
abbrev main_v265 : Ref sig .tc := ⟨.hbm, 479, rfl⟩
abbrev main_v266 : Ref sig .tc := ⟨.hbm, 480, rfl⟩
abbrev main_v267 : Ref sig .tc := ⟨.hbm, 481, rfl⟩
abbrev main_v268 : Ref sig .tc := ⟨.hbm, 482, rfl⟩
abbrev main_v269 : Ref sig .tc := ⟨.hbm, 483, rfl⟩
abbrev main_cst_85 : Ref sig .tc := ⟨.hbm, 484, rfl⟩
abbrev main_v270 : Ref sig .tc := ⟨.hbm, 485, rfl⟩

abbrev nD : Nat := 1
abbrev τ : Topo := Topo.v7x

variable {F : FTy → Type} [FloatOps F]

class Facts₀ : Prop where
  bcast_S_S192 : S_.BroadcastsInDim S192 (![] : Fin 0 → Fin S192.rank)
  slices_S16x2x64x64_S16x1x64x64_0_0_0_0 : S16x2x64x64.Slices ![0, 0, 0, 0] S16x1x64x64
  shapeCasts_S16x1x64x64_S16x64x64 : S16x1x64x64.ShapeCasts S16x64x64
  bcast_S192_S192x1_0 : S192.BroadcastsInDim S192x1 (![0] : Fin 1 → Fin S192x1.rank)
  slices_S16x2x64x64_S16x1x64x64_0_1_0_0 : S16x2x64x64.Slices ![0, 1, 0, 0] S16x1x64x64
  bcast_S192x1_S1x192x1_1_2 : S192x1.BroadcastsInDim S1x192x1 (![1, 2] : Fin 2 → Fin S1x192x1.rank)
  bcast_S1x192x1_S16x192x192_0_1_2 : S1x192x1.BroadcastsInDim S16x192x192 (![0, 1, 2] : Fin 3 → Fin S16x192x192.rank)
  bcast_S192_S1x192_1 : S192.BroadcastsInDim S1x192 (![1] : Fin 1 → Fin S1x192.rank)
  bcast_S1x192_S1x1x192_1_2 : S1x192.BroadcastsInDim S1x1x192 (![1, 2] : Fin 2 → Fin S1x1x192.rank)
  bcast_S1x1x192_S16x192x192_0_1_2 : S1x1x192.BroadcastsInDim S16x192x192 (![0, 1, 2] : Fin 3 → Fin S16x192x192.rank)
  bcast_S_S256x192x192 : S_.BroadcastsInDim S256x192x192 (![] : Fin 0 → Fin S256x192x192.rank)
  bcast_S_S16x192x192 : S_.BroadcastsInDim S16x192x192 (![] : Fin 0 → Fin S16x192x192.rank)
  bcast_S16x192x192_S16x192x192x1_0_1_2 : S16x192x192.BroadcastsInDim S16x192x192x1 (![0, 1, 2] : Fin 3 → Fin S16x192x192x1.rank)
  concatenates_S16x192x192x1_S16x192x192x1_S16x192x192x2_d3 : Shape.Concatenates [S16x192x192x1, S16x192x192x1] S16x192x192x2 3
  bcast_S_S192x192 : S_.BroadcastsInDim S192x192 (![] : Fin 0 → Fin S192x192.rank)
  bcast_S192x192_S16x192x192_1_2 : S192x192.BroadcastsInDim S16x192x192 (![1, 2] : Fin 2 → Fin S16x192x192.rank)
  bcast_S16x192x192_S16x1x192x192_0_2_3 : S16x192x192.BroadcastsInDim S16x1x192x192 (![0, 2, 3] : Fin 3 → Fin S16x1x192x192.rank)
  bcast_S16x1x192x192_S16x256x192x192_0_1_2_3 : S16x1x192x192.BroadcastsInDim S16x256x192x192 (![0, 1, 2, 3] : Fin 4 → Fin S16x256x192x192.rank)
  bcast_S256x192x192_S1x256x192x192_1_2_3 : S256x192x192.BroadcastsInDim S1x256x192x192 (![1, 2, 3] : Fin 3 → Fin S1x256x192x192.rank)
  bcast_S1x256x192x192_S16x256x192x192_0_1_2_3 : S1x256x192x192.BroadcastsInDim S16x256x192x192 (![0, 1, 2, 3] : Fin 4 → Fin S16x256x192x192.rank)
  shapeCasts_S16x256x192x192_S4x4x256x192x192 : S16x256x192x192.ShapeCasts S4x4x256x192x192
  reducesTo_S4x4x256x192x192_S4x256x192x192_d0 : S4x4x256x192x192.ReducesTo [0] S4x256x192x192
  h_S_ : 0 < S_.numel
  gather_S16x64x64_S192x1_S16x192x64_02_1_n_n_1_1_16164_wf : GatherDims.WF S16x64x64 S192x1 S16x192x64 [0, 2] [1] [] [1] [] 1 ![16, 1, 64]
  gather_S16x192x64_S192x1_S16x192x192_01_2_n_n_2_1_161921_wf : GatherDims.WF S16x192x64 S192x1 S16x192x192 [0, 1] [2] [] [2] [] 1 ![16, 192, 1]
  gather_S16x256x64x64_S16x192x192x2_S16x256x192x192_1_23_0_0_23_3_125611_wf : GatherDims.WF S16x256x64x64 S16x192x192x2 S16x256x192x192 [1] [2, 3] [0] [2, 3] [0] 3 ![1, 256, 1, 1]
  gather_S16x1x64x64_S192x1_S16x1x192x64_013_2_n_n_2_1_161164_wf : GatherDims.WF S16x1x64x64 S192x1 S16x1x192x64 [0, 1, 3] [2] [] [2] [] 1 ![16, 1, 1, 64]
  gather_S16x1x192x64_S192x1_S16x1x192x192_012_3_n_n_3_1_1611921_wf : GatherDims.WF S16x1x192x64 S192x1 S16x1x192x192 [0, 1, 2] [3] [] [3] [] 1 ![16, 1, 192, 1]

variable [Facts₀]

def gather_S16x64x64_S192x1_S16x192x64_02_1_n_n_1_1_16164 : GatherDims S16x64x64 S192x1 S16x192x64 where
  offsetDims := [0, 2]
  collapsedSliceDims := [1]
  operandBatchingDims := []
  startIndicesBatchingDims := []
  startIndexMap := [1]
  indexVectorDim := 1
  sliceSizes := ![16, 1, 64]
  wf := gather_S16x64x64_S192x1_S16x192x64_02_1_n_n_1_1_16164_wf
def gather_S16x192x64_S192x1_S16x192x192_01_2_n_n_2_1_161921 : GatherDims S16x192x64 S192x1 S16x192x192 where
  offsetDims := [0, 1]
  collapsedSliceDims := [2]
  operandBatchingDims := []
  startIndicesBatchingDims := []
  startIndexMap := [2]
  indexVectorDim := 1
  sliceSizes := ![16, 192, 1]
  wf := gather_S16x192x64_S192x1_S16x192x192_01_2_n_n_2_1_161921_wf
def gather_S16x256x64x64_S16x192x192x2_S16x256x192x192_1_23_0_0_23_3_125611 : GatherDims S16x256x64x64 S16x192x192x2 S16x256x192x192 where
  offsetDims := [1]
  collapsedSliceDims := [2, 3]
  operandBatchingDims := [0]
  startIndicesBatchingDims := [0]
  startIndexMap := [2, 3]
  indexVectorDim := 3
  sliceSizes := ![1, 256, 1, 1]
  wf := gather_S16x256x64x64_S16x192x192x2_S16x256x192x192_1_23_0_0_23_3_125611_wf
def gather_S16x1x64x64_S192x1_S16x1x192x64_013_2_n_n_2_1_161164 : GatherDims S16x1x64x64 S192x1 S16x1x192x64 where
  offsetDims := [0, 1, 3]
  collapsedSliceDims := [2]
  operandBatchingDims := []
  startIndicesBatchingDims := []
  startIndexMap := [2]
  indexVectorDim := 1
  sliceSizes := ![16, 1, 1, 64]
  wf := gather_S16x1x64x64_S192x1_S16x1x192x64_013_2_n_n_2_1_161164_wf
def gather_S16x1x192x64_S192x1_S16x1x192x192_012_3_n_n_3_1_1611921 : GatherDims S16x1x192x64 S192x1 S16x1x192x192 where
  offsetDims := [0, 1, 2]
  collapsedSliceDims := [3]
  operandBatchingDims := []
  startIndicesBatchingDims := []
  startIndexMap := [3]
  indexVectorDim := 1
  sliceSizes := ![16, 1, 192, 1]
  wf := gather_S16x1x192x64_S192x1_S16x1x192x192_012_3_n_n_3_1_1611921_wf

class Facts : Prop extends Facts₀ where

variable [Facts]
-- ==== Proof.Spec.lean ====
/-
  The ordered sum of the four flow candidates.

  The kernel's grid visits, for every output block, the four candidate rows 4k + b (k = 0, 1, 2, 3) of the leading
  axis of the weighted samples one after the other, starting from the zero block: what it leaves at an index is
  (((0 + w₀) + w₁) + w₂) + w₃ of the four candidates' values there. This module states that function over literal
  shapes; it imports no program.
-/
import Idealize.ShloMosaic.PureOps.Ideal
import Idealize.ShloMosaic.Lib.ValueIdx

noncomputable section

namespace Cert.FlowAccum

open Idealize.ShloMosaic

/-- The weighted samples with the two image axes merged: [16, 256, 36864]. -/
abbrev SW3 : Shape := ⟨3, ![16, 256, 36864]⟩
/-- The accumulated output with the two image axes merged: [4, 256, 36864]. -/
abbrev SO3 : Shape := ⟨3, ![4, 256, 36864]⟩

/-- Candidate k's copy of the output index i: row 4k + i₀ of the leading axis, the other coordinates kept. -/
def cand (k : Fin 4) (i : SO3.Idx) : SW3.Idx :=
  fun a => match a with
    | ⟨0, _⟩ => ⟨4 * k.val + (i 0).val, by have h1 : (i 0).val < 4 := (i 0).isLt; have := k.isLt; show _ < 16; omega⟩
    | ⟨1, _⟩ => i 1
    | ⟨2, _⟩ => i 2

/-- The ordered sum of the four candidates from zero, index by index, on the extended reals. -/
def acc4 (W : SW3.Idx → Ideal .f32) : SO3.Idx → Ideal .f32 :=
  fun i => (((Ideal.ofBits .f32 0x00000000#32 + W (cand 0 i)) + W (cand 1 i)) + W (cand 2 i)) + W (cand 3 i)

end Cert.FlowAccum

end
-- ==== Proof.KernelAcc.lean ====
/-
  The value of the accumulation region and of the reshape after it.

  The grid has 64 points t = 16 b + 4 d + k (b, d, k < 4; k innermost). Point t stages block (4 k + b, d, 0) of the
  input array [16, 256, 36864] (blocks [1, 64, 36864]) and holds block (b, d, 0) of the output [4, 256, 36864].
  The body resets the output block to zero when k = 0 and then adds the input block at every point; the block is written
  back at k = 3. So the block written back at point 4 q + 3 is (((0 + x₀) + x₁) + x₂) + x₃ of the four input blocks
  of points 4 q … 4 q + 3, whose elements are the four candidate rows 4 k + b of the input array at the same trailing
  coordinates: at every index the output array ends at the ordered sum of the four candidates from zero. The sixteen
  written blocks tile the output array: index (b, r, l) lies in the block of point 4 (4 b + r / 64) + 3.
-/
import proofs.«160207_j39779987095835_2_alg».proof.Proof.Gen.KernelIdeal.Frame
import proofs.«160207_j39779987095835_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

/-! ## What one point leaves in the output's staging buffer (any float instance) -/

section AnyInstance

variable {F : FTy → Type} [FloatOps F]
variable (m : (ℓ : Loc nD τ sig) → Buf (Elt F) ℓ)

theorem hz : (![0, 0, 0] : Fin 3 → Nat) = fun _ => 0 := funext fun a => by fin_cases a <;> rfl

/-- The zero block the reset stores: a broadcast of +0.0. -/
abbrev zero : Vec F S1x64x36864 .f32 := broadcast S1x64x36864 (Scalar.ofBits .f32 0x00000000#32)

/-- A point with k ≠ 0: the body's one covering store leaves the sum of what the buffer held and the input block. -/
theorem out_B (c : Dev nD) (i : grid0.Coords) (a1 : Memref sig .tc .vmem S1x64x36864 .f32) (h1 : a1.IsWhole)
    (a2 : Memref sig .tc .vmem S1x64x36864 .f32) (h2 : a2.IsWhole) (hc : ¬cond0_0 i) (x xo : Vec F S1x64x36864 .f32) :
    out0_B_1 c i a1 h1 a2 h2 hc x xo = addf xo x := by
  unfold out0_B_1
  rw [View.read_writes_eq_canon _ _ _ (cover0_B_1 c i a1 h1 a2 h2 hc x xo)]
  unfold kernelRun0_B
  dsimp only
  rw [View.canon_unit_zero hz]
  unfold k0_pay2
  simp only [View.readAt_eq_ld, h1.read_unread, h2.read_unread, View.ld_unit_zero (S := S1x64x36864) hz, shapeCast_self]

/-- A point with k = 0: the body stores the zero block, reads it back, and leaves zero plus the input block. -/
theorem out_A (c : Dev nD) (i : grid0.Coords) (a1 : Memref sig .tc .vmem S1x64x36864 .f32) (h1 : a1.IsWhole)
    (a2 : Memref sig .tc .vmem S1x64x36864 .f32) (h2 : a2.IsWhole) (hc : cond0_0 i) (x : Vec F S1x64x36864 .f32) :
    out0_A_1 c i a1 h1 a2 h2 hc x = addf zero x := by
  unfold out0_A_1
  rw [View.read_writes_eq_canon _ _ _ (cover0_A_1 c i a1 h1 a2 h2 hc x)]
  unfold kernelRun0_A
  dsimp only
  sl_unfold_words
  rw [View.canon_cons_unit_zero (S := S1x64x36864) hz, View.readCov_unit_zero (S := S1x64x36864) _ hz]
  unfold k0_pay2 k0_pay1
  simp only [View.readAt_eq_ld, h1.read_unread, View.ld_unit_zero (S := S1x64x36864) hz, shapeCast_self]

/-- A point whose innermost coordinate is zero leaves the zero block plus its input block. -/
theorem outs_reset (c : Dev nD) (n : ℕ) (h : n < cfg0.N) (h0 : n % 4 = 0) :
    outsAt0 m c n h = addf zero (iblk m c 0 ⟨n, h⟩) :=
  (outsAt0_A m c ⟨n, h⟩ h0).trans
    (out_A c (grid0.coords ⟨n, h⟩) (ms0_0 ⟨n, h⟩) (hs0_0 ⟨n, h⟩) (ms0_1 ⟨n, h⟩) (hs0_1 ⟨n, h⟩) ((hcond0_0 ⟨n, h⟩).mpr h0) (iblk m c 0 ⟨n, h⟩))

/-- Any other point adds its input block onto what the point before left. -/
theorem outs_step (c : Dev nD) (n : ℕ) (h : n + 1 < cfg0.N) (h0 : ¬(n + 1) % 4 = 0) :
    outsAt0 m c (n + 1) h = addf (outsAt0 m c n (Nat.lt_of_succ_lt h)) (iblk m c 0 ⟨n + 1, h⟩) :=
  (outsAt0_B m c ⟨n + 1, h⟩ h0).trans
    (out_B c (grid0.coords ⟨n + 1, h⟩) (ms0_0 ⟨n + 1, h⟩) (hs0_0 ⟨n + 1, h⟩) (ms0_1 ⟨n + 1, h⟩) (hs0_1 ⟨n + 1, h⟩)
      (fun hh => h0 ((hcond0_0 ⟨n + 1, h⟩).mp hh)) (iblk m c 0 ⟨n + 1, h⟩) (outsAt0 m c n (Nat.lt_of_succ_lt h)))

/-- At the last point 4 q + 3 of a group the staging buffer holds the ordered sum of the group's four input blocks
    from the zero block. -/
theorem outs_flush (c : Dev nD) (q : ℕ) (h : 4 * q + 3 < cfg0.N) :
    outsAt0 m c (4 * q + 3) h
      = addf (addf (addf (addf zero (iblk m c 0 ⟨4 * q, by omega⟩)) (iblk m c 0 ⟨4 * q + 1, by omega⟩))
          (iblk m c 0 ⟨4 * q + 2, by omega⟩)) (iblk m c 0 ⟨4 * q + 3, h⟩) := by
  have e3 := outs_step m c (4 * q + 2) h (by omega)
  have e2 := outs_step m c (4 * q + 1) (by omega) (by omega)
  have e1 := outs_step m c (4 * q) (by omega) (by omega)
  have e0 := outs_reset m c (4 * q) (by omega) (by omega)
  rw [e0] at e1; rw [e1] at e2; rw [e2] at e3; exact e3

/-! ## Blocks as parts of their arrays -/

/-- The block indices of the two windows in closed form, decided over the 64 points: point t = 16 b + 4 d + k reads
    input block (4 k + b, d, 0) and holds output block (b, d, 0). -/
theorem idx_facts : ∀ t : Fin cfg0.N,
      win0_0.index t (0 : Fin 3) = 4 * (t.val % 4) + t.val / 16
    ∧ win0_0.index t (1 : Fin 3) = t.val / 4 % 4
    ∧ win0_0.index t (2 : Fin 3) = 0
    ∧ win0_1.index t (0 : Fin 3) = t.val / 16
    ∧ win0_1.index t (1 : Fin 3) = t.val / 4 % 4
    ∧ win0_1.index t (2 : Fin 3) = 0 :=
  (by decide +kernel : ∀ t : Fin grid0.N, _)

/-- An element of the input window's block at point t is the array's element, on each axis, at block index × block
    size + the coordinate inside the block. -/
theorem blk0_read (A : S16x256x36864.Idx → Elt F .f32) (t : Fin cfg0.N) (y : S1x64x36864.Idx) (k : S16x256x36864.Idx)
    (h0 : (k 0).val = win0_0.index t (0 : Fin 3) * 1 + 1 * (y 0).val)
    (h1 : (k 1).val = win0_0.index t (1 : Fin 3) * 64 + 1 * (y 1).val)
    (h2 : (k 2).val = win0_0.index t (2 : Fin 3) * 36864 + 1 * (y 2).val) :
    ((cfg0.win 0).blk t).view.read (Elt F) A y = A k := by
  rw [View.read_apply]
  show A _ = A k
  congr 1
  funext a
  apply Fin.ext
  match a with
  | ⟨0, _⟩ => exact h0.symm
  | ⟨1, _⟩ => exact h1.symm
  | ⟨2, _⟩ => exact h2.symm

/-- The same for the output window. -/
theorem blk1_read (A : S4x256x36864.Idx → Elt F .f32) (t : Fin cfg0.N) (y : S1x64x36864.Idx) (k : S4x256x36864.Idx)
    (h0 : (k 0).val = win0_1.index t (0 : Fin 3) * 1 + 1 * (y 0).val)
    (h1 : (k 1).val = win0_1.index t (1 : Fin 3) * 64 + 1 * (y 1).val)
    (h2 : (k 2).val = win0_1.index t (2 : Fin 3) * 36864 + 1 * (y 2).val) :
    ((cfg0.win 1).blk t).view.read (Elt F) A y = A k := by
  rw [View.read_apply]
  show A _ = A k
  congr 1
  funext a
  apply Fin.ext
  match a with
  | ⟨0, _⟩ => exact h0.symm
  | ⟨1, _⟩ => exact h1.symm
  | ⟨2, _⟩ => exact h2.symm

/-- Candidate k's copy of an output index in the block of group q (rows q / 4, q % 4 · 64 + y₁, lane y₂) is the element
    y of the input block at point 4 q + k. -/
theorem cand_read (A : S16x256x36864.Idx → Elt F .f32) (q : ℕ) (k : Fin 4) (h : 4 * q + k.val < cfg0.N)
    (y : S1x64x36864.Idx) (i : S4x256x36864.Idx)
    (hi0 : (i 0).val = q / 4) (hi1 : (i 1).val = q % 4 * 64 + (y 1).val) (hi2 : (i 2).val = (y 2).val) :
    ((cfg0.win 0).blk ⟨4 * q + k.val, h⟩).view.read (Elt F) A y = A (Cert.FlowAccum.cand k i) := by
  have hN : cfg0.N = 64 := N_0
  have hk : k.val < 4 := k.isLt
  have y0 : (y 0).val < 1 := (y 0).isLt
  obtain ⟨f0, f1, f2, -, -, -⟩ := idx_facts ⟨4 * q + k.val, h⟩
  dsimp only at f0 f1 f2
  refine blk0_read A ⟨4 * q + k.val, h⟩ y (Cert.FlowAccum.cand k i) ?_ ?_ ?_
  · show 4 * k.val + (i 0).val = _
    omega
  · show (i 1).val = _
    omega
  · show (i 2).val = _
    omega

/-- An index of the output array is in point t's block iff each coordinate is in the block's range on its axis. -/
theorem mem_blk1 (t : Fin cfg0.N) (i : S4x256x36864.Idx) :
    i ∈ ((cfg0.win 1).blk t).view.set ↔ ∀ a : Fin 3, win0_1.index t a * S1x64x36864.size a ≤ (i a).val ∧ (i a).val < win0_1.index t a * S1x64x36864.size a + S1x64x36864.size a := by
  show i ∈ ((View.whole main_v272).slice (win0_1.rect t)).set ↔ _
  rw [View.set_slice_whole, Rect.mem_set_unit]
  exact Iff.rfl

/-- The written blocks tile the output array: index (b, r, l) lies in the block of point 4 (4 b + r / 64) + 3. -/
theorem cover (i : S4x256x36864.Idx) :
    ∃ t : Fin cfg0.N, (cfg0.win 1).flush t = true ∧ i ∈ ((cfg0.win 1).blk t).view.set := by
  have hN : cfg0.N = 64 := N_0
  have i0 : (i 0).val < 4 := (i 0).isLt
  have i1 : (i 1).val < 256 := (i 1).isLt
  have i2 : (i 2).val < 36864 := (i 2).isLt
  have ht : 4 * (4 * (i 0).val + (i 1).val / 64) + 3 < cfg0.N := by omega
  refine ⟨⟨4 * (4 * (i 0).val + (i 1).val / 64) + 3, ht⟩, (flush0_1 _).mpr (by dsimp only; omega), ?_⟩
  obtain ⟨-, -, -, g0, g1, g2⟩ := idx_facts ⟨4 * (4 * (i 0).val + (i 1).val / 64) + 3, ht⟩
  dsimp only at g0 g1 g2
  rw [mem_blk1]
  intro a
  match a with
  | ⟨0, _⟩ =>
    show win0_1.index ⟨4 * (4 * (i 0).val + (i 1).val / 64) + 3, ht⟩ (0 : Fin 3) * 1 ≤ (i 0).val
      ∧ (i 0).val < win0_1.index ⟨4 * (4 * (i 0).val + (i 1).val / 64) + 3, ht⟩ (0 : Fin 3) * 1 + 1
    omega
  | ⟨1, _⟩ =>
    show win0_1.index ⟨4 * (4 * (i 0).val + (i 1).val / 64) + 3, ht⟩ (1 : Fin 3) * 64 ≤ (i 1).val
      ∧ (i 1).val < win0_1.index ⟨4 * (4 * (i 0).val + (i 1).val / 64) + 3, ht⟩ (1 : Fin 3) * 64 + 64
    omega
  | ⟨2, _⟩ =>
    show win0_1.index ⟨4 * (4 * (i 0).val + (i 1).val / 64) + 3, ht⟩ (2 : Fin 3) * 36864 ≤ (i 2).val
      ∧ (i 2).val < win0_1.index ⟨4 * (4 * (i 0).val + (i 1).val / 64) + 3, ht⟩ (2 : Fin 3) * 36864 + 36864
    omega

end AnyInstance

/-! ## At the ideal instance: the output array, then the reshape -/

section AtIdeal

variable (m : (ℓ : Loc nD τ sig) → Buf (Elt Ideal) ℓ) (ρ : Dev nD → PrngReg)

/-- The ordered sum of four blocks from the zero block, at an element whose four summands are the four candidates' values
    at an output index, is the specification's value there. -/
theorem acc_point (W : S16x256x36864.Idx → Ideal .f32) (x0 x1 x2 x3 : Vec Ideal S1x64x36864 .f32)
    (y : S1x64x36864.Idx) (i : S4x256x36864.Idx)
    (e0 : x0 y = W (Cert.FlowAccum.cand 0 i)) (e1 : x1 y = W (Cert.FlowAccum.cand 1 i))
    (e2 : x2 y = W (Cert.FlowAccum.cand 2 i)) (e3 : x3 y = W (Cert.FlowAccum.cand 3 i)) :
    addf (addf (addf (addf zero x0) x1) x2) x3 y = Cert.FlowAccum.acc4 W i := by
  unfold Cert.FlowAccum.acc4
  rw [← e0, ← e1, ← e2, ← e3]
  rfl

/-- What a writing point writes back is its block of the ordered sum of the four candidates. -/
theorem flushed_eq (c : Dev nD) (t : Fin cfg0.N) (hf : (cfg0.win 1).flush t = true) :
    (dats m 0 c).flushed 1 t
      = ((cfg0.win 1).blk t).view.read (Elt Ideal) (Cert.FlowAccum.acc4 (V m c main_v271)) := by
  have hN : cfg0.N = 64 := N_0
  have h3 : t.val % 4 = 3 := (flush0_1 t).mp hf
  obtain ⟨n, hn⟩ := t
  dsimp only at h3
  obtain ⟨q, rfl⟩ : ∃ q, n = 4 * q + 3 := ⟨n / 4, by omega⟩
  show (cfg0.win 1).cut (grid0.coords ⟨4 * q + 3, hn⟩) ((dats m 0 c).after 1 ⟨4 * q + 3, hn⟩) = _
  rw [after0_1]
  dsimp only
  rw [outs_flush m c q hn]
  funext j
  have j1 : (j 1).val < 64 := (j 1).isLt
  have j2 : (j 2).val < 36864 := (j 2).isLt
  have j0 : (j 0).val < 1 := (j 0).isLt
  obtain ⟨-, -, -, g0, g1, g2⟩ := idx_facts ⟨4 * q + 3, hn⟩
  dsimp only at g0 g1 g2
  -- the array index of element j of the block: rows q / 4 and q % 4 · 64 + j₁, lane j₂
  have hi : ∃ i : S4x256x36864.Idx, (i 0).val = q / 4 ∧ (i 1).val = q % 4 * 64 + (j 1).val ∧ (i 2).val = (j 2).val :=
    ⟨ValueIdx.ix3 (⟨q / 4, by omega⟩ : Fin 4) (⟨q % 4 * 64 + (j 1).val, by omega⟩ : Fin 256) (⟨(j 2).val, j2⟩ : Fin 36864),
      rfl, rfl, rfl⟩
  obtain ⟨i, hi0, hi1, hi2⟩ := hi
  refine (acc_point (V m c main_v271) (iblk m c 0 ⟨4 * q, by omega⟩) (iblk m c 0 ⟨4 * q + 1, by omega⟩)
    (iblk m c 0 ⟨4 * q + 2, by omega⟩) (iblk m c 0 ⟨4 * q + 3, hn⟩) j i
    (cand_read (V m c main_v271) q 0 (by omega) j i hi0 hi1 hi2)
    (cand_read (V m c main_v271) q 1 (by omega) j i hi0 hi1 hi2)
    (cand_read (V m c main_v271) q 2 (by omega) j i hi0 hi1 hi2)
    (cand_read (V m c main_v271) q 3 (by omega) j i hi0 hi1 hi2)).trans ?_
  refine (blk1_read (F := Ideal) (Cert.FlowAccum.acc4 (V m c main_v271)) ⟨4 * q + 3, hn⟩ j i ?_ ?_ ?_).symm
  · omega
  · omega
  · omega

/-- The output array after the region: the ordered sum of the four candidates, index by index. -/
theorem final_acc (c : Dev nD) : (dats m 0 c).arrAt 1 cfg0.N = Cert.FlowAccum.acc4 (V m c main_v271) :=
  (dats m 0 c).arrAt_eq_of_cover 1 (Cert.FlowAccum.acc4 (V m c main_v271)) (flushed_eq m c) cover

/-- The one host line after the region reshapes the output array. -/
theorem tail_reshape (c : Dev nD) :
    Pipeline.afterTail₀ cfgs (dats m) 0 (V0 m) [hostOps1] c main_v273
      = shapeCast S4x256x192x192 (Cert.FlowAccum.acc4 (V m c main_v271)) shapeCasts_S4x256x36864_S4x256x192x192 := by
  unfold Pipeline.afterTail₀
  show StableHlo.after hostOps1 _ (Proc.devRef .tc main_v273) = _
  after_results
  have e : Pipeline.withArrays (cfgs 0).spec c (V0 m c) (fun w => (dats m 0 c).arrAt w (cfgs 0).N) (Proc.devRef .tc main_v272)
      = Cert.FlowAccum.acc4 (V m c main_v271) :=
    (Pipeline.withArrays_arr spec0 launch0.win.arr_inj c _ _ 1).trans (final_acc m c)
  rw [e]
  rfl

/-- The run, read: the reshaped ordered sum in the result, the three arguments as launched. -/
theorem run : θ_run defs (onTc (τ := τ) (main (F := Ideal))) ⟨m, fun _ => 0, ρ⟩ fun r => ∀ c : Dev nD,
      r.2.mem ((c.tc : Thread nD τ).loc main_v273)
        = shapeCast S4x256x192x192 (Cert.FlowAccum.acc4 (V m c main_v271)) shapeCasts_S4x256x36864_S4x256x192x192
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v273 (Pipeline.mem_restRefs_of main_v273 (by decide) (by decide))).trans (tail_reshape m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end AtIdeal

end Cert.KernelIdeal.Acc

end
-- ==== Proof.LibHostLine.lean ====
/- A straight line of host operations, taken in pieces.

General facts about a straight line of host operations on a device, used to treat a long program window by window.

* An operation that "writes past slot n" writes exactly one device buffer, and that buffer's slot index is at least n.
  A line made only of such operations leaves every buffer in a slot below n with the contents it started from: the
  argument arrays of a program sit in the first slots, so this is "the arguments end unchanged".
* What a concatenation of two lines leaves is what the second leaves of what the first leaves.
* The three side conditions a run of a line asks (only device buffers touched, nothing allocated, the writes past a slot)
  hold of a concatenation when they hold of the pieces.
* A line in single-assignment form with ascending slots — each operation writes one buffer, in a slot above every slot
  written before it, and its result depends only on buffers in lower slots — satisfies its own equations at the end: the
  final contents of each operation's result buffer are that operation's function of the FINAL contents of the buffers
  (nothing it reads is written again, and nothing later writes its result). This turns a long line into a system of
  equations between named buffers, one per operation, to be used in any order. -/
import Idealize.ShloMosaic.Lib.StableHlo.Run

noncomputable section

namespace Idealize.ShloMosaic.StableHlo

variable {nD : Nat} {τ : Topo} {sig : RefSig} {Val : EltTy → Type}

/-- The operation writes exactly one device buffer, in a slot of index at least n. -/
def WritesPast (n : ℕ) (op : HloOp τ sig Val) : Prop :=
  ∃ y : Ref sig .tc, op.writes = {Proc.devRef (τ := τ) .tc y} ∧ n ≤ y.idx.val

/-- A line of operations that all write past slot n leaves a buffer in a slot below n as it found it. -/
theorem after_keep_of_writesPast {n : ℕ} {r : Ref sig .tc} (hr : r.idx.val < n) (ops : List (HloOp τ sig Val))
    (V : Valuation τ sig Val) (h : ops.Forall (WritesPast (τ := τ) n)) :
    after ops V (Proc.devRef .tc r) = V (Proc.devRef .tc r) :=
  after_of_forall_not_mem ops V fun op hop hb => by
    obtain ⟨y, hw, hy⟩ := (List.forall_iff_forall_mem.mp h) op hop
    rw [hw, Finset.mem_singleton] at hb
    have : r = y := Proc.devRef_injective _ hb
    subst this
    omega

/-- Two lines one after the other: the second's effect on the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lines is one of their concatenation. -/
theorem forall_append_of {p : HloOp τ sig Val → Prop} {l₁ l₂ : List (HloOp τ sig Val)}
    (h₁ : l₁.Forall p) (h₂ : l₂.Forall p) : (l₁ ++ l₂).Forall p :=
  List.forall_iff_forall_mem.mpr fun op hop =>
    (List.mem_append.mp hop).elim (List.forall_iff_forall_mem.mp h₁ op) (List.forall_iff_forall_mem.mp h₂ op)

/-- The operation's result at y depends only on the contents of buffers in slots below y's. -/
def ReadsBelow (op : HloOp τ sig Val) (y : Ref sig .tc) : Prop :=
  ∀ F G : Valuation τ sig Val,
    (∀ r : Ref sig .tc, r.idx.val < y.idx.val → F (Proc.devRef .tc r) = G (Proc.devRef .tc r)) →
    op.result F (Proc.devRef .tc y) = op.result G (Proc.devRef .tc y)

/-- Single assignment with ascending slots, from slot n up to (not including) slot m: each operation writes one buffer, at
    a slot not below n and above all earlier ones, reads only below its own slot, and the last slot written is below m. -/
def AscendingTo : ℕ → List (HloOp τ sig Val) → ℕ → Prop
  | n, [], m => n ≤ m
  | n, op :: ops, m => ∃ y : Ref sig .tc, op.writes = {Proc.devRef (τ := τ) .tc y} ∧ n ≤ y.idx.val ∧ ReadsBelow op y
      ∧ AscendingTo (y.idx.val + 1) ops m

/-- Starting lower is weaker. -/
theorem AscendingTo.mono_start {n k m : ℕ} (hkn : k ≤ n) : ∀ {ops : List (HloOp τ sig Val)},
    AscendingTo n ops m → AscendingTo k ops m
  | [], h => le_trans hkn h
  | _ :: _, ⟨y, hw, hn, hr, hrest⟩ => ⟨y, hw, le_trans hkn hn, hr, hrest⟩

/-- An ascending line writes only at or past its starting slot. -/
theorem AscendingTo.forall_writesPast : ∀ {n m : ℕ} {ops : List (HloOp τ sig Val)}, AscendingTo n ops m →
    ops.Forall (WritesPast (τ := τ) n)
  | _, _, [], _ => List.forall_iff_forall_mem.mpr fun _ h => nomatch h
  | n, m, op :: ops, ⟨y, hw, hn, _, hrest⟩ =>
    List.forall_iff_forall_mem.mpr fun o ho => by
      rcases List.mem_cons.mp ho with rfl | ho'
      · exact ⟨y, hw, hn⟩
      · obtain ⟨z, hz, hzn⟩ := List.forall_iff_forall_mem.mp (AscendingTo.forall_writesPast hrest) o ho'
        exact ⟨z, hz, by omega⟩

/-- Ascending lines join end to start. -/
theorem AscendingTo.append : ∀ {n k m : ℕ} {l₁ l₂ : List (HloOp τ sig Val)}, AscendingTo n l₁ k → AscendingTo k l₂ m →
    AscendingTo n (l₁ ++ l₂) m
  | _, _, _, [], _, h₁, h₂ => AscendingTo.mono_start h₁ h₂
  | _, _, _, _ :: _, _, ⟨y, hw, hn, hr, hrest⟩, h₂ => ⟨y, hw, hn, hr, AscendingTo.append hrest h₂⟩

/-- **An ascending single-assignment line satisfies its own equations at the end.** -/
theorem AscendingTo.fixpoint : ∀ {n m : ℕ} {ops : List (HloOp τ sig Val)}, AscendingTo n ops m → ∀ (V : Valuation τ sig Val),
    ∀ op ∈ ops, ∀ y : Ref sig .tc, op.writes = {Proc.devRef (τ := τ) .tc y} → ReadsBelow op y →
      after ops V (Proc.devRef .tc y) = op.result (after ops V) (Proc.devRef .tc y)
  | _, _, [], _, _, _, ho, _, _, _ => nomatch ho
  | n, m, op₀ :: rest, ⟨y₀, hw₀, hn₀, hr₀, hrest⟩, V, op, ho, y, hw, hr => by
    rcases List.mem_cons.mp ho with rfl | ho'
    · -- the head: nothing later writes its result, and what it reads is below every later write
      have hy : y = y₀ := by
        have : Proc.devRef (τ := τ) .tc y ∈ ({Proc.devRef (τ := τ) .tc y₀} : Finset _) := by
          rw [← hw₀, hw]; exact Finset.mem_singleton_self _
        exact Proc.devRef_injective _ (Finset.mem_singleton.mp this)
      subst hy
      have hpast := AscendingTo.forall_writesPast hrest
      rw [after_cons, after_keep_of_writesPast (Nat.lt_succ_self _) rest _ hpast]
      refine hr _ _ fun r hrlt => ?_
      have h1 : after rest (op.result V) (Proc.devRef .tc r) = op.result V (Proc.devRef .tc r) :=
        after_keep_of_writesPast (by omega) rest _ hpast
      rw [h1]
      refine (op.result_of_not_mem V ?_).symm
      rw [hw₀, Finset.mem_singleton]
      intro he
      have : r = y := Proc.devRef_injective _ he
      subst this
      omega
    · exact AscendingTo.fixpoint hrest (op₀.result V) op ho' y hw hr

/-! The builders of host operations read only their operands. -/

section Builders

variable (x a b c y : Ref sig .tc)

theorem readsBelow_nullary (v : y.ty.Contents Val) (hy) : ReadsBelow (nullary (τ := τ) y v hy) y :=
  fun F G _ => by rw [nullary_result, nullary_result]

theorem readsBelow_unary (f : x.ty.Contents Val → y.ty.Contents Val) (hx hy) (h : x.idx.val < y.idx.val) :
    ReadsBelow (unary (τ := τ) x y f hx hy) y :=
  fun F G hFG => by rw [unary_result, unary_result, hFG x h]

theorem readsBelow_binary (f : a.ty.Contents Val → b.ty.Contents Val → y.ty.Contents Val) (ha hb hy)
    (h₁ : a.idx.val < y.idx.val) (h₂ : b.idx.val < y.idx.val) : ReadsBelow (binary (τ := τ) a b y f ha hb hy) y :=
  fun F G hFG => by rw [binary_result, binary_result, hFG a h₁, hFG b h₂]

theorem readsBelow_ternary (f : c.ty.Contents Val → a.ty.Contents Val → b.ty.Contents Val → y.ty.Contents Val) (hc ha hb hy)
    (h₀ : c.idx.val < y.idx.val) (h₁ : a.idx.val < y.idx.val) (h₂ : b.idx.val < y.idx.val) :
    ReadsBelow (ternary (τ := τ) c a b y f hc ha hb hy) y :=
  fun F G hFG => by rw [ternary_result, ternary_result, hFG c h₀, hFG a h₁, hFG b h₂]

theorem readsBelow_reshape (he hn hx hy) (h : x.idx.val < y.idx.val) :
    ReadsBelow (reshape (τ := τ) (Val := Val) x y he hn hx hy) y :=
  fun F G hFG => by rw [reshape_result, reshape_result, hFG x h]

theorem readsBelow_nary {n : ℕ} (xs : Fin n → Ref sig .tc) (f : ((k : Fin n) → (xs k).ty.Contents Val) → y.ty.Contents Val)
    (hxs hy) (h : ∀ k, (xs k).idx.val < y.idx.val) : ReadsBelow (nary (τ := τ) xs y f hxs hy) y :=
  fun F G hFG => by
    rw [nary_result, nary_result]
    congr 1
    funext k
    exact hFG (xs k) (h k)

end Builders

end Idealize.ShloMosaic.StableHlo

end
-- ==== Proof.RefPart0.lean ====
/- Window 0 of the reference program's straight line: its 132 host operations in order, the operations of each
   called function listed at the call over that call's buffers; that the printed window is this list run in order;
   that every operation touches device buffers only, allocates nothing, and writes one buffer in a slot past the
   three argument slots. -/
import proofs.«160207_j39779987095835_2_alg».proof.Proof.Gen.ReferenceIdeal
import proofs.«160207_j39779987095835_2_alg».proof.Proof.LibHostLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The window's 132 operations, in order. -/
abbrev ops0 : List (HloOp τ sig (Elt F)) :=
  [ nullary main_v0 (iotaInDim S192 32 0),
    nullary main_v1 (iotaInDim S192 32 0),
    nullary main_c (constantI S_ 32 3#32),
    TRef.unary (.of main_c : StableHlo.TRef sig ⟨S_, .i32⟩) main_call0.v0 id,
    TRef.unary main_call0.v0 main_call0.v1 (broadcastInDim S192 ![] bcast_S_S192),
    TRef.binary (.of main_v0 : StableHlo.TRef sig ⟨S192, .i32⟩) main_call0.v1 main_call0.v2 Host.divsi,
    TRef.unary (.of main_v0 : StableHlo.TRef sig ⟨S192, .i32⟩) main_call0.v3 signi,
    TRef.unary main_call0.v0 main_call0.v4 signi,
    TRef.unary main_call0.v4 main_call0.v5 (broadcastInDim S192 ![] bcast_S_S192),
    TRef.binary main_call0.v3 main_call0.v5 main_call0.v6 (cmpi .ne),
    TRef.unary main_call0.v0 main_call0.v7 (broadcastInDim S192 ![] bcast_S_S192),
    TRef.binary (.of main_v0 : StableHlo.TRef sig ⟨S192, .i32⟩) main_call0.v7 main_call0.v8 Host.remsi,
    TRef.nullary main_call0.c (constantI S_ 32 0#32),
    TRef.unary main_call0.c main_call0.v9 (broadcastInDim S192 ![] bcast_S_S192),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S192 ![] bcast_S_S192),
    TRef.binary main_call0.v2 main_call0.v12 main_call0.v13 subi,
    TRef.ternary main_call0.v11 main_call0.v13 main_call0.v2 main_call0.call0.v0 select,
    nullary main_c_0 (constantI S_ 32 3#32),
    TRef.unary (.of main_c_0 : StableHlo.TRef sig ⟨S_, .i32⟩) main_call1.v0 id,
    TRef.unary main_call1.v0 main_call1.v1 (broadcastInDim S192 ![] bcast_S_S192),
    TRef.binary (.of main_v1 : StableHlo.TRef sig ⟨S192, .i32⟩) main_call1.v1 main_call1.v2 Host.divsi,
    TRef.unary (.of main_v1 : StableHlo.TRef sig ⟨S192, .i32⟩) main_call1.v3 signi,
    TRef.unary main_call1.v0 main_call1.v4 signi,
    TRef.unary main_call1.v4 main_call1.v5 (broadcastInDim S192 ![] bcast_S_S192),
    TRef.binary main_call1.v3 main_call1.v5 main_call1.v6 (cmpi .ne),
    TRef.unary main_call1.v0 main_call1.v7 (broadcastInDim S192 ![] bcast_S_S192),
    TRef.binary (.of main_v1 : StableHlo.TRef sig ⟨S192, .i32⟩) main_call1.v7 main_call1.v8 Host.remsi,
    TRef.nullary main_call1.c (constantI S_ 32 0#32),
    TRef.unary main_call1.c main_call1.v9 (broadcastInDim S192 ![] bcast_S_S192),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S192 ![] bcast_S_S192),
    TRef.binary main_call1.v2 main_call1.v12 main_call1.v13 subi,
    TRef.ternary main_call1.v11 main_call1.v13 main_call1.v2 main_call1.call0.v0 select,
    nullary main_c_1 (constantI S_ 32 3#32),
    TRef.unary (.of main_c_1 : StableHlo.TRef sig ⟨S_, .i32⟩) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S192 ![] bcast_S_S192),
    TRef.binary (.of main_v0 : StableHlo.TRef sig ⟨S192, .i32⟩) main_call2.v3 main_call2.v4 Host.remsi,
    TRef.nullary main_call2.c_1 (constantI S_ 32 0#32),
    TRef.unary main_call2.c_1 main_call2.v5 (broadcastInDim S192 ![] bcast_S_S192),
    TRef.binary main_call2.v4 main_call2.v5 main_call2.v6 (cmpi .ne),
    TRef.nullary main_call2.c_2 (constantI S_ 32 0#32),
    TRef.unary main_call2.c_2 main_call2.v7 (broadcastInDim S192 ![] bcast_S_S192),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S192 ![] bcast_S_S192),
    TRef.binary main_call2.v8 main_call2.v10 main_call2.v11 (cmpi .ne),
    TRef.binary main_call2.v11 main_call2.v6 main_call2.v12 andi,
    TRef.unary main_call2.call0.v0 main_call2.v13 (broadcastInDim S192 ![] bcast_S_S192),
    TRef.binary main_call2.v4 main_call2.v13 main_call2.v14 addi,
    TRef.ternary main_call2.v12 main_call2.v14 main_call2.v4 main_call2.v15 select,
    nullary main_c_2 (constantI S_ 32 1#32),
    unary main_c_2 main_v5 (broadcastInDim S192 ![] bcast_S_S192 : (⟨S_, .i32⟩ : BufTy).Contents (Elt F) → (⟨S192, .i32⟩ : BufTy).Contents (Elt F)),
    binary main_v4 main_v5 main_v6 (subi : (⟨S192, .i32⟩ : BufTy).Contents (Elt F) → (⟨S192, .i32⟩ : BufTy).Contents (Elt F) → (⟨S192, .i32⟩ : BufTy).Contents (Elt F)),
    nullary main_c_3 (constantI S_ 32 3#32),
    TRef.unary (.of main_c_3 : StableHlo.TRef sig ⟨S_, .i32⟩) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S192 ![] bcast_S_S192),
    TRef.binary (.of main_v1 : StableHlo.TRef sig ⟨S192, .i32⟩) main_call3.v3 main_call3.v4 Host.remsi,
    TRef.nullary main_call3.c_1 (constantI S_ 32 0#32),
    TRef.unary main_call3.c_1 main_call3.v5 (broadcastInDim S192 ![] bcast_S_S192),
    TRef.binary main_call3.v4 main_call3.v5 main_call3.v6 (cmpi .ne),
    TRef.nullary main_call3.c_2 (constantI S_ 32 0#32),
    TRef.unary main_call3.c_2 main_call3.v7 (broadcastInDim S192 ![] bcast_S_S192),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S192 ![] bcast_S_S192),
    TRef.binary main_call3.v8 main_call3.v10 main_call3.v11 (cmpi .ne),
    TRef.binary main_call3.v11 main_call3.v6 main_call3.v12 andi,
    TRef.unary main_call3.call0.v0 main_call3.v13 (broadcastInDim S192 ![] bcast_S_S192),
    TRef.binary main_call3.v4 main_call3.v13 main_call3.v14 addi,
    TRef.ternary main_call3.v12 main_call3.v14 main_call3.v4 main_call3.v15 select,
    nullary main_c_4 (constantI S_ 32 1#32),
    unary main_c_4 main_v8 (broadcastInDim S192 ![] bcast_S_S192 : (⟨S_, .i32⟩ : BufTy).Contents (Elt F) → (⟨S192, .i32⟩ : BufTy).Contents (Elt F)),
    binary main_v7 main_v8 main_v9 (subi : (⟨S192, .i32⟩ : BufTy).Contents (Elt F) → (⟨S192, .i32⟩ : BufTy).Contents (Elt F) → (⟨S192, .i32⟩ : BufTy).Contents (Elt F)),
    unary main_arg1 main_v10 ((extractStridedSlice S16x1x64x64 ![0, 0, 0, 0] · slices_S16x2x64x64_S16x1x64x64_0_0_0_0) : (⟨S16x2x64x64, .f32⟩ : BufTy).Contents (Elt F) → (⟨S16x1x64x64, .f32⟩ : BufTy).Contents (Elt F)),
    reshape main_v10 main_v11 rfl shapeCasts_S16x1x64x64_S16x64x64,
    nullary main_c_5 (constantI S_ 32 0#32),
    unary main_c_5 main_v12 (broadcastInDim S192 ![] bcast_S_S192 : (⟨S_, .i32⟩ : BufTy).Contents (Elt F) → (⟨S192, .i32⟩ : BufTy).Contents (Elt F)),
    binary main_v2 main_v12 main_v13 (cmpi .slt : (⟨S192, .i32⟩ : BufTy).Contents (Elt F) → (⟨S192, .i32⟩ : BufTy).Contents (Elt F) → (⟨S192, .i1⟩ : BufTy).Contents (Elt F)),
    nullary main_c_6 (constantI S_ 32 64#32),
    unary main_c_6 main_v14 (broadcastInDim S192 ![] bcast_S_S192 : (⟨S_, .i32⟩ : BufTy).Contents (Elt F) → (⟨S192, .i32⟩ : BufTy).Contents (Elt F)),
    binary main_v2 main_v14 main_v15 (addi : (⟨S192, .i32⟩ : BufTy).Contents (Elt F) → (⟨S192, .i32⟩ : BufTy).Contents (Elt F) → (⟨S192, .i32⟩ : BufTy).Contents (Elt F)),
    ternary main_v13 main_v15 main_v2 main_v16 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v16 main_v17 (broadcastInDim S192x1 ![0] bcast_S192_S192x1_0 : (⟨S192, .i32⟩ : BufTy).Contents (Elt F) → (⟨S192x1, .i32⟩ : BufTy).Contents (Elt F)),
    binary main_v11 main_v17 main_v18 ((fun x i => Host.gather gather_S16x64x64_S192x1_S16x192x64_02_1_n_n_1_1_16164 x i) : (⟨S16x64x64, .f32⟩ : BufTy).Contents (Elt F) → (⟨S192x1, .i32⟩ : BufTy).Contents (Elt F) → (⟨S16x192x64, .f32⟩ : BufTy).Contents (Elt F)),
    nullary main_c_7 (constantI S_ 32 0#32),
    unary main_c_7 main_v19 (broadcastInDim S192 ![] bcast_S_S192 : (⟨S_, .i32⟩ : BufTy).Contents (Elt F) → (⟨S192, .i32⟩ : BufTy).Contents (Elt F)),
    binary main_v3 main_v19 main_v20 (cmpi .slt : (⟨S192, .i32⟩ : BufTy).Contents (Elt F) → (⟨S192, .i32⟩ : BufTy).Contents (Elt F) → (⟨S192, .i1⟩ : BufTy).Contents (Elt F)),
    nullary main_c_8 (constantI S_ 32 64#32),
    unary main_c_8 main_v21 (broadcastInDim S192 ![] bcast_S_S192 : (⟨S_, .i32⟩ : BufTy).Contents (Elt F) → (⟨S192, .i32⟩ : BufTy).Contents (Elt F)),
    binary main_v3 main_v21 main_v22 (addi : (⟨S192, .i32⟩ : BufTy).Contents (Elt F) → (⟨S192, .i32⟩ : BufTy).Contents (Elt F) → (⟨S192, .i32⟩ : BufTy).Contents (Elt F)),
    ternary main_v20 main_v22 main_v3 main_v23 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v23 main_v24 (broadcastInDim S192x1 ![0] bcast_S192_S192x1_0 : (⟨S192, .i32⟩ : BufTy).Contents (Elt F) → (⟨S192x1, .i32⟩ : BufTy).Contents (Elt F)),
    binary main_v18 main_v24 main_v25 ((fun x i => Host.gather gather_S16x192x64_S192x1_S16x192x192_01_2_n_n_2_1_161921 x i) : (⟨S16x192x64, .f32⟩ : BufTy).Contents (Elt F) → (⟨S192x1, .i32⟩ : BufTy).Contents (Elt F) → (⟨S16x192x192, .f32⟩ : BufTy).Contents (Elt F)),
    unary main_arg1 main_v26 ((extractStridedSlice S16x1x64x64 ![0, 1, 0, 0] · slices_S16x2x64x64_S16x1x64x64_0_1_0_0) : (⟨S16x2x64x64, .f32⟩ : BufTy).Contents (Elt F) → (⟨S16x1x64x64, .f32⟩ : BufTy).Contents (Elt F)),
    reshape main_v26 main_v27 rfl shapeCasts_S16x1x64x64_S16x64x64,
    nullary main_c_9 (constantI S_ 32 0#32),
    unary main_c_9 main_v28 (broadcastInDim S192 ![] bcast_S_S192 : (⟨S_, .i32⟩ : BufTy).Contents (Elt F) → (⟨S192, .i32⟩ : BufTy).Contents (Elt F)),
    binary main_v2 main_v28 main_v29 (cmpi .slt : (⟨S192, .i32⟩ : BufTy).Contents (Elt F) → (⟨S192, .i32⟩ : BufTy).Contents (Elt F) → (⟨S192, .i1⟩ : BufTy).Contents (Elt F)),
    nullary main_c_10 (constantI S_ 32 64#32),
    unary main_c_10 main_v30 (broadcastInDim S192 ![] bcast_S_S192 : (⟨S_, .i32⟩ : BufTy).Contents (Elt F) → (⟨S192, .i32⟩ : BufTy).Contents (Elt F)),
    binary main_v2 main_v30 main_v31 (addi : (⟨S192, .i32⟩ : BufTy).Contents (Elt F) → (⟨S192, .i32⟩ : BufTy).Contents (Elt F) → (⟨S192, .i32⟩ : BufTy).Contents (Elt F)),
    ternary main_v29 main_v31 main_v2 main_v32 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v32 main_v33 (broadcastInDim S192x1 ![0] bcast_S192_S192x1_0 : (⟨S192, .i32⟩ : BufTy).Contents (Elt F) → (⟨S192x1, .i32⟩ : BufTy).Contents (Elt F)),
    binary main_v27 main_v33 main_v34 ((fun x i => Host.gather gather_S16x64x64_S192x1_S16x192x64_02_1_n_n_1_1_16164 x i) : (⟨S16x64x64, .f32⟩ : BufTy).Contents (Elt F) → (⟨S192x1, .i32⟩ : BufTy).Contents (Elt F) → (⟨S16x192x64, .f32⟩ : BufTy).Contents (Elt F)),
    nullary main_c_11 (constantI S_ 32 0#32),
    unary main_c_11 main_v35 (broadcastInDim S192 ![] bcast_S_S192 : (⟨S_, .i32⟩ : BufTy).Contents (Elt F) → (⟨S192, .i32⟩ : BufTy).Contents (Elt F)),
    binary main_v3 main_v35 main_v36 (cmpi .slt : (⟨S192, .i32⟩ : BufTy).Contents (Elt F) → (⟨S192, .i32⟩ : BufTy).Contents (Elt F) → (⟨S192, .i1⟩ : BufTy).Contents (Elt F)),
    nullary main_c_12 (constantI S_ 32 64#32),
    unary main_c_12 main_v37 (broadcastInDim S192 ![] bcast_S_S192 : (⟨S_, .i32⟩ : BufTy).Contents (Elt F) → (⟨S192, .i32⟩ : BufTy).Contents (Elt F)),
    binary main_v3 main_v37 main_v38 (addi : (⟨S192, .i32⟩ : BufTy).Contents (Elt F) → (⟨S192, .i32⟩ : BufTy).Contents (Elt F) → (⟨S192, .i32⟩ : BufTy).Contents (Elt F)),
    ternary main_v36 main_v38 main_v3 main_v39 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v39 main_v40 (broadcastInDim S192x1 ![0] bcast_S192_S192x1_0 : (⟨S192, .i32⟩ : BufTy).Contents (Elt F) → (⟨S192x1, .i32⟩ : BufTy).Contents (Elt F)),
    binary main_v34 main_v40 main_v41 ((fun x i => Host.gather gather_S16x192x64_S192x1_S16x192x192_01_2_n_n_2_1_161921 x i) : (⟨S16x192x64, .f32⟩ : BufTy).Contents (Elt F) → (⟨S192x1, .i32⟩ : BufTy).Contents (Elt F) → (⟨S16x192x192, .f32⟩ : BufTy).Contents (Elt F)),
    unary main_v2 main_v42 (sitofp .f32 : (⟨S192, .i32⟩ : BufTy).Contents (Elt F) → (⟨S192, .f32⟩ : BufTy).Contents (Elt F)),
    unary main_v42 main_v43 (broadcastInDim S192x1 ![0] bcast_S192_S192x1_0 : (⟨S192, .f32⟩ : BufTy).Contents (Elt F) → (⟨S192x1, .f32⟩ : BufTy).Contents (Elt F)),
    unary main_v6 main_v44 (sitofp .f32 : (⟨S192, .i32⟩ : BufTy).Contents (Elt F) → (⟨S192, .f32⟩ : BufTy).Contents (Elt F)),
    unary main_v44 main_v45 (broadcastInDim S192x1 ![0] bcast_S192_S192x1_0 : (⟨S192, .f32⟩ : BufTy).Contents (Elt F) → (⟨S192x1, .f32⟩ : BufTy).Contents (Elt F)) ]

set_option maxRecDepth 8192 in
/-- The printed window is that list run in order: the called functions' bodies opened at their calls, sequencing re-associated. -/
theorem part0_eq (c : Dev nD) : main_part0 (F := F) c = seq ops0 := by
  simp only [main_part0, fn_where.body, fn_floor_divide.body, fn_where_0.body, fn_remainder.body, fn_clip.body, fn_where_1.body, seq, bind_assoc, pure_bind] <;> rfl

/-- Every operation of the window touches device buffers only. -/
theorem ops0_sub : (ops0 : List (HloOp τ sig (Elt F))).Forall fun op => op.bufs ⊆ tcRefs τ sig :=
  ⟨nullary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub ..⟩

/-- No operation of the window allocates a buffer: each determines everything it writes. -/
theorem ops0_fresh_forall : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The same, by membership. -/
theorem ops0_fresh : ∀ op ∈ (ops0 : List (HloOp τ sig (Elt F))), op.fresh = ∅ :=
  List.forall_iff_forall_mem.mp ops0_fresh_forall

/-- Every operation of the window writes exactly one buffer, in a slot past the three argument slots 0, 1, 2. -/
theorem ops0_past : (ops0 : List (HloOp τ sig (Elt F))).Forall (WritesPast (τ := τ) 3) :=
  ⟨⟨main_v0, rfl, by decide⟩, ⟨main_v1, rfl, by decide⟩, ⟨main_c, rfl, by decide⟩, ⟨(main_call0.v0).ref, rfl, by decide⟩, ⟨(main_call0.v1).ref, rfl, by decide⟩, ⟨(main_call0.v2).ref, rfl, by decide⟩, ⟨(main_call0.v3).ref, rfl, by decide⟩, ⟨(main_call0.v4).ref, rfl, by decide⟩, ⟨(main_call0.v5).ref, rfl, by decide⟩, ⟨(main_call0.v6).ref, rfl, by decide⟩, ⟨(main_call0.v7).ref, rfl, by decide⟩, ⟨(main_call0.v8).ref, rfl, by decide⟩, ⟨(main_call0.c).ref, rfl, by decide⟩, ⟨(main_call0.v9).ref, rfl, by decide⟩, ⟨(main_call0.v10).ref, rfl, by decide⟩, ⟨(main_call0.v11).ref, rfl, by decide⟩, ⟨(main_call0.c_0).ref, rfl, by decide⟩, ⟨(main_call0.v12).ref, rfl, by decide⟩, ⟨(main_call0.v13).ref, rfl, by decide⟩, ⟨(main_call0.call0.v0).ref, rfl, by decide⟩, ⟨main_c_0, rfl, by decide⟩, ⟨(main_call1.v0).ref, rfl, by decide⟩, ⟨(main_call1.v1).ref, rfl, by decide⟩, ⟨(main_call1.v2).ref, rfl, by decide⟩, ⟨(main_call1.v3).ref, rfl, by decide⟩, ⟨(main_call1.v4).ref, rfl, by decide⟩, ⟨(main_call1.v5).ref, rfl, by decide⟩, ⟨(main_call1.v6).ref, rfl, by decide⟩, ⟨(main_call1.v7).ref, rfl, by decide⟩, ⟨(main_call1.v8).ref, rfl, by decide⟩, ⟨(main_call1.c).ref, rfl, by decide⟩, ⟨(main_call1.v9).ref, rfl, by decide⟩, ⟨(main_call1.v10).ref, rfl, by decide⟩, ⟨(main_call1.v11).ref, rfl, by decide⟩, ⟨(main_call1.c_0).ref, rfl, by decide⟩, ⟨(main_call1.v12).ref, rfl, by decide⟩, ⟨(main_call1.v13).ref, rfl, by decide⟩, ⟨(main_call1.call0.v0).ref, rfl, by decide⟩, ⟨main_c_1, rfl, by decide⟩, ⟨(main_call2.v0).ref, rfl, by decide⟩, ⟨(main_call2.c).ref, rfl, by decide⟩, ⟨(main_call2.v1).ref, rfl, by decide⟩, ⟨(main_call2.c_0).ref, rfl, by decide⟩, ⟨(main_call2.call0.v0).ref, rfl, by decide⟩, ⟨(main_call2.v3).ref, rfl, by decide⟩, ⟨(main_call2.v4).ref, rfl, by decide⟩, ⟨(main_call2.c_1).ref, rfl, by decide⟩, ⟨(main_call2.v5).ref, rfl, by decide⟩, ⟨(main_call2.v6).ref, rfl, by decide⟩, ⟨(main_call2.c_2).ref, rfl, by decide⟩, ⟨(main_call2.v7).ref, rfl, by decide⟩, ⟨(main_call2.v8).ref, rfl, by decide⟩, ⟨(main_call2.c_3).ref, rfl, by decide⟩, ⟨(main_call2.v9).ref, rfl, by decide⟩, ⟨(main_call2.v10).ref, rfl, by decide⟩, ⟨(main_call2.v11).ref, rfl, by decide⟩, ⟨(main_call2.v12).ref, rfl, by decide⟩, ⟨(main_call2.v13).ref, rfl, by decide⟩, ⟨(main_call2.v14).ref, rfl, by decide⟩, ⟨(main_call2.v15).ref, rfl, by decide⟩, ⟨main_c_2, rfl, by decide⟩, ⟨main_v5, rfl, by decide⟩, ⟨main_v6, rfl, by decide⟩, ⟨main_c_3, rfl, by decide⟩, ⟨(main_call3.v0).ref, rfl, by decide⟩, ⟨(main_call3.c).ref, rfl, by decide⟩, ⟨(main_call3.v1).ref, rfl, by decide⟩, ⟨(main_call3.c_0).ref, rfl, by decide⟩, ⟨(main_call3.call0.v0).ref, rfl, by decide⟩, ⟨(main_call3.v3).ref, rfl, by decide⟩, ⟨(main_call3.v4).ref, rfl, by decide⟩, ⟨(main_call3.c_1).ref, rfl, by decide⟩, ⟨(main_call3.v5).ref, rfl, by decide⟩, ⟨(main_call3.v6).ref, rfl, by decide⟩, ⟨(main_call3.c_2).ref, rfl, by decide⟩, ⟨(main_call3.v7).ref, rfl, by decide⟩, ⟨(main_call3.v8).ref, rfl, by decide⟩, ⟨(main_call3.c_3).ref, rfl, by decide⟩, ⟨(main_call3.v9).ref, rfl, by decide⟩, ⟨(main_call3.v10).ref, rfl, by decide⟩, ⟨(main_call3.v11).ref, rfl, by decide⟩, ⟨(main_call3.v12).ref, rfl, by decide⟩, ⟨(main_call3.v13).ref, rfl, by decide⟩, ⟨(main_call3.v14).ref, rfl, by decide⟩, ⟨(main_call3.v15).ref, rfl, by decide⟩, ⟨main_c_4, rfl, by decide⟩, ⟨main_v8, rfl, by decide⟩, ⟨main_v9, rfl, by decide⟩, ⟨main_v10, rfl, by decide⟩, ⟨main_v11, rfl, by decide⟩, ⟨main_c_5, rfl, by decide⟩, ⟨main_v12, rfl, by decide⟩, ⟨main_v13, rfl, by decide⟩, ⟨main_c_6, rfl, by decide⟩, ⟨main_v14, rfl, by decide⟩, ⟨main_v15, rfl, by decide⟩, ⟨main_v16, rfl, by decide⟩, ⟨main_v17, rfl, by decide⟩, ⟨main_v18, rfl, by decide⟩, ⟨main_c_7, rfl, by decide⟩, ⟨main_v19, rfl, by decide⟩, ⟨main_v20, rfl, by decide⟩, ⟨main_c_8, rfl, by decide⟩, ⟨main_v21, rfl, by decide⟩, ⟨main_v22, rfl, by decide⟩, ⟨main_v23, rfl, by decide⟩, ⟨main_v24, rfl, by decide⟩, ⟨main_v25, rfl, by decide⟩, ⟨main_v26, rfl, by decide⟩, ⟨main_v27, rfl, by decide⟩, ⟨main_c_9, rfl, by decide⟩, ⟨main_v28, rfl, by decide⟩, ⟨main_v29, rfl, by decide⟩, ⟨main_c_10, rfl, by decide⟩, ⟨main_v30, rfl, by decide⟩, ⟨main_v31, rfl, by decide⟩, ⟨main_v32, rfl, by decide⟩, ⟨main_v33, rfl, by decide⟩, ⟨main_v34, rfl, by decide⟩, ⟨main_c_11, rfl, by decide⟩, ⟨main_v35, rfl, by decide⟩, ⟨main_v36, rfl, by decide⟩, ⟨main_c_12, rfl, by decide⟩, ⟨main_v37, rfl, by decide⟩, ⟨main_v38, rfl, by decide⟩, ⟨main_v39, rfl, by decide⟩, ⟨main_v40, rfl, by decide⟩, ⟨main_v41, rfl, by decide⟩, ⟨main_v42, rfl, by decide⟩, ⟨main_v43, rfl, by decide⟩, ⟨main_v44, rfl, by decide⟩, ⟨main_v45, rfl, by decide⟩⟩

end Cert.ReferenceIdeal.Line

end
-- ==== Proof.RefPart1.lean ====
/- Window 1 of the reference program's straight line: its 70 host operations in order, the operations of each
   called function listed at the call over that call's buffers; that the printed window is this list run in order;
   that every operation touches device buffers only, allocates nothing, and writes one buffer in a slot past the
   three argument slots. -/
import proofs.«160207_j39779987095835_2_alg».proof.Proof.Gen.ReferenceIdeal
import proofs.«160207_j39779987095835_2_alg».proof.Proof.LibHostLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The window's 70 operations, in order. -/
abbrev ops1 : List (HloOp τ sig (Elt F)) :=
  [ binary main_v43 main_v45 main_v46 (addf : (⟨S192x1, .f32⟩ : BufTy).Contents (Elt F) → (⟨S192x1, .f32⟩ : BufTy).Contents (Elt F) → (⟨S192x1, .f32⟩ : BufTy).Contents (Elt F)),
    unary main_v46 main_v47 (broadcastInDim S1x192x1 ![1, 2] bcast_S192x1_S1x192x1_1_2 : (⟨S192x1, .f32⟩ : BufTy).Contents (Elt F) → (⟨S1x192x1, .f32⟩ : BufTy).Contents (Elt F)),
    unary main_v47 main_v48 (broadcastInDim S16x192x192 ![0, 1, 2] bcast_S1x192x1_S16x192x192_0_1_2 : (⟨S1x192x1, .f32⟩ : BufTy).Contents (Elt F) → (⟨S16x192x192, .f32⟩ : BufTy).Contents (Elt F)),
    binary main_v48 main_v25 main_v49 (addf : (⟨S16x192x192, .f32⟩ : BufTy).Contents (Elt F) → (⟨S16x192x192, .f32⟩ : BufTy).Contents (Elt F) → (⟨S16x192x192, .f32⟩ : BufTy).Contents (Elt F)),
    unary main_v3 main_v50 (sitofp .f32 : (⟨S192, .i32⟩ : BufTy).Contents (Elt F) → (⟨S192, .f32⟩ : BufTy).Contents (Elt F)),
    unary main_v50 main_v51 (broadcastInDim S1x192 ![1] bcast_S192_S1x192_1 : (⟨S192, .f32⟩ : BufTy).Contents (Elt F) → (⟨S1x192, .f32⟩ : BufTy).Contents (Elt F)),
    unary main_v9 main_v52 (sitofp .f32 : (⟨S192, .i32⟩ : BufTy).Contents (Elt F) → (⟨S192, .f32⟩ : BufTy).Contents (Elt F)),
    unary main_v52 main_v53 (broadcastInDim S1x192 ![1] bcast_S192_S1x192_1 : (⟨S192, .f32⟩ : BufTy).Contents (Elt F) → (⟨S1x192, .f32⟩ : BufTy).Contents (Elt F)),
    binary main_v51 main_v53 main_v54 (addf : (⟨S1x192, .f32⟩ : BufTy).Contents (Elt F) → (⟨S1x192, .f32⟩ : BufTy).Contents (Elt F) → (⟨S1x192, .f32⟩ : BufTy).Contents (Elt F)),
    unary main_v54 main_v55 (broadcastInDim S1x1x192 ![1, 2] bcast_S1x192_S1x1x192_1_2 : (⟨S1x192, .f32⟩ : BufTy).Contents (Elt F) → (⟨S1x1x192, .f32⟩ : BufTy).Contents (Elt F)),
    unary main_v55 main_v56 (broadcastInDim S16x192x192 ![0, 1, 2] bcast_S1x1x192_S16x192x192_0_1_2 : (⟨S1x1x192, .f32⟩ : BufTy).Contents (Elt F) → (⟨S16x192x192, .f32⟩ : BufTy).Contents (Elt F)),
    binary main_v56 main_v41 main_v57 (addf : (⟨S16x192x192, .f32⟩ : BufTy).Contents (Elt F) → (⟨S16x192x192, .f32⟩ : BufTy).Contents (Elt F) → (⟨S16x192x192, .f32⟩ : BufTy).Contents (Elt F)),
    unary main_v49 main_v58 (Host.floor : (⟨S16x192x192, .f32⟩ : BufTy).Contents (Elt F) → (⟨S16x192x192, .f32⟩ : BufTy).Contents (Elt F)),
    unary main_v58 main_v59 (fptosi 32 : (⟨S16x192x192, .f32⟩ : BufTy).Contents (Elt F) → (⟨S16x192x192, .i32⟩ : BufTy).Contents (Elt F)),
    unary main_v57 main_v60 (Host.floor : (⟨S16x192x192, .f32⟩ : BufTy).Contents (Elt F) → (⟨S16x192x192, .f32⟩ : BufTy).Contents (Elt F)),
    unary main_v60 main_v61 (fptosi 32 : (⟨S16x192x192, .f32⟩ : BufTy).Contents (Elt F) → (⟨S16x192x192, .i32⟩ : BufTy).Contents (Elt F)),
    nullary main_cst (constant S_ .f32 0x00000000#32),
    unary main_cst main_v62 (broadcastInDim S256x192x192 ![] bcast_S_S256x192x192 : (⟨S_, .f32⟩ : BufTy).Contents (Elt F) → (⟨S256x192x192, .f32⟩ : BufTy).Contents (Elt F)),
    nullary main_c_13 (constantI S_ 32 0#32),
    unary main_c_13 main_v63 (broadcastInDim S16x192x192 ![] bcast_S_S16x192x192 : (⟨S_, .i32⟩ : BufTy).Contents (Elt F) → (⟨S16x192x192, .i32⟩ : BufTy).Contents (Elt F)),
    binary main_v59 main_v63 main_v64 (addi : (⟨S16x192x192, .i32⟩ : BufTy).Contents (Elt F) → (⟨S16x192x192, .i32⟩ : BufTy).Contents (Elt F) → (⟨S16x192x192, .i32⟩ : BufTy).Contents (Elt F)),
    nullary main_c_14 (constantI S_ 32 0#32),
    unary main_c_14 main_v65 (broadcastInDim S16x192x192 ![] bcast_S_S16x192x192 : (⟨S_, .i32⟩ : BufTy).Contents (Elt F) → (⟨S16x192x192, .i32⟩ : BufTy).Contents (Elt F)),
    binary main_v61 main_v65 main_v66 (addi : (⟨S16x192x192, .i32⟩ : BufTy).Contents (Elt F) → (⟨S16x192x192, .i32⟩ : BufTy).Contents (Elt F) → (⟨S16x192x192, .i32⟩ : BufTy).Contents (Elt F)),
    unary main_v64 main_v67 (sitofp .f32 : (⟨S16x192x192, .i32⟩ : BufTy).Contents (Elt F) → (⟨S16x192x192, .f32⟩ : BufTy).Contents (Elt F)),
    binary main_v49 main_v67 main_v68 (subf : (⟨S16x192x192, .f32⟩ : BufTy).Contents (Elt F) → (⟨S16x192x192, .f32⟩ : BufTy).Contents (Elt F) → (⟨S16x192x192, .f32⟩ : BufTy).Contents (Elt F)),
    unary main_v68 main_v69 (Host.absf : (⟨S16x192x192, .f32⟩ : BufTy).Contents (Elt F) → (⟨S16x192x192, .f32⟩ : BufTy).Contents (Elt F)),
    nullary main_cst_15 (constant S_ .f32 0x3F800000#32),
    unary main_cst_15 main_v70 (broadcastInDim S16x192x192 ![] bcast_S_S16x192x192 : (⟨S_, .f32⟩ : BufTy).Contents (Elt F) → (⟨S16x192x192, .f32⟩ : BufTy).Contents (Elt F)),
    binary main_v70 main_v69 main_v71 (subf : (⟨S16x192x192, .f32⟩ : BufTy).Contents (Elt F) → (⟨S16x192x192, .f32⟩ : BufTy).Contents (Elt F) → (⟨S16x192x192, .f32⟩ : BufTy).Contents (Elt F)),
    unary main_v66 main_v72 (sitofp .f32 : (⟨S16x192x192, .i32⟩ : BufTy).Contents (Elt F) → (⟨S16x192x192, .f32⟩ : BufTy).Contents (Elt F)),
    binary main_v57 main_v72 main_v73 (subf : (⟨S16x192x192, .f32⟩ : BufTy).Contents (Elt F) → (⟨S16x192x192, .f32⟩ : BufTy).Contents (Elt F) → (⟨S16x192x192, .f32⟩ : BufTy).Contents (Elt F)),
    unary main_v73 main_v74 (Host.absf : (⟨S16x192x192, .f32⟩ : BufTy).Contents (Elt F) → (⟨S16x192x192, .f32⟩ : BufTy).Contents (Elt F)),
    nullary main_cst_16 (constant S_ .f32 0x3F800000#32),
    unary main_cst_16 main_v75 (broadcastInDim S16x192x192 ![] bcast_S_S16x192x192 : (⟨S_, .f32⟩ : BufTy).Contents (Elt F) → (⟨S16x192x192, .f32⟩ : BufTy).Contents (Elt F)),
    binary main_v75 main_v74 main_v76 (subf : (⟨S16x192x192, .f32⟩ : BufTy).Contents (Elt F) → (⟨S16x192x192, .f32⟩ : BufTy).Contents (Elt F) → (⟨S16x192x192, .f32⟩ : BufTy).Contents (Elt F)),
    binary main_v71 main_v76 main_v77 (mulf : (⟨S16x192x192, .f32⟩ : BufTy).Contents (Elt F) → (⟨S16x192x192, .f32⟩ : BufTy).Contents (Elt F) → (⟨S16x192x192, .f32⟩ : BufTy).Contents (Elt F)),
    nullary main_c_17 (constantI S_ 32 0#32),
    unary main_c_17 main_v78 (broadcastInDim S16x192x192 ![] bcast_S_S16x192x192 : (⟨S_, .i32⟩ : BufTy).Contents (Elt F) → (⟨S16x192x192, .i32⟩ : BufTy).Contents (Elt F)),
    binary main_v64 main_v78 main_v79 (cmpi .sge : (⟨S16x192x192, .i32⟩ : BufTy).Contents (Elt F) → (⟨S16x192x192, .i32⟩ : BufTy).Contents (Elt F) → (⟨S16x192x192, .i1⟩ : BufTy).Contents (Elt F)),
    nullary main_c_18 (constantI S_ 32 64#32),
    unary main_c_18 main_v80 (broadcastInDim S16x192x192 ![] bcast_S_S16x192x192 : (⟨S_, .i32⟩ : BufTy).Contents (Elt F) → (⟨S16x192x192, .i32⟩ : BufTy).Contents (Elt F)),
    binary main_v64 main_v80 main_v81 (cmpi .slt : (⟨S16x192x192, .i32⟩ : BufTy).Contents (Elt F) → (⟨S16x192x192, .i32⟩ : BufTy).Contents (Elt F) → (⟨S16x192x192, .i1⟩ : BufTy).Contents (Elt F)),
    binary main_v79 main_v81 main_v82 (andi : (⟨S16x192x192, .i1⟩ : BufTy).Contents (Elt F) → (⟨S16x192x192, .i1⟩ : BufTy).Contents (Elt F) → (⟨S16x192x192, .i1⟩ : BufTy).Contents (Elt F)),
    nullary main_c_19 (constantI S_ 32 0#32),
    unary main_c_19 main_v83 (broadcastInDim S16x192x192 ![] bcast_S_S16x192x192 : (⟨S_, .i32⟩ : BufTy).Contents (Elt F) → (⟨S16x192x192, .i32⟩ : BufTy).Contents (Elt F)),
    binary main_v66 main_v83 main_v84 (cmpi .sge : (⟨S16x192x192, .i32⟩ : BufTy).Contents (Elt F) → (⟨S16x192x192, .i32⟩ : BufTy).Contents (Elt F) → (⟨S16x192x192, .i1⟩ : BufTy).Contents (Elt F)),
    binary main_v82 main_v84 main_v85 (andi : (⟨S16x192x192, .i1⟩ : BufTy).Contents (Elt F) → (⟨S16x192x192, .i1⟩ : BufTy).Contents (Elt F) → (⟨S16x192x192, .i1⟩ : BufTy).Contents (Elt F)),
    nullary main_c_20 (constantI S_ 32 64#32),
    unary main_c_20 main_v86 (broadcastInDim S16x192x192 ![] bcast_S_S16x192x192 : (⟨S_, .i32⟩ : BufTy).Contents (Elt F) → (⟨S16x192x192, .i32⟩ : BufTy).Contents (Elt F)),
    binary main_v66 main_v86 main_v87 (cmpi .slt : (⟨S16x192x192, .i32⟩ : BufTy).Contents (Elt F) → (⟨S16x192x192, .i32⟩ : BufTy).Contents (Elt F) → (⟨S16x192x192, .i1⟩ : BufTy).Contents (Elt F)),
    binary main_v85 main_v87 main_v88 (andi : (⟨S16x192x192, .i1⟩ : BufTy).Contents (Elt F) → (⟨S16x192x192, .i1⟩ : BufTy).Contents (Elt F) → (⟨S16x192x192, .i1⟩ : BufTy).Contents (Elt F)),
    nullary main_c_21 (constantI S_ 32 0#32),
    nullary main_c_22 (constantI S_ 32 63#32),
    TRef.unary (.of main_c_21 : StableHlo.TRef sig ⟨S_, .i32⟩) main_call4.v0 id,
    TRef.unary main_call4.v0 main_call4.v1 (broadcastInDim S16x192x192 ![] bcast_S_S16x192x192),
    TRef.binary main_call4.v1 (.of main_v64 : StableHlo.TRef sig ⟨S16x192x192, .i32⟩) main_call4.v2 maxsi,
    TRef.unary (.of main_c_22 : StableHlo.TRef sig ⟨S_, .i32⟩) main_call4.v3 id,
    TRef.unary main_call4.v3 main_call4.v4 (broadcastInDim S16x192x192 ![] bcast_S_S16x192x192),
    TRef.binary main_call4.v4 main_call4.v2 main_call4.v5 minsi,
    nullary main_c_23 (constantI S_ 32 0#32),
    nullary main_c_24 (constantI S_ 32 63#32),
    TRef.unary (.of main_c_23 : StableHlo.TRef sig ⟨S_, .i32⟩) main_call5.v0 id,
    TRef.unary main_call5.v0 main_call5.v1 (broadcastInDim S16x192x192 ![] bcast_S_S16x192x192),
    TRef.binary main_call5.v1 (.of main_v66 : StableHlo.TRef sig ⟨S16x192x192, .i32⟩) main_call5.v2 maxsi,
    TRef.unary (.of main_c_24 : StableHlo.TRef sig ⟨S_, .i32⟩) main_call5.v3 id,
    TRef.unary main_call5.v3 main_call5.v4 (broadcastInDim S16x192x192 ![] bcast_S_S16x192x192),
    TRef.binary main_call5.v4 main_call5.v2 main_call5.v5 minsi,
    nullary main_c_25 (constantI S_ 32 0#32),
    unary main_c_25 main_v91 (broadcastInDim S16x192x192 ![] bcast_S_S16x192x192 : (⟨S_, .i32⟩ : BufTy).Contents (Elt F) → (⟨S16x192x192, .i32⟩ : BufTy).Contents (Elt F)) ]

set_option maxRecDepth 8192 in
/-- The printed window is that list run in order: the called functions' bodies opened at their calls, sequencing re-associated. -/
theorem part1_eq (c : Dev nD) : main_part1 (F := F) c = seq ops1 := by
  simp only [main_part1, fn_where.body, fn_floor_divide.body, fn_where_0.body, fn_remainder.body, fn_clip.body, fn_where_1.body, seq, bind_assoc, pure_bind] <;> rfl

/-- Every operation of the window touches device buffers only. -/
theorem ops1_sub : (ops1 : List (HloOp τ sig (Elt F))).Forall fun op => op.bufs ⊆ tcRefs τ sig :=
  ⟨binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., unary_bufs_sub .., nullary_bufs_sub .., unary_bufs_sub .., nullary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub ..⟩

/-- No operation of the window allocates a buffer: each determines everything it writes. -/
theorem ops1_fresh_forall : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The same, by membership. -/
theorem ops1_fresh : ∀ op ∈ (ops1 : List (HloOp τ sig (Elt F))), op.fresh = ∅ :=
  List.forall_iff_forall_mem.mp ops1_fresh_forall

/-- Every operation of the window writes exactly one buffer, in a slot past the three argument slots 0, 1, 2. -/
theorem ops1_past : (ops1 : List (HloOp τ sig (Elt F))).Forall (WritesPast (τ := τ) 3) :=
  ⟨⟨main_v46, rfl, by decide⟩, ⟨main_v47, rfl, by decide⟩, ⟨main_v48, rfl, by decide⟩, ⟨main_v49, rfl, by decide⟩, ⟨main_v50, rfl, by decide⟩, ⟨main_v51, rfl, by decide⟩, ⟨main_v52, rfl, by decide⟩, ⟨main_v53, rfl, by decide⟩, ⟨main_v54, rfl, by decide⟩, ⟨main_v55, rfl, by decide⟩, ⟨main_v56, rfl, by decide⟩, ⟨main_v57, rfl, by decide⟩, ⟨main_v58, rfl, by decide⟩, ⟨main_v59, rfl, by decide⟩, ⟨main_v60, rfl, by decide⟩, ⟨main_v61, rfl, by decide⟩, ⟨main_cst, rfl, by decide⟩, ⟨main_v62, rfl, by decide⟩, ⟨main_c_13, rfl, by decide⟩, ⟨main_v63, rfl, by decide⟩, ⟨main_v64, rfl, by decide⟩, ⟨main_c_14, rfl, by decide⟩, ⟨main_v65, rfl, by decide⟩, ⟨main_v66, rfl, by decide⟩, ⟨main_v67, rfl, by decide⟩, ⟨main_v68, rfl, by decide⟩, ⟨main_v69, rfl, by decide⟩, ⟨main_cst_15, rfl, by decide⟩, ⟨main_v70, rfl, by decide⟩, ⟨main_v71, rfl, by decide⟩, ⟨main_v72, rfl, by decide⟩, ⟨main_v73, rfl, by decide⟩, ⟨main_v74, rfl, by decide⟩, ⟨main_cst_16, rfl, by decide⟩, ⟨main_v75, rfl, by decide⟩, ⟨main_v76, rfl, by decide⟩, ⟨main_v77, rfl, by decide⟩, ⟨main_c_17, rfl, by decide⟩, ⟨main_v78, rfl, by decide⟩, ⟨main_v79, rfl, by decide⟩, ⟨main_c_18, rfl, by decide⟩, ⟨main_v80, rfl, by decide⟩, ⟨main_v81, rfl, by decide⟩, ⟨main_v82, rfl, by decide⟩, ⟨main_c_19, rfl, by decide⟩, ⟨main_v83, rfl, by decide⟩, ⟨main_v84, rfl, by decide⟩, ⟨main_v85, rfl, by decide⟩, ⟨main_c_20, rfl, by decide⟩, ⟨main_v86, rfl, by decide⟩, ⟨main_v87, rfl, by decide⟩, ⟨main_v88, rfl, by decide⟩, ⟨main_c_21, rfl, by decide⟩, ⟨main_c_22, rfl, by decide⟩, ⟨(main_call4.v0).ref, rfl, by decide⟩, ⟨(main_call4.v1).ref, rfl, by decide⟩, ⟨(main_call4.v2).ref, rfl, by decide⟩, ⟨(main_call4.v3).ref, rfl, by decide⟩, ⟨(main_call4.v4).ref, rfl, by decide⟩, ⟨(main_call4.v5).ref, rfl, by decide⟩, ⟨main_c_23, rfl, by decide⟩, ⟨main_c_24, rfl, by decide⟩, ⟨(main_call5.v0).ref, rfl, by decide⟩, ⟨(main_call5.v1).ref, rfl, by decide⟩, ⟨(main_call5.v2).ref, rfl, by decide⟩, ⟨(main_call5.v3).ref, rfl, by decide⟩, ⟨(main_call5.v4).ref, rfl, by decide⟩, ⟨(main_call5.v5).ref, rfl, by decide⟩, ⟨main_c_25, rfl, by decide⟩, ⟨main_v91, rfl, by decide⟩⟩

end Cert.ReferenceIdeal.Line

end
-- ==== Proof.RefPart2.lean ====
/- Window 2 of the reference program's straight line: its 63 host operations in order, the operations of each
   called function listed at the call over that call's buffers; that the printed window is this list run in order;
   that every operation touches device buffers only, allocates nothing, and writes one buffer in a slot past the
   three argument slots. -/
import proofs.«160207_j39779987095835_2_alg».proof.Proof.Gen.ReferenceIdeal
import proofs.«160207_j39779987095835_2_alg».proof.Proof.LibHostLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The window's 63 operations, in order. -/
abbrev ops2 : List (HloOp τ sig (Elt F)) :=
  [ binary main_v89 main_v91 main_v92 (cmpi .slt : (⟨S16x192x192, .i32⟩ : BufTy).Contents (Elt F) → (⟨S16x192x192, .i32⟩ : BufTy).Contents (Elt F) → (⟨S16x192x192, .i1⟩ : BufTy).Contents (Elt F)),
    nullary main_c_26 (constantI S_ 32 64#32),
    unary main_c_26 main_v93 (broadcastInDim S16x192x192 ![] bcast_S_S16x192x192 : (⟨S_, .i32⟩ : BufTy).Contents (Elt F) → (⟨S16x192x192, .i32⟩ : BufTy).Contents (Elt F)),
    binary main_v89 main_v93 main_v94 (addi : (⟨S16x192x192, .i32⟩ : BufTy).Contents (Elt F) → (⟨S16x192x192, .i32⟩ : BufTy).Contents (Elt F) → (⟨S16x192x192, .i32⟩ : BufTy).Contents (Elt F)),
    ternary main_v92 main_v94 main_v89 main_v95 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    nullary main_c_27 (constantI S_ 32 0#32),
    unary main_c_27 main_v96 (broadcastInDim S16x192x192 ![] bcast_S_S16x192x192 : (⟨S_, .i32⟩ : BufTy).Contents (Elt F) → (⟨S16x192x192, .i32⟩ : BufTy).Contents (Elt F)),
    binary main_v90 main_v96 main_v97 (cmpi .slt : (⟨S16x192x192, .i32⟩ : BufTy).Contents (Elt F) → (⟨S16x192x192, .i32⟩ : BufTy).Contents (Elt F) → (⟨S16x192x192, .i1⟩ : BufTy).Contents (Elt F)),
    nullary main_c_28 (constantI S_ 32 64#32),
    unary main_c_28 main_v98 (broadcastInDim S16x192x192 ![] bcast_S_S16x192x192 : (⟨S_, .i32⟩ : BufTy).Contents (Elt F) → (⟨S16x192x192, .i32⟩ : BufTy).Contents (Elt F)),
    binary main_v90 main_v98 main_v99 (addi : (⟨S16x192x192, .i32⟩ : BufTy).Contents (Elt F) → (⟨S16x192x192, .i32⟩ : BufTy).Contents (Elt F) → (⟨S16x192x192, .i32⟩ : BufTy).Contents (Elt F)),
    ternary main_v97 main_v99 main_v90 main_v100 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    unary main_v95 main_v101 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    unary main_v100 main_v102 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    binary main_v101 main_v102 main_v103 ((fun a b => concatenate S16x192x192x2 3 [⟨S16x192x192x1, a⟩, ⟨S16x192x192x1, b⟩] concatenates_S16x192x192x1_S16x192x192x1_S16x192x192x2_d3) : (⟨S16x192x192x1, .i32⟩ : BufTy).Contents (Elt F) → (⟨S16x192x192x1, .i32⟩ : BufTy).Contents (Elt F) → (⟨S16x192x192x2, .i32⟩ : BufTy).Contents (Elt F)),
    binary main_arg0 main_v103 main_v104 ((fun x i => Host.gather gather_S16x256x64x64_S16x192x192x2_S16x256x192x192_1_23_0_0_23_3_125611 x i) : (⟨S16x256x64x64, .f32⟩ : BufTy).Contents (Elt F) → (⟨S16x192x192x2, .i32⟩ : BufTy).Contents (Elt F) → (⟨S16x256x192x192, .f32⟩ : BufTy).Contents (Elt F)),
    nullary main_cst_29 (constant S_ .f32 0x00000000#32),
    TRef.unary (.of main_cst_29 : StableHlo.TRef sig ⟨S_, .f32⟩) main_call6.v0 id,
    TRef.unary main_call6.v0 main_call6.v1 (broadcastInDim S192x192 ![] bcast_S_S192x192),
    TRef.unary main_call6.v1 main_call6.v2 (broadcastInDim S16x192x192 ![1, 2] bcast_S192x192_S16x192x192_1_2),
    TRef.ternary (.of main_v88 : StableHlo.TRef sig ⟨S16x192x192, .i1⟩) (.of main_v77 : StableHlo.TRef sig ⟨S16x192x192, .f32⟩) main_call6.v2 main_call6.v3 select,
    unary main_v105 main_v106 (broadcastInDim S16x1x192x192 ![0, 2, 3] bcast_S16x192x192_S16x1x192x192_0_2_3 : (⟨S16x192x192, .f32⟩ : BufTy).Contents (Elt F) → (⟨S16x1x192x192, .f32⟩ : BufTy).Contents (Elt F)),
    unary main_v106 main_v107 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v107 main_v104 main_v108 (mulf : (⟨S16x256x192x192, .f32⟩ : BufTy).Contents (Elt F) → (⟨S16x256x192x192, .f32⟩ : BufTy).Contents (Elt F) → (⟨S16x256x192x192, .f32⟩ : BufTy).Contents (Elt F)),
    unary main_v62 main_v109 (broadcastInDim S1x256x192x192 ![1, 2, 3] bcast_S256x192x192_S1x256x192x192_1_2_3 : (⟨S256x192x192, .f32⟩ : BufTy).Contents (Elt F) → (⟨S1x256x192x192, .f32⟩ : BufTy).Contents (Elt F)),
    unary main_v109 main_v110 (broadcastInDim S16x256x192x192 ![0, 1, 2, 3] bcast_S1x256x192x192_S16x256x192x192_0_1_2_3 : (⟨S1x256x192x192, .f32⟩ : BufTy).Contents (Elt F) → (⟨S16x256x192x192, .f32⟩ : BufTy).Contents (Elt F)),
    binary main_v110 main_v108 main_v111 (addf : (⟨S16x256x192x192, .f32⟩ : BufTy).Contents (Elt F) → (⟨S16x256x192x192, .f32⟩ : BufTy).Contents (Elt F) → (⟨S16x256x192x192, .f32⟩ : BufTy).Contents (Elt F)),
    nullary main_c_30 (constantI S_ 32 0#32),
    unary main_c_30 main_v112 (broadcastInDim S16x192x192 ![] bcast_S_S16x192x192 : (⟨S_, .i32⟩ : BufTy).Contents (Elt F) → (⟨S16x192x192, .i32⟩ : BufTy).Contents (Elt F)),
    binary main_v59 main_v112 main_v113 (addi : (⟨S16x192x192, .i32⟩ : BufTy).Contents (Elt F) → (⟨S16x192x192, .i32⟩ : BufTy).Contents (Elt F) → (⟨S16x192x192, .i32⟩ : BufTy).Contents (Elt F)),
    nullary main_c_31 (constantI S_ 32 1#32),
    unary main_c_31 main_v114 (broadcastInDim S16x192x192 ![] bcast_S_S16x192x192 : (⟨S_, .i32⟩ : BufTy).Contents (Elt F) → (⟨S16x192x192, .i32⟩ : BufTy).Contents (Elt F)),
    binary main_v61 main_v114 main_v115 (addi : (⟨S16x192x192, .i32⟩ : BufTy).Contents (Elt F) → (⟨S16x192x192, .i32⟩ : BufTy).Contents (Elt F) → (⟨S16x192x192, .i32⟩ : BufTy).Contents (Elt F)),
    unary main_v113 main_v116 (sitofp .f32 : (⟨S16x192x192, .i32⟩ : BufTy).Contents (Elt F) → (⟨S16x192x192, .f32⟩ : BufTy).Contents (Elt F)),
    binary main_v49 main_v116 main_v117 (subf : (⟨S16x192x192, .f32⟩ : BufTy).Contents (Elt F) → (⟨S16x192x192, .f32⟩ : BufTy).Contents (Elt F) → (⟨S16x192x192, .f32⟩ : BufTy).Contents (Elt F)),
    unary main_v117 main_v118 (Host.absf : (⟨S16x192x192, .f32⟩ : BufTy).Contents (Elt F) → (⟨S16x192x192, .f32⟩ : BufTy).Contents (Elt F)),
    nullary main_cst_32 (constant S_ .f32 0x3F800000#32),
    unary main_cst_32 main_v119 (broadcastInDim S16x192x192 ![] bcast_S_S16x192x192 : (⟨S_, .f32⟩ : BufTy).Contents (Elt F) → (⟨S16x192x192, .f32⟩ : BufTy).Contents (Elt F)),
    binary main_v119 main_v118 main_v120 (subf : (⟨S16x192x192, .f32⟩ : BufTy).Contents (Elt F) → (⟨S16x192x192, .f32⟩ : BufTy).Contents (Elt F) → (⟨S16x192x192, .f32⟩ : BufTy).Contents (Elt F)),
    unary main_v115 main_v121 (sitofp .f32 : (⟨S16x192x192, .i32⟩ : BufTy).Contents (Elt F) → (⟨S16x192x192, .f32⟩ : BufTy).Contents (Elt F)),
    binary main_v57 main_v121 main_v122 (subf : (⟨S16x192x192, .f32⟩ : BufTy).Contents (Elt F) → (⟨S16x192x192, .f32⟩ : BufTy).Contents (Elt F) → (⟨S16x192x192, .f32⟩ : BufTy).Contents (Elt F)),
    unary main_v122 main_v123 (Host.absf : (⟨S16x192x192, .f32⟩ : BufTy).Contents (Elt F) → (⟨S16x192x192, .f32⟩ : BufTy).Contents (Elt F)),
    nullary main_cst_33 (constant S_ .f32 0x3F800000#32),
    unary main_cst_33 main_v124 (broadcastInDim S16x192x192 ![] bcast_S_S16x192x192 : (⟨S_, .f32⟩ : BufTy).Contents (Elt F) → (⟨S16x192x192, .f32⟩ : BufTy).Contents (Elt F)),
    binary main_v124 main_v123 main_v125 (subf : (⟨S16x192x192, .f32⟩ : BufTy).Contents (Elt F) → (⟨S16x192x192, .f32⟩ : BufTy).Contents (Elt F) → (⟨S16x192x192, .f32⟩ : BufTy).Contents (Elt F)),
    binary main_v120 main_v125 main_v126 (mulf : (⟨S16x192x192, .f32⟩ : BufTy).Contents (Elt F) → (⟨S16x192x192, .f32⟩ : BufTy).Contents (Elt F) → (⟨S16x192x192, .f32⟩ : BufTy).Contents (Elt F)),
    nullary main_c_34 (constantI S_ 32 0#32),
    unary main_c_34 main_v127 (broadcastInDim S16x192x192 ![] bcast_S_S16x192x192 : (⟨S_, .i32⟩ : BufTy).Contents (Elt F) → (⟨S16x192x192, .i32⟩ : BufTy).Contents (Elt F)),
    binary main_v113 main_v127 main_v128 (cmpi .sge : (⟨S16x192x192, .i32⟩ : BufTy).Contents (Elt F) → (⟨S16x192x192, .i32⟩ : BufTy).Contents (Elt F) → (⟨S16x192x192, .i1⟩ : BufTy).Contents (Elt F)),
    nullary main_c_35 (constantI S_ 32 64#32),
    unary main_c_35 main_v129 (broadcastInDim S16x192x192 ![] bcast_S_S16x192x192 : (⟨S_, .i32⟩ : BufTy).Contents (Elt F) → (⟨S16x192x192, .i32⟩ : BufTy).Contents (Elt F)),
    binary main_v113 main_v129 main_v130 (cmpi .slt : (⟨S16x192x192, .i32⟩ : BufTy).Contents (Elt F) → (⟨S16x192x192, .i32⟩ : BufTy).Contents (Elt F) → (⟨S16x192x192, .i1⟩ : BufTy).Contents (Elt F)),
    binary main_v128 main_v130 main_v131 (andi : (⟨S16x192x192, .i1⟩ : BufTy).Contents (Elt F) → (⟨S16x192x192, .i1⟩ : BufTy).Contents (Elt F) → (⟨S16x192x192, .i1⟩ : BufTy).Contents (Elt F)),
    nullary main_c_36 (constantI S_ 32 0#32),
    unary main_c_36 main_v132 (broadcastInDim S16x192x192 ![] bcast_S_S16x192x192 : (⟨S_, .i32⟩ : BufTy).Contents (Elt F) → (⟨S16x192x192, .i32⟩ : BufTy).Contents (Elt F)),
    binary main_v115 main_v132 main_v133 (cmpi .sge : (⟨S16x192x192, .i32⟩ : BufTy).Contents (Elt F) → (⟨S16x192x192, .i32⟩ : BufTy).Contents (Elt F) → (⟨S16x192x192, .i1⟩ : BufTy).Contents (Elt F)),
    binary main_v131 main_v133 main_v134 (andi : (⟨S16x192x192, .i1⟩ : BufTy).Contents (Elt F) → (⟨S16x192x192, .i1⟩ : BufTy).Contents (Elt F) → (⟨S16x192x192, .i1⟩ : BufTy).Contents (Elt F)),
    nullary main_c_37 (constantI S_ 32 64#32),
    unary main_c_37 main_v135 (broadcastInDim S16x192x192 ![] bcast_S_S16x192x192 : (⟨S_, .i32⟩ : BufTy).Contents (Elt F) → (⟨S16x192x192, .i32⟩ : BufTy).Contents (Elt F)),
    binary main_v115 main_v135 main_v136 (cmpi .slt : (⟨S16x192x192, .i32⟩ : BufTy).Contents (Elt F) → (⟨S16x192x192, .i32⟩ : BufTy).Contents (Elt F) → (⟨S16x192x192, .i1⟩ : BufTy).Contents (Elt F)),
    binary main_v134 main_v136 main_v137 (andi : (⟨S16x192x192, .i1⟩ : BufTy).Contents (Elt F) → (⟨S16x192x192, .i1⟩ : BufTy).Contents (Elt F) → (⟨S16x192x192, .i1⟩ : BufTy).Contents (Elt F)),
    nullary main_c_38 (constantI S_ 32 0#32),
    nullary main_c_39 (constantI S_ 32 63#32) ]

set_option maxRecDepth 8192 in
/-- The printed window is that list run in order: the called functions' bodies opened at their calls, sequencing re-associated. -/
theorem part2_eq (c : Dev nD) : main_part2 (F := F) c = seq ops2 := by
  simp only [main_part2, fn_where.body, fn_floor_divide.body, fn_where_0.body, fn_remainder.body, fn_clip.body, fn_where_1.body, seq, bind_assoc, pure_bind] <;> rfl

/-- Every operation of the window touches device buffers only. -/
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub ..⟩

/-- No operation of the window allocates a buffer: each determines everything it writes. -/
theorem ops2_fresh_forall : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The same, by membership. -/
theorem ops2_fresh : ∀ op ∈ (ops2 : List (HloOp τ sig (Elt F))), op.fresh = ∅ :=
  List.forall_iff_forall_mem.mp ops2_fresh_forall

/-- Every operation of the window writes exactly one buffer, in a slot past the three argument slots 0, 1, 2. -/
theorem ops2_past : (ops2 : List (HloOp τ sig (Elt F))).Forall (WritesPast (τ := τ) 3) :=
  ⟨⟨main_v92, rfl, by decide⟩, ⟨main_c_26, rfl, by decide⟩, ⟨main_v93, rfl, by decide⟩, ⟨main_v94, rfl, by decide⟩, ⟨main_v95, rfl, by decide⟩, ⟨main_c_27, rfl, by decide⟩, ⟨main_v96, rfl, by decide⟩, ⟨main_v97, rfl, by decide⟩, ⟨main_c_28, rfl, by decide⟩, ⟨main_v98, rfl, by decide⟩, ⟨main_v99, rfl, by decide⟩, ⟨main_v100, rfl, by decide⟩, ⟨main_v101, rfl, by decide⟩, ⟨main_v102, rfl, by decide⟩, ⟨main_v103, rfl, by decide⟩, ⟨main_v104, rfl, by decide⟩, ⟨main_cst_29, rfl, by decide⟩, ⟨(main_call6.v0).ref, rfl, by decide⟩, ⟨(main_call6.v1).ref, rfl, by decide⟩, ⟨(main_call6.v2).ref, rfl, by decide⟩, ⟨(main_call6.v3).ref, rfl, by decide⟩, ⟨main_v106, rfl, by decide⟩, ⟨main_v107, rfl, by decide⟩, ⟨main_v108, rfl, by decide⟩, ⟨main_v109, rfl, by decide⟩, ⟨main_v110, rfl, by decide⟩, ⟨main_v111, rfl, by decide⟩, ⟨main_c_30, rfl, by decide⟩, ⟨main_v112, rfl, by decide⟩, ⟨main_v113, rfl, by decide⟩, ⟨main_c_31, rfl, by decide⟩, ⟨main_v114, rfl, by decide⟩, ⟨main_v115, rfl, by decide⟩, ⟨main_v116, rfl, by decide⟩, ⟨main_v117, rfl, by decide⟩, ⟨main_v118, rfl, by decide⟩, ⟨main_cst_32, rfl, by decide⟩, ⟨main_v119, rfl, by decide⟩, ⟨main_v120, rfl, by decide⟩, ⟨main_v121, rfl, by decide⟩, ⟨main_v122, rfl, by decide⟩, ⟨main_v123, rfl, by decide⟩, ⟨main_cst_33, rfl, by decide⟩, ⟨main_v124, rfl, by decide⟩, ⟨main_v125, rfl, by decide⟩, ⟨main_v126, rfl, by decide⟩, ⟨main_c_34, rfl, by decide⟩, ⟨main_v127, rfl, by decide⟩, ⟨main_v128, rfl, by decide⟩, ⟨main_c_35, rfl, by decide⟩, ⟨main_v129, rfl, by decide⟩, ⟨main_v130, rfl, by decide⟩, ⟨main_v131, rfl, by decide⟩, ⟨main_c_36, rfl, by decide⟩, ⟨main_v132, rfl, by decide⟩, ⟨main_v133, rfl, by decide⟩, ⟨main_v134, rfl, by decide⟩, ⟨main_c_37, rfl, by decide⟩, ⟨main_v135, rfl, by decide⟩, ⟨main_v136, rfl, by decide⟩, ⟨main_v137, rfl, by decide⟩, ⟨main_c_38, rfl, by decide⟩, ⟨main_c_39, rfl, by decide⟩⟩

end Cert.ReferenceIdeal.Line

end
-- ==== Proof.RefPart3.lean ====
/- Window 3 of the reference program's straight line: its 73 host operations in order, the operations of each
   called function listed at the call over that call's buffers; that the printed window is this list run in order;
   that every operation touches device buffers only, allocates nothing, and writes one buffer in a slot past the
   three argument slots. -/
import proofs.«160207_j39779987095835_2_alg».proof.Proof.Gen.ReferenceIdeal
import proofs.«160207_j39779987095835_2_alg».proof.Proof.LibHostLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The window's 73 operations, in order. -/
abbrev ops3 : List (HloOp τ sig (Elt F)) :=
  [ TRef.unary (.of main_c_38 : StableHlo.TRef sig ⟨S_, .i32⟩) main_call7.v0 id,
    TRef.unary main_call7.v0 main_call7.v1 (broadcastInDim S16x192x192 ![] bcast_S_S16x192x192),
    TRef.binary main_call7.v1 (.of main_v113 : StableHlo.TRef sig ⟨S16x192x192, .i32⟩) main_call7.v2 maxsi,
    TRef.unary (.of main_c_39 : StableHlo.TRef sig ⟨S_, .i32⟩) main_call7.v3 id,
    TRef.unary main_call7.v3 main_call7.v4 (broadcastInDim S16x192x192 ![] bcast_S_S16x192x192),
    TRef.binary main_call7.v4 main_call7.v2 main_call7.v5 minsi,
    nullary main_c_40 (constantI S_ 32 0#32),
    nullary main_c_41 (constantI S_ 32 63#32),
    TRef.unary (.of main_c_40 : StableHlo.TRef sig ⟨S_, .i32⟩) main_call8.v0 id,
    TRef.unary main_call8.v0 main_call8.v1 (broadcastInDim S16x192x192 ![] bcast_S_S16x192x192),
    TRef.binary main_call8.v1 (.of main_v115 : StableHlo.TRef sig ⟨S16x192x192, .i32⟩) main_call8.v2 maxsi,
    TRef.unary (.of main_c_41 : StableHlo.TRef sig ⟨S_, .i32⟩) main_call8.v3 id,
    TRef.unary main_call8.v3 main_call8.v4 (broadcastInDim S16x192x192 ![] bcast_S_S16x192x192),
    TRef.binary main_call8.v4 main_call8.v2 main_call8.v5 minsi,
    nullary main_c_42 (constantI S_ 32 0#32),
    unary main_c_42 main_v140 (broadcastInDim S16x192x192 ![] bcast_S_S16x192x192 : (⟨S_, .i32⟩ : BufTy).Contents (Elt F) → (⟨S16x192x192, .i32⟩ : BufTy).Contents (Elt F)),
    binary main_v138 main_v140 main_v141 (cmpi .slt : (⟨S16x192x192, .i32⟩ : BufTy).Contents (Elt F) → (⟨S16x192x192, .i32⟩ : BufTy).Contents (Elt F) → (⟨S16x192x192, .i1⟩ : BufTy).Contents (Elt F)),
    nullary main_c_43 (constantI S_ 32 64#32),
    unary main_c_43 main_v142 (broadcastInDim S16x192x192 ![] bcast_S_S16x192x192 : (⟨S_, .i32⟩ : BufTy).Contents (Elt F) → (⟨S16x192x192, .i32⟩ : BufTy).Contents (Elt F)),
    binary main_v138 main_v142 main_v143 (addi : (⟨S16x192x192, .i32⟩ : BufTy).Contents (Elt F) → (⟨S16x192x192, .i32⟩ : BufTy).Contents (Elt F) → (⟨S16x192x192, .i32⟩ : BufTy).Contents (Elt F)),
    ternary main_v141 main_v143 main_v138 main_v144 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    nullary main_c_44 (constantI S_ 32 0#32),
    unary main_c_44 main_v145 (broadcastInDim S16x192x192 ![] bcast_S_S16x192x192 : (⟨S_, .i32⟩ : BufTy).Contents (Elt F) → (⟨S16x192x192, .i32⟩ : BufTy).Contents (Elt F)),
    binary main_v139 main_v145 main_v146 (cmpi .slt : (⟨S16x192x192, .i32⟩ : BufTy).Contents (Elt F) → (⟨S16x192x192, .i32⟩ : BufTy).Contents (Elt F) → (⟨S16x192x192, .i1⟩ : BufTy).Contents (Elt F)),
    nullary main_c_45 (constantI S_ 32 64#32),
    unary main_c_45 main_v147 (broadcastInDim S16x192x192 ![] bcast_S_S16x192x192 : (⟨S_, .i32⟩ : BufTy).Contents (Elt F) → (⟨S16x192x192, .i32⟩ : BufTy).Contents (Elt F)),
    binary main_v139 main_v147 main_v148 (addi : (⟨S16x192x192, .i32⟩ : BufTy).Contents (Elt F) → (⟨S16x192x192, .i32⟩ : BufTy).Contents (Elt F) → (⟨S16x192x192, .i32⟩ : BufTy).Contents (Elt F)),
    ternary main_v146 main_v148 main_v139 main_v149 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    unary main_v144 main_v150 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    unary main_v149 main_v151 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    binary main_v150 main_v151 main_v152 ((fun a b => concatenate S16x192x192x2 3 [⟨S16x192x192x1, a⟩, ⟨S16x192x192x1, b⟩] concatenates_S16x192x192x1_S16x192x192x1_S16x192x192x2_d3) : (⟨S16x192x192x1, .i32⟩ : BufTy).Contents (Elt F) → (⟨S16x192x192x1, .i32⟩ : BufTy).Contents (Elt F) → (⟨S16x192x192x2, .i32⟩ : BufTy).Contents (Elt F)),
    binary main_arg0 main_v152 main_v153 ((fun x i => Host.gather gather_S16x256x64x64_S16x192x192x2_S16x256x192x192_1_23_0_0_23_3_125611 x i) : (⟨S16x256x64x64, .f32⟩ : BufTy).Contents (Elt F) → (⟨S16x192x192x2, .i32⟩ : BufTy).Contents (Elt F) → (⟨S16x256x192x192, .f32⟩ : BufTy).Contents (Elt F)),
    nullary main_cst_46 (constant S_ .f32 0x00000000#32),
    TRef.unary (.of main_cst_46 : StableHlo.TRef sig ⟨S_, .f32⟩) main_call9.v0 id,
    TRef.unary main_call9.v0 main_call9.v1 (broadcastInDim S192x192 ![] bcast_S_S192x192),
    TRef.unary main_call9.v1 main_call9.v2 (broadcastInDim S16x192x192 ![1, 2] bcast_S192x192_S16x192x192_1_2),
    TRef.ternary (.of main_v137 : StableHlo.TRef sig ⟨S16x192x192, .i1⟩) (.of main_v126 : StableHlo.TRef sig ⟨S16x192x192, .f32⟩) main_call9.v2 main_call9.v3 select,
    unary main_v154 main_v155 (broadcastInDim S16x1x192x192 ![0, 2, 3] bcast_S16x192x192_S16x1x192x192_0_2_3 : (⟨S16x192x192, .f32⟩ : BufTy).Contents (Elt F) → (⟨S16x1x192x192, .f32⟩ : BufTy).Contents (Elt F)),
    unary main_v155 main_v156 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v156 main_v153 main_v157 (mulf : (⟨S16x256x192x192, .f32⟩ : BufTy).Contents (Elt F) → (⟨S16x256x192x192, .f32⟩ : BufTy).Contents (Elt F) → (⟨S16x256x192x192, .f32⟩ : BufTy).Contents (Elt F)),
    binary main_v111 main_v157 main_v158 (addf : (⟨S16x256x192x192, .f32⟩ : BufTy).Contents (Elt F) → (⟨S16x256x192x192, .f32⟩ : BufTy).Contents (Elt F) → (⟨S16x256x192x192, .f32⟩ : BufTy).Contents (Elt F)),
    nullary main_c_47 (constantI S_ 32 1#32),
    unary main_c_47 main_v159 (broadcastInDim S16x192x192 ![] bcast_S_S16x192x192 : (⟨S_, .i32⟩ : BufTy).Contents (Elt F) → (⟨S16x192x192, .i32⟩ : BufTy).Contents (Elt F)),
    binary main_v59 main_v159 main_v160 (addi : (⟨S16x192x192, .i32⟩ : BufTy).Contents (Elt F) → (⟨S16x192x192, .i32⟩ : BufTy).Contents (Elt F) → (⟨S16x192x192, .i32⟩ : BufTy).Contents (Elt F)),
    nullary main_c_48 (constantI S_ 32 0#32),
    unary main_c_48 main_v161 (broadcastInDim S16x192x192 ![] bcast_S_S16x192x192 : (⟨S_, .i32⟩ : BufTy).Contents (Elt F) → (⟨S16x192x192, .i32⟩ : BufTy).Contents (Elt F)),
    binary main_v61 main_v161 main_v162 (addi : (⟨S16x192x192, .i32⟩ : BufTy).Contents (Elt F) → (⟨S16x192x192, .i32⟩ : BufTy).Contents (Elt F) → (⟨S16x192x192, .i32⟩ : BufTy).Contents (Elt F)),
    unary main_v160 main_v163 (sitofp .f32 : (⟨S16x192x192, .i32⟩ : BufTy).Contents (Elt F) → (⟨S16x192x192, .f32⟩ : BufTy).Contents (Elt F)),
    binary main_v49 main_v163 main_v164 (subf : (⟨S16x192x192, .f32⟩ : BufTy).Contents (Elt F) → (⟨S16x192x192, .f32⟩ : BufTy).Contents (Elt F) → (⟨S16x192x192, .f32⟩ : BufTy).Contents (Elt F)),
    unary main_v164 main_v165 (Host.absf : (⟨S16x192x192, .f32⟩ : BufTy).Contents (Elt F) → (⟨S16x192x192, .f32⟩ : BufTy).Contents (Elt F)),
    nullary main_cst_49 (constant S_ .f32 0x3F800000#32),
    unary main_cst_49 main_v166 (broadcastInDim S16x192x192 ![] bcast_S_S16x192x192 : (⟨S_, .f32⟩ : BufTy).Contents (Elt F) → (⟨S16x192x192, .f32⟩ : BufTy).Contents (Elt F)),
    binary main_v166 main_v165 main_v167 (subf : (⟨S16x192x192, .f32⟩ : BufTy).Contents (Elt F) → (⟨S16x192x192, .f32⟩ : BufTy).Contents (Elt F) → (⟨S16x192x192, .f32⟩ : BufTy).Contents (Elt F)),
    unary main_v162 main_v168 (sitofp .f32 : (⟨S16x192x192, .i32⟩ : BufTy).Contents (Elt F) → (⟨S16x192x192, .f32⟩ : BufTy).Contents (Elt F)),
    binary main_v57 main_v168 main_v169 (subf : (⟨S16x192x192, .f32⟩ : BufTy).Contents (Elt F) → (⟨S16x192x192, .f32⟩ : BufTy).Contents (Elt F) → (⟨S16x192x192, .f32⟩ : BufTy).Contents (Elt F)),
    unary main_v169 main_v170 (Host.absf : (⟨S16x192x192, .f32⟩ : BufTy).Contents (Elt F) → (⟨S16x192x192, .f32⟩ : BufTy).Contents (Elt F)),
    nullary main_cst_50 (constant S_ .f32 0x3F800000#32),
    unary main_cst_50 main_v171 (broadcastInDim S16x192x192 ![] bcast_S_S16x192x192 : (⟨S_, .f32⟩ : BufTy).Contents (Elt F) → (⟨S16x192x192, .f32⟩ : BufTy).Contents (Elt F)),
    binary main_v171 main_v170 main_v172 (subf : (⟨S16x192x192, .f32⟩ : BufTy).Contents (Elt F) → (⟨S16x192x192, .f32⟩ : BufTy).Contents (Elt F) → (⟨S16x192x192, .f32⟩ : BufTy).Contents (Elt F)),
    binary main_v167 main_v172 main_v173 (mulf : (⟨S16x192x192, .f32⟩ : BufTy).Contents (Elt F) → (⟨S16x192x192, .f32⟩ : BufTy).Contents (Elt F) → (⟨S16x192x192, .f32⟩ : BufTy).Contents (Elt F)),
    nullary main_c_51 (constantI S_ 32 0#32),
    unary main_c_51 main_v174 (broadcastInDim S16x192x192 ![] bcast_S_S16x192x192 : (⟨S_, .i32⟩ : BufTy).Contents (Elt F) → (⟨S16x192x192, .i32⟩ : BufTy).Contents (Elt F)),
    binary main_v160 main_v174 main_v175 (cmpi .sge : (⟨S16x192x192, .i32⟩ : BufTy).Contents (Elt F) → (⟨S16x192x192, .i32⟩ : BufTy).Contents (Elt F) → (⟨S16x192x192, .i1⟩ : BufTy).Contents (Elt F)),
    nullary main_c_52 (constantI S_ 32 64#32),
    unary main_c_52 main_v176 (broadcastInDim S16x192x192 ![] bcast_S_S16x192x192 : (⟨S_, .i32⟩ : BufTy).Contents (Elt F) → (⟨S16x192x192, .i32⟩ : BufTy).Contents (Elt F)),
    binary main_v160 main_v176 main_v177 (cmpi .slt : (⟨S16x192x192, .i32⟩ : BufTy).Contents (Elt F) → (⟨S16x192x192, .i32⟩ : BufTy).Contents (Elt F) → (⟨S16x192x192, .i1⟩ : BufTy).Contents (Elt F)),
    binary main_v175 main_v177 main_v178 (andi : (⟨S16x192x192, .i1⟩ : BufTy).Contents (Elt F) → (⟨S16x192x192, .i1⟩ : BufTy).Contents (Elt F) → (⟨S16x192x192, .i1⟩ : BufTy).Contents (Elt F)),
    nullary main_c_53 (constantI S_ 32 0#32),
    unary main_c_53 main_v179 (broadcastInDim S16x192x192 ![] bcast_S_S16x192x192 : (⟨S_, .i32⟩ : BufTy).Contents (Elt F) → (⟨S16x192x192, .i32⟩ : BufTy).Contents (Elt F)),
    binary main_v162 main_v179 main_v180 (cmpi .sge : (⟨S16x192x192, .i32⟩ : BufTy).Contents (Elt F) → (⟨S16x192x192, .i32⟩ : BufTy).Contents (Elt F) → (⟨S16x192x192, .i1⟩ : BufTy).Contents (Elt F)),
    binary main_v178 main_v180 main_v181 (andi : (⟨S16x192x192, .i1⟩ : BufTy).Contents (Elt F) → (⟨S16x192x192, .i1⟩ : BufTy).Contents (Elt F) → (⟨S16x192x192, .i1⟩ : BufTy).Contents (Elt F)),
    nullary main_c_54 (constantI S_ 32 64#32),
    unary main_c_54 main_v182 (broadcastInDim S16x192x192 ![] bcast_S_S16x192x192 : (⟨S_, .i32⟩ : BufTy).Contents (Elt F) → (⟨S16x192x192, .i32⟩ : BufTy).Contents (Elt F)) ]

set_option maxRecDepth 8192 in
/-- The printed window is that list run in order: the called functions' bodies opened at their calls, sequencing re-associated. -/
theorem part3_eq (c : Dev nD) : main_part3 (F := F) c = seq ops3 := by
  simp only [main_part3, fn_where.body, fn_floor_divide.body, fn_where_0.body, fn_remainder.body, fn_clip.body, fn_where_1.body, seq, bind_assoc, pure_bind] <;> rfl

/-- Every operation of the window touches device buffers only. -/
theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

/-- No operation of the window allocates a buffer: each determines everything it writes. -/
theorem ops3_fresh_forall : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The same, by membership. -/
theorem ops3_fresh : ∀ op ∈ (ops3 : List (HloOp τ sig (Elt F))), op.fresh = ∅ :=
  List.forall_iff_forall_mem.mp ops3_fresh_forall

/-- Every operation of the window writes exactly one buffer, in a slot past the three argument slots 0, 1, 2. -/
theorem ops3_past : (ops3 : List (HloOp τ sig (Elt F))).Forall (WritesPast (τ := τ) 3) :=
  ⟨⟨(main_call7.v0).ref, rfl, by decide⟩, ⟨(main_call7.v1).ref, rfl, by decide⟩, ⟨(main_call7.v2).ref, rfl, by decide⟩, ⟨(main_call7.v3).ref, rfl, by decide⟩, ⟨(main_call7.v4).ref, rfl, by decide⟩, ⟨(main_call7.v5).ref, rfl, by decide⟩, ⟨main_c_40, rfl, by decide⟩, ⟨main_c_41, rfl, by decide⟩, ⟨(main_call8.v0).ref, rfl, by decide⟩, ⟨(main_call8.v1).ref, rfl, by decide⟩, ⟨(main_call8.v2).ref, rfl, by decide⟩, ⟨(main_call8.v3).ref, rfl, by decide⟩, ⟨(main_call8.v4).ref, rfl, by decide⟩, ⟨(main_call8.v5).ref, rfl, by decide⟩, ⟨main_c_42, rfl, by decide⟩, ⟨main_v140, rfl, by decide⟩, ⟨main_v141, rfl, by decide⟩, ⟨main_c_43, rfl, by decide⟩, ⟨main_v142, rfl, by decide⟩, ⟨main_v143, rfl, by decide⟩, ⟨main_v144, rfl, by decide⟩, ⟨main_c_44, rfl, by decide⟩, ⟨main_v145, rfl, by decide⟩, ⟨main_v146, rfl, by decide⟩, ⟨main_c_45, rfl, by decide⟩, ⟨main_v147, rfl, by decide⟩, ⟨main_v148, rfl, by decide⟩, ⟨main_v149, rfl, by decide⟩, ⟨main_v150, rfl, by decide⟩, ⟨main_v151, rfl, by decide⟩, ⟨main_v152, rfl, by decide⟩, ⟨main_v153, rfl, by decide⟩, ⟨main_cst_46, rfl, by decide⟩, ⟨(main_call9.v0).ref, rfl, by decide⟩, ⟨(main_call9.v1).ref, rfl, by decide⟩, ⟨(main_call9.v2).ref, rfl, by decide⟩, ⟨(main_call9.v3).ref, rfl, by decide⟩, ⟨main_v155, rfl, by decide⟩, ⟨main_v156, rfl, by decide⟩, ⟨main_v157, rfl, by decide⟩, ⟨main_v158, rfl, by decide⟩, ⟨main_c_47, rfl, by decide⟩, ⟨main_v159, rfl, by decide⟩, ⟨main_v160, rfl, by decide⟩, ⟨main_c_48, rfl, by decide⟩, ⟨main_v161, rfl, by decide⟩, ⟨main_v162, rfl, by decide⟩, ⟨main_v163, rfl, by decide⟩, ⟨main_v164, rfl, by decide⟩, ⟨main_v165, rfl, by decide⟩, ⟨main_cst_49, rfl, by decide⟩, ⟨main_v166, rfl, by decide⟩, ⟨main_v167, rfl, by decide⟩, ⟨main_v168, rfl, by decide⟩, ⟨main_v169, rfl, by decide⟩, ⟨main_v170, rfl, by decide⟩, ⟨main_cst_50, rfl, by decide⟩, ⟨main_v171, rfl, by decide⟩, ⟨main_v172, rfl, by decide⟩, ⟨main_v173, rfl, by decide⟩, ⟨main_c_51, rfl, by decide⟩, ⟨main_v174, rfl, by decide⟩, ⟨main_v175, rfl, by decide⟩, ⟨main_c_52, rfl, by decide⟩, ⟨main_v176, rfl, by decide⟩, ⟨main_v177, rfl, by decide⟩, ⟨main_v178, rfl, by decide⟩, ⟨main_c_53, rfl, by decide⟩, ⟨main_v179, rfl, by decide⟩, ⟨main_v180, rfl, by decide⟩, ⟨main_v181, rfl, by decide⟩, ⟨main_c_54, rfl, by decide⟩, ⟨main_v182, rfl, by decide⟩⟩

end Cert.ReferenceIdeal.Line

end
-- ==== Proof.RefPart4.lean ====
/- Window 4 of the reference program's straight line: its 73 host operations in order, the operations of each
   called function listed at the call over that call's buffers; that the printed window is this list run in order;
   that every operation touches device buffers only, allocates nothing, and writes one buffer in a slot past the
   three argument slots. -/
import proofs.«160207_j39779987095835_2_alg».proof.Proof.Gen.ReferenceIdeal
import proofs.«160207_j39779987095835_2_alg».proof.Proof.LibHostLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The window's 73 operations, in order. -/
abbrev ops4 : List (HloOp τ sig (Elt F)) :=
  [ binary main_v162 main_v182 main_v183 (cmpi .slt : (⟨S16x192x192, .i32⟩ : BufTy).Contents (Elt F) → (⟨S16x192x192, .i32⟩ : BufTy).Contents (Elt F) → (⟨S16x192x192, .i1⟩ : BufTy).Contents (Elt F)),
    binary main_v181 main_v183 main_v184 (andi : (⟨S16x192x192, .i1⟩ : BufTy).Contents (Elt F) → (⟨S16x192x192, .i1⟩ : BufTy).Contents (Elt F) → (⟨S16x192x192, .i1⟩ : BufTy).Contents (Elt F)),
    nullary main_c_55 (constantI S_ 32 0#32),
    nullary main_c_56 (constantI S_ 32 63#32),
    TRef.unary (.of main_c_55 : StableHlo.TRef sig ⟨S_, .i32⟩) main_call10.v0 id,
    TRef.unary main_call10.v0 main_call10.v1 (broadcastInDim S16x192x192 ![] bcast_S_S16x192x192),
    TRef.binary main_call10.v1 (.of main_v160 : StableHlo.TRef sig ⟨S16x192x192, .i32⟩) main_call10.v2 maxsi,
    TRef.unary (.of main_c_56 : StableHlo.TRef sig ⟨S_, .i32⟩) main_call10.v3 id,
    TRef.unary main_call10.v3 main_call10.v4 (broadcastInDim S16x192x192 ![] bcast_S_S16x192x192),
    TRef.binary main_call10.v4 main_call10.v2 main_call10.v5 minsi,
    nullary main_c_57 (constantI S_ 32 0#32),
    nullary main_c_58 (constantI S_ 32 63#32),
    TRef.unary (.of main_c_57 : StableHlo.TRef sig ⟨S_, .i32⟩) main_call11.v0 id,
    TRef.unary main_call11.v0 main_call11.v1 (broadcastInDim S16x192x192 ![] bcast_S_S16x192x192),
    TRef.binary main_call11.v1 (.of main_v162 : StableHlo.TRef sig ⟨S16x192x192, .i32⟩) main_call11.v2 maxsi,
    TRef.unary (.of main_c_58 : StableHlo.TRef sig ⟨S_, .i32⟩) main_call11.v3 id,
    TRef.unary main_call11.v3 main_call11.v4 (broadcastInDim S16x192x192 ![] bcast_S_S16x192x192),
    TRef.binary main_call11.v4 main_call11.v2 main_call11.v5 minsi,
    nullary main_c_59 (constantI S_ 32 0#32),
    unary main_c_59 main_v187 (broadcastInDim S16x192x192 ![] bcast_S_S16x192x192 : (⟨S_, .i32⟩ : BufTy).Contents (Elt F) → (⟨S16x192x192, .i32⟩ : BufTy).Contents (Elt F)),
    binary main_v185 main_v187 main_v188 (cmpi .slt : (⟨S16x192x192, .i32⟩ : BufTy).Contents (Elt F) → (⟨S16x192x192, .i32⟩ : BufTy).Contents (Elt F) → (⟨S16x192x192, .i1⟩ : BufTy).Contents (Elt F)),
    nullary main_c_60 (constantI S_ 32 64#32),
    unary main_c_60 main_v189 (broadcastInDim S16x192x192 ![] bcast_S_S16x192x192 : (⟨S_, .i32⟩ : BufTy).Contents (Elt F) → (⟨S16x192x192, .i32⟩ : BufTy).Contents (Elt F)),
    binary main_v185 main_v189 main_v190 (addi : (⟨S16x192x192, .i32⟩ : BufTy).Contents (Elt F) → (⟨S16x192x192, .i32⟩ : BufTy).Contents (Elt F) → (⟨S16x192x192, .i32⟩ : BufTy).Contents (Elt F)),
    ternary main_v188 main_v190 main_v185 main_v191 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    nullary main_c_61 (constantI S_ 32 0#32),
    unary main_c_61 main_v192 (broadcastInDim S16x192x192 ![] bcast_S_S16x192x192 : (⟨S_, .i32⟩ : BufTy).Contents (Elt F) → (⟨S16x192x192, .i32⟩ : BufTy).Contents (Elt F)),
    binary main_v186 main_v192 main_v193 (cmpi .slt : (⟨S16x192x192, .i32⟩ : BufTy).Contents (Elt F) → (⟨S16x192x192, .i32⟩ : BufTy).Contents (Elt F) → (⟨S16x192x192, .i1⟩ : BufTy).Contents (Elt F)),
    nullary main_c_62 (constantI S_ 32 64#32),
    unary main_c_62 main_v194 (broadcastInDim S16x192x192 ![] bcast_S_S16x192x192 : (⟨S_, .i32⟩ : BufTy).Contents (Elt F) → (⟨S16x192x192, .i32⟩ : BufTy).Contents (Elt F)),
    binary main_v186 main_v194 main_v195 (addi : (⟨S16x192x192, .i32⟩ : BufTy).Contents (Elt F) → (⟨S16x192x192, .i32⟩ : BufTy).Contents (Elt F) → (⟨S16x192x192, .i32⟩ : BufTy).Contents (Elt F)),
    ternary main_v193 main_v195 main_v186 main_v196 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    unary main_v191 main_v197 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    unary main_v196 main_v198 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    binary main_v197 main_v198 main_v199 ((fun a b => concatenate S16x192x192x2 3 [⟨S16x192x192x1, a⟩, ⟨S16x192x192x1, b⟩] concatenates_S16x192x192x1_S16x192x192x1_S16x192x192x2_d3) : (⟨S16x192x192x1, .i32⟩ : BufTy).Contents (Elt F) → (⟨S16x192x192x1, .i32⟩ : BufTy).Contents (Elt F) → (⟨S16x192x192x2, .i32⟩ : BufTy).Contents (Elt F)),
    binary main_arg0 main_v199 main_v200 ((fun x i => Host.gather gather_S16x256x64x64_S16x192x192x2_S16x256x192x192_1_23_0_0_23_3_125611 x i) : (⟨S16x256x64x64, .f32⟩ : BufTy).Contents (Elt F) → (⟨S16x192x192x2, .i32⟩ : BufTy).Contents (Elt F) → (⟨S16x256x192x192, .f32⟩ : BufTy).Contents (Elt F)),
    nullary main_cst_63 (constant S_ .f32 0x00000000#32),
    TRef.unary (.of main_cst_63 : StableHlo.TRef sig ⟨S_, .f32⟩) main_call12.v0 id,
    TRef.unary main_call12.v0 main_call12.v1 (broadcastInDim S192x192 ![] bcast_S_S192x192),
    TRef.unary main_call12.v1 main_call12.v2 (broadcastInDim S16x192x192 ![1, 2] bcast_S192x192_S16x192x192_1_2),
    TRef.ternary (.of main_v184 : StableHlo.TRef sig ⟨S16x192x192, .i1⟩) (.of main_v173 : StableHlo.TRef sig ⟨S16x192x192, .f32⟩) main_call12.v2 main_call12.v3 select,
    unary main_v201 main_v202 (broadcastInDim S16x1x192x192 ![0, 2, 3] bcast_S16x192x192_S16x1x192x192_0_2_3 : (⟨S16x192x192, .f32⟩ : BufTy).Contents (Elt F) → (⟨S16x1x192x192, .f32⟩ : BufTy).Contents (Elt F)),
    unary main_v202 main_v203 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v203 main_v200 main_v204 (mulf : (⟨S16x256x192x192, .f32⟩ : BufTy).Contents (Elt F) → (⟨S16x256x192x192, .f32⟩ : BufTy).Contents (Elt F) → (⟨S16x256x192x192, .f32⟩ : BufTy).Contents (Elt F)),
    binary main_v158 main_v204 main_v205 (addf : (⟨S16x256x192x192, .f32⟩ : BufTy).Contents (Elt F) → (⟨S16x256x192x192, .f32⟩ : BufTy).Contents (Elt F) → (⟨S16x256x192x192, .f32⟩ : BufTy).Contents (Elt F)),
    nullary main_c_64 (constantI S_ 32 1#32),
    unary main_c_64 main_v206 (broadcastInDim S16x192x192 ![] bcast_S_S16x192x192 : (⟨S_, .i32⟩ : BufTy).Contents (Elt F) → (⟨S16x192x192, .i32⟩ : BufTy).Contents (Elt F)),
    binary main_v59 main_v206 main_v207 (addi : (⟨S16x192x192, .i32⟩ : BufTy).Contents (Elt F) → (⟨S16x192x192, .i32⟩ : BufTy).Contents (Elt F) → (⟨S16x192x192, .i32⟩ : BufTy).Contents (Elt F)),
    nullary main_c_65 (constantI S_ 32 1#32),
    unary main_c_65 main_v208 (broadcastInDim S16x192x192 ![] bcast_S_S16x192x192 : (⟨S_, .i32⟩ : BufTy).Contents (Elt F) → (⟨S16x192x192, .i32⟩ : BufTy).Contents (Elt F)),
    binary main_v61 main_v208 main_v209 (addi : (⟨S16x192x192, .i32⟩ : BufTy).Contents (Elt F) → (⟨S16x192x192, .i32⟩ : BufTy).Contents (Elt F) → (⟨S16x192x192, .i32⟩ : BufTy).Contents (Elt F)),
    unary main_v207 main_v210 (sitofp .f32 : (⟨S16x192x192, .i32⟩ : BufTy).Contents (Elt F) → (⟨S16x192x192, .f32⟩ : BufTy).Contents (Elt F)),
    binary main_v49 main_v210 main_v211 (subf : (⟨S16x192x192, .f32⟩ : BufTy).Contents (Elt F) → (⟨S16x192x192, .f32⟩ : BufTy).Contents (Elt F) → (⟨S16x192x192, .f32⟩ : BufTy).Contents (Elt F)),
    unary main_v211 main_v212 (Host.absf : (⟨S16x192x192, .f32⟩ : BufTy).Contents (Elt F) → (⟨S16x192x192, .f32⟩ : BufTy).Contents (Elt F)),
    nullary main_cst_66 (constant S_ .f32 0x3F800000#32),
    unary main_cst_66 main_v213 (broadcastInDim S16x192x192 ![] bcast_S_S16x192x192 : (⟨S_, .f32⟩ : BufTy).Contents (Elt F) → (⟨S16x192x192, .f32⟩ : BufTy).Contents (Elt F)),
    binary main_v213 main_v212 main_v214 (subf : (⟨S16x192x192, .f32⟩ : BufTy).Contents (Elt F) → (⟨S16x192x192, .f32⟩ : BufTy).Contents (Elt F) → (⟨S16x192x192, .f32⟩ : BufTy).Contents (Elt F)),
    unary main_v209 main_v215 (sitofp .f32 : (⟨S16x192x192, .i32⟩ : BufTy).Contents (Elt F) → (⟨S16x192x192, .f32⟩ : BufTy).Contents (Elt F)),
    binary main_v57 main_v215 main_v216 (subf : (⟨S16x192x192, .f32⟩ : BufTy).Contents (Elt F) → (⟨S16x192x192, .f32⟩ : BufTy).Contents (Elt F) → (⟨S16x192x192, .f32⟩ : BufTy).Contents (Elt F)),
    unary main_v216 main_v217 (Host.absf : (⟨S16x192x192, .f32⟩ : BufTy).Contents (Elt F) → (⟨S16x192x192, .f32⟩ : BufTy).Contents (Elt F)),
    nullary main_cst_67 (constant S_ .f32 0x3F800000#32),
    unary main_cst_67 main_v218 (broadcastInDim S16x192x192 ![] bcast_S_S16x192x192 : (⟨S_, .f32⟩ : BufTy).Contents (Elt F) → (⟨S16x192x192, .f32⟩ : BufTy).Contents (Elt F)),
    binary main_v218 main_v217 main_v219 (subf : (⟨S16x192x192, .f32⟩ : BufTy).Contents (Elt F) → (⟨S16x192x192, .f32⟩ : BufTy).Contents (Elt F) → (⟨S16x192x192, .f32⟩ : BufTy).Contents (Elt F)),
    binary main_v214 main_v219 main_v220 (mulf : (⟨S16x192x192, .f32⟩ : BufTy).Contents (Elt F) → (⟨S16x192x192, .f32⟩ : BufTy).Contents (Elt F) → (⟨S16x192x192, .f32⟩ : BufTy).Contents (Elt F)),
    nullary main_c_68 (constantI S_ 32 0#32),
    unary main_c_68 main_v221 (broadcastInDim S16x192x192 ![] bcast_S_S16x192x192 : (⟨S_, .i32⟩ : BufTy).Contents (Elt F) → (⟨S16x192x192, .i32⟩ : BufTy).Contents (Elt F)),
    binary main_v207 main_v221 main_v222 (cmpi .sge : (⟨S16x192x192, .i32⟩ : BufTy).Contents (Elt F) → (⟨S16x192x192, .i32⟩ : BufTy).Contents (Elt F) → (⟨S16x192x192, .i1⟩ : BufTy).Contents (Elt F)),
    nullary main_c_69 (constantI S_ 32 64#32),
    unary main_c_69 main_v223 (broadcastInDim S16x192x192 ![] bcast_S_S16x192x192 : (⟨S_, .i32⟩ : BufTy).Contents (Elt F) → (⟨S16x192x192, .i32⟩ : BufTy).Contents (Elt F)),
    binary main_v207 main_v223 main_v224 (cmpi .slt : (⟨S16x192x192, .i32⟩ : BufTy).Contents (Elt F) → (⟨S16x192x192, .i32⟩ : BufTy).Contents (Elt F) → (⟨S16x192x192, .i1⟩ : BufTy).Contents (Elt F)),
    binary main_v222 main_v224 main_v225 (andi : (⟨S16x192x192, .i1⟩ : BufTy).Contents (Elt F) → (⟨S16x192x192, .i1⟩ : BufTy).Contents (Elt F) → (⟨S16x192x192, .i1⟩ : BufTy).Contents (Elt F)),
    nullary main_c_70 (constantI S_ 32 0#32),
    unary main_c_70 main_v226 (broadcastInDim S16x192x192 ![] bcast_S_S16x192x192 : (⟨S_, .i32⟩ : BufTy).Contents (Elt F) → (⟨S16x192x192, .i32⟩ : BufTy).Contents (Elt F)) ]

set_option maxRecDepth 8192 in
/-- The printed window is that list run in order: the called functions' bodies opened at their calls, sequencing re-associated. -/
theorem part4_eq (c : Dev nD) : main_part4 (F := F) c = seq ops4 := by
  simp only [main_part4, fn_where.body, fn_floor_divide.body, fn_where_0.body, fn_remainder.body, fn_clip.body, fn_where_1.body, seq, bind_assoc, pure_bind] <;> rfl

/-- Every operation of the window touches device buffers only. -/
theorem ops4_sub : (ops4 : List (HloOp τ sig (Elt F))).Forall fun op => op.bufs ⊆ tcRefs τ sig :=
  ⟨binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub ..⟩

/-- No operation of the window allocates a buffer: each determines everything it writes. -/
theorem ops4_fresh_forall : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The same, by membership. -/
theorem ops4_fresh : ∀ op ∈ (ops4 : List (HloOp τ sig (Elt F))), op.fresh = ∅ :=
  List.forall_iff_forall_mem.mp ops4_fresh_forall

/-- Every operation of the window writes exactly one buffer, in a slot past the three argument slots 0, 1, 2. -/
theorem ops4_past : (ops4 : List (HloOp τ sig (Elt F))).Forall (WritesPast (τ := τ) 3) :=
  ⟨⟨main_v183, rfl, by decide⟩, ⟨main_v184, rfl, by decide⟩, ⟨main_c_55, rfl, by decide⟩, ⟨main_c_56, rfl, by decide⟩, ⟨(main_call10.v0).ref, rfl, by decide⟩, ⟨(main_call10.v1).ref, rfl, by decide⟩, ⟨(main_call10.v2).ref, rfl, by decide⟩, ⟨(main_call10.v3).ref, rfl, by decide⟩, ⟨(main_call10.v4).ref, rfl, by decide⟩, ⟨(main_call10.v5).ref, rfl, by decide⟩, ⟨main_c_57, rfl, by decide⟩, ⟨main_c_58, rfl, by decide⟩, ⟨(main_call11.v0).ref, rfl, by decide⟩, ⟨(main_call11.v1).ref, rfl, by decide⟩, ⟨(main_call11.v2).ref, rfl, by decide⟩, ⟨(main_call11.v3).ref, rfl, by decide⟩, ⟨(main_call11.v4).ref, rfl, by decide⟩, ⟨(main_call11.v5).ref, rfl, by decide⟩, ⟨main_c_59, rfl, by decide⟩, ⟨main_v187, rfl, by decide⟩, ⟨main_v188, rfl, by decide⟩, ⟨main_c_60, rfl, by decide⟩, ⟨main_v189, rfl, by decide⟩, ⟨main_v190, rfl, by decide⟩, ⟨main_v191, rfl, by decide⟩, ⟨main_c_61, rfl, by decide⟩, ⟨main_v192, rfl, by decide⟩, ⟨main_v193, rfl, by decide⟩, ⟨main_c_62, rfl, by decide⟩, ⟨main_v194, rfl, by decide⟩, ⟨main_v195, rfl, by decide⟩, ⟨main_v196, rfl, by decide⟩, ⟨main_v197, rfl, by decide⟩, ⟨main_v198, rfl, by decide⟩, ⟨main_v199, rfl, by decide⟩, ⟨main_v200, rfl, by decide⟩, ⟨main_cst_63, rfl, by decide⟩, ⟨(main_call12.v0).ref, rfl, by decide⟩, ⟨(main_call12.v1).ref, rfl, by decide⟩, ⟨(main_call12.v2).ref, rfl, by decide⟩, ⟨(main_call12.v3).ref, rfl, by decide⟩, ⟨main_v202, rfl, by decide⟩, ⟨main_v203, rfl, by decide⟩, ⟨main_v204, rfl, by decide⟩, ⟨main_v205, rfl, by decide⟩, ⟨main_c_64, rfl, by decide⟩, ⟨main_v206, rfl, by decide⟩, ⟨main_v207, rfl, by decide⟩, ⟨main_c_65, rfl, by decide⟩, ⟨main_v208, rfl, by decide⟩, ⟨main_v209, rfl, by decide⟩, ⟨main_v210, rfl, by decide⟩, ⟨main_v211, rfl, by decide⟩, ⟨main_v212, rfl, by decide⟩, ⟨main_cst_66, rfl, by decide⟩, ⟨main_v213, rfl, by decide⟩, ⟨main_v214, rfl, by decide⟩, ⟨main_v215, rfl, by decide⟩, ⟨main_v216, rfl, by decide⟩, ⟨main_v217, rfl, by decide⟩, ⟨main_cst_67, rfl, by decide⟩, ⟨main_v218, rfl, by decide⟩, ⟨main_v219, rfl, by decide⟩, ⟨main_v220, rfl, by decide⟩, ⟨main_c_68, rfl, by decide⟩, ⟨main_v221, rfl, by decide⟩, ⟨main_v222, rfl, by decide⟩, ⟨main_c_69, rfl, by decide⟩, ⟨main_v223, rfl, by decide⟩, ⟨main_v224, rfl, by decide⟩, ⟨main_v225, rfl, by decide⟩, ⟨main_c_70, rfl, by decide⟩, ⟨main_v226, rfl, by decide⟩⟩

end Cert.ReferenceIdeal.Line

end
-- ==== Proof.RefPart5.lean ====
/- Window 5 of the reference program's straight line: its 72 host operations in order, the operations of each
   called function listed at the call over that call's buffers; that the printed window is this list run in order;
   that every operation touches device buffers only, allocates nothing, and writes one buffer in a slot past the
   three argument slots. -/
import proofs.«160207_j39779987095835_2_alg».proof.Proof.Gen.ReferenceIdeal
import proofs.«160207_j39779987095835_2_alg».proof.Proof.LibHostLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The window's 72 operations, in order. -/
abbrev ops5 : List (HloOp τ sig (Elt F)) :=
  [ binary main_v209 main_v226 main_v227 (cmpi .sge : (⟨S16x192x192, .i32⟩ : BufTy).Contents (Elt F) → (⟨S16x192x192, .i32⟩ : BufTy).Contents (Elt F) → (⟨S16x192x192, .i1⟩ : BufTy).Contents (Elt F)),
    binary main_v225 main_v227 main_v228 (andi : (⟨S16x192x192, .i1⟩ : BufTy).Contents (Elt F) → (⟨S16x192x192, .i1⟩ : BufTy).Contents (Elt F) → (⟨S16x192x192, .i1⟩ : BufTy).Contents (Elt F)),
    nullary main_c_71 (constantI S_ 32 64#32),
    unary main_c_71 main_v229 (broadcastInDim S16x192x192 ![] bcast_S_S16x192x192 : (⟨S_, .i32⟩ : BufTy).Contents (Elt F) → (⟨S16x192x192, .i32⟩ : BufTy).Contents (Elt F)),
    binary main_v209 main_v229 main_v230 (cmpi .slt : (⟨S16x192x192, .i32⟩ : BufTy).Contents (Elt F) → (⟨S16x192x192, .i32⟩ : BufTy).Contents (Elt F) → (⟨S16x192x192, .i1⟩ : BufTy).Contents (Elt F)),
    binary main_v228 main_v230 main_v231 (andi : (⟨S16x192x192, .i1⟩ : BufTy).Contents (Elt F) → (⟨S16x192x192, .i1⟩ : BufTy).Contents (Elt F) → (⟨S16x192x192, .i1⟩ : BufTy).Contents (Elt F)),
    nullary main_c_72 (constantI S_ 32 0#32),
    nullary main_c_73 (constantI S_ 32 63#32),
    TRef.unary (.of main_c_72 : StableHlo.TRef sig ⟨S_, .i32⟩) main_call13.v0 id,
    TRef.unary main_call13.v0 main_call13.v1 (broadcastInDim S16x192x192 ![] bcast_S_S16x192x192),
    TRef.binary main_call13.v1 (.of main_v207 : StableHlo.TRef sig ⟨S16x192x192, .i32⟩) main_call13.v2 maxsi,
    TRef.unary (.of main_c_73 : StableHlo.TRef sig ⟨S_, .i32⟩) main_call13.v3 id,
    TRef.unary main_call13.v3 main_call13.v4 (broadcastInDim S16x192x192 ![] bcast_S_S16x192x192),
    TRef.binary main_call13.v4 main_call13.v2 main_call13.v5 minsi,
    nullary main_c_74 (constantI S_ 32 0#32),
    nullary main_c_75 (constantI S_ 32 63#32),
    TRef.unary (.of main_c_74 : StableHlo.TRef sig ⟨S_, .i32⟩) main_call14.v0 id,
    TRef.unary main_call14.v0 main_call14.v1 (broadcastInDim S16x192x192 ![] bcast_S_S16x192x192),
    TRef.binary main_call14.v1 (.of main_v209 : StableHlo.TRef sig ⟨S16x192x192, .i32⟩) main_call14.v2 maxsi,
    TRef.unary (.of main_c_75 : StableHlo.TRef sig ⟨S_, .i32⟩) main_call14.v3 id,
    TRef.unary main_call14.v3 main_call14.v4 (broadcastInDim S16x192x192 ![] bcast_S_S16x192x192),
    TRef.binary main_call14.v4 main_call14.v2 main_call14.v5 minsi,
    nullary main_c_76 (constantI S_ 32 0#32),
    unary main_c_76 main_v234 (broadcastInDim S16x192x192 ![] bcast_S_S16x192x192 : (⟨S_, .i32⟩ : BufTy).Contents (Elt F) → (⟨S16x192x192, .i32⟩ : BufTy).Contents (Elt F)),
    binary main_v232 main_v234 main_v235 (cmpi .slt : (⟨S16x192x192, .i32⟩ : BufTy).Contents (Elt F) → (⟨S16x192x192, .i32⟩ : BufTy).Contents (Elt F) → (⟨S16x192x192, .i1⟩ : BufTy).Contents (Elt F)),
    nullary main_c_77 (constantI S_ 32 64#32),
    unary main_c_77 main_v236 (broadcastInDim S16x192x192 ![] bcast_S_S16x192x192 : (⟨S_, .i32⟩ : BufTy).Contents (Elt F) → (⟨S16x192x192, .i32⟩ : BufTy).Contents (Elt F)),
    binary main_v232 main_v236 main_v237 (addi : (⟨S16x192x192, .i32⟩ : BufTy).Contents (Elt F) → (⟨S16x192x192, .i32⟩ : BufTy).Contents (Elt F) → (⟨S16x192x192, .i32⟩ : BufTy).Contents (Elt F)),
    ternary main_v235 main_v237 main_v232 main_v238 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    nullary main_c_78 (constantI S_ 32 0#32),
    unary main_c_78 main_v239 (broadcastInDim S16x192x192 ![] bcast_S_S16x192x192 : (⟨S_, .i32⟩ : BufTy).Contents (Elt F) → (⟨S16x192x192, .i32⟩ : BufTy).Contents (Elt F)),
    binary main_v233 main_v239 main_v240 (cmpi .slt : (⟨S16x192x192, .i32⟩ : BufTy).Contents (Elt F) → (⟨S16x192x192, .i32⟩ : BufTy).Contents (Elt F) → (⟨S16x192x192, .i1⟩ : BufTy).Contents (Elt F)),
    nullary main_c_79 (constantI S_ 32 64#32),
    unary main_c_79 main_v241 (broadcastInDim S16x192x192 ![] bcast_S_S16x192x192 : (⟨S_, .i32⟩ : BufTy).Contents (Elt F) → (⟨S16x192x192, .i32⟩ : BufTy).Contents (Elt F)),
    binary main_v233 main_v241 main_v242 (addi : (⟨S16x192x192, .i32⟩ : BufTy).Contents (Elt F) → (⟨S16x192x192, .i32⟩ : BufTy).Contents (Elt F) → (⟨S16x192x192, .i32⟩ : BufTy).Contents (Elt F)),
    ternary main_v240 main_v242 main_v233 main_v243 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    unary main_v238 main_v244 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    unary main_v243 main_v245 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    binary main_v244 main_v245 main_v246 ((fun a b => concatenate S16x192x192x2 3 [⟨S16x192x192x1, a⟩, ⟨S16x192x192x1, b⟩] concatenates_S16x192x192x1_S16x192x192x1_S16x192x192x2_d3) : (⟨S16x192x192x1, .i32⟩ : BufTy).Contents (Elt F) → (⟨S16x192x192x1, .i32⟩ : BufTy).Contents (Elt F) → (⟨S16x192x192x2, .i32⟩ : BufTy).Contents (Elt F)),
    binary main_arg0 main_v246 main_v247 ((fun x i => Host.gather gather_S16x256x64x64_S16x192x192x2_S16x256x192x192_1_23_0_0_23_3_125611 x i) : (⟨S16x256x64x64, .f32⟩ : BufTy).Contents (Elt F) → (⟨S16x192x192x2, .i32⟩ : BufTy).Contents (Elt F) → (⟨S16x256x192x192, .f32⟩ : BufTy).Contents (Elt F)),
    nullary main_cst_80 (constant S_ .f32 0x00000000#32),
    TRef.unary (.of main_cst_80 : StableHlo.TRef sig ⟨S_, .f32⟩) main_call15.v0 id,
    TRef.unary main_call15.v0 main_call15.v1 (broadcastInDim S192x192 ![] bcast_S_S192x192),
    TRef.unary main_call15.v1 main_call15.v2 (broadcastInDim S16x192x192 ![1, 2] bcast_S192x192_S16x192x192_1_2),
    TRef.ternary (.of main_v231 : StableHlo.TRef sig ⟨S16x192x192, .i1⟩) (.of main_v220 : StableHlo.TRef sig ⟨S16x192x192, .f32⟩) main_call15.v2 main_call15.v3 select,
    unary main_v248 main_v249 (broadcastInDim S16x1x192x192 ![0, 2, 3] bcast_S16x192x192_S16x1x192x192_0_2_3 : (⟨S16x192x192, .f32⟩ : BufTy).Contents (Elt F) → (⟨S16x1x192x192, .f32⟩ : BufTy).Contents (Elt F)),
    unary main_v249 main_v250 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v250 main_v247 main_v251 (mulf : (⟨S16x256x192x192, .f32⟩ : BufTy).Contents (Elt F) → (⟨S16x256x192x192, .f32⟩ : BufTy).Contents (Elt F) → (⟨S16x256x192x192, .f32⟩ : BufTy).Contents (Elt F)),
    binary main_v205 main_v251 main_v252 (addf : (⟨S16x256x192x192, .f32⟩ : BufTy).Contents (Elt F) → (⟨S16x256x192x192, .f32⟩ : BufTy).Contents (Elt F) → (⟨S16x256x192x192, .f32⟩ : BufTy).Contents (Elt F)),
    nullary main_c_81 (constantI S_ 32 0#32),
    unary main_c_81 main_v253 (broadcastInDim S192 ![] bcast_S_S192 : (⟨S_, .i32⟩ : BufTy).Contents (Elt F) → (⟨S192, .i32⟩ : BufTy).Contents (Elt F)),
    binary main_v2 main_v253 main_v254 (cmpi .slt : (⟨S192, .i32⟩ : BufTy).Contents (Elt F) → (⟨S192, .i32⟩ : BufTy).Contents (Elt F) → (⟨S192, .i1⟩ : BufTy).Contents (Elt F)),
    nullary main_c_82 (constantI S_ 32 64#32),
    unary main_c_82 main_v255 (broadcastInDim S192 ![] bcast_S_S192 : (⟨S_, .i32⟩ : BufTy).Contents (Elt F) → (⟨S192, .i32⟩ : BufTy).Contents (Elt F)),
    binary main_v2 main_v255 main_v256 (addi : (⟨S192, .i32⟩ : BufTy).Contents (Elt F) → (⟨S192, .i32⟩ : BufTy).Contents (Elt F) → (⟨S192, .i32⟩ : BufTy).Contents (Elt F)),
    ternary main_v254 main_v256 main_v2 main_v257 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v257 main_v258 (broadcastInDim S192x1 ![0] bcast_S192_S192x1_0 : (⟨S192, .i32⟩ : BufTy).Contents (Elt F) → (⟨S192x1, .i32⟩ : BufTy).Contents (Elt F)),
    binary main_arg2 main_v258 main_v259 ((fun x i => Host.gather gather_S16x1x64x64_S192x1_S16x1x192x64_013_2_n_n_2_1_161164 x i) : (⟨S16x1x64x64, .f32⟩ : BufTy).Contents (Elt F) → (⟨S192x1, .i32⟩ : BufTy).Contents (Elt F) → (⟨S16x1x192x64, .f32⟩ : BufTy).Contents (Elt F)),
    nullary main_c_83 (constantI S_ 32 0#32),
    unary main_c_83 main_v260 (broadcastInDim S192 ![] bcast_S_S192 : (⟨S_, .i32⟩ : BufTy).Contents (Elt F) → (⟨S192, .i32⟩ : BufTy).Contents (Elt F)),
    binary main_v3 main_v260 main_v261 (cmpi .slt : (⟨S192, .i32⟩ : BufTy).Contents (Elt F) → (⟨S192, .i32⟩ : BufTy).Contents (Elt F) → (⟨S192, .i1⟩ : BufTy).Contents (Elt F)),
    nullary main_c_84 (constantI S_ 32 64#32),
    unary main_c_84 main_v262 (broadcastInDim S192 ![] bcast_S_S192 : (⟨S_, .i32⟩ : BufTy).Contents (Elt F) → (⟨S192, .i32⟩ : BufTy).Contents (Elt F)),
    binary main_v3 main_v262 main_v263 (addi : (⟨S192, .i32⟩ : BufTy).Contents (Elt F) → (⟨S192, .i32⟩ : BufTy).Contents (Elt F) → (⟨S192, .i32⟩ : BufTy).Contents (Elt F)),
    ternary main_v261 main_v263 main_v3 main_v264 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v264 main_v265 (broadcastInDim S192x1 ![0] bcast_S192_S192x1_0 : (⟨S192, .i32⟩ : BufTy).Contents (Elt F) → (⟨S192x1, .i32⟩ : BufTy).Contents (Elt F)),
    binary main_v259 main_v265 main_v266 ((fun x i => Host.gather gather_S16x1x192x64_S192x1_S16x1x192x192_012_3_n_n_3_1_1611921 x i) : (⟨S16x1x192x64, .f32⟩ : BufTy).Contents (Elt F) → (⟨S192x1, .i32⟩ : BufTy).Contents (Elt F) → (⟨S16x1x192x192, .f32⟩ : BufTy).Contents (Elt F)),
    unary main_v266 main_v267 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v252 main_v267 main_v268 (mulf : (⟨S16x256x192x192, .f32⟩ : BufTy).Contents (Elt F) → (⟨S16x256x192x192, .f32⟩ : BufTy).Contents (Elt F) → (⟨S16x256x192x192, .f32⟩ : BufTy).Contents (Elt F)),
    reshape main_v268 main_v269 rfl shapeCasts_S16x256x192x192_S4x4x256x192x192,
    nullary main_cst_85 (constant S_ .f32 0x00000000#32),
    binary main_v269 main_cst_85 main_v270 ((fun x v => Host.reduceAdd x v reducesTo_S4x4x256x192x192_S4x256x192x192_d0 h_S_) : (⟨S4x4x256x192x192, .f32⟩ : BufTy).Contents (Elt F) → (⟨S_, .f32⟩ : BufTy).Contents (Elt F) → (⟨S4x256x192x192, .f32⟩ : BufTy).Contents (Elt F)) ]

set_option maxRecDepth 8192 in
/-- The printed window is that list run in order: the called functions' bodies opened at their calls, sequencing re-associated. -/
theorem part5_eq (c : Dev nD) : main_part5 (F := F) c = seq ops5 := by
  simp only [main_part5, fn_where.body, fn_floor_divide.body, fn_where_0.body, fn_remainder.body, fn_clip.body, fn_where_1.body, seq, bind_assoc, pure_bind] <;> rfl

/-- Every operation of the window touches device buffers only. -/
theorem ops5_sub : (ops5 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., reshape_bufs_sub .., nullary_bufs_sub .., binary_bufs_sub ..⟩

/-- No operation of the window allocates a buffer: each determines everything it writes. -/
theorem ops5_fresh_forall : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The same, by membership. -/
theorem ops5_fresh : ∀ op ∈ (ops5 : List (HloOp τ sig (Elt F))), op.fresh = ∅ :=
  List.forall_iff_forall_mem.mp ops5_fresh_forall

/-- Every operation of the window writes exactly one buffer, in a slot past the three argument slots 0, 1, 2. -/
theorem ops5_past : (ops5 : List (HloOp τ sig (Elt F))).Forall (WritesPast (τ := τ) 3) :=
  ⟨⟨main_v227, rfl, by decide⟩, ⟨main_v228, rfl, by decide⟩, ⟨main_c_71, rfl, by decide⟩, ⟨main_v229, rfl, by decide⟩, ⟨main_v230, rfl, by decide⟩, ⟨main_v231, rfl, by decide⟩, ⟨main_c_72, rfl, by decide⟩, ⟨main_c_73, rfl, by decide⟩, ⟨(main_call13.v0).ref, rfl, by decide⟩, ⟨(main_call13.v1).ref, rfl, by decide⟩, ⟨(main_call13.v2).ref, rfl, by decide⟩, ⟨(main_call13.v3).ref, rfl, by decide⟩, ⟨(main_call13.v4).ref, rfl, by decide⟩, ⟨(main_call13.v5).ref, rfl, by decide⟩, ⟨main_c_74, rfl, by decide⟩, ⟨main_c_75, rfl, by decide⟩, ⟨(main_call14.v0).ref, rfl, by decide⟩, ⟨(main_call14.v1).ref, rfl, by decide⟩, ⟨(main_call14.v2).ref, rfl, by decide⟩, ⟨(main_call14.v3).ref, rfl, by decide⟩, ⟨(main_call14.v4).ref, rfl, by decide⟩, ⟨(main_call14.v5).ref, rfl, by decide⟩, ⟨main_c_76, rfl, by decide⟩, ⟨main_v234, rfl, by decide⟩, ⟨main_v235, rfl, by decide⟩, ⟨main_c_77, rfl, by decide⟩, ⟨main_v236, rfl, by decide⟩, ⟨main_v237, rfl, by decide⟩, ⟨main_v238, rfl, by decide⟩, ⟨main_c_78, rfl, by decide⟩, ⟨main_v239, rfl, by decide⟩, ⟨main_v240, rfl, by decide⟩, ⟨main_c_79, rfl, by decide⟩, ⟨main_v241, rfl, by decide⟩, ⟨main_v242, rfl, by decide⟩, ⟨main_v243, rfl, by decide⟩, ⟨main_v244, rfl, by decide⟩, ⟨main_v245, rfl, by decide⟩, ⟨main_v246, rfl, by decide⟩, ⟨main_v247, rfl, by decide⟩, ⟨main_cst_80, rfl, by decide⟩, ⟨(main_call15.v0).ref, rfl, by decide⟩, ⟨(main_call15.v1).ref, rfl, by decide⟩, ⟨(main_call15.v2).ref, rfl, by decide⟩, ⟨(main_call15.v3).ref, rfl, by decide⟩, ⟨main_v249, rfl, by decide⟩, ⟨main_v250, rfl, by decide⟩, ⟨main_v251, rfl, by decide⟩, ⟨main_v252, rfl, by decide⟩, ⟨main_c_81, rfl, by decide⟩, ⟨main_v253, rfl, by decide⟩, ⟨main_v254, rfl, by decide⟩, ⟨main_c_82, rfl, by decide⟩, ⟨main_v255, rfl, by decide⟩, ⟨main_v256, rfl, by decide⟩, ⟨main_v257, rfl, by decide⟩, ⟨main_v258, rfl, by decide⟩, ⟨main_v259, rfl, by decide⟩, ⟨main_c_83, rfl, by decide⟩, ⟨main_v260, rfl, by decide⟩, ⟨main_v261, rfl, by decide⟩, ⟨main_c_84, rfl, by decide⟩, ⟨main_v262, rfl, by decide⟩, ⟨main_v263, rfl, by decide⟩, ⟨main_v264, rfl, by decide⟩, ⟨main_v265, rfl, by decide⟩, ⟨main_v266, rfl, by decide⟩, ⟨main_v267, rfl, by decide⟩, ⟨main_v268, rfl, by decide⟩, ⟨main_v269, rfl, by decide⟩, ⟨main_cst_85, rfl, by decide⟩, ⟨main_v270, rfl, by decide⟩⟩

end Cert.ReferenceIdeal.Line

end
-- ==== Proof.RefRun.lean ====
/- The reference program's straight line as one list. The six windows' operation lists joined in order; that the
   printed program is that list run in order; that every operation of it touches device buffers only, allocates
   nothing and writes past the three argument slots; the run of the line on every device, from any memory with zero
   counters (every weakly fair execution terminates with each device buffer at what the operations, in order, leave
   of the launch contents); and that the line leaves the three argument arrays as it found them. -/
import proofs.«160207_j39779987095835_2_alg».proof.Proof.RefPart0
import proofs.«160207_j39779987095835_2_alg».proof.Proof.RefPart1
import proofs.«160207_j39779987095835_2_alg».proof.Proof.RefPart2
import proofs.«160207_j39779987095835_2_alg».proof.Proof.RefPart3
import proofs.«160207_j39779987095835_2_alg».proof.Proof.RefPart4
import proofs.«160207_j39779987095835_2_alg».proof.Proof.RefPart5

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The program's 483 operations, in order: the six windows' lists joined. -/
abbrev ops : List (HloOp τ sig (Elt F)) := ops0 ++ (ops1 ++ (ops2 ++ (ops3 ++ (ops4 ++ ops5))))

/-- The printed program is that list run in order: window by window, a joined list run as one line being its pieces
    run one after the other. -/
theorem main_eq (c : Dev nD) : main (F := F) c = seq ops := by
  show main (F := F) c = seq (ops0 ++ (ops1 ++ (ops2 ++ (ops3 ++ (ops4 ++ ops5)))))
  rw [seq_append, seq_append, seq_append, seq_append, seq_append,
    ← part0_eq c, ← part1_eq c, ← part2_eq c, ← part3_eq c, ← part4_eq c, ← part5_eq c]
  rfl

/-- The signature scopes no device buffer. -/
theorem scopedRefs_eq : (Finset.univ.filter fun b : Ref sig .tc => b.isScoped) = ∅ := by decide
/-- The signature has no semaphore, so scopes none. -/
theorem scopedSems_eq : (Finset.univ.filter fun sm : SemLoc sig => sm.isScoped .tc) = ∅ := by decide

/-- Every operation of the line touches device buffers only. -/
theorem ops_sub : (ops : List (HloOp τ sig (Elt F))).Forall fun op => op.bufs ⊆ tcRefs τ sig :=
  forall_append_of ops0_sub (forall_append_of ops1_sub (forall_append_of ops2_sub (forall_append_of ops3_sub (forall_append_of ops4_sub ops5_sub))))

/-- No operation of the line allocates a buffer. -/
theorem ops_fresh : ∀ op ∈ (ops : List (HloOp τ sig (Elt F))), op.fresh = ∅ :=
  List.forall_iff_forall_mem.mp
    (forall_append_of ops0_fresh_forall (forall_append_of ops1_fresh_forall (forall_append_of ops2_fresh_forall (forall_append_of ops3_fresh_forall (forall_append_of ops4_fresh_forall ops5_fresh_forall)))))

/-- Every operation of the line writes exactly one buffer, in a slot past the three argument slots 0, 1, 2. -/
theorem ops_past : (ops : List (HloOp τ sig (Elt F))).Forall (WritesPast (τ := τ) 3) :=
  forall_append_of ops0_past (forall_append_of ops1_past (forall_append_of ops2_past (forall_append_of ops3_past (forall_append_of ops4_past ops5_past))))

/-- On every device, for any float values, from any memory with zero counters: every weakly fair execution of the
    program terminates, and each device buffer ends at what the 483 operations, in order, leave of the launch contents. -/
theorem run_line (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The line leaves the first argument array as it found it: the array sits in slot 0, every operation writes past slot 2. -/
theorem kept0 (V : Valuation τ sig (Elt F)) : after ops V (Proc.devRef .tc main_arg0) = V (Proc.devRef .tc main_arg0) :=
  after_keep_of_writesPast (n := 3) (by decide) ops V ops_past
/-- The same of the second argument array, in slot 1. -/
theorem kept1 (V : Valuation τ sig (Elt F)) : after ops V (Proc.devRef .tc main_arg1) = V (Proc.devRef .tc main_arg1) :=
  after_keep_of_writesPast (n := 3) (by decide) ops V ops_past
/-- The same of the third argument array, in slot 2. -/
theorem kept2 (V : Valuation τ sig (Elt F)) : after ops V (Proc.devRef .tc main_arg2) = V (Proc.devRef .tc main_arg2) :=
  after_keep_of_writesPast (n := 3) (by decide) ops V ops_past

/-- On every device, from any memory with zero counters: every weakly fair execution of the program terminates with
    the three argument arrays holding what they held at launch. -/
theorem frame_line (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0).trans (kept0 _), (h c main_arg1).trans (kept1 _),
      (h c main_arg2).trans (kept2 _)⟩) (run_line m ρ)

end Cert.ReferenceIdeal.Line

end
-- ==== Proof.KernelEvalPast.lean ====
/-
  The host line before the region, cut into four pieces.

  The line is 33 stretches of operations in single-assignment form, each operation writing the buffer of the next slot.
  It is cut as: the first eight stretches, the ninth (which holds the two gathers of the third argument), the
  twenty-three after it, and the last (which forms the region's input). What the region finds is what the last stretch
  leaves of what the middle stretches leave of what the ninth leaves of what the first eight leave. The middle stretches
  write only buffers in slots from 208 on and the last only from 478 on, so a buffer in a lower slot comes through them
  unchanged.
-/
import proofs.«160207_j39779987095835_2_alg».proof.Proof.Gen.KernelIdeal.Frame
import proofs.«160207_j39779987095835_2_alg».proof.Proof.LibHostLine
import Idealize.ShloMosaic.Lib.StableHlo.Run
import Idealize.ShloMosaic.PureOps.Ideal

noncomputable section

open Idealize.ShloMosaic Idealize.ShloMosaic.TcCoe Idealize.SL.Sem

namespace Cert.KernelIdeal.Bridge

open Cert.KernelIdeal Cert.KernelIdeal.Gen Idealize.ShloMosaic.StableHlo

/-- The stretches of host operations before the ninth, -/
abbrev stretchesA : List (List (HloOp τ sig (Elt Ideal))) := [hostOps0, hostOps0_1, hostOps0_2, hostOps0_3, hostOps0_4, hostOps0_5, hostOps0_6, hostOps0_7]
/-- and those between the ninth and the last. -/
abbrev stretchesB : List (List (HloOp τ sig (Elt Ideal))) := [hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31]

/-- A line made of stretches, cut around one stretch x in the middle and the last stretch z. -/
theorem after_flatten_split {Val : EltTy → Type} (ls₁ ls₂ : List (List (HloOp τ sig Val))) (x z : List (HloOp τ sig Val))
    (V : Valuation τ sig Val) :
    after (List.flatten (ls₁ ++ x :: (ls₂ ++ [z]))) V = after z (after ls₂.flatten (after x (after ls₁.flatten V))) := by
  rw [List.flatten_append, List.flatten_cons, List.flatten_append, after_append, after_append, after_append]
  simp only [List.flatten_cons, List.flatten_nil, List.append_nil]

/-- The contents the region finds, as the four pieces applied one after the other to the launch contents. -/
theorem V0_eq (m : (ℓ : Loc nD τ sig) → Buf (Elt Ideal) ℓ) (c : Dev nD) :
    V0 m c = after hostOps0_32 (after stretchesB.flatten (after hostOps0_8 (after stretchesA.flatten (fun b => m (c, b))))) :=
  after_flatten_split stretchesA stretchesB hostOps0_8 hostOps0_32 _

set_option maxHeartbeats 4000000 in
set_option maxRecDepth 8192 in
/-- Every operation of the stretches between the ninth and the last writes one buffer, in a slot from 208 on. -/
theorem stretchesB_past : (stretchesB.flatten).Forall (WritesPast (τ := τ) 208) := by
  simp only [stretchesB, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, List.flatten_cons, List.flatten_nil, List.append_nil, List.cons_append,
    List.nil_append, List.Forall]
  repeat' apply And.intro
  all_goals (refine ⟨_, rfl, ?_⟩; decide)

/-- Every operation of the last stretch writes one buffer, in a slot from 478 on. -/
theorem stretch32_past : (hostOps0_32 : List (HloOp τ sig (Elt Ideal))).Forall (WritesPast (τ := τ) 478) := by
  simp only [hostOps0_32, List.Forall]
  repeat' apply And.intro
  all_goals (refine ⟨_, rfl, ?_⟩; decide)

end Cert.KernelIdeal.Bridge

end
-- ==== Proof.KernelEvalNinth.lean ====
/-
  The ninth stretch and the last stretch of the host line before the region, read at the buffers the bridge needs.

  The ninth stretch has 120 operations, each writing the buffer of the next slot, from slot 88 on. Its operations 59 to 77
  form, from the third argument and the two coordinate vectors %2 and %3 (all written before the stretch), the buffers
  %58 (the third argument with its unit axis dropped), %64 and %71 (the coordinate vectors with negative entries wrapped
  by 64, as columns) and %72 (the gather of the gather of %58 at the rows %64, at the columns %71); the operations after
  them write slots from 166 on. So from any contents Y the stretch leaves these four buffers at those functions of
  Y's third argument, %2 and %3, and leaves every buffer of a slot below 88 alone.
  From any contents X the last stretch leaves in %271 the product of %267 with %72 broadcast along the channel axis,
  with the two image axes merged.
-/
import proofs.«160207_j39779987095835_2_alg».proof.Proof.Gen.KernelIdeal.Frame
import proofs.«160207_j39779987095835_2_alg».proof.Proof.LibHostLine
import Idealize.ShloMosaic.Lib.StableHlo.Run
import Idealize.ShloMosaic.PureOps.Ideal

noncomputable section

open Idealize.ShloMosaic Idealize.ShloMosaic.TcCoe Idealize.SL.Sem

namespace Cert.KernelIdeal.Bridge

open Cert.KernelIdeal Cert.KernelIdeal.Gen Idealize.ShloMosaic.StableHlo

/-! ## The ninth stretch in three pieces -/

/-- The ninth stretch's operations 59 to 77: from %58 to %72. -/
abbrev mid8 : List (HloOp τ sig (Elt Ideal)) := (hostOps0_8.drop 59).take 19
/-- The ninth stretch's operations from 78 on. -/
abbrev end8 : List (HloOp τ sig (Elt Ideal)) := hostOps0_8.drop 78

theorem h8_split : (hostOps0_8 : List (HloOp τ sig (Elt Ideal))) = hostOps0_8.take 59 ++ (mid8 ++ end8) := by
  have e : (hostOps0_8.drop 59).drop 19 = (hostOps0_8.drop 78 : List (HloOp τ sig (Elt Ideal))) := by
    rw [List.drop_drop]
  show _ = _ ++ ((hostOps0_8.drop 59).take 19 ++ hostOps0_8.drop 78)
  rw [← e, List.take_append_drop, List.take_append_drop]

set_option maxHeartbeats 4000000 in
set_option maxRecDepth 8192 in
/-- Every operation of the ninth stretch writes one buffer, in a slot from 88 on. -/
theorem h8_past : (hostOps0_8 : List (HloOp τ sig (Elt Ideal))).Forall (WritesPast (τ := τ) 88) := by
  simp only [hostOps0_8, List.Forall]
  repeat' apply And.intro
  all_goals (refine ⟨_, rfl, ?_⟩; decide)

set_option maxHeartbeats 4000000 in
set_option maxRecDepth 8192 in
/-- Every operation of the ninth stretch from 78 on writes one buffer, in a slot from 166 on. -/
theorem end8_past : (end8 : List (HloOp τ sig (Elt Ideal))).Forall (WritesPast (τ := τ) 166) := by
  simp only [end8, hostOps0_8, List.drop_succ_cons, List.drop_zero, List.Forall]
  repeat' apply And.intro
  all_goals (refine ⟨_, rfl, ?_⟩; decide)

variable (Y : Valuation τ sig (Elt Ideal))

/-- The ninth stretch leaves every buffer of a slot below 88 alone. -/
theorem h8_low (r : Ref sig .tc) (hr : r.idx.val < 88) :
    after hostOps0_8 Y (Proc.devRef .tc r) = Y (Proc.devRef .tc r) :=
  after_keep_of_writesPast hr hostOps0_8 Y h8_past

/-- So do its first 59 operations. -/
theorem take8_low (r : Ref sig .tc) (hr : r.idx.val < 88) :
    after (hostOps0_8.take 59) Y (Proc.devRef .tc r) = Y (Proc.devRef .tc r) :=
  after_keep_of_writesPast hr _ Y (List.forall_iff_forall_mem.mpr fun op hop =>
    List.forall_iff_forall_mem.mp h8_past op (List.mem_of_mem_take hop))

/-- A buffer of a slot below 166 ends the ninth stretch as its operations 59 to 77 leave it. -/
theorem h8_mid (r : Ref sig .tc) (hr : r.idx.val < 166) :
    after hostOps0_8 Y (Proc.devRef .tc r) = after mid8 (after (hostOps0_8.take 59) Y) (Proc.devRef .tc r) := by
  conv_lhs => rw [h8_split]
  rw [after_append, after_append, after_keep_of_writesPast hr end8 _ end8_past]

/-! ## What the operations 59 to 77 leave -/

/-- A coordinate vector with its negative entries wrapped by 64, as a column. -/
def normIdx (v : IVec S192 32) : IVec S192x1 32 :=
  broadcastInDim S192x1 ![0] bcast_S192_S192x1_0
    (select (cmpi .slt v (broadcastInDim S192 ![] bcast_S_S192 (constantI S_ 32 0#32)))
      (addi v (broadcastInDim S192 ![] bcast_S_S192 (constantI S_ 32 64#32))) v)

variable (W : Valuation τ sig (Elt Ideal))

set_option maxHeartbeats 4000000 in
set_option maxRecDepth 8192 in
theorem mid8_v58 : after mid8 W (Proc.devRef .tc main_v58)
    = shapeCast S16x64x64 (W (Proc.devRef .tc main_arg2)) shapeCasts_S16x1x64x64_S16x64x64 := by
  simp only [mid8, hostOps0_8, List.drop_succ_cons, List.drop_zero, List.take_succ_cons, List.take_zero]
  after_results_simp
  rfl

set_option maxHeartbeats 4000000 in
set_option maxRecDepth 8192 in
theorem mid8_v64 : after mid8 W (Proc.devRef .tc main_v64) = normIdx (W (Proc.devRef .tc main_v2)) := by
  simp only [mid8, hostOps0_8, List.drop_succ_cons, List.drop_zero, List.take_succ_cons, List.take_zero]
  after_results_simp
  rfl

set_option maxHeartbeats 4000000 in
set_option maxRecDepth 8192 in
theorem mid8_v71 : after mid8 W (Proc.devRef .tc main_v71) = normIdx (W (Proc.devRef .tc main_v3)) := by
  simp only [mid8, hostOps0_8, List.drop_succ_cons, List.drop_zero, List.take_succ_cons, List.take_zero]
  after_results_simp
  rfl

set_option maxHeartbeats 4000000 in
set_option maxRecDepth 8192 in
theorem mid8_v72 : after mid8 W (Proc.devRef .tc main_v72)
    = Host.gather gather_S16x192x64_S192x1_S16x192x192_01_2_n_n_2_1_161921
        (Host.gather gather_S16x64x64_S192x1_S16x192x64_02_1_n_n_1_1_16164
          (after mid8 W (Proc.devRef .tc main_v58)) (after mid8 W (Proc.devRef .tc main_v64)))
        (after mid8 W (Proc.devRef .tc main_v71)) := by
  simp only [mid8, hostOps0_8, List.drop_succ_cons, List.drop_zero, List.take_succ_cons, List.take_zero]
  after_results_simp

/-! ## What the ninth stretch leaves -/

/-- %58 is the third argument with its unit axis dropped. -/
theorem h8_v58 : after hostOps0_8 Y (Proc.devRef .tc main_v58)
    = shapeCast S16x64x64 (Y (Proc.devRef .tc main_arg2)) shapeCasts_S16x1x64x64_S16x64x64 := by
  rw [h8_mid Y main_v58 (by decide), mid8_v58, take8_low Y main_arg2 (by decide)]

/-- %64 is %2 wrapped, as a column. -/
theorem h8_v64 : after hostOps0_8 Y (Proc.devRef .tc main_v64) = normIdx (Y (Proc.devRef .tc main_v2)) := by
  rw [h8_mid Y main_v64 (by decide), mid8_v64, take8_low Y main_v2 (by decide)]

/-- %71 is %3 wrapped, as a column. -/
theorem h8_v71 : after hostOps0_8 Y (Proc.devRef .tc main_v71) = normIdx (Y (Proc.devRef .tc main_v3)) := by
  rw [h8_mid Y main_v71 (by decide), mid8_v71, take8_low Y main_v3 (by decide)]

/-- %72 is the two gathers of %58, at the row indices %64 and then at the column indices %71. -/
theorem h8_v72 : after hostOps0_8 Y (Proc.devRef .tc main_v72)
    = Host.gather gather_S16x192x64_S192x1_S16x192x192_01_2_n_n_2_1_161921
        (Host.gather gather_S16x64x64_S192x1_S16x192x64_02_1_n_n_1_1_16164
          (after hostOps0_8 Y (Proc.devRef .tc main_v58)) (after hostOps0_8 Y (Proc.devRef .tc main_v64)))
        (after hostOps0_8 Y (Proc.devRef .tc main_v71)) := by
  rw [h8_mid Y main_v72 (by decide), h8_mid Y main_v58 (by decide), h8_mid Y main_v64 (by decide),
    h8_mid Y main_v71 (by decide)]
  exact mid8_v72 _

/-! ## The last stretch -/

/-- A sampled image G [16, 192, 192] broadcast along the channel axis, times S [16, 256, 192, 192], the two image axes merged. -/
def scaledOf (S : FVec Ideal S16x256x192x192 .f32) (G : FVec Ideal S16x192x192 .f32) : FVec Ideal S16x256x36864 .f32 :=
  shapeCast S16x256x36864 (mulf S
      (broadcastInDim S16x256x192x192 ![0, 1, 2, 3] bcast_S16x1x192x192_S16x256x192x192_0_1_2_3
        (broadcastInDim S16x1x192x192 ![0, 2, 3] bcast_S16x192x192_S16x1x192x192_0_2_3 G)))
    shapeCasts_S16x256x192x192_S16x256x36864

/-- The last stretch forms the region's input %271 from %267 and %72. -/
theorem last_v271 (X : Valuation τ sig (Elt Ideal)) : after hostOps0_32 X (Proc.devRef .tc main_v271)
    = scaledOf (after hostOps0_32 X (Proc.devRef .tc main_v267)) (after hostOps0_32 X (Proc.devRef .tc main_v72)) := by
  unfold scaledOf
  after_results_simp
  rfl

end Cert.KernelIdeal.Bridge

end
-- ==== Proof.KernelEval.lean ====
/-
  The region's input, read back to the arguments through the host line before the region.

  What the region finds in a buffer is what the whole line before it leaves there. The line is cut into the first eight
  stretches, the ninth, the twenty-three after it and the last; the later pieces write only higher slots, so a buffer of a
  slot below 208 is found as the ninth stretch left it and one of a slot below 88 as the first eight stretches left it.
  Read this way: %58 is the third argument with its unit axis dropped; %64 and %71 are the coordinate vectors %2 and %3
  with negative entries wrapped by 64, as columns; %72 is %58 gathered at the rows %64 and then at the columns %71; and
  the region's input %271 is %267 times %72 broadcast along the channel axis, with the two image axes merged.
-/
import proofs.«160207_j39779987095835_2_alg».proof.Proof.Gen.KernelIdeal.Frame
import proofs.«160207_j39779987095835_2_alg».proof.Proof.LibHostLine
import proofs.«160207_j39779987095835_2_alg».proof.Proof.KernelEvalPast
import proofs.«160207_j39779987095835_2_alg».proof.Proof.KernelEvalNinth
import Idealize.ShloMosaic.Lib.StableHlo.Run
import Idealize.ShloMosaic.PureOps.Ideal

noncomputable section

open Idealize.ShloMosaic Idealize.ShloMosaic.TcCoe Idealize.SL.Sem

namespace Cert.KernelIdeal.Bridge

open Cert.KernelIdeal Cert.KernelIdeal.Gen Idealize.ShloMosaic.StableHlo

variable (m : (ℓ : Loc nD τ sig) → Buf (Elt Ideal) ℓ)

/-- The region's input as a function of %267, %58 and the two index columns %64 and %71: %58 gathered at the rows, then
    at the columns, broadcast along the channel axis, times %267, the two image axes merged. -/
def weightedOf (S : FVec Ideal S16x256x192x192 .f32) (A : FVec Ideal S16x64x64 .f32) (IY IX : IVec S192x1 32) :
    FVec Ideal S16x256x36864 .f32 :=
  shapeCast S16x256x36864 (mulf S
      (broadcastInDim S16x256x192x192 ![0, 1, 2, 3] bcast_S16x1x192x192_S16x256x192x192_0_1_2_3
        (broadcastInDim S16x1x192x192 ![0, 2, 3] bcast_S16x192x192_S16x1x192x192_0_2_3
          (Host.gather gather_S16x192x64_S192x1_S16x192x192_01_2_n_n_2_1_161921
            (Host.gather gather_S16x64x64_S192x1_S16x192x64_02_1_n_n_1_1_16164 A IY) IX))))
    shapeCasts_S16x256x192x192_S16x256x36864

/-- A buffer of a slot below 208 is found by the region as the ninth stretch left it. -/
theorem V_low (c : Dev nD) (r : Ref sig .tc) (hr : r.idx.val < 208) :
    V m c r = after hostOps0_8 (after stretchesA.flatten fun b => m (c, b)) (Proc.devRef .tc r) := by
  show V0 m c (Proc.devRef .tc r) = _
  rw [V0_eq m c, after_keep_of_writesPast (Nat.lt_trans hr (by decide)) hostOps0_32 _ stretch32_past,
    after_keep_of_writesPast hr _ _ stretchesB_past]

/-- One of a slot below 88, as the first eight stretches left it. -/
theorem V_low88 (c : Dev nD) (r : Ref sig .tc) (hr : r.idx.val < 88) :
    V m c r = after stretchesA.flatten (fun b => m (c, b)) (Proc.devRef .tc r) := by
  rw [V_low m c r (Nat.lt_trans hr (by decide)), h8_low _ r hr]

/-- %58 as the region finds it: the third argument with its unit axis dropped. -/
theorem kernel_v58 (c : Dev nD) :
    V m c main_v58 = shapeCast S16x64x64 (m ((c.tc : Thread nD τ).loc main_arg2)) shapeCasts_S16x1x64x64_S16x64x64 := by
  rw [V_low m c main_v58 (by decide), h8_v58, ← V_low88 m c main_arg2 (by decide), V_main_arg2]

/-- %64 as the region finds it: %2 wrapped, as a column. -/
theorem kernel_v64 (c : Dev nD) : V m c main_v64 = normIdx (V m c main_v2) := by
  rw [V_low m c main_v64 (by decide), h8_v64, ← V_low88 m c main_v2 (by decide)]

/-- %71 as the region finds it: %3 wrapped, as a column. -/
theorem kernel_v71 (c : Dev nD) : V m c main_v71 = normIdx (V m c main_v3) := by
  rw [V_low m c main_v71 (by decide), h8_v71, ← V_low88 m c main_v3 (by decide)]

/-- %72 as the region finds it: the two gathers of %58. -/
theorem kernel_v72 (c : Dev nD) : V m c main_v72
    = Host.gather gather_S16x192x64_S192x1_S16x192x192_01_2_n_n_2_1_161921
        (Host.gather gather_S16x64x64_S192x1_S16x192x64_02_1_n_n_1_1_16164 (V m c main_v58) (V m c main_v64))
        (V m c main_v71) := by
  rw [V_low m c main_v72 (by decide), V_low m c main_v58 (by decide), V_low m c main_v64 (by decide),
    V_low m c main_v71 (by decide)]
  exact h8_v72 _

/-- The region's input: %267 times the gathered third argument. -/
theorem kernel_weighted (c : Dev nD) :
    V m c main_v271 = weightedOf (V m c main_v267) (V m c main_v58) (V m c main_v64) (V m c main_v71) := by
  have e := last_v271 (after stretchesB.flatten (after hostOps0_8 (after stretchesA.flatten fun b => m (c, b))))
  rw [← V0_eq m c] at e
  show V0 m c (Proc.devRef .tc main_v271) = _
  rw [e]
  show scaledOf (V m c main_v267) (V m c main_v72) = _
  rw [kernel_v72 m c]
  rfl

end Cert.KernelIdeal.Bridge

end
-- ==== Proof.RefEval.lean ====
/- The reference program's result, read off the end of its line. The line is an initial stretch — its first five windows
   and the first 56 operations of the last — followed by the last 16 operations; the initial stretch leaves the argument
   arrays as it found them; and of whatever contents the initial stretch leaves, the last 16 operations, in order, put in
   the result buffer the sum over the leading axis of the reshaped product of an array of the initial stretch with a
   twice-gathered, broadcast third argument. The equation is between final contents of named buffers: of the arrays it
   reads, one is written in the initial stretch and the two index arrays among the last 16 operations, each once. -/
import proofs.«160207_j39779987095835_2_alg».proof.Proof.RefRun
import Idealize.ShloMosaic.PureOps.Ideal

noncomputable section

namespace Cert.ReferenceIdeal.Line

open Cert.ReferenceIdeal Cert.ReferenceIdeal.Gen Idealize.ShloMosaic Idealize.ShloMosaic.TcCoe Idealize.SL.Sem Idealize.ShloMosaic.StableHlo

/-- The first five windows' operations, in order. -/
abbrev opsHead {F : FTy → Type} [FloatOps F] : List (HloOp τ sig (Elt F)) := ops0 ++ (ops1 ++ (ops2 ++ (ops3 ++ ops4)))

/-- The initial stretch: the first five windows and the first 56 operations of the last. -/
abbrev opsInit {F : FTy → Type} [FloatOps F] : List (HloOp τ sig (Elt F)) := opsHead ++ ops5.take 56

/-- The last 16 operations of the line. -/
abbrev opsTail {F : FTy → Type} [FloatOps F] : List (HloOp τ sig (Elt F)) := ops5.drop 56

/-- The line is its initial stretch followed by its last 16 operations. -/
theorem ops_split {F : FTy → Type} [FloatOps F] : (ops : List (HloOp τ sig (Elt F))) = opsInit ++ opsTail := by
  simp only [ops, opsHead, opsInit, opsTail, List.append_assoc, List.take_append_drop]

/-- Every operation of the initial stretch writes exactly one buffer, in a slot past the three argument slots. -/
theorem opsInit_past {F : FTy → Type} [FloatOps F] : (opsInit : List (HloOp τ sig (Elt F))).Forall (WritesPast (τ := τ) 3) :=
  forall_append_of (forall_append_of ops0_past (forall_append_of ops1_past (forall_append_of ops2_past (forall_append_of ops3_past ops4_past))))
    (List.forall_iff_forall_mem.mpr fun op hop => List.forall_iff_forall_mem.mp ops5_past op (List.mem_of_mem_take hop))

/-- The result as a function of the product's first factor S, the third argument array A, and the two index arrays:
    A gathered along its third axis at IY, that gathered along its fourth axis at IX, broadcast over the 256 channels,
    multiplied by S, reshaped to split the leading 16 into 4 by 4, and summed over the new leading axis. -/
def resultOf (S : FVec Ideal S16x256x192x192 .f32) (A : FVec Ideal S16x1x64x64 .f32) (IY IX : IVec S192x1 32) :
    FVec Ideal S4x256x192x192 .f32 :=
  Host.reduceAdd (shapeCast S4x4x256x192x192 (mulf S
      (broadcastInDim S16x256x192x192 ![0, 1, 2, 3] bcast_S16x1x192x192_S16x256x192x192_0_1_2_3
        (Host.gather gather_S16x1x192x64_S192x1_S16x1x192x192_012_3_n_n_3_1_1611921
          (Host.gather gather_S16x1x64x64_S192x1_S16x1x192x64_013_2_n_n_2_1_161164 A IY) IX)))
    shapeCasts_S16x256x192x192_S4x4x256x192x192) (constant S_ .f32 0x00000000#32) reducesTo_S4x4x256x192x192_S4x256x192x192_d0 h_S_

/-- What the line leaves in the result buffer, in terms of what it leaves in three other buffers and of the third
    argument array as it was at the start. -/
theorem ref_result (V : Valuation τ sig (Elt Ideal)) :
    after ops V (Proc.devRef .tc main_v270)
      = resultOf (after ops V (Proc.devRef .tc main_v252)) (V (Proc.devRef .tc main_arg2))
          (after ops V (Proc.devRef .tc main_v258)) (after ops V (Proc.devRef .tc main_v265)) := by
  have hk : after opsInit V (Proc.devRef .tc main_arg2) = V (Proc.devRef .tc main_arg2) :=
    after_keep_of_writesPast (n := 3) (by decide) _ V opsInit_past
  rw [ops_split, after_append, ← hk]
  generalize after opsInit V = Y
  simp only [opsTail, ops5, List.drop_succ_cons, List.drop_zero, resultOf]
  after_results_simp
  first | rfl | fail "not closed by rfl"

/-! The two index arrays are the same function of two earlier arrays: each entry below 0 has 64 added to it, and the
    array of 192 entries is then read as a 192 by 1 array. The eight operations computing each lie among the last 23 of
    the line, after the product's first factor is written. -/

/-- The line without its last 23 operations: the first five windows and the first 49 operations of the last. -/
abbrev opsInit23 {F : FTy → Type} [FloatOps F] : List (HloOp τ sig (Elt F)) := opsHead ++ ops5.take 49

/-- The last 23 operations of the line. -/
abbrev opsTail23 {F : FTy → Type} [FloatOps F] : List (HloOp τ sig (Elt F)) := ops5.drop 49

/-- The line is that initial stretch followed by its last 23 operations. -/
theorem ops_split23 {F : FTy → Type} [FloatOps F] : (ops : List (HloOp τ sig (Elt F))) = opsInit23 ++ opsTail23 := by
  simp only [ops, opsHead, opsInit23, opsTail23, List.append_assoc, List.take_append_drop]

/-- An index array normalized: where an entry is negative, 64 is added to it; the 192 entries as a 192 by 1 array. -/
def normIdx (v : IVec S192 32) : IVec S192x1 32 :=
  broadcastInDim S192x1 ![0] bcast_S192_S192x1_0
    (select (cmpi .slt v (broadcastInDim S192 ![] bcast_S_S192 (constantI S_ 32 0#32)))
      (addi v (broadcastInDim S192 ![] bcast_S_S192 (constantI S_ 32 64#32))) v)

/-- The first index array the line leaves is the normalized array of an earlier buffer, as the line leaves it. -/
theorem ref_idxY (V : Valuation τ sig (Elt Ideal)) :
    after ops V (Proc.devRef .tc main_v258) = normIdx (after ops V (Proc.devRef .tc main_v2)) := by
  rw [ops_split23, after_append]
  generalize after opsInit23 V = Y
  simp only [opsTail23, ops5, List.drop_succ_cons, List.drop_zero, normIdx]
  after_results_simp
  all_goals (first | rfl | fail "not closed by rfl")

/-- The second index array the line leaves is the normalized array of another earlier buffer, as the line leaves it. -/
theorem ref_idxX (V : Valuation τ sig (Elt Ideal)) :
    after ops V (Proc.devRef .tc main_v265) = normIdx (after ops V (Proc.devRef .tc main_v3)) := by
  rw [ops_split23, after_append]
  generalize after opsInit23 V = Y
  simp only [opsTail23, ops5, List.drop_succ_cons, List.drop_zero, normIdx]
  after_results_simp
  all_goals (first | rfl | fail "not closed by rfl")

/-- What the line leaves in the result buffer, in terms of what it leaves in three earlier buffers — the product's first
    factor and the two arrays the index arrays are normalized from — and of the third argument array as it was at the start. -/
theorem ref_result' (V : Valuation τ sig (Elt Ideal)) :
    after ops V (Proc.devRef .tc main_v270)
      = resultOf (after ops V (Proc.devRef .tc main_v252)) (V (Proc.devRef .tc main_arg2))
          (normIdx (after ops V (Proc.devRef .tc main_v2))) (normIdx (after ops V (Proc.devRef .tc main_v3))) := by
  rw [ref_result, ref_idxY, ref_idxX]

end Cert.ReferenceIdeal.Line

end
-- ==== Proof.SumLayout.lean ====
/-
  The ordered sum of the four candidates over merged image axes is the reduction of the five-axis reshape.

  The weighted samples W have shape [16, 256, 192, 192]. One side merges the two image axes ([16, 256, 36864]), adds
  the four candidate rows 4k + b of the leading axis one after the other from zero, and splits the image axes again;
  the other reshapes W to [4, 4, 256, 192, 192] and reduces the leading axis by addition from zero. A reshape reads
  the same row-major position, so at (b, d, y, x) the first is (((0 + W[b,d,y,x]) + W[4+b,d,y,x]) + W[8+b,d,y,x])
  + W[12+b,d,y,x] and the second is 0 + (W[b,d,y,x] + W[4+b,d,y,x] + W[8+b,d,y,x] + W[12+b,d,y,x]); on the extended
  reals addition is associative (infinities included), so the two agree.
-/
import proofs.«160207_j39779987095835_2_alg».proof.Proof.Gen.KernelIdeal
import proofs.«160207_j39779987095835_2_alg».proof.Proof.Gen.ReferenceIdeal
import proofs.«160207_j39779987095835_2_alg».proof.Proof.Spec
import Idealize.ShloMosaic.PureOps.Ideal
import Idealize.ShloMosaic.Lib.ValueIdx

noncomputable section

namespace Cert.FlowAccum

open Idealize.ShloMosaic

/-- The weighted samples' shape. -/
abbrev SW4 : Shape := ⟨4, ![16, 256, 192, 192]⟩
/-- The weighted samples with the leading axis split into (candidate, batch). -/
abbrev SW5 : Shape := ⟨5, ![4, 4, 256, 192, 192]⟩
/-- The output's shape. -/
abbrev SO4 : Shape := ⟨4, ![4, 256, 192, 192]⟩

/-- Candidate k's copy of the output index j, in W: row 4k + j₀ of the leading axis, the other coordinates kept. -/
def row (k : Fin 4) (j : SO4.Idx) : SW4.Idx :=
  fun a => match a with
    | ⟨0, _⟩ => ⟨4 * k.val + (j 0).val, by have h1 : (j 0).val < 4 := (j 0).isLt; have := k.isLt; show _ < 16; omega⟩
    | ⟨1, _⟩ => j 1
    | ⟨2, _⟩ => j 2
    | ⟨3, _⟩ => j 3

/-- Merging the image axes of the output index, taking candidate k's row, and splitting the image axes again lands on
    candidate k's copy of the index: all three steps keep the row-major position within a row of the leading axis. -/
theorem split_cand (hW : SW4.ShapeCasts SW3) (hO : SO3.ShapeCasts SO4) (k : Fin 4) (j : SO4.Idx) :
    Shape.reshapeEquiv hW (cand k (Shape.reshapeEquiv hO j)) = row k j := by
  apply Shape.reshapeEquiv_eq_of_rowMajor
  have e := Shape.rowMajor_reshapeEquiv hO j
  rw [Shape.rowMajor_val_three, Shape.rowMajor_val_four] at e
  rw [Shape.rowMajor_val_four, Shape.rowMajor_val_three]
  have c0 : ((cand k (Shape.reshapeEquiv hO j)) 0).val = 4 * k.val + ((Shape.reshapeEquiv hO j) 0).val := rfl
  have c1 : ((cand k (Shape.reshapeEquiv hO j)) 1).val = ((Shape.reshapeEquiv hO j) 1).val := rfl
  have c2 : ((cand k (Shape.reshapeEquiv hO j)) 2).val = ((Shape.reshapeEquiv hO j) 2).val := rfl
  have r0 : ((row k j) 0).val = 4 * k.val + (j 0).val := rfl
  have r1 : ((row k j) 1).val = (j 1).val := rfl
  have r2 : ((row k j) 2).val = (j 2).val := rfl
  have r3 : ((row k j) 3).val = (j 3).val := rfl
  rw [c0, c1, c2, r0, r1, r2, r3]
  simp only [Matrix.cons_val_one, Matrix.cons_val_zero] at e ⊢
  have e' : (((Shape.reshapeEquiv hO j) 0).val * 256 + ((Shape.reshapeEquiv hO j) 1).val) * 36864 + ((Shape.reshapeEquiv hO j) 2).val
      = (((j 0).val * 256 + (j 1).val) * 192 + (j 2).val) * 192 + (j 3).val := e
  show (((4 * k.val + (j 0).val) * 256 + (j 1).val) * 192 + (j 2).val) * 192 + (j 3).val
      = ((4 * k.val + ((Shape.reshapeEquiv hO j) 0).val) * 256 + ((Shape.reshapeEquiv hO j) 1).val) * 36864 + ((Shape.reshapeEquiv hO j) 2).val
  clear e
  omega

/-- The reshape to [4, 4, 256, 192, 192] reads (k, b, d, y, x) at (4k + b, d, y, x) of W: the same row-major
    position. -/
theorem reshape5_apply {α : Type} (W : SW4.Idx → α) (h5 : SW4.ShapeCasts SW5) (k : Fin 4) (j : SO4.Idx) :
    shapeCast SW5 W h5 (Fin.cons k j) = W (row k j) := by
  unfold shapeCast
  congr 1
  apply Shape.reshapeEquiv_eq_of_rowMajor
  rw [Shape.rowMajor_val_four, Shape.rowMajor_val_five]
  show (((4 * k.val + (j 0).val) * 256 + (j 1).val) * 192 + (j 2).val) * 192 + (j 3).val
      = (((k.val * 4 + (j 0).val) * 256 + (j 1).val) * 192 + (j 2).val) * 192 + (j 3).val
  omega

/-- Dropping the leading axis of (k, j) leaves j; -/
theorem drop_cons (hred : SW5.ReducesTo [0] SO4) (k : Fin 4) (j : SO4.Idx) : hred.drop (Fin.cons k j) = j := by
  funext b
  match b with
  | ⟨0, _⟩ => rfl
  | ⟨1, _⟩ => rfl
  | ⟨2, _⟩ => rfl
  | ⟨3, _⟩ => rfl

/-- and an index that drops to j is (its leading coordinate, j); -/
theorem eq_cons_of_drop (hred : SW5.ReducesTo [0] SO4) (i : SW5.Idx) (j : SO4.Idx) (h : hred.drop i = j) :
    i = Fin.cons (i 0) j := by
  subst h
  funext a
  match a with
  | ⟨0, _⟩ => rfl
  | ⟨1, _⟩ => rfl
  | ⟨2, _⟩ => rfl
  | ⟨3, _⟩ => rfl
  | ⟨4, _⟩ => rfl

/-- so the indices the reduction sums at j are the four (k, j). -/
def consEmb (j : SO4.Idx) : Fin 4 ↪ SW5.Idx :=
  ⟨fun k => Fin.cons k j, fun k k' h => by have := congrFun h 0; exact this⟩

theorem filter_drop (hred : SW5.ReducesTo [0] SO4) (j : SO4.Idx) :
    Finset.univ.filter (fun i : SW5.Idx => hred.drop i = j) = Finset.univ.map (consEmb j) := by
  ext i
  simp only [Finset.mem_filter, Finset.mem_univ, true_and, Finset.mem_map, consEmb]
  exact ⟨fun h => ⟨i 0, (eq_cons_of_drop hred i j h).symm⟩, fun ⟨k, hk⟩ => hk ▸ drop_cons hred k j⟩

/-- The reduction at j is 0 + (W at candidate 0 + W at candidate 1 + W at candidate 2 + W at candidate 3), on the
    extended reals. -/
theorem hsum_apply (W : SW4.Idx → Ideal .f32) (h5 : SW4.ShapeCasts SW5) (hred : SW5.ReducesTo [0] SO4)
    (S0 : Shape) (hS : 0 < S0.numel) (j : SO4.Idx) :
    Host.reduceAdd (F := Ideal) (shapeCast SW5 W h5) (constant S0 .f32 0x00000000#32) hred hS j
      = Ideal.ofBits .f32 0x00000000#32 + (W (row 0 j) + W (row 1 j) + W (row 2 j) + W (row 3 j)) := by
  show Ideal.hostReduceAdd _ _ _ j = _
  unfold Ideal.hostReduceAdd
  rw [filter_drop, Finset.sum_map, Fin.sum_univ_four]
  show _ + (shapeCast SW5 W _ (Fin.cons (0 : Fin 4) j) + shapeCast SW5 W _ (Fin.cons (1 : Fin 4) j)
    + shapeCast SW5 W _ (Fin.cons (2 : Fin 4) j) + shapeCast SW5 W _ (Fin.cons (3 : Fin 4) j)) = _
  rw [reshape5_apply, reshape5_apply, reshape5_apply, reshape5_apply]
  rfl

/-- The two arrangements of the sum of the four candidates agree, whatever proofs of the shape relations the
    reshapes and the reduction carry. -/
theorem sum_layout_of (W : SW4.Idx → Ideal .f32) (hW : SW4.ShapeCasts SW3) (hO : SO3.ShapeCasts SO4)
    (h5 : SW4.ShapeCasts SW5) (hred : SW5.ReducesTo [0] SO4) (S0 : Shape) (hS : 0 < S0.numel) :
    shapeCast SO4 (acc4 (shapeCast SW3 W hW)) hO
      = Host.reduceAdd (F := Ideal) (shapeCast SW5 W h5) (constant S0 .f32 0x00000000#32) hred hS := by
  funext j
  rw [hsum_apply]
  show acc4 _ (Shape.reshapeEquiv _ j) = _
  unfold acc4 shapeCast
  rw [split_cand, split_cand, split_cand, split_cand]
  simp only [add_assoc]

/-- The same over the two programs' shapes and shape facts: the merged-axes ordered sum, split again, is the reduction
    of the five-axis reshape from the zero constant. -/
theorem sum_layout (W : (⟨Cert.ReferenceIdeal.S16x256x192x192, .f32⟩ : BufTy).Contents (Elt Ideal)) :
    shapeCast Cert.KernelIdeal.S4x256x192x192
        (acc4 (shapeCast Cert.KernelIdeal.S16x256x36864 W Cert.KernelIdeal.Facts₀.shapeCasts_S16x256x192x192_S16x256x36864))
        Cert.KernelIdeal.Facts₀.shapeCasts_S4x256x36864_S4x256x192x192
      = Host.reduceAdd (F := Ideal)
          (shapeCast Cert.ReferenceIdeal.S4x4x256x192x192 W Cert.ReferenceIdeal.Facts₀.shapeCasts_S16x256x192x192_S4x4x256x192x192)
          (constant Cert.ReferenceIdeal.S_ .f32 0x00000000#32)
          Cert.ReferenceIdeal.Facts₀.reducesTo_S4x4x256x192x192_S4x256x192x192_d0 Cert.ReferenceIdeal.Facts₀.h_S_ :=
  sum_layout_of W _ _ _ _ _ _

end Cert.FlowAccum

end
-- ==== Proof.LibGatherIdx.lean ====
/-
  A gather read at an index, axis by axis.

  A gather's result element at j is the operand's element at the operand index, whose coordinate on operand axis a
  is the clamped start plus the batching coordinate plus the offset coordinate. For a gather with no batching axes
  the coordinate is, on an axis the start index map does not name and the slice keeps, j's coordinate on the offset
  axis in that axis's position; on a collapsed axis the start index map names, the start index's component for that
  axis read signed and clamped so that the slice fits. These are the definitions of the dimension numbers' record,
  unfolded once.
-/
import Idealize.ShloMosaic.PureOps.ShapeOps

noncomputable section

namespace Cert.Lib.GatherIdx

open Idealize.ShloMosaic

variable {s si t : Shape} {α : Type} {w : Nat}

/-- A gather read at j is the operand at any index whose coordinates are the operand index's. -/
theorem gather_apply (d : GatherDims s si t) (x : s.Idx → α) (idx : IVec si w) (j : t.Idx) (k : s.Idx)
    (hk : ∀ a : Fin s.rank, (d.operandIdx j idx a).val = (k a).val) : Host.gather d x idx j = x k := by
  unfold Host.gather
  exact congrArg x (funext fun a => Fin.ext (hk a))

/-- With no batching axes, on an operand axis that the start index map does not name and the slice keeps, the operand
    index's coordinate is the result index's coordinate on the offset axis in that axis's position. -/
theorem val_offset (d : GatherDims s si t) (hb : d.operandBatchingDims = []) (j : t.Idx) (idx : IVec si w)
    (a : Fin s.rank) (hs : a ∉ d.startIndexMap) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero j a (by rw [hb]; exact List.not_mem_nil)]
  unfold GatherDims.start GatherDims.offCoord
  rw [dif_neg hs, dif_pos hk]
  omega

/-- With no batching axes, on a collapsed operand axis that the start index map names, the operand index's coordinate
    is the start index's component for that axis, read signed and clamped so that the slice fits. -/
theorem val_indexed (d : GatherDims s si t) (hb : d.operandBatchingDims = []) (j : t.Idx) (idx : IVec si w)
    (a : Fin s.rank) (hs : a ∈ d.startIndexMap) (hc : a ∈ d.collapsedSliceDims) :
    (d.operandIdx j idx a).val
      = min (idx (d.siIdx j ⟨d.startIndexMap.idxOf a, List.idxOf_lt_length_iff.2 hs⟩)).toInt.toNat
          (s.size a - d.sliceSizes a) := by
  show d.start j idx a + d.batchCoord j a + d.offCoord j a = _
  rw [d.batchCoord_eq_zero j a (by rw [hb]; exact List.not_mem_nil),
    d.offCoord_eq_zero j a (fun h => ((d.mem_sKept a).mp h).1 hc)]
  unfold GatherDims.start
  rw [dif_pos hs]
  omega

end Cert.Lib.GatherIdx

end
-- ==== Proof.MaskRead.lean ====
/-
  The mask read, squeezed or not.

  The mask has shape [16, 1, 64, 64]; the row and column start indices have shape [192, 1]. One side squeezes the
  unit channel axis ([16, 64, 64]), gathers rows and then columns, and broadcasts the [16, 192, 192] result to
  [16, 1, 192, 192] and then to [16, 256, 192, 192]; the other gathers rows and then columns of the four-axis array
  and broadcasts the [16, 1, 192, 192] result once. A gather along one axis reads the operand at the start index read
  as a signed integer and clamped into the axis's range, the other coordinates kept; a broadcast reads coordinate 0 on
  a unit axis; the squeeze reads the same row-major position. So both sides at (n, d, y, x) are the mask at
  (n, 0, r, c), with r and c the start indices at (y, 0) and (x, 0) clamped into [0, 63].
-/
import proofs.«160207_j39779987095835_2_alg».proof.Proof.Gen.KernelIdeal
import proofs.«160207_j39779987095835_2_alg».proof.Proof.Gen.ReferenceIdeal
import proofs.«160207_j39779987095835_2_alg».proof.Proof.Spec
import Idealize.ShloMosaic.PureOps.Ideal
import Idealize.ShloMosaic.Lib.ValueIdx
import Idealize.ShloMosaic.Lib.Pipeline.Value
import proofs.«160207_j39779987095835_2_alg».proof.Proof.LibGatherIdx

noncomputable section

namespace Cert.FlowAccum

open Idealize.ShloMosaic Idealize.ShloMosaic.ValueIdx

open Cert.Lib.GatherIdx

/-- Gathering rows of a [16, 64, 64] array at start indices [192, 1]: entry (n, y, c) of the result is the operand at
    (n, r, c), r the start index at (y, 0) read signed and clamped into [0, 63]. -/
theorem gatherRows3_apply {α : Type} {w : Nat} (x : Cert.KernelIdeal.S16x64x64.Idx → α) (idx : IVec Cert.KernelIdeal.S192x1 w)
    (n : Fin 16) (y : Fin 192) (c : Fin 64) :
    Host.gather Cert.KernelIdeal.gather_S16x64x64_S192x1_S16x192x64_02_1_n_n_1_1_16164 x idx (ix3 n y c)
      = x (ix3 n ⟨min (idx (ix2 y (0 : Fin 1))).toInt.toNat 63, by omega⟩ c) := by
  refine gather_apply _ x idx _ _ fun a => ?_
  match a with
  | ⟨0, _⟩ => exact (val_offset Cert.KernelIdeal.gather_S16x64x64_S192x1_S16x192x64_02_1_n_n_1_1_16164 rfl (ix3 n y c) idx (0 : Fin 3) (by decide) (by decide)).trans rfl
  | ⟨1, _⟩ =>
    refine (val_indexed Cert.KernelIdeal.gather_S16x64x64_S192x1_S16x192x64_02_1_n_n_1_1_16164 rfl (ix3 n y c) idx (1 : Fin 3) (by decide) (by decide)).trans ?_
    have hsi : (Cert.KernelIdeal.gather_S16x64x64_S192x1_S16x192x64_02_1_n_n_1_1_16164).siIdx (ix3 n y c)
        ⟨List.idxOf (1 : Fin 3) (Cert.KernelIdeal.gather_S16x64x64_S192x1_S16x192x64_02_1_n_n_1_1_16164).startIndexMap, List.idxOf_lt_length_iff.2 (by decide)⟩ = ix2 y (0 : Fin 1) := by
      funext b; refine Fin.ext ?_
      match b with
      | ⟨0, _⟩ => rfl
      | ⟨1, _⟩ => rfl
    rw [hsi]
    rfl
  | ⟨2, _⟩ => exact (val_offset Cert.KernelIdeal.gather_S16x64x64_S192x1_S16x192x64_02_1_n_n_1_1_16164 rfl (ix3 n y c) idx (2 : Fin 3) (by decide) (by decide)).trans rfl

/-- Gathering columns of a [16, 192, 64] array at start indices [192, 1]: entry (n, y, x) of the result is the operand
    at (n, y, c), c the start index at (x, 0) read signed and clamped into [0, 63]. -/
theorem gatherCols3_apply {α : Type} {w : Nat} (v : Cert.KernelIdeal.S16x192x64.Idx → α) (idx : IVec Cert.KernelIdeal.S192x1 w)
    (n : Fin 16) (y : Fin 192) (x : Fin 192) :
    Host.gather Cert.KernelIdeal.gather_S16x192x64_S192x1_S16x192x192_01_2_n_n_2_1_161921 v idx (ix3 n y x)
      = v (ix3 n y ⟨min (idx (ix2 x (0 : Fin 1))).toInt.toNat 63, by omega⟩) := by
  refine gather_apply _ v idx _ _ fun a => ?_
  match a with
  | ⟨0, _⟩ => exact (val_offset Cert.KernelIdeal.gather_S16x192x64_S192x1_S16x192x192_01_2_n_n_2_1_161921 rfl (ix3 n y x) idx (0 : Fin 3) (by decide) (by decide)).trans rfl
  | ⟨1, _⟩ => exact (val_offset Cert.KernelIdeal.gather_S16x192x64_S192x1_S16x192x192_01_2_n_n_2_1_161921 rfl (ix3 n y x) idx (1 : Fin 3) (by decide) (by decide)).trans rfl
  | ⟨2, _⟩ =>
    refine (val_indexed Cert.KernelIdeal.gather_S16x192x64_S192x1_S16x192x192_01_2_n_n_2_1_161921 rfl (ix3 n y x) idx (2 : Fin 3) (by decide) (by decide)).trans ?_
    have hsi : (Cert.KernelIdeal.gather_S16x192x64_S192x1_S16x192x192_01_2_n_n_2_1_161921).siIdx (ix3 n y x)
        ⟨List.idxOf (2 : Fin 3) (Cert.KernelIdeal.gather_S16x192x64_S192x1_S16x192x192_01_2_n_n_2_1_161921).startIndexMap, List.idxOf_lt_length_iff.2 (by decide)⟩ = ix2 x (0 : Fin 1) := by
      funext b; refine Fin.ext ?_
      match b with
      | ⟨0, _⟩ => rfl
      | ⟨1, _⟩ => rfl
    rw [hsi]
    rfl

/-- Gathering rows of a [16, 1, 64, 64] array at start indices [192, 1]: entry (n, u, y, c) of the result is the
    operand at (n, u, r, c), r the start index at (y, 0) read signed and clamped into [0, 63]. -/
theorem gatherRows4_apply {α : Type} {w : Nat} (v : Cert.ReferenceIdeal.S16x1x64x64.Idx → α) (idx : IVec Cert.ReferenceIdeal.S192x1 w)
    (n : Fin 16) (u : Fin 1) (y : Fin 192) (c : Fin 64) :
    Host.gather Cert.ReferenceIdeal.gather_S16x1x64x64_S192x1_S16x1x192x64_013_2_n_n_2_1_161164 v idx (ix4 n u y c)
      = v (ix4 n u ⟨min (idx (ix2 y (0 : Fin 1))).toInt.toNat 63, by omega⟩ c) := by
  refine gather_apply _ v idx _ _ fun a => ?_
  match a with
  | ⟨0, _⟩ => exact (val_offset Cert.ReferenceIdeal.gather_S16x1x64x64_S192x1_S16x1x192x64_013_2_n_n_2_1_161164 rfl (ix4 n u y c) idx (0 : Fin 4) (by decide) (by decide)).trans rfl
  | ⟨1, _⟩ => exact (val_offset Cert.ReferenceIdeal.gather_S16x1x64x64_S192x1_S16x1x192x64_013_2_n_n_2_1_161164 rfl (ix4 n u y c) idx (1 : Fin 4) (by decide) (by decide)).trans rfl
  | ⟨2, _⟩ =>
    refine (val_indexed Cert.ReferenceIdeal.gather_S16x1x64x64_S192x1_S16x1x192x64_013_2_n_n_2_1_161164 rfl (ix4 n u y c) idx (2 : Fin 4) (by decide) (by decide)).trans ?_
    have hsi : (Cert.ReferenceIdeal.gather_S16x1x64x64_S192x1_S16x1x192x64_013_2_n_n_2_1_161164).siIdx (ix4 n u y c)
        ⟨List.idxOf (2 : Fin 4) (Cert.ReferenceIdeal.gather_S16x1x64x64_S192x1_S16x1x192x64_013_2_n_n_2_1_161164).startIndexMap, List.idxOf_lt_length_iff.2 (by decide)⟩ = ix2 y (0 : Fin 1) := by
      funext b; refine Fin.ext ?_
      match b with
      | ⟨0, _⟩ => rfl
      | ⟨1, _⟩ => rfl
    rw [hsi]
    rfl
  | ⟨3, _⟩ => exact (val_offset Cert.ReferenceIdeal.gather_S16x1x64x64_S192x1_S16x1x192x64_013_2_n_n_2_1_161164 rfl (ix4 n u y c) idx (3 : Fin 4) (by decide) (by decide)).trans rfl

/-- Gathering columns of a [16, 1, 192, 64] array at start indices [192, 1]: entry (n, u, y, x) of the result is the
    operand at (n, u, y, c), c the start index at (x, 0) read signed and clamped into [0, 63]. -/
theorem gatherCols4_apply {α : Type} {w : Nat} (v : Cert.ReferenceIdeal.S16x1x192x64.Idx → α) (idx : IVec Cert.ReferenceIdeal.S192x1 w)
    (n : Fin 16) (u : Fin 1) (y : Fin 192) (x : Fin 192) :
    Host.gather Cert.ReferenceIdeal.gather_S16x1x192x64_S192x1_S16x1x192x192_012_3_n_n_3_1_1611921 v idx (ix4 n u y x)
      = v (ix4 n u y ⟨min (idx (ix2 x (0 : Fin 1))).toInt.toNat 63, by omega⟩) := by
  refine gather_apply _ v idx _ _ fun a => ?_
  match a with
  | ⟨0, _⟩ => exact (val_offset Cert.ReferenceIdeal.gather_S16x1x192x64_S192x1_S16x1x192x192_012_3_n_n_3_1_1611921 rfl (ix4 n u y x) idx (0 : Fin 4) (by decide) (by decide)).trans rfl
  | ⟨1, _⟩ => exact (val_offset Cert.ReferenceIdeal.gather_S16x1x192x64_S192x1_S16x1x192x192_012_3_n_n_3_1_1611921 rfl (ix4 n u y x) idx (1 : Fin 4) (by decide) (by decide)).trans rfl
  | ⟨2, _⟩ => exact (val_offset Cert.ReferenceIdeal.gather_S16x1x192x64_S192x1_S16x1x192x192_012_3_n_n_3_1_1611921 rfl (ix4 n u y x) idx (2 : Fin 4) (by decide) (by decide)).trans rfl
  | ⟨3, _⟩ =>
    refine (val_indexed Cert.ReferenceIdeal.gather_S16x1x192x64_S192x1_S16x1x192x192_012_3_n_n_3_1_1611921 rfl (ix4 n u y x) idx (3 : Fin 4) (by decide) (by decide)).trans ?_
    have hsi : (Cert.ReferenceIdeal.gather_S16x1x192x64_S192x1_S16x1x192x192_012_3_n_n_3_1_1611921).siIdx (ix4 n u y x)
        ⟨List.idxOf (3 : Fin 4) (Cert.ReferenceIdeal.gather_S16x1x192x64_S192x1_S16x1x192x192_012_3_n_n_3_1_1611921).startIndexMap, List.idxOf_lt_length_iff.2 (by decide)⟩ = ix2 x (0 : Fin 1) := by
      funext b; refine Fin.ext ?_
      match b with
      | ⟨0, _⟩ => rfl
      | ⟨1, _⟩ => rfl
    rw [hsi]
    rfl

/-- Squeezing the unit channel axis: entry (n, r, c) of the [16, 64, 64] reshape is entry (n, 0, r, c). -/
theorem squeeze_apply {α : Type} (A : Cert.ReferenceIdeal.S16x1x64x64.Idx → α)
    (h : Cert.ReferenceIdeal.S16x1x64x64.ShapeCasts Cert.KernelIdeal.S16x64x64) (n : Fin 16) (r c : Fin 64) :
    shapeCast Cert.KernelIdeal.S16x64x64 A h (ix3 n r c) = A (ix4 n (0 : Fin 1) r c) := by
  refine shapeCast_apply A h _ _ ?_
  rw [Shape.rowMajor_val_four, Shape.rowMajor_val_three]
  show ((n.val * 1 + 0) * 64 + r.val) * 64 + c.val = (n.val * 64 + r.val) * 64 + c.val
  omega

/-- The mask read either way: gathering rows then columns of the mask with the unit channel axis squeezed first and
    broadcasting to [16, 1, 192, 192] and then [16, 256, 192, 192], or gathering on the four-axis array and
    broadcasting once, gives at (n, d, y, x) the mask at (n, 0, r, c), r and c the start indices at (y, 0) and (x, 0)
    read signed and clamped into [0, 63]. -/
theorem mask_read (A : (⟨Cert.ReferenceIdeal.S16x1x64x64, .f32⟩ : BufTy).Contents (Elt Ideal))
    (IY IX : (⟨Cert.ReferenceIdeal.S192x1, .i32⟩ : BufTy).Contents (Elt Ideal)) :
    broadcastInDim Cert.KernelIdeal.S16x256x192x192 ![0, 1, 2, 3] Cert.KernelIdeal.Facts₀.bcast_S16x1x192x192_S16x256x192x192_0_1_2_3
      (broadcastInDim Cert.KernelIdeal.S16x1x192x192 ![0, 2, 3] Cert.KernelIdeal.Facts₀.bcast_S16x192x192_S16x1x192x192_0_2_3
        (Host.gather Cert.KernelIdeal.gather_S16x192x64_S192x1_S16x192x192_01_2_n_n_2_1_161921
          (Host.gather Cert.KernelIdeal.gather_S16x64x64_S192x1_S16x192x64_02_1_n_n_1_1_16164
            (shapeCast Cert.KernelIdeal.S16x64x64 A Cert.KernelIdeal.Facts₀.shapeCasts_S16x1x64x64_S16x64x64) IY) IX))
    = broadcastInDim Cert.ReferenceIdeal.S16x256x192x192 ![0, 1, 2, 3] Cert.ReferenceIdeal.Facts₀.bcast_S16x1x192x192_S16x256x192x192_0_1_2_3
        (Host.gather Cert.ReferenceIdeal.gather_S16x1x192x64_S192x1_S16x1x192x192_012_3_n_n_3_1_1611921
          (Host.gather Cert.ReferenceIdeal.gather_S16x1x64x64_S192x1_S16x1x192x64_013_2_n_n_2_1_161164 A IY) IX) := by
  funext j
  obtain ⟨n, d, y, x, rfl⟩ : ∃ (n : Fin 16) (d : Fin 256) (y : Fin 192) (x : Fin 192), j = ix4 n d y x :=
    ⟨j 0, j 1, j 2, j 3, eq_ix4 j⟩
  -- the left side: through the two broadcasts, the two gathers and the squeeze
  refine (broadcastInDim_apply _ _ _ (ix4 n d y x) (ix4 n (0 : Fin 1) y x) fun a => ?_).trans ?_
  · match a with
    | ⟨0, _⟩ => rfl
    | ⟨1, _⟩ => rfl
    | ⟨2, _⟩ => rfl
    | ⟨3, _⟩ => rfl
  refine (broadcastInDim_apply _ _ _ (ix4 n (0 : Fin 1) y x) (ix3 n y x) fun a => ?_).trans ?_
  · match a with
    | ⟨0, _⟩ => rfl
    | ⟨1, _⟩ => rfl
    | ⟨2, _⟩ => rfl
  rw [gatherCols3_apply, gatherRows3_apply, squeeze_apply]
  -- the right side: through the broadcast and the two gathers
  symm
  refine (broadcastInDim_apply _ _ _ (ix4 n d y x) (ix4 n (0 : Fin 1) y x) fun a => ?_).trans ?_
  · match a with
    | ⟨0, _⟩ => rfl
    | ⟨1, _⟩ => rfl
    | ⟨2, _⟩ => rfl
    | ⟨3, _⟩ => rfl
  rw [gatherCols4_apply, gatherRows4_apply]

end Cert.FlowAccum

end
-- ==== Proof.BridgeValue.lean ====
/-
  The value both programs compute, compared with no program run in sight.

  Given the same sampled values S [16, 256, 192, 192], the same mask A [16, 1, 64, 64] and the same two source-index
  vectors (from which both programs make the row and column start indices of the mask gathers by one and the same
  normalisation), the kernel's arrangement — squeeze the mask's unit channel axis, gather rows then columns, broadcast
  over the channels, multiply, merge the two image axes, add the four candidates 4k + b in order from zero, split the
  image axes again — and the reference's — gather rows then columns on the 4-D mask, broadcast, multiply, reshape to
  [4, 4, 256, 192, 192] and reduce the leading axis by addition from zero — are the same array on the extended reals:
  the two mask arrangements read the same entry (the mask lemma), and the ordered four-term sum is the reduction
  because addition of extended reals is associative (the sum-and-layout lemma; no finiteness is needed).
-/
import proofs.«160207_j39779987095835_2_alg».proof.Proof.KernelEval
import proofs.«160207_j39779987095835_2_alg».proof.Proof.RefEval
import proofs.«160207_j39779987095835_2_alg».proof.Proof.SumLayout
import proofs.«160207_j39779987095835_2_alg».proof.Proof.MaskRead

noncomputable section

namespace Cert.FlowAccum

open Idealize.ShloMosaic

/-- The kernel's accumulated and re-split weighted samples are the reference's reduction of the weighted samples. -/
theorem value_eq (S : FVec Ideal Cert.ReferenceIdeal.S16x256x192x192 .f32) (A : FVec Ideal Cert.ReferenceIdeal.S16x1x64x64 .f32)
    (v2 v3 : IVec Cert.ReferenceIdeal.S192 32) :
    shapeCast Cert.KernelIdeal.S4x256x192x192
        (acc4 (Cert.KernelIdeal.Bridge.weightedOf S
          (shapeCast Cert.KernelIdeal.S16x64x64 A Cert.KernelIdeal.Facts₀.shapeCasts_S16x1x64x64_S16x64x64)
          (Cert.KernelIdeal.Bridge.normIdx v2) (Cert.KernelIdeal.Bridge.normIdx v3)))
        Cert.KernelIdeal.Facts₀.shapeCasts_S4x256x36864_S4x256x192x192
      = Cert.ReferenceIdeal.Line.resultOf S A (Cert.ReferenceIdeal.Line.normIdx v2) (Cert.ReferenceIdeal.Line.normIdx v3) := by
  unfold Cert.KernelIdeal.Bridge.weightedOf Cert.ReferenceIdeal.Line.resultOf
  rw [sum_layout, mask_read]
  rfl

end Cert.FlowAccum

end
-- ==== Proof.AgreeBase.lean ====
/- Contents of the two programs' buffers on the extended reals: the types the pairings of the cuts speak of. -/

import proofs.«160207_j39779987095835_2_alg».proof.KernelIdeal
import proofs.«160207_j39779987095835_2_alg».proof.ReferenceIdeal
import Idealize.ShloMosaic.Lib.StableHlo.Run
import Idealize.ShloMosaic.PureOps.Ideal

noncomputable section

namespace Cert.FlowAccum.Agree

open Idealize.ShloMosaic Idealize.ShloMosaic.StableHlo

/-- Contents of the kernel program's buffers, on the extended reals. -/
abbrev VK := Valuation Cert.KernelIdeal.τ Cert.KernelIdeal.sig (Elt Ideal)
/-- Contents of the reference program's buffers, on the extended reals. -/
abbrev VR := Valuation Cert.ReferenceIdeal.τ Cert.ReferenceIdeal.sig (Elt Ideal)

end Cert.FlowAccum.Agree

end
-- ==== Proof.AgreeAt0.lean ====
/- Cut 0 (after 0 operations of the kernel's prefix, 0 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 0: 3 pairs. -/
def At0 (Xk : VK) (Xr : VR) : Prop :=
  (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_arg1) : (⟨Cert.ReferenceIdeal.S16x2x64x64, .f32⟩ : BufTy).Contents (Elt Ideal)) = (Xr (Proc.devRef .tc Cert.ReferenceIdeal.main_arg1) : (⟨Cert.ReferenceIdeal.S16x2x64x64, .f32⟩ : BufTy).Contents (Elt Ideal))
  ∧ (Xk (Proc.devRef .tc Cert.KernelIdeal.main_arg2) : (⟨Cert.ReferenceIdeal.S16x1x64x64, .f32⟩ : BufTy).Contents (Elt Ideal)) = (Xr (Proc.devRef .tc Cert.ReferenceIdeal.main_arg2) : (⟨Cert.ReferenceIdeal.S16x1x64x64, .f32⟩ : BufTy).Contents (Elt Ideal))

end Cert.FlowAccum.Agree

end
-- ==== Proof.AgreeAt0b.lean ====
/- The cut inside window 0 (after 60 operations of the kernel's prefix, 60 of the reference's line): the paired buffers still read later,
   and what it is for contents of the two programs' buffers to agree on them. -/

import proofs.«160207_j39779987095835_2_alg».proof.Proof.AgreeBase

noncomputable section

namespace Cert.FlowAccum.Agree

open Idealize.ShloMosaic Idealize.ShloMosaic.StableHlo

/-- Agreement at the cut inside window 0: 6 pairs. -/
def At0b (Xk : VK) (Xr : VR) : Prop :=
  (Xk (Proc.devRef .tc Cert.KernelIdeal.main_arg1) : (⟨Cert.ReferenceIdeal.S16x2x64x64, .f32⟩ : BufTy).Contents (Elt Ideal)) = (Xr (Proc.devRef .tc Cert.ReferenceIdeal.main_arg1) : (⟨Cert.ReferenceIdeal.S16x2x64x64, .f32⟩ : BufTy).Contents (Elt Ideal))
  ∧ (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v1) : (⟨Cert.ReferenceIdeal.S192, .i32⟩ : BufTy).Contents (Elt Ideal)) = (Xr (Proc.devRef .tc Cert.ReferenceIdeal.main_v1) : (⟨Cert.ReferenceIdeal.S192, .i32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v4) : (⟨Cert.ReferenceIdeal.S192, .i32⟩ : BufTy).Contents (Elt Ideal)) = (Xr (Proc.devRef .tc Cert.ReferenceIdeal.main_v4) : (⟨Cert.ReferenceIdeal.S192, .i32⟩ : BufTy).Contents (Elt Ideal))

end Cert.FlowAccum.Agree

end
-- ==== Proof.KerCuts.lean ====
/- The kernel's host prefix (33 stretches of operations) grouped into 10 windows of whole stretches, and that the
   prefix is their concatenation. -/

import proofs.«160207_j39779987095835_2_alg».proof.Proof.Gen.KernelIdeal.Launch
import Idealize.ShloMosaic.Lib.StableHlo.Run

noncomputable section

namespace Cert.KernelIdeal.Bridge

open Cert.KernelIdeal Cert.KernelIdeal.Gen Idealize.ShloMosaic Idealize.ShloMosaic.TcCoe Idealize.SL.Sem Idealize.ShloMosaic.StableHlo

variable {F : FTy → Type} [FloatOps F]

/-- Operations 0 … 84 of the prefix. -/
abbrev kw0 : List (HloOp τ sig (Elt F)) := hostOps0 ++ (hostOps0_1 ++ (hostOps0_2 ++ (hostOps0_3 ++ (hostOps0_4 ++ (hostOps0_5 ++ (hostOps0_6 ++ (hostOps0_7)))))))

/-- Operations 85 … 204 of the prefix. -/
abbrev kw1 : List (HloOp τ sig (Elt F)) := hostOps0_8

/-- Operations 205 … 241 of the prefix. -/
abbrev kw2 : List (HloOp τ sig (Elt F)) := hostOps0_9 ++ (hostOps0_10 ++ (hostOps0_11 ++ (hostOps0_12 ++ (hostOps0_13))))

/-- Operations 242 … 283 of the prefix. -/
abbrev kw3 : List (HloOp τ sig (Elt F)) := hostOps0_14

/-- Operations 284 … 320 of the prefix. -/
abbrev kw4 : List (HloOp τ sig (Elt F)) := hostOps0_15 ++ (hostOps0_16 ++ (hostOps0_17 ++ (hostOps0_18 ++ (hostOps0_19))))

/-- Operations 321 … 360 of the prefix. -/
abbrev kw5 : List (HloOp τ sig (Elt F)) := hostOps0_20

/-- Operations 361 … 397 of the prefix. -/
abbrev kw6 : List (HloOp τ sig (Elt F)) := hostOps0_21 ++ (hostOps0_22 ++ (hostOps0_23 ++ (hostOps0_24 ++ (hostOps0_25))))

/-- Operations 398 … 437 of the prefix. -/
abbrev kw7 : List (HloOp τ sig (Elt F)) := hostOps0_26

/-- Operations 438 … 474 of the prefix. -/
abbrev kw8 : List (HloOp τ sig (Elt F)) := hostOps0_27 ++ (hostOps0_28 ++ (hostOps0_29 ++ (hostOps0_30 ++ (hostOps0_31))))

/-- Operations 475 … 482 of the prefix. -/
abbrev kw9 : List (HloOp τ sig (Elt F)) := hostOps0_32

/-- The prefix is the windows one after the other. -/
theorem flat_cuts : (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32] : List (HloOp τ sig (Elt F))) = kw0 ++ (kw1 ++ (kw2 ++ (kw3 ++ (kw4 ++ (kw5 ++ (kw6 ++ (kw7 ++ (kw8 ++ (kw9))))))))) := by
  simp only [kw0, kw1, kw2, kw3, kw4, kw5, kw6, kw7, kw8, kw9, List.flatten_cons, List.flatten_nil, List.append_nil, List.append_assoc]

end Cert.KernelIdeal.Bridge

end
-- ==== Proof.KerCuts0.lean ====
/- Window 0 of the kernel's prefix as two halves, and that it is the first followed by the second. -/

import proofs.«160207_j39779987095835_2_alg».proof.Proof.KerCuts

noncomputable section

namespace Cert.KernelIdeal.Bridge

open Cert.KernelIdeal Cert.KernelIdeal.Gen Idealize.ShloMosaic Idealize.ShloMosaic.TcCoe Idealize.SL.Sem Idealize.ShloMosaic.StableHlo

variable {F : FTy → Type} [FloatOps F]

abbrev kw0a : List (HloOp τ sig (Elt F)) := hostOps0 ++ (hostOps0_1 ++ (hostOps0_2 ++ (hostOps0_3 ++ (hostOps0_4 ++ (hostOps0_5)))))
abbrev kw0b : List (HloOp τ sig (Elt F)) := hostOps0_6 ++ (hostOps0_7)

theorem kw0_split : (kw0 : List (HloOp τ sig (Elt F))) = kw0a ++ kw0b := by
  simp only [kw0, kw0a, kw0b, List.append_assoc]

end Cert.KernelIdeal.Bridge

end
-- ==== Proof.RefCuts.lean ====
/- The reference's straight line cut into 11 consecutive windows (the cuts face the kernel's stretches), and that the line is
   their concatenation. -/

import proofs.«160207_j39779987095835_2_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Operations 0 … 84 of the line. -/
abbrev rw0 : List (HloOp τ sig (Elt F)) :=
  [ nullary main_v0 (iotaInDim S192 32 0),
    nullary main_v1 (iotaInDim S192 32 0),
    nullary main_c (constantI S_ 32 3#32),
    TRef.unary (.of main_c : StableHlo.TRef sig ⟨S_, .i32⟩) main_call0.v0 id,
    TRef.unary main_call0.v0 main_call0.v1 (broadcastInDim S192 ![] bcast_S_S192),
    TRef.binary (.of main_v0 : StableHlo.TRef sig ⟨S192, .i32⟩) main_call0.v1 main_call0.v2 Host.divsi,
    TRef.unary (.of main_v0 : StableHlo.TRef sig ⟨S192, .i32⟩) main_call0.v3 signi,
    TRef.unary main_call0.v0 main_call0.v4 signi,
    TRef.unary main_call0.v4 main_call0.v5 (broadcastInDim S192 ![] bcast_S_S192),
    TRef.binary main_call0.v3 main_call0.v5 main_call0.v6 (cmpi .ne),
    TRef.unary main_call0.v0 main_call0.v7 (broadcastInDim S192 ![] bcast_S_S192),
    TRef.binary (.of main_v0 : StableHlo.TRef sig ⟨S192, .i32⟩) main_call0.v7 main_call0.v8 Host.remsi,
    TRef.nullary main_call0.c (constantI S_ 32 0#32),
    TRef.unary main_call0.c main_call0.v9 (broadcastInDim S192 ![] bcast_S_S192),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S192 ![] bcast_S_S192),
    TRef.binary main_call0.v2 main_call0.v12 main_call0.v13 subi,
    TRef.ternary main_call0.v11 main_call0.v13 main_call0.v2 main_call0.call0.v0 select,
    nullary main_c_0 (constantI S_ 32 3#32),
    TRef.unary (.of main_c_0 : StableHlo.TRef sig ⟨S_, .i32⟩) main_call1.v0 id,
    TRef.unary main_call1.v0 main_call1.v1 (broadcastInDim S192 ![] bcast_S_S192),
    TRef.binary (.of main_v1 : StableHlo.TRef sig ⟨S192, .i32⟩) main_call1.v1 main_call1.v2 Host.divsi,
    TRef.unary (.of main_v1 : StableHlo.TRef sig ⟨S192, .i32⟩) main_call1.v3 signi,
    TRef.unary main_call1.v0 main_call1.v4 signi,
    TRef.unary main_call1.v4 main_call1.v5 (broadcastInDim S192 ![] bcast_S_S192),
    TRef.binary main_call1.v3 main_call1.v5 main_call1.v6 (cmpi .ne),
    TRef.unary main_call1.v0 main_call1.v7 (broadcastInDim S192 ![] bcast_S_S192),
    TRef.binary (.of main_v1 : StableHlo.TRef sig ⟨S192, .i32⟩) main_call1.v7 main_call1.v8 Host.remsi,
    TRef.nullary main_call1.c (constantI S_ 32 0#32),
    TRef.unary main_call1.c main_call1.v9 (broadcastInDim S192 ![] bcast_S_S192),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S192 ![] bcast_S_S192),
    TRef.binary main_call1.v2 main_call1.v12 main_call1.v13 subi,
    TRef.ternary main_call1.v11 main_call1.v13 main_call1.v2 main_call1.call0.v0 select,
    nullary main_c_1 (constantI S_ 32 3#32),
    TRef.unary (.of main_c_1 : StableHlo.TRef sig ⟨S_, .i32⟩) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S192 ![] bcast_S_S192),
    TRef.binary (.of main_v0 : StableHlo.TRef sig ⟨S192, .i32⟩) main_call2.v3 main_call2.v4 Host.remsi,
    TRef.nullary main_call2.c_1 (constantI S_ 32 0#32),
    TRef.unary main_call2.c_1 main_call2.v5 (broadcastInDim S192 ![] bcast_S_S192),
    TRef.binary main_call2.v4 main_call2.v5 main_call2.v6 (cmpi .ne),
    TRef.nullary main_call2.c_2 (constantI S_ 32 0#32),
    TRef.unary main_call2.c_2 main_call2.v7 (broadcastInDim S192 ![] bcast_S_S192),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S192 ![] bcast_S_S192),
    TRef.binary main_call2.v8 main_call2.v10 main_call2.v11 (cmpi .ne),
    TRef.binary main_call2.v11 main_call2.v6 main_call2.v12 andi,
    TRef.unary main_call2.call0.v0 main_call2.v13 (broadcastInDim S192 ![] bcast_S_S192),
    TRef.binary main_call2.v4 main_call2.v13 main_call2.v14 addi,
    TRef.ternary main_call2.v12 main_call2.v14 main_call2.v4 main_call2.v15 select,
    nullary main_c_2 (constantI S_ 32 1#32),
    unary main_c_2 main_v5 (broadcastInDim S192 ![] bcast_S_S192 : (⟨S_, .i32⟩ : BufTy).Contents (Elt F) → (⟨S192, .i32⟩ : BufTy).Contents (Elt F)),
    binary main_v4 main_v5 main_v6 (subi : (⟨S192, .i32⟩ : BufTy).Contents (Elt F) → (⟨S192, .i32⟩ : BufTy).Contents (Elt F) → (⟨S192, .i32⟩ : BufTy).Contents (Elt F)),
    nullary main_c_3 (constantI S_ 32 3#32),
    TRef.unary (.of main_c_3 : StableHlo.TRef sig ⟨S_, .i32⟩) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S192 ![] bcast_S_S192),
    TRef.binary (.of main_v1 : StableHlo.TRef sig ⟨S192, .i32⟩) main_call3.v3 main_call3.v4 Host.remsi,
    TRef.nullary main_call3.c_1 (constantI S_ 32 0#32),
    TRef.unary main_call3.c_1 main_call3.v5 (broadcastInDim S192 ![] bcast_S_S192),
    TRef.binary main_call3.v4 main_call3.v5 main_call3.v6 (cmpi .ne),
    TRef.nullary main_call3.c_2 (constantI S_ 32 0#32),
    TRef.unary main_call3.c_2 main_call3.v7 (broadcastInDim S192 ![] bcast_S_S192),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S192 ![] bcast_S_S192),
    TRef.binary main_call3.v8 main_call3.v10 main_call3.v11 (cmpi .ne),
    TRef.binary main_call3.v11 main_call3.v6 main_call3.v12 andi,
    TRef.unary main_call3.call0.v0 main_call3.v13 (broadcastInDim S192 ![] bcast_S_S192),
    TRef.binary main_call3.v4 main_call3.v13 main_call3.v14 addi,
    TRef.ternary main_call3.v12 main_call3.v14 main_call3.v4 main_call3.v15 select ]

/-- Operations 85 … 185 of the line. -/
abbrev rw1 : List (HloOp τ sig (Elt F)) :=
  [ nullary main_c_4 (constantI S_ 32 1#32),
    unary main_c_4 main_v8 (broadcastInDim S192 ![] bcast_S_S192 : (⟨S_, .i32⟩ : BufTy).Contents (Elt F) → (⟨S192, .i32⟩ : BufTy).Contents (Elt F)),
    binary main_v7 main_v8 main_v9 (subi : (⟨S192, .i32⟩ : BufTy).Contents (Elt F) → (⟨S192, .i32⟩ : BufTy).Contents (Elt F) → (⟨S192, .i32⟩ : BufTy).Contents (Elt F)),
    unary main_arg1 main_v10 ((extractStridedSlice S16x1x64x64 ![0, 0, 0, 0] · slices_S16x2x64x64_S16x1x64x64_0_0_0_0) : (⟨S16x2x64x64, .f32⟩ : BufTy).Contents (Elt F) → (⟨S16x1x64x64, .f32⟩ : BufTy).Contents (Elt F)),
    reshape main_v10 main_v11 rfl shapeCasts_S16x1x64x64_S16x64x64,
    nullary main_c_5 (constantI S_ 32 0#32),
    unary main_c_5 main_v12 (broadcastInDim S192 ![] bcast_S_S192 : (⟨S_, .i32⟩ : BufTy).Contents (Elt F) → (⟨S192, .i32⟩ : BufTy).Contents (Elt F)),
    binary main_v2 main_v12 main_v13 (cmpi .slt : (⟨S192, .i32⟩ : BufTy).Contents (Elt F) → (⟨S192, .i32⟩ : BufTy).Contents (Elt F) → (⟨S192, .i1⟩ : BufTy).Contents (Elt F)),
    nullary main_c_6 (constantI S_ 32 64#32),
    unary main_c_6 main_v14 (broadcastInDim S192 ![] bcast_S_S192 : (⟨S_, .i32⟩ : BufTy).Contents (Elt F) → (⟨S192, .i32⟩ : BufTy).Contents (Elt F)),
    binary main_v2 main_v14 main_v15 (addi : (⟨S192, .i32⟩ : BufTy).Contents (Elt F) → (⟨S192, .i32⟩ : BufTy).Contents (Elt F) → (⟨S192, .i32⟩ : BufTy).Contents (Elt F)),
    ternary main_v13 main_v15 main_v2 main_v16 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v16 main_v17 (broadcastInDim S192x1 ![0] bcast_S192_S192x1_0 : (⟨S192, .i32⟩ : BufTy).Contents (Elt F) → (⟨S192x1, .i32⟩ : BufTy).Contents (Elt F)),
    binary main_v11 main_v17 main_v18 ((fun x i => Host.gather gather_S16x64x64_S192x1_S16x192x64_02_1_n_n_1_1_16164 x i) : (⟨S16x64x64, .f32⟩ : BufTy).Contents (Elt F) → (⟨S192x1, .i32⟩ : BufTy).Contents (Elt F) → (⟨S16x192x64, .f32⟩ : BufTy).Contents (Elt F)),
    nullary main_c_7 (constantI S_ 32 0#32),
    unary main_c_7 main_v19 (broadcastInDim S192 ![] bcast_S_S192 : (⟨S_, .i32⟩ : BufTy).Contents (Elt F) → (⟨S192, .i32⟩ : BufTy).Contents (Elt F)),
    binary main_v3 main_v19 main_v20 (cmpi .slt : (⟨S192, .i32⟩ : BufTy).Contents (Elt F) → (⟨S192, .i32⟩ : BufTy).Contents (Elt F) → (⟨S192, .i1⟩ : BufTy).Contents (Elt F)),
    nullary main_c_8 (constantI S_ 32 64#32),
    unary main_c_8 main_v21 (broadcastInDim S192 ![] bcast_S_S192 : (⟨S_, .i32⟩ : BufTy).Contents (Elt F) → (⟨S192, .i32⟩ : BufTy).Contents (Elt F)),
    binary main_v3 main_v21 main_v22 (addi : (⟨S192, .i32⟩ : BufTy).Contents (Elt F) → (⟨S192, .i32⟩ : BufTy).Contents (Elt F) → (⟨S192, .i32⟩ : BufTy).Contents (Elt F)),
    ternary main_v20 main_v22 main_v3 main_v23 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v23 main_v24 (broadcastInDim S192x1 ![0] bcast_S192_S192x1_0 : (⟨S192, .i32⟩ : BufTy).Contents (Elt F) → (⟨S192x1, .i32⟩ : BufTy).Contents (Elt F)),
    binary main_v18 main_v24 main_v25 ((fun x i => Host.gather gather_S16x192x64_S192x1_S16x192x192_01_2_n_n_2_1_161921 x i) : (⟨S16x192x64, .f32⟩ : BufTy).Contents (Elt F) → (⟨S192x1, .i32⟩ : BufTy).Contents (Elt F) → (⟨S16x192x192, .f32⟩ : BufTy).Contents (Elt F)),
    unary main_arg1 main_v26 ((extractStridedSlice S16x1x64x64 ![0, 1, 0, 0] · slices_S16x2x64x64_S16x1x64x64_0_1_0_0) : (⟨S16x2x64x64, .f32⟩ : BufTy).Contents (Elt F) → (⟨S16x1x64x64, .f32⟩ : BufTy).Contents (Elt F)),
    reshape main_v26 main_v27 rfl shapeCasts_S16x1x64x64_S16x64x64,
    nullary main_c_9 (constantI S_ 32 0#32),
    unary main_c_9 main_v28 (broadcastInDim S192 ![] bcast_S_S192 : (⟨S_, .i32⟩ : BufTy).Contents (Elt F) → (⟨S192, .i32⟩ : BufTy).Contents (Elt F)),
    binary main_v2 main_v28 main_v29 (cmpi .slt : (⟨S192, .i32⟩ : BufTy).Contents (Elt F) → (⟨S192, .i32⟩ : BufTy).Contents (Elt F) → (⟨S192, .i1⟩ : BufTy).Contents (Elt F)),
    nullary main_c_10 (constantI S_ 32 64#32),
    unary main_c_10 main_v30 (broadcastInDim S192 ![] bcast_S_S192 : (⟨S_, .i32⟩ : BufTy).Contents (Elt F) → (⟨S192, .i32⟩ : BufTy).Contents (Elt F)),
    binary main_v2 main_v30 main_v31 (addi : (⟨S192, .i32⟩ : BufTy).Contents (Elt F) → (⟨S192, .i32⟩ : BufTy).Contents (Elt F) → (⟨S192, .i32⟩ : BufTy).Contents (Elt F)),
    ternary main_v29 main_v31 main_v2 main_v32 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v32 main_v33 (broadcastInDim S192x1 ![0] bcast_S192_S192x1_0 : (⟨S192, .i32⟩ : BufTy).Contents (Elt F) → (⟨S192x1, .i32⟩ : BufTy).Contents (Elt F)),
    binary main_v27 main_v33 main_v34 ((fun x i => Host.gather gather_S16x64x64_S192x1_S16x192x64_02_1_n_n_1_1_16164 x i) : (⟨S16x64x64, .f32⟩ : BufTy).Contents (Elt F) → (⟨S192x1, .i32⟩ : BufTy).Contents (Elt F) → (⟨S16x192x64, .f32⟩ : BufTy).Contents (Elt F)),
    nullary main_c_11 (constantI S_ 32 0#32),
    unary main_c_11 main_v35 (broadcastInDim S192 ![] bcast_S_S192 : (⟨S_, .i32⟩ : BufTy).Contents (Elt F) → (⟨S192, .i32⟩ : BufTy).Contents (Elt F)),
    binary main_v3 main_v35 main_v36 (cmpi .slt : (⟨S192, .i32⟩ : BufTy).Contents (Elt F) → (⟨S192, .i32⟩ : BufTy).Contents (Elt F) → (⟨S192, .i1⟩ : BufTy).Contents (Elt F)),
    nullary main_c_12 (constantI S_ 32 64#32),
    unary main_c_12 main_v37 (broadcastInDim S192 ![] bcast_S_S192 : (⟨S_, .i32⟩ : BufTy).Contents (Elt F) → (⟨S192, .i32⟩ : BufTy).Contents (Elt F)),
    binary main_v3 main_v37 main_v38 (addi : (⟨S192, .i32⟩ : BufTy).Contents (Elt F) → (⟨S192, .i32⟩ : BufTy).Contents (Elt F) → (⟨S192, .i32⟩ : BufTy).Contents (Elt F)),
    ternary main_v36 main_v38 main_v3 main_v39 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v39 main_v40 (broadcastInDim S192x1 ![0] bcast_S192_S192x1_0 : (⟨S192, .i32⟩ : BufTy).Contents (Elt F) → (⟨S192x1, .i32⟩ : BufTy).Contents (Elt F)),
    binary main_v34 main_v40 main_v41 ((fun x i => Host.gather gather_S16x192x64_S192x1_S16x192x192_01_2_n_n_2_1_161921 x i) : (⟨S16x192x64, .f32⟩ : BufTy).Contents (Elt F) → (⟨S192x1, .i32⟩ : BufTy).Contents (Elt F) → (⟨S16x192x192, .f32⟩ : BufTy).Contents (Elt F)),
    unary main_v2 main_v42 (sitofp .f32 : (⟨S192, .i32⟩ : BufTy).Contents (Elt F) → (⟨S192, .f32⟩ : BufTy).Contents (Elt F)),
    unary main_v42 main_v43 (broadcastInDim S192x1 ![0] bcast_S192_S192x1_0 : (⟨S192, .f32⟩ : BufTy).Contents (Elt F) → (⟨S192x1, .f32⟩ : BufTy).Contents (Elt F)),
    unary main_v6 main_v44 (sitofp .f32 : (⟨S192, .i32⟩ : BufTy).Contents (Elt F) → (⟨S192, .f32⟩ : BufTy).Contents (Elt F)),
    unary main_v44 main_v45 (broadcastInDim S192x1 ![0] bcast_S192_S192x1_0 : (⟨S192, .f32⟩ : BufTy).Contents (Elt F) → (⟨S192x1, .f32⟩ : BufTy).Contents (Elt F)),
    binary main_v43 main_v45 main_v46 (addf : (⟨S192x1, .f32⟩ : BufTy).Contents (Elt F) → (⟨S192x1, .f32⟩ : BufTy).Contents (Elt F) → (⟨S192x1, .f32⟩ : BufTy).Contents (Elt F)),
    unary main_v46 main_v47 (broadcastInDim S1x192x1 ![1, 2] bcast_S192x1_S1x192x1_1_2 : (⟨S192x1, .f32⟩ : BufTy).Contents (Elt F) → (⟨S1x192x1, .f32⟩ : BufTy).Contents (Elt F)),
    unary main_v47 main_v48 (broadcastInDim S16x192x192 ![0, 1, 2] bcast_S1x192x1_S16x192x192_0_1_2 : (⟨S1x192x1, .f32⟩ : BufTy).Contents (Elt F) → (⟨S16x192x192, .f32⟩ : BufTy).Contents (Elt F)),
    binary main_v48 main_v25 main_v49 (addf : (⟨S16x192x192, .f32⟩ : BufTy).Contents (Elt F) → (⟨S16x192x192, .f32⟩ : BufTy).Contents (Elt F) → (⟨S16x192x192, .f32⟩ : BufTy).Contents (Elt F)),
    unary main_v3 main_v50 (sitofp .f32 : (⟨S192, .i32⟩ : BufTy).Contents (Elt F) → (⟨S192, .f32⟩ : BufTy).Contents (Elt F)),
    unary main_v50 main_v51 (broadcastInDim S1x192 ![1] bcast_S192_S1x192_1 : (⟨S192, .f32⟩ : BufTy).Contents (Elt F) → (⟨S1x192, .f32⟩ : BufTy).Contents (Elt F)),
    unary main_v9 main_v52 (sitofp .f32 : (⟨S192, .i32⟩ : BufTy).Contents (Elt F) → (⟨S192, .f32⟩ : BufTy).Contents (Elt F)),
    unary main_v52 main_v53 (broadcastInDim S1x192 ![1] bcast_S192_S1x192_1 : (⟨S192, .f32⟩ : BufTy).Contents (Elt F) → (⟨S1x192, .f32⟩ : BufTy).Contents (Elt F)),
    binary main_v51 main_v53 main_v54 (addf : (⟨S1x192, .f32⟩ : BufTy).Contents (Elt F) → (⟨S1x192, .f32⟩ : BufTy).Contents (Elt F) → (⟨S1x192, .f32⟩ : BufTy).Contents (Elt F)),
    unary main_v54 main_v55 (broadcastInDim S1x1x192 ![1, 2] bcast_S1x192_S1x1x192_1_2 : (⟨S1x192, .f32⟩ : BufTy).Contents (Elt F) → (⟨S1x1x192, .f32⟩ : BufTy).Contents (Elt F)),
    unary main_v55 main_v56 (broadcastInDim S16x192x192 ![0, 1, 2] bcast_S1x1x192_S16x192x192_0_1_2 : (⟨S1x1x192, .f32⟩ : BufTy).Contents (Elt F) → (⟨S16x192x192, .f32⟩ : BufTy).Contents (Elt F)),
    binary main_v56 main_v41 main_v57 (addf : (⟨S16x192x192, .f32⟩ : BufTy).Contents (Elt F) → (⟨S16x192x192, .f32⟩ : BufTy).Contents (Elt F) → (⟨S16x192x192, .f32⟩ : BufTy).Contents (Elt F)),
    unary main_v49 main_v58 (Host.floor : (⟨S16x192x192, .f32⟩ : BufTy).Contents (Elt F) → (⟨S16x192x192, .f32⟩ : BufTy).Contents (Elt F)),
    unary main_v58 main_v59 (fptosi 32 : (⟨S16x192x192, .f32⟩ : BufTy).Contents (Elt F) → (⟨S16x192x192, .i32⟩ : BufTy).Contents (Elt F)),
    unary main_v57 main_v60 (Host.floor : (⟨S16x192x192, .f32⟩ : BufTy).Contents (Elt F) → (⟨S16x192x192, .f32⟩ : BufTy).Contents (Elt F)),
    unary main_v60 main_v61 (fptosi 32 : (⟨S16x192x192, .f32⟩ : BufTy).Contents (Elt F) → (⟨S16x192x192, .i32⟩ : BufTy).Contents (Elt F)),
    nullary main_cst (constant S_ .f32 0x00000000#32),
    unary main_cst main_v62 (broadcastInDim S256x192x192 ![] bcast_S_S256x192x192 : (⟨S_, .f32⟩ : BufTy).Contents (Elt F) → (⟨S256x192x192, .f32⟩ : BufTy).Contents (Elt F)),
    nullary main_c_13 (constantI S_ 32 0#32),
    unary main_c_13 main_v63 (broadcastInDim S16x192x192 ![] bcast_S_S16x192x192 : (⟨S_, .i32⟩ : BufTy).Contents (Elt F) → (⟨S16x192x192, .i32⟩ : BufTy).Contents (Elt F)),
    binary main_v59 main_v63 main_v64 (addi : (⟨S16x192x192, .i32⟩ : BufTy).Contents (Elt F) → (⟨S16x192x192, .i32⟩ : BufTy).Contents (Elt F) → (⟨S16x192x192, .i32⟩ : BufTy).Contents (Elt F)),
    nullary main_c_14 (constantI S_ 32 0#32),
    unary main_c_14 main_v65 (broadcastInDim S16x192x192 ![] bcast_S_S16x192x192 : (⟨S_, .i32⟩ : BufTy).Contents (Elt F) → (⟨S16x192x192, .i32⟩ : BufTy).Contents (Elt F)),
    binary main_v61 main_v65 main_v66 (addi : (⟨S16x192x192, .i32⟩ : BufTy).Contents (Elt F) → (⟨S16x192x192, .i32⟩ : BufTy).Contents (Elt F) → (⟨S16x192x192, .i32⟩ : BufTy).Contents (Elt F)),
    unary main_v64 main_v67 (sitofp .f32 : (⟨S16x192x192, .i32⟩ : BufTy).Contents (Elt F) → (⟨S16x192x192, .f32⟩ : BufTy).Contents (Elt F)),
    binary main_v49 main_v67 main_v68 (subf : (⟨S16x192x192, .f32⟩ : BufTy).Contents (Elt F) → (⟨S16x192x192, .f32⟩ : BufTy).Contents (Elt F) → (⟨S16x192x192, .f32⟩ : BufTy).Contents (Elt F)),
    unary main_v68 main_v69 (Host.absf : (⟨S16x192x192, .f32⟩ : BufTy).Contents (Elt F) → (⟨S16x192x192, .f32⟩ : BufTy).Contents (Elt F)),
    nullary main_cst_15 (constant S_ .f32 0x3F800000#32),
    unary main_cst_15 main_v70 (broadcastInDim S16x192x192 ![] bcast_S_S16x192x192 : (⟨S_, .f32⟩ : BufTy).Contents (Elt F) → (⟨S16x192x192, .f32⟩ : BufTy).Contents (Elt F)),
    binary main_v70 main_v69 main_v71 (subf : (⟨S16x192x192, .f32⟩ : BufTy).Contents (Elt F) → (⟨S16x192x192, .f32⟩ : BufTy).Contents (Elt F) → (⟨S16x192x192, .f32⟩ : BufTy).Contents (Elt F)),
    unary main_v66 main_v72 (sitofp .f32 : (⟨S16x192x192, .i32⟩ : BufTy).Contents (Elt F) → (⟨S16x192x192, .f32⟩ : BufTy).Contents (Elt F)),
    binary main_v57 main_v72 main_v73 (subf : (⟨S16x192x192, .f32⟩ : BufTy).Contents (Elt F) → (⟨S16x192x192, .f32⟩ : BufTy).Contents (Elt F) → (⟨S16x192x192, .f32⟩ : BufTy).Contents (Elt F)),
    unary main_v73 main_v74 (Host.absf : (⟨S16x192x192, .f32⟩ : BufTy).Contents (Elt F) → (⟨S16x192x192, .f32⟩ : BufTy).Contents (Elt F)),
    nullary main_cst_16 (constant S_ .f32 0x3F800000#32),
    unary main_cst_16 main_v75 (broadcastInDim S16x192x192 ![] bcast_S_S16x192x192 : (⟨S_, .f32⟩ : BufTy).Contents (Elt F) → (⟨S16x192x192, .f32⟩ : BufTy).Contents (Elt F)),
    binary main_v75 main_v74 main_v76 (subf : (⟨S16x192x192, .f32⟩ : BufTy).Contents (Elt F) → (⟨S16x192x192, .f32⟩ : BufTy).Contents (Elt F) → (⟨S16x192x192, .f32⟩ : BufTy).Contents (Elt F)),
    binary main_v71 main_v76 main_v77 (mulf : (⟨S16x192x192, .f32⟩ : BufTy).Contents (Elt F) → (⟨S16x192x192, .f32⟩ : BufTy).Contents (Elt F) → (⟨S16x192x192, .f32⟩ : BufTy).Contents (Elt F)),
    nullary main_c_17 (constantI S_ 32 0#32),
    unary main_c_17 main_v78 (broadcastInDim S16x192x192 ![] bcast_S_S16x192x192 : (⟨S_, .i32⟩ : BufTy).Contents (Elt F) → (⟨S16x192x192, .i32⟩ : BufTy).Contents (Elt F)),
    binary main_v64 main_v78 main_v79 (cmpi .sge : (⟨S16x192x192, .i32⟩ : BufTy).Contents (Elt F) → (⟨S16x192x192, .i32⟩ : BufTy).Contents (Elt F) → (⟨S16x192x192, .i1⟩ : BufTy).Contents (Elt F)),
    nullary main_c_18 (constantI S_ 32 64#32),
    unary main_c_18 main_v80 (broadcastInDim S16x192x192 ![] bcast_S_S16x192x192 : (⟨S_, .i32⟩ : BufTy).Contents (Elt F) → (⟨S16x192x192, .i32⟩ : BufTy).Contents (Elt F)),
    binary main_v64 main_v80 main_v81 (cmpi .slt : (⟨S16x192x192, .i32⟩ : BufTy).Contents (Elt F) → (⟨S16x192x192, .i32⟩ : BufTy).Contents (Elt F) → (⟨S16x192x192, .i1⟩ : BufTy).Contents (Elt F)),
    binary main_v79 main_v81 main_v82 (andi : (⟨S16x192x192, .i1⟩ : BufTy).Contents (Elt F) → (⟨S16x192x192, .i1⟩ : BufTy).Contents (Elt F) → (⟨S16x192x192, .i1⟩ : BufTy).Contents (Elt F)),
    nullary main_c_19 (constantI S_ 32 0#32),
    unary main_c_19 main_v83 (broadcastInDim S16x192x192 ![] bcast_S_S16x192x192 : (⟨S_, .i32⟩ : BufTy).Contents (Elt F) → (⟨S16x192x192, .i32⟩ : BufTy).Contents (Elt F)),
    binary main_v66 main_v83 main_v84 (cmpi .sge : (⟨S16x192x192, .i32⟩ : BufTy).Contents (Elt F) → (⟨S16x192x192, .i32⟩ : BufTy).Contents (Elt F) → (⟨S16x192x192, .i1⟩ : BufTy).Contents (Elt F)),
    binary main_v82 main_v84 main_v85 (andi : (⟨S16x192x192, .i1⟩ : BufTy).Contents (Elt F) → (⟨S16x192x192, .i1⟩ : BufTy).Contents (Elt F) → (⟨S16x192x192, .i1⟩ : BufTy).Contents (Elt F)),
    nullary main_c_20 (constantI S_ 32 64#32),
    unary main_c_20 main_v86 (broadcastInDim S16x192x192 ![] bcast_S_S16x192x192 : (⟨S_, .i32⟩ : BufTy).Contents (Elt F) → (⟨S16x192x192, .i32⟩ : BufTy).Contents (Elt F)),
    binary main_v66 main_v86 main_v87 (cmpi .slt : (⟨S16x192x192, .i32⟩ : BufTy).Contents (Elt F) → (⟨S16x192x192, .i32⟩ : BufTy).Contents (Elt F) → (⟨S16x192x192, .i1⟩ : BufTy).Contents (Elt F)),
    binary main_v85 main_v87 main_v88 (andi : (⟨S16x192x192, .i1⟩ : BufTy).Contents (Elt F) → (⟨S16x192x192, .i1⟩ : BufTy).Contents (Elt F) → (⟨S16x192x192, .i1⟩ : BufTy).Contents (Elt F)),
    nullary main_c_21 (constantI S_ 32 0#32),
    nullary main_c_22 (constantI S_ 32 63#32) ]

/-- Operations 186 … 222 of the line. -/
abbrev rw2 : List (HloOp τ sig (Elt F)) :=
  [ TRef.unary (.of main_c_21 : StableHlo.TRef sig ⟨S_, .i32⟩) main_call4.v0 id,
    TRef.unary main_call4.v0 main_call4.v1 (broadcastInDim S16x192x192 ![] bcast_S_S16x192x192),
    TRef.binary main_call4.v1 (.of main_v64 : StableHlo.TRef sig ⟨S16x192x192, .i32⟩) main_call4.v2 maxsi,
    TRef.unary (.of main_c_22 : StableHlo.TRef sig ⟨S_, .i32⟩) main_call4.v3 id,
    TRef.unary main_call4.v3 main_call4.v4 (broadcastInDim S16x192x192 ![] bcast_S_S16x192x192),
    TRef.binary main_call4.v4 main_call4.v2 main_call4.v5 minsi,
    nullary main_c_23 (constantI S_ 32 0#32),
    nullary main_c_24 (constantI S_ 32 63#32),
    TRef.unary (.of main_c_23 : StableHlo.TRef sig ⟨S_, .i32⟩) main_call5.v0 id,
    TRef.unary main_call5.v0 main_call5.v1 (broadcastInDim S16x192x192 ![] bcast_S_S16x192x192),
    TRef.binary main_call5.v1 (.of main_v66 : StableHlo.TRef sig ⟨S16x192x192, .i32⟩) main_call5.v2 maxsi,
    TRef.unary (.of main_c_24 : StableHlo.TRef sig ⟨S_, .i32⟩) main_call5.v3 id,
    TRef.unary main_call5.v3 main_call5.v4 (broadcastInDim S16x192x192 ![] bcast_S_S16x192x192),
    TRef.binary main_call5.v4 main_call5.v2 main_call5.v5 minsi,
    nullary main_c_25 (constantI S_ 32 0#32),
    unary main_c_25 main_v91 (broadcastInDim S16x192x192 ![] bcast_S_S16x192x192 : (⟨S_, .i32⟩ : BufTy).Contents (Elt F) → (⟨S16x192x192, .i32⟩ : BufTy).Contents (Elt F)),
    binary main_v89 main_v91 main_v92 (cmpi .slt : (⟨S16x192x192, .i32⟩ : BufTy).Contents (Elt F) → (⟨S16x192x192, .i32⟩ : BufTy).Contents (Elt F) → (⟨S16x192x192, .i1⟩ : BufTy).Contents (Elt F)),
    nullary main_c_26 (constantI S_ 32 64#32),
    unary main_c_26 main_v93 (broadcastInDim S16x192x192 ![] bcast_S_S16x192x192 : (⟨S_, .i32⟩ : BufTy).Contents (Elt F) → (⟨S16x192x192, .i32⟩ : BufTy).Contents (Elt F)),
    binary main_v89 main_v93 main_v94 (addi : (⟨S16x192x192, .i32⟩ : BufTy).Contents (Elt F) → (⟨S16x192x192, .i32⟩ : BufTy).Contents (Elt F) → (⟨S16x192x192, .i32⟩ : BufTy).Contents (Elt F)),
    ternary main_v92 main_v94 main_v89 main_v95 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    nullary main_c_27 (constantI S_ 32 0#32),
    unary main_c_27 main_v96 (broadcastInDim S16x192x192 ![] bcast_S_S16x192x192 : (⟨S_, .i32⟩ : BufTy).Contents (Elt F) → (⟨S16x192x192, .i32⟩ : BufTy).Contents (Elt F)),
    binary main_v90 main_v96 main_v97 (cmpi .slt : (⟨S16x192x192, .i32⟩ : BufTy).Contents (Elt F) → (⟨S16x192x192, .i32⟩ : BufTy).Contents (Elt F) → (⟨S16x192x192, .i1⟩ : BufTy).Contents (Elt F)),
    nullary main_c_28 (constantI S_ 32 64#32),
    unary main_c_28 main_v98 (broadcastInDim S16x192x192 ![] bcast_S_S16x192x192 : (⟨S_, .i32⟩ : BufTy).Contents (Elt F) → (⟨S16x192x192, .i32⟩ : BufTy).Contents (Elt F)),
    binary main_v90 main_v98 main_v99 (addi : (⟨S16x192x192, .i32⟩ : BufTy).Contents (Elt F) → (⟨S16x192x192, .i32⟩ : BufTy).Contents (Elt F) → (⟨S16x192x192, .i32⟩ : BufTy).Contents (Elt F)),
    ternary main_v97 main_v99 main_v90 main_v100 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    unary main_v95 main_v101 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    unary main_v100 main_v102 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    binary main_v101 main_v102 main_v103 ((fun a b => concatenate S16x192x192x2 3 [⟨S16x192x192x1, a⟩, ⟨S16x192x192x1, b⟩] concatenates_S16x192x192x1_S16x192x192x1_S16x192x192x2_d3) : (⟨S16x192x192x1, .i32⟩ : BufTy).Contents (Elt F) → (⟨S16x192x192x1, .i32⟩ : BufTy).Contents (Elt F) → (⟨S16x192x192x2, .i32⟩ : BufTy).Contents (Elt F)),
    binary main_arg0 main_v103 main_v104 ((fun x i => Host.gather gather_S16x256x64x64_S16x192x192x2_S16x256x192x192_1_23_0_0_23_3_125611 x i) : (⟨S16x256x64x64, .f32⟩ : BufTy).Contents (Elt F) → (⟨S16x192x192x2, .i32⟩ : BufTy).Contents (Elt F) → (⟨S16x256x192x192, .f32⟩ : BufTy).Contents (Elt F)),
    nullary main_cst_29 (constant S_ .f32 0x00000000#32),
    TRef.unary (.of main_cst_29 : StableHlo.TRef sig ⟨S_, .f32⟩) main_call6.v0 id,
    TRef.unary main_call6.v0 main_call6.v1 (broadcastInDim S192x192 ![] bcast_S_S192x192),
    TRef.unary main_call6.v1 main_call6.v2 (broadcastInDim S16x192x192 ![1, 2] bcast_S192x192_S16x192x192_1_2),
    TRef.ternary (.of main_v88 : StableHlo.TRef sig ⟨S16x192x192, .i1⟩) (.of main_v77 : StableHlo.TRef sig ⟨S16x192x192, .f32⟩) main_call6.v2 main_call6.v3 select ]

/-- Operations 223 … 264 of the line. -/
abbrev rw3 : List (HloOp τ sig (Elt F)) :=
  [ unary main_v105 main_v106 (broadcastInDim S16x1x192x192 ![0, 2, 3] bcast_S16x192x192_S16x1x192x192_0_2_3 : (⟨S16x192x192, .f32⟩ : BufTy).Contents (Elt F) → (⟨S16x1x192x192, .f32⟩ : BufTy).Contents (Elt F)),
    unary main_v106 main_v107 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v107 main_v104 main_v108 (mulf : (⟨S16x256x192x192, .f32⟩ : BufTy).Contents (Elt F) → (⟨S16x256x192x192, .f32⟩ : BufTy).Contents (Elt F) → (⟨S16x256x192x192, .f32⟩ : BufTy).Contents (Elt F)),
    unary main_v62 main_v109 (broadcastInDim S1x256x192x192 ![1, 2, 3] bcast_S256x192x192_S1x256x192x192_1_2_3 : (⟨S256x192x192, .f32⟩ : BufTy).Contents (Elt F) → (⟨S1x256x192x192, .f32⟩ : BufTy).Contents (Elt F)),
    unary main_v109 main_v110 (broadcastInDim S16x256x192x192 ![0, 1, 2, 3] bcast_S1x256x192x192_S16x256x192x192_0_1_2_3 : (⟨S1x256x192x192, .f32⟩ : BufTy).Contents (Elt F) → (⟨S16x256x192x192, .f32⟩ : BufTy).Contents (Elt F)),
    binary main_v110 main_v108 main_v111 (addf : (⟨S16x256x192x192, .f32⟩ : BufTy).Contents (Elt F) → (⟨S16x256x192x192, .f32⟩ : BufTy).Contents (Elt F) → (⟨S16x256x192x192, .f32⟩ : BufTy).Contents (Elt F)),
    nullary main_c_30 (constantI S_ 32 0#32),
    unary main_c_30 main_v112 (broadcastInDim S16x192x192 ![] bcast_S_S16x192x192 : (⟨S_, .i32⟩ : BufTy).Contents (Elt F) → (⟨S16x192x192, .i32⟩ : BufTy).Contents (Elt F)),
    binary main_v59 main_v112 main_v113 (addi : (⟨S16x192x192, .i32⟩ : BufTy).Contents (Elt F) → (⟨S16x192x192, .i32⟩ : BufTy).Contents (Elt F) → (⟨S16x192x192, .i32⟩ : BufTy).Contents (Elt F)),
    nullary main_c_31 (constantI S_ 32 1#32),
    unary main_c_31 main_v114 (broadcastInDim S16x192x192 ![] bcast_S_S16x192x192 : (⟨S_, .i32⟩ : BufTy).Contents (Elt F) → (⟨S16x192x192, .i32⟩ : BufTy).Contents (Elt F)),
    binary main_v61 main_v114 main_v115 (addi : (⟨S16x192x192, .i32⟩ : BufTy).Contents (Elt F) → (⟨S16x192x192, .i32⟩ : BufTy).Contents (Elt F) → (⟨S16x192x192, .i32⟩ : BufTy).Contents (Elt F)),
    unary main_v113 main_v116 (sitofp .f32 : (⟨S16x192x192, .i32⟩ : BufTy).Contents (Elt F) → (⟨S16x192x192, .f32⟩ : BufTy).Contents (Elt F)),
    binary main_v49 main_v116 main_v117 (subf : (⟨S16x192x192, .f32⟩ : BufTy).Contents (Elt F) → (⟨S16x192x192, .f32⟩ : BufTy).Contents (Elt F) → (⟨S16x192x192, .f32⟩ : BufTy).Contents (Elt F)),
    unary main_v117 main_v118 (Host.absf : (⟨S16x192x192, .f32⟩ : BufTy).Contents (Elt F) → (⟨S16x192x192, .f32⟩ : BufTy).Contents (Elt F)),
    nullary main_cst_32 (constant S_ .f32 0x3F800000#32),
    unary main_cst_32 main_v119 (broadcastInDim S16x192x192 ![] bcast_S_S16x192x192 : (⟨S_, .f32⟩ : BufTy).Contents (Elt F) → (⟨S16x192x192, .f32⟩ : BufTy).Contents (Elt F)),
    binary main_v119 main_v118 main_v120 (subf : (⟨S16x192x192, .f32⟩ : BufTy).Contents (Elt F) → (⟨S16x192x192, .f32⟩ : BufTy).Contents (Elt F) → (⟨S16x192x192, .f32⟩ : BufTy).Contents (Elt F)),
    unary main_v115 main_v121 (sitofp .f32 : (⟨S16x192x192, .i32⟩ : BufTy).Contents (Elt F) → (⟨S16x192x192, .f32⟩ : BufTy).Contents (Elt F)),
    binary main_v57 main_v121 main_v122 (subf : (⟨S16x192x192, .f32⟩ : BufTy).Contents (Elt F) → (⟨S16x192x192, .f32⟩ : BufTy).Contents (Elt F) → (⟨S16x192x192, .f32⟩ : BufTy).Contents (Elt F)),
    unary main_v122 main_v123 (Host.absf : (⟨S16x192x192, .f32⟩ : BufTy).Contents (Elt F) → (⟨S16x192x192, .f32⟩ : BufTy).Contents (Elt F)),
    nullary main_cst_33 (constant S_ .f32 0x3F800000#32),
    unary main_cst_33 main_v124 (broadcastInDim S16x192x192 ![] bcast_S_S16x192x192 : (⟨S_, .f32⟩ : BufTy).Contents (Elt F) → (⟨S16x192x192, .f32⟩ : BufTy).Contents (Elt F)),
    binary main_v124 main_v123 main_v125 (subf : (⟨S16x192x192, .f32⟩ : BufTy).Contents (Elt F) → (⟨S16x192x192, .f32⟩ : BufTy).Contents (Elt F) → (⟨S16x192x192, .f32⟩ : BufTy).Contents (Elt F)),
    binary main_v120 main_v125 main_v126 (mulf : (⟨S16x192x192, .f32⟩ : BufTy).Contents (Elt F) → (⟨S16x192x192, .f32⟩ : BufTy).Contents (Elt F) → (⟨S16x192x192, .f32⟩ : BufTy).Contents (Elt F)),
    nullary main_c_34 (constantI S_ 32 0#32),
    unary main_c_34 main_v127 (broadcastInDim S16x192x192 ![] bcast_S_S16x192x192 : (⟨S_, .i32⟩ : BufTy).Contents (Elt F) → (⟨S16x192x192, .i32⟩ : BufTy).Contents (Elt F)),
    binary main_v113 main_v127 main_v128 (cmpi .sge : (⟨S16x192x192, .i32⟩ : BufTy).Contents (Elt F) → (⟨S16x192x192, .i32⟩ : BufTy).Contents (Elt F) → (⟨S16x192x192, .i1⟩ : BufTy).Contents (Elt F)),
    nullary main_c_35 (constantI S_ 32 64#32),
    unary main_c_35 main_v129 (broadcastInDim S16x192x192 ![] bcast_S_S16x192x192 : (⟨S_, .i32⟩ : BufTy).Contents (Elt F) → (⟨S16x192x192, .i32⟩ : BufTy).Contents (Elt F)),
    binary main_v113 main_v129 main_v130 (cmpi .slt : (⟨S16x192x192, .i32⟩ : BufTy).Contents (Elt F) → (⟨S16x192x192, .i32⟩ : BufTy).Contents (Elt F) → (⟨S16x192x192, .i1⟩ : BufTy).Contents (Elt F)),
    binary main_v128 main_v130 main_v131 (andi : (⟨S16x192x192, .i1⟩ : BufTy).Contents (Elt F) → (⟨S16x192x192, .i1⟩ : BufTy).Contents (Elt F) → (⟨S16x192x192, .i1⟩ : BufTy).Contents (Elt F)),
    nullary main_c_36 (constantI S_ 32 0#32),
    unary main_c_36 main_v132 (broadcastInDim S16x192x192 ![] bcast_S_S16x192x192 : (⟨S_, .i32⟩ : BufTy).Contents (Elt F) → (⟨S16x192x192, .i32⟩ : BufTy).Contents (Elt F)),
    binary main_v115 main_v132 main_v133 (cmpi .sge : (⟨S16x192x192, .i32⟩ : BufTy).Contents (Elt F) → (⟨S16x192x192, .i32⟩ : BufTy).Contents (Elt F) → (⟨S16x192x192, .i1⟩ : BufTy).Contents (Elt F)),
    binary main_v131 main_v133 main_v134 (andi : (⟨S16x192x192, .i1⟩ : BufTy).Contents (Elt F) → (⟨S16x192x192, .i1⟩ : BufTy).Contents (Elt F) → (⟨S16x192x192, .i1⟩ : BufTy).Contents (Elt F)),
    nullary main_c_37 (constantI S_ 32 64#32),
    unary main_c_37 main_v135 (broadcastInDim S16x192x192 ![] bcast_S_S16x192x192 : (⟨S_, .i32⟩ : BufTy).Contents (Elt F) → (⟨S16x192x192, .i32⟩ : BufTy).Contents (Elt F)),
    binary main_v115 main_v135 main_v136 (cmpi .slt : (⟨S16x192x192, .i32⟩ : BufTy).Contents (Elt F) → (⟨S16x192x192, .i32⟩ : BufTy).Contents (Elt F) → (⟨S16x192x192, .i1⟩ : BufTy).Contents (Elt F)),
    binary main_v134 main_v136 main_v137 (andi : (⟨S16x192x192, .i1⟩ : BufTy).Contents (Elt F) → (⟨S16x192x192, .i1⟩ : BufTy).Contents (Elt F) → (⟨S16x192x192, .i1⟩ : BufTy).Contents (Elt F)),
    nullary main_c_38 (constantI S_ 32 0#32),
    nullary main_c_39 (constantI S_ 32 63#32) ]

/-- Operations 265 … 301 of the line. -/
abbrev rw4 : List (HloOp τ sig (Elt F)) :=
  [ TRef.unary (.of main_c_38 : StableHlo.TRef sig ⟨S_, .i32⟩) main_call7.v0 id,
    TRef.unary main_call7.v0 main_call7.v1 (broadcastInDim S16x192x192 ![] bcast_S_S16x192x192),
    TRef.binary main_call7.v1 (.of main_v113 : StableHlo.TRef sig ⟨S16x192x192, .i32⟩) main_call7.v2 maxsi,
    TRef.unary (.of main_c_39 : StableHlo.TRef sig ⟨S_, .i32⟩) main_call7.v3 id,
    TRef.unary main_call7.v3 main_call7.v4 (broadcastInDim S16x192x192 ![] bcast_S_S16x192x192),
    TRef.binary main_call7.v4 main_call7.v2 main_call7.v5 minsi,
    nullary main_c_40 (constantI S_ 32 0#32),
    nullary main_c_41 (constantI S_ 32 63#32),
    TRef.unary (.of main_c_40 : StableHlo.TRef sig ⟨S_, .i32⟩) main_call8.v0 id,
    TRef.unary main_call8.v0 main_call8.v1 (broadcastInDim S16x192x192 ![] bcast_S_S16x192x192),
    TRef.binary main_call8.v1 (.of main_v115 : StableHlo.TRef sig ⟨S16x192x192, .i32⟩) main_call8.v2 maxsi,
    TRef.unary (.of main_c_41 : StableHlo.TRef sig ⟨S_, .i32⟩) main_call8.v3 id,
    TRef.unary main_call8.v3 main_call8.v4 (broadcastInDim S16x192x192 ![] bcast_S_S16x192x192),
    TRef.binary main_call8.v4 main_call8.v2 main_call8.v5 minsi,
    nullary main_c_42 (constantI S_ 32 0#32),
    unary main_c_42 main_v140 (broadcastInDim S16x192x192 ![] bcast_S_S16x192x192 : (⟨S_, .i32⟩ : BufTy).Contents (Elt F) → (⟨S16x192x192, .i32⟩ : BufTy).Contents (Elt F)),
    binary main_v138 main_v140 main_v141 (cmpi .slt : (⟨S16x192x192, .i32⟩ : BufTy).Contents (Elt F) → (⟨S16x192x192, .i32⟩ : BufTy).Contents (Elt F) → (⟨S16x192x192, .i1⟩ : BufTy).Contents (Elt F)),
    nullary main_c_43 (constantI S_ 32 64#32),
    unary main_c_43 main_v142 (broadcastInDim S16x192x192 ![] bcast_S_S16x192x192 : (⟨S_, .i32⟩ : BufTy).Contents (Elt F) → (⟨S16x192x192, .i32⟩ : BufTy).Contents (Elt F)),
    binary main_v138 main_v142 main_v143 (addi : (⟨S16x192x192, .i32⟩ : BufTy).Contents (Elt F) → (⟨S16x192x192, .i32⟩ : BufTy).Contents (Elt F) → (⟨S16x192x192, .i32⟩ : BufTy).Contents (Elt F)),
    ternary main_v141 main_v143 main_v138 main_v144 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    nullary main_c_44 (constantI S_ 32 0#32),
    unary main_c_44 main_v145 (broadcastInDim S16x192x192 ![] bcast_S_S16x192x192 : (⟨S_, .i32⟩ : BufTy).Contents (Elt F) → (⟨S16x192x192, .i32⟩ : BufTy).Contents (Elt F)),
    binary main_v139 main_v145 main_v146 (cmpi .slt : (⟨S16x192x192, .i32⟩ : BufTy).Contents (Elt F) → (⟨S16x192x192, .i32⟩ : BufTy).Contents (Elt F) → (⟨S16x192x192, .i1⟩ : BufTy).Contents (Elt F)),
    nullary main_c_45 (constantI S_ 32 64#32),
    unary main_c_45 main_v147 (broadcastInDim S16x192x192 ![] bcast_S_S16x192x192 : (⟨S_, .i32⟩ : BufTy).Contents (Elt F) → (⟨S16x192x192, .i32⟩ : BufTy).Contents (Elt F)),
    binary main_v139 main_v147 main_v148 (addi : (⟨S16x192x192, .i32⟩ : BufTy).Contents (Elt F) → (⟨S16x192x192, .i32⟩ : BufTy).Contents (Elt F) → (⟨S16x192x192, .i32⟩ : BufTy).Contents (Elt F)),
    ternary main_v146 main_v148 main_v139 main_v149 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    unary main_v144 main_v150 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    unary main_v149 main_v151 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    binary main_v150 main_v151 main_v152 ((fun a b => concatenate S16x192x192x2 3 [⟨S16x192x192x1, a⟩, ⟨S16x192x192x1, b⟩] concatenates_S16x192x192x1_S16x192x192x1_S16x192x192x2_d3) : (⟨S16x192x192x1, .i32⟩ : BufTy).Contents (Elt F) → (⟨S16x192x192x1, .i32⟩ : BufTy).Contents (Elt F) → (⟨S16x192x192x2, .i32⟩ : BufTy).Contents (Elt F)),
    binary main_arg0 main_v152 main_v153 ((fun x i => Host.gather gather_S16x256x64x64_S16x192x192x2_S16x256x192x192_1_23_0_0_23_3_125611 x i) : (⟨S16x256x64x64, .f32⟩ : BufTy).Contents (Elt F) → (⟨S16x192x192x2, .i32⟩ : BufTy).Contents (Elt F) → (⟨S16x256x192x192, .f32⟩ : BufTy).Contents (Elt F)),
    nullary main_cst_46 (constant S_ .f32 0x00000000#32),
    TRef.unary (.of main_cst_46 : StableHlo.TRef sig ⟨S_, .f32⟩) main_call9.v0 id,
    TRef.unary main_call9.v0 main_call9.v1 (broadcastInDim S192x192 ![] bcast_S_S192x192),
    TRef.unary main_call9.v1 main_call9.v2 (broadcastInDim S16x192x192 ![1, 2] bcast_S192x192_S16x192x192_1_2),
    TRef.ternary (.of main_v137 : StableHlo.TRef sig ⟨S16x192x192, .i1⟩) (.of main_v126 : StableHlo.TRef sig ⟨S16x192x192, .f32⟩) main_call9.v2 main_call9.v3 select ]

/-- Operations 302 … 341 of the line. -/
abbrev rw5 : List (HloOp τ sig (Elt F)) :=
  [ unary main_v154 main_v155 (broadcastInDim S16x1x192x192 ![0, 2, 3] bcast_S16x192x192_S16x1x192x192_0_2_3 : (⟨S16x192x192, .f32⟩ : BufTy).Contents (Elt F) → (⟨S16x1x192x192, .f32⟩ : BufTy).Contents (Elt F)),
    unary main_v155 main_v156 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v156 main_v153 main_v157 (mulf : (⟨S16x256x192x192, .f32⟩ : BufTy).Contents (Elt F) → (⟨S16x256x192x192, .f32⟩ : BufTy).Contents (Elt F) → (⟨S16x256x192x192, .f32⟩ : BufTy).Contents (Elt F)),
    binary main_v111 main_v157 main_v158 (addf : (⟨S16x256x192x192, .f32⟩ : BufTy).Contents (Elt F) → (⟨S16x256x192x192, .f32⟩ : BufTy).Contents (Elt F) → (⟨S16x256x192x192, .f32⟩ : BufTy).Contents (Elt F)),
    nullary main_c_47 (constantI S_ 32 1#32),
    unary main_c_47 main_v159 (broadcastInDim S16x192x192 ![] bcast_S_S16x192x192 : (⟨S_, .i32⟩ : BufTy).Contents (Elt F) → (⟨S16x192x192, .i32⟩ : BufTy).Contents (Elt F)),
    binary main_v59 main_v159 main_v160 (addi : (⟨S16x192x192, .i32⟩ : BufTy).Contents (Elt F) → (⟨S16x192x192, .i32⟩ : BufTy).Contents (Elt F) → (⟨S16x192x192, .i32⟩ : BufTy).Contents (Elt F)),
    nullary main_c_48 (constantI S_ 32 0#32),
    unary main_c_48 main_v161 (broadcastInDim S16x192x192 ![] bcast_S_S16x192x192 : (⟨S_, .i32⟩ : BufTy).Contents (Elt F) → (⟨S16x192x192, .i32⟩ : BufTy).Contents (Elt F)),
    binary main_v61 main_v161 main_v162 (addi : (⟨S16x192x192, .i32⟩ : BufTy).Contents (Elt F) → (⟨S16x192x192, .i32⟩ : BufTy).Contents (Elt F) → (⟨S16x192x192, .i32⟩ : BufTy).Contents (Elt F)),
    unary main_v160 main_v163 (sitofp .f32 : (⟨S16x192x192, .i32⟩ : BufTy).Contents (Elt F) → (⟨S16x192x192, .f32⟩ : BufTy).Contents (Elt F)),
    binary main_v49 main_v163 main_v164 (subf : (⟨S16x192x192, .f32⟩ : BufTy).Contents (Elt F) → (⟨S16x192x192, .f32⟩ : BufTy).Contents (Elt F) → (⟨S16x192x192, .f32⟩ : BufTy).Contents (Elt F)),
    unary main_v164 main_v165 (Host.absf : (⟨S16x192x192, .f32⟩ : BufTy).Contents (Elt F) → (⟨S16x192x192, .f32⟩ : BufTy).Contents (Elt F)),
    nullary main_cst_49 (constant S_ .f32 0x3F800000#32),
    unary main_cst_49 main_v166 (broadcastInDim S16x192x192 ![] bcast_S_S16x192x192 : (⟨S_, .f32⟩ : BufTy).Contents (Elt F) → (⟨S16x192x192, .f32⟩ : BufTy).Contents (Elt F)),
    binary main_v166 main_v165 main_v167 (subf : (⟨S16x192x192, .f32⟩ : BufTy).Contents (Elt F) → (⟨S16x192x192, .f32⟩ : BufTy).Contents (Elt F) → (⟨S16x192x192, .f32⟩ : BufTy).Contents (Elt F)),
    unary main_v162 main_v168 (sitofp .f32 : (⟨S16x192x192, .i32⟩ : BufTy).Contents (Elt F) → (⟨S16x192x192, .f32⟩ : BufTy).Contents (Elt F)),
    binary main_v57 main_v168 main_v169 (subf : (⟨S16x192x192, .f32⟩ : BufTy).Contents (Elt F) → (⟨S16x192x192, .f32⟩ : BufTy).Contents (Elt F) → (⟨S16x192x192, .f32⟩ : BufTy).Contents (Elt F)),
    unary main_v169 main_v170 (Host.absf : (⟨S16x192x192, .f32⟩ : BufTy).Contents (Elt F) → (⟨S16x192x192, .f32⟩ : BufTy).Contents (Elt F)),
    nullary main_cst_50 (constant S_ .f32 0x3F800000#32),
    unary main_cst_50 main_v171 (broadcastInDim S16x192x192 ![] bcast_S_S16x192x192 : (⟨S_, .f32⟩ : BufTy).Contents (Elt F) → (⟨S16x192x192, .f32⟩ : BufTy).Contents (Elt F)),
    binary main_v171 main_v170 main_v172 (subf : (⟨S16x192x192, .f32⟩ : BufTy).Contents (Elt F) → (⟨S16x192x192, .f32⟩ : BufTy).Contents (Elt F) → (⟨S16x192x192, .f32⟩ : BufTy).Contents (Elt F)),
    binary main_v167 main_v172 main_v173 (mulf : (⟨S16x192x192, .f32⟩ : BufTy).Contents (Elt F) → (⟨S16x192x192, .f32⟩ : BufTy).Contents (Elt F) → (⟨S16x192x192, .f32⟩ : BufTy).Contents (Elt F)),
    nullary main_c_51 (constantI S_ 32 0#32),
    unary main_c_51 main_v174 (broadcastInDim S16x192x192 ![] bcast_S_S16x192x192 : (⟨S_, .i32⟩ : BufTy).Contents (Elt F) → (⟨S16x192x192, .i32⟩ : BufTy).Contents (Elt F)),
    binary main_v160 main_v174 main_v175 (cmpi .sge : (⟨S16x192x192, .i32⟩ : BufTy).Contents (Elt F) → (⟨S16x192x192, .i32⟩ : BufTy).Contents (Elt F) → (⟨S16x192x192, .i1⟩ : BufTy).Contents (Elt F)),
    nullary main_c_52 (constantI S_ 32 64#32),
    unary main_c_52 main_v176 (broadcastInDim S16x192x192 ![] bcast_S_S16x192x192 : (⟨S_, .i32⟩ : BufTy).Contents (Elt F) → (⟨S16x192x192, .i32⟩ : BufTy).Contents (Elt F)),
    binary main_v160 main_v176 main_v177 (cmpi .slt : (⟨S16x192x192, .i32⟩ : BufTy).Contents (Elt F) → (⟨S16x192x192, .i32⟩ : BufTy).Contents (Elt F) → (⟨S16x192x192, .i1⟩ : BufTy).Contents (Elt F)),
    binary main_v175 main_v177 main_v178 (andi : (⟨S16x192x192, .i1⟩ : BufTy).Contents (Elt F) → (⟨S16x192x192, .i1⟩ : BufTy).Contents (Elt F) → (⟨S16x192x192, .i1⟩ : BufTy).Contents (Elt F)),
    nullary main_c_53 (constantI S_ 32 0#32),
    unary main_c_53 main_v179 (broadcastInDim S16x192x192 ![] bcast_S_S16x192x192 : (⟨S_, .i32⟩ : BufTy).Contents (Elt F) → (⟨S16x192x192, .i32⟩ : BufTy).Contents (Elt F)),
    binary main_v162 main_v179 main_v180 (cmpi .sge : (⟨S16x192x192, .i32⟩ : BufTy).Contents (Elt F) → (⟨S16x192x192, .i32⟩ : BufTy).Contents (Elt F) → (⟨S16x192x192, .i1⟩ : BufTy).Contents (Elt F)),
    binary main_v178 main_v180 main_v181 (andi : (⟨S16x192x192, .i1⟩ : BufTy).Contents (Elt F) → (⟨S16x192x192, .i1⟩ : BufTy).Contents (Elt F) → (⟨S16x192x192, .i1⟩ : BufTy).Contents (Elt F)),
    nullary main_c_54 (constantI S_ 32 64#32),
    unary main_c_54 main_v182 (broadcastInDim S16x192x192 ![] bcast_S_S16x192x192 : (⟨S_, .i32⟩ : BufTy).Contents (Elt F) → (⟨S16x192x192, .i32⟩ : BufTy).Contents (Elt F)),
    binary main_v162 main_v182 main_v183 (cmpi .slt : (⟨S16x192x192, .i32⟩ : BufTy).Contents (Elt F) → (⟨S16x192x192, .i32⟩ : BufTy).Contents (Elt F) → (⟨S16x192x192, .i1⟩ : BufTy).Contents (Elt F)),
    binary main_v181 main_v183 main_v184 (andi : (⟨S16x192x192, .i1⟩ : BufTy).Contents (Elt F) → (⟨S16x192x192, .i1⟩ : BufTy).Contents (Elt F) → (⟨S16x192x192, .i1⟩ : BufTy).Contents (Elt F)),
    nullary main_c_55 (constantI S_ 32 0#32),
    nullary main_c_56 (constantI S_ 32 63#32) ]

/-- Operations 342 … 378 of the line. -/
abbrev rw6 : List (HloOp τ sig (Elt F)) :=
  [ TRef.unary (.of main_c_55 : StableHlo.TRef sig ⟨S_, .i32⟩) main_call10.v0 id,
    TRef.unary main_call10.v0 main_call10.v1 (broadcastInDim S16x192x192 ![] bcast_S_S16x192x192),
    TRef.binary main_call10.v1 (.of main_v160 : StableHlo.TRef sig ⟨S16x192x192, .i32⟩) main_call10.v2 maxsi,
    TRef.unary (.of main_c_56 : StableHlo.TRef sig ⟨S_, .i32⟩) main_call10.v3 id,
    TRef.unary main_call10.v3 main_call10.v4 (broadcastInDim S16x192x192 ![] bcast_S_S16x192x192),
    TRef.binary main_call10.v4 main_call10.v2 main_call10.v5 minsi,
    nullary main_c_57 (constantI S_ 32 0#32),
    nullary main_c_58 (constantI S_ 32 63#32),
    TRef.unary (.of main_c_57 : StableHlo.TRef sig ⟨S_, .i32⟩) main_call11.v0 id,
    TRef.unary main_call11.v0 main_call11.v1 (broadcastInDim S16x192x192 ![] bcast_S_S16x192x192),
    TRef.binary main_call11.v1 (.of main_v162 : StableHlo.TRef sig ⟨S16x192x192, .i32⟩) main_call11.v2 maxsi,
    TRef.unary (.of main_c_58 : StableHlo.TRef sig ⟨S_, .i32⟩) main_call11.v3 id,
    TRef.unary main_call11.v3 main_call11.v4 (broadcastInDim S16x192x192 ![] bcast_S_S16x192x192),
    TRef.binary main_call11.v4 main_call11.v2 main_call11.v5 minsi,
    nullary main_c_59 (constantI S_ 32 0#32),
    unary main_c_59 main_v187 (broadcastInDim S16x192x192 ![] bcast_S_S16x192x192 : (⟨S_, .i32⟩ : BufTy).Contents (Elt F) → (⟨S16x192x192, .i32⟩ : BufTy).Contents (Elt F)),
    binary main_v185 main_v187 main_v188 (cmpi .slt : (⟨S16x192x192, .i32⟩ : BufTy).Contents (Elt F) → (⟨S16x192x192, .i32⟩ : BufTy).Contents (Elt F) → (⟨S16x192x192, .i1⟩ : BufTy).Contents (Elt F)),
    nullary main_c_60 (constantI S_ 32 64#32),
    unary main_c_60 main_v189 (broadcastInDim S16x192x192 ![] bcast_S_S16x192x192 : (⟨S_, .i32⟩ : BufTy).Contents (Elt F) → (⟨S16x192x192, .i32⟩ : BufTy).Contents (Elt F)),
    binary main_v185 main_v189 main_v190 (addi : (⟨S16x192x192, .i32⟩ : BufTy).Contents (Elt F) → (⟨S16x192x192, .i32⟩ : BufTy).Contents (Elt F) → (⟨S16x192x192, .i32⟩ : BufTy).Contents (Elt F)),
    ternary main_v188 main_v190 main_v185 main_v191 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    nullary main_c_61 (constantI S_ 32 0#32),
    unary main_c_61 main_v192 (broadcastInDim S16x192x192 ![] bcast_S_S16x192x192 : (⟨S_, .i32⟩ : BufTy).Contents (Elt F) → (⟨S16x192x192, .i32⟩ : BufTy).Contents (Elt F)),
    binary main_v186 main_v192 main_v193 (cmpi .slt : (⟨S16x192x192, .i32⟩ : BufTy).Contents (Elt F) → (⟨S16x192x192, .i32⟩ : BufTy).Contents (Elt F) → (⟨S16x192x192, .i1⟩ : BufTy).Contents (Elt F)),
    nullary main_c_62 (constantI S_ 32 64#32),
    unary main_c_62 main_v194 (broadcastInDim S16x192x192 ![] bcast_S_S16x192x192 : (⟨S_, .i32⟩ : BufTy).Contents (Elt F) → (⟨S16x192x192, .i32⟩ : BufTy).Contents (Elt F)),
    binary main_v186 main_v194 main_v195 (addi : (⟨S16x192x192, .i32⟩ : BufTy).Contents (Elt F) → (⟨S16x192x192, .i32⟩ : BufTy).Contents (Elt F) → (⟨S16x192x192, .i32⟩ : BufTy).Contents (Elt F)),
    ternary main_v193 main_v195 main_v186 main_v196 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    unary main_v191 main_v197 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    unary main_v196 main_v198 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    binary main_v197 main_v198 main_v199 ((fun a b => concatenate S16x192x192x2 3 [⟨S16x192x192x1, a⟩, ⟨S16x192x192x1, b⟩] concatenates_S16x192x192x1_S16x192x192x1_S16x192x192x2_d3) : (⟨S16x192x192x1, .i32⟩ : BufTy).Contents (Elt F) → (⟨S16x192x192x1, .i32⟩ : BufTy).Contents (Elt F) → (⟨S16x192x192x2, .i32⟩ : BufTy).Contents (Elt F)),
    binary main_arg0 main_v199 main_v200 ((fun x i => Host.gather gather_S16x256x64x64_S16x192x192x2_S16x256x192x192_1_23_0_0_23_3_125611 x i) : (⟨S16x256x64x64, .f32⟩ : BufTy).Contents (Elt F) → (⟨S16x192x192x2, .i32⟩ : BufTy).Contents (Elt F) → (⟨S16x256x192x192, .f32⟩ : BufTy).Contents (Elt F)),
    nullary main_cst_63 (constant S_ .f32 0x00000000#32),
    TRef.unary (.of main_cst_63 : StableHlo.TRef sig ⟨S_, .f32⟩) main_call12.v0 id,
    TRef.unary main_call12.v0 main_call12.v1 (broadcastInDim S192x192 ![] bcast_S_S192x192),
    TRef.unary main_call12.v1 main_call12.v2 (broadcastInDim S16x192x192 ![1, 2] bcast_S192x192_S16x192x192_1_2),
    TRef.ternary (.of main_v184 : StableHlo.TRef sig ⟨S16x192x192, .i1⟩) (.of main_v173 : StableHlo.TRef sig ⟨S16x192x192, .f32⟩) main_call12.v2 main_call12.v3 select ]

/-- Operations 379 … 418 of the line. -/
abbrev rw7 : List (HloOp τ sig (Elt F)) :=
  [ unary main_v201 main_v202 (broadcastInDim S16x1x192x192 ![0, 2, 3] bcast_S16x192x192_S16x1x192x192_0_2_3 : (⟨S16x192x192, .f32⟩ : BufTy).Contents (Elt F) → (⟨S16x1x192x192, .f32⟩ : BufTy).Contents (Elt F)),
    unary main_v202 main_v203 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v203 main_v200 main_v204 (mulf : (⟨S16x256x192x192, .f32⟩ : BufTy).Contents (Elt F) → (⟨S16x256x192x192, .f32⟩ : BufTy).Contents (Elt F) → (⟨S16x256x192x192, .f32⟩ : BufTy).Contents (Elt F)),
    binary main_v158 main_v204 main_v205 (addf : (⟨S16x256x192x192, .f32⟩ : BufTy).Contents (Elt F) → (⟨S16x256x192x192, .f32⟩ : BufTy).Contents (Elt F) → (⟨S16x256x192x192, .f32⟩ : BufTy).Contents (Elt F)),
    nullary main_c_64 (constantI S_ 32 1#32),
    unary main_c_64 main_v206 (broadcastInDim S16x192x192 ![] bcast_S_S16x192x192 : (⟨S_, .i32⟩ : BufTy).Contents (Elt F) → (⟨S16x192x192, .i32⟩ : BufTy).Contents (Elt F)),
    binary main_v59 main_v206 main_v207 (addi : (⟨S16x192x192, .i32⟩ : BufTy).Contents (Elt F) → (⟨S16x192x192, .i32⟩ : BufTy).Contents (Elt F) → (⟨S16x192x192, .i32⟩ : BufTy).Contents (Elt F)),
    nullary main_c_65 (constantI S_ 32 1#32),
    unary main_c_65 main_v208 (broadcastInDim S16x192x192 ![] bcast_S_S16x192x192 : (⟨S_, .i32⟩ : BufTy).Contents (Elt F) → (⟨S16x192x192, .i32⟩ : BufTy).Contents (Elt F)),
    binary main_v61 main_v208 main_v209 (addi : (⟨S16x192x192, .i32⟩ : BufTy).Contents (Elt F) → (⟨S16x192x192, .i32⟩ : BufTy).Contents (Elt F) → (⟨S16x192x192, .i32⟩ : BufTy).Contents (Elt F)),
    unary main_v207 main_v210 (sitofp .f32 : (⟨S16x192x192, .i32⟩ : BufTy).Contents (Elt F) → (⟨S16x192x192, .f32⟩ : BufTy).Contents (Elt F)),
    binary main_v49 main_v210 main_v211 (subf : (⟨S16x192x192, .f32⟩ : BufTy).Contents (Elt F) → (⟨S16x192x192, .f32⟩ : BufTy).Contents (Elt F) → (⟨S16x192x192, .f32⟩ : BufTy).Contents (Elt F)),
    unary main_v211 main_v212 (Host.absf : (⟨S16x192x192, .f32⟩ : BufTy).Contents (Elt F) → (⟨S16x192x192, .f32⟩ : BufTy).Contents (Elt F)),
    nullary main_cst_66 (constant S_ .f32 0x3F800000#32),
    unary main_cst_66 main_v213 (broadcastInDim S16x192x192 ![] bcast_S_S16x192x192 : (⟨S_, .f32⟩ : BufTy).Contents (Elt F) → (⟨S16x192x192, .f32⟩ : BufTy).Contents (Elt F)),
    binary main_v213 main_v212 main_v214 (subf : (⟨S16x192x192, .f32⟩ : BufTy).Contents (Elt F) → (⟨S16x192x192, .f32⟩ : BufTy).Contents (Elt F) → (⟨S16x192x192, .f32⟩ : BufTy).Contents (Elt F)),
    unary main_v209 main_v215 (sitofp .f32 : (⟨S16x192x192, .i32⟩ : BufTy).Contents (Elt F) → (⟨S16x192x192, .f32⟩ : BufTy).Contents (Elt F)),
    binary main_v57 main_v215 main_v216 (subf : (⟨S16x192x192, .f32⟩ : BufTy).Contents (Elt F) → (⟨S16x192x192, .f32⟩ : BufTy).Contents (Elt F) → (⟨S16x192x192, .f32⟩ : BufTy).Contents (Elt F)),
    unary main_v216 main_v217 (Host.absf : (⟨S16x192x192, .f32⟩ : BufTy).Contents (Elt F) → (⟨S16x192x192, .f32⟩ : BufTy).Contents (Elt F)),
    nullary main_cst_67 (constant S_ .f32 0x3F800000#32),
    unary main_cst_67 main_v218 (broadcastInDim S16x192x192 ![] bcast_S_S16x192x192 : (⟨S_, .f32⟩ : BufTy).Contents (Elt F) → (⟨S16x192x192, .f32⟩ : BufTy).Contents (Elt F)),
    binary main_v218 main_v217 main_v219 (subf : (⟨S16x192x192, .f32⟩ : BufTy).Contents (Elt F) → (⟨S16x192x192, .f32⟩ : BufTy).Contents (Elt F) → (⟨S16x192x192, .f32⟩ : BufTy).Contents (Elt F)),
    binary main_v214 main_v219 main_v220 (mulf : (⟨S16x192x192, .f32⟩ : BufTy).Contents (Elt F) → (⟨S16x192x192, .f32⟩ : BufTy).Contents (Elt F) → (⟨S16x192x192, .f32⟩ : BufTy).Contents (Elt F)),
    nullary main_c_68 (constantI S_ 32 0#32),
    unary main_c_68 main_v221 (broadcastInDim S16x192x192 ![] bcast_S_S16x192x192 : (⟨S_, .i32⟩ : BufTy).Contents (Elt F) → (⟨S16x192x192, .i32⟩ : BufTy).Contents (Elt F)),
    binary main_v207 main_v221 main_v222 (cmpi .sge : (⟨S16x192x192, .i32⟩ : BufTy).Contents (Elt F) → (⟨S16x192x192, .i32⟩ : BufTy).Contents (Elt F) → (⟨S16x192x192, .i1⟩ : BufTy).Contents (Elt F)),
    nullary main_c_69 (constantI S_ 32 64#32),
    unary main_c_69 main_v223 (broadcastInDim S16x192x192 ![] bcast_S_S16x192x192 : (⟨S_, .i32⟩ : BufTy).Contents (Elt F) → (⟨S16x192x192, .i32⟩ : BufTy).Contents (Elt F)),
    binary main_v207 main_v223 main_v224 (cmpi .slt : (⟨S16x192x192, .i32⟩ : BufTy).Contents (Elt F) → (⟨S16x192x192, .i32⟩ : BufTy).Contents (Elt F) → (⟨S16x192x192, .i1⟩ : BufTy).Contents (Elt F)),
    binary main_v222 main_v224 main_v225 (andi : (⟨S16x192x192, .i1⟩ : BufTy).Contents (Elt F) → (⟨S16x192x192, .i1⟩ : BufTy).Contents (Elt F) → (⟨S16x192x192, .i1⟩ : BufTy).Contents (Elt F)),
    nullary main_c_70 (constantI S_ 32 0#32),
    unary main_c_70 main_v226 (broadcastInDim S16x192x192 ![] bcast_S_S16x192x192 : (⟨S_, .i32⟩ : BufTy).Contents (Elt F) → (⟨S16x192x192, .i32⟩ : BufTy).Contents (Elt F)),
    binary main_v209 main_v226 main_v227 (cmpi .sge : (⟨S16x192x192, .i32⟩ : BufTy).Contents (Elt F) → (⟨S16x192x192, .i32⟩ : BufTy).Contents (Elt F) → (⟨S16x192x192, .i1⟩ : BufTy).Contents (Elt F)),
    binary main_v225 main_v227 main_v228 (andi : (⟨S16x192x192, .i1⟩ : BufTy).Contents (Elt F) → (⟨S16x192x192, .i1⟩ : BufTy).Contents (Elt F) → (⟨S16x192x192, .i1⟩ : BufTy).Contents (Elt F)),
    nullary main_c_71 (constantI S_ 32 64#32),
    unary main_c_71 main_v229 (broadcastInDim S16x192x192 ![] bcast_S_S16x192x192 : (⟨S_, .i32⟩ : BufTy).Contents (Elt F) → (⟨S16x192x192, .i32⟩ : BufTy).Contents (Elt F)),
    binary main_v209 main_v229 main_v230 (cmpi .slt : (⟨S16x192x192, .i32⟩ : BufTy).Contents (Elt F) → (⟨S16x192x192, .i32⟩ : BufTy).Contents (Elt F) → (⟨S16x192x192, .i1⟩ : BufTy).Contents (Elt F)),
    binary main_v228 main_v230 main_v231 (andi : (⟨S16x192x192, .i1⟩ : BufTy).Contents (Elt F) → (⟨S16x192x192, .i1⟩ : BufTy).Contents (Elt F) → (⟨S16x192x192, .i1⟩ : BufTy).Contents (Elt F)),
    nullary main_c_72 (constantI S_ 32 0#32),
    nullary main_c_73 (constantI S_ 32 63#32) ]

/-- Operations 419 … 455 of the line. -/
abbrev rw8 : List (HloOp τ sig (Elt F)) :=
  [ TRef.unary (.of main_c_72 : StableHlo.TRef sig ⟨S_, .i32⟩) main_call13.v0 id,
    TRef.unary main_call13.v0 main_call13.v1 (broadcastInDim S16x192x192 ![] bcast_S_S16x192x192),
    TRef.binary main_call13.v1 (.of main_v207 : StableHlo.TRef sig ⟨S16x192x192, .i32⟩) main_call13.v2 maxsi,
    TRef.unary (.of main_c_73 : StableHlo.TRef sig ⟨S_, .i32⟩) main_call13.v3 id,
    TRef.unary main_call13.v3 main_call13.v4 (broadcastInDim S16x192x192 ![] bcast_S_S16x192x192),
    TRef.binary main_call13.v4 main_call13.v2 main_call13.v5 minsi,
    nullary main_c_74 (constantI S_ 32 0#32),
    nullary main_c_75 (constantI S_ 32 63#32),
    TRef.unary (.of main_c_74 : StableHlo.TRef sig ⟨S_, .i32⟩) main_call14.v0 id,
    TRef.unary main_call14.v0 main_call14.v1 (broadcastInDim S16x192x192 ![] bcast_S_S16x192x192),
    TRef.binary main_call14.v1 (.of main_v209 : StableHlo.TRef sig ⟨S16x192x192, .i32⟩) main_call14.v2 maxsi,
    TRef.unary (.of main_c_75 : StableHlo.TRef sig ⟨S_, .i32⟩) main_call14.v3 id,
    TRef.unary main_call14.v3 main_call14.v4 (broadcastInDim S16x192x192 ![] bcast_S_S16x192x192),
    TRef.binary main_call14.v4 main_call14.v2 main_call14.v5 minsi,
    nullary main_c_76 (constantI S_ 32 0#32),
    unary main_c_76 main_v234 (broadcastInDim S16x192x192 ![] bcast_S_S16x192x192 : (⟨S_, .i32⟩ : BufTy).Contents (Elt F) → (⟨S16x192x192, .i32⟩ : BufTy).Contents (Elt F)),
    binary main_v232 main_v234 main_v235 (cmpi .slt : (⟨S16x192x192, .i32⟩ : BufTy).Contents (Elt F) → (⟨S16x192x192, .i32⟩ : BufTy).Contents (Elt F) → (⟨S16x192x192, .i1⟩ : BufTy).Contents (Elt F)),
    nullary main_c_77 (constantI S_ 32 64#32),
    unary main_c_77 main_v236 (broadcastInDim S16x192x192 ![] bcast_S_S16x192x192 : (⟨S_, .i32⟩ : BufTy).Contents (Elt F) → (⟨S16x192x192, .i32⟩ : BufTy).Contents (Elt F)),
    binary main_v232 main_v236 main_v237 (addi : (⟨S16x192x192, .i32⟩ : BufTy).Contents (Elt F) → (⟨S16x192x192, .i32⟩ : BufTy).Contents (Elt F) → (⟨S16x192x192, .i32⟩ : BufTy).Contents (Elt F)),
    ternary main_v235 main_v237 main_v232 main_v238 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    nullary main_c_78 (constantI S_ 32 0#32),
    unary main_c_78 main_v239 (broadcastInDim S16x192x192 ![] bcast_S_S16x192x192 : (⟨S_, .i32⟩ : BufTy).Contents (Elt F) → (⟨S16x192x192, .i32⟩ : BufTy).Contents (Elt F)),
    binary main_v233 main_v239 main_v240 (cmpi .slt : (⟨S16x192x192, .i32⟩ : BufTy).Contents (Elt F) → (⟨S16x192x192, .i32⟩ : BufTy).Contents (Elt F) → (⟨S16x192x192, .i1⟩ : BufTy).Contents (Elt F)),
    nullary main_c_79 (constantI S_ 32 64#32),
    unary main_c_79 main_v241 (broadcastInDim S16x192x192 ![] bcast_S_S16x192x192 : (⟨S_, .i32⟩ : BufTy).Contents (Elt F) → (⟨S16x192x192, .i32⟩ : BufTy).Contents (Elt F)),
    binary main_v233 main_v241 main_v242 (addi : (⟨S16x192x192, .i32⟩ : BufTy).Contents (Elt F) → (⟨S16x192x192, .i32⟩ : BufTy).Contents (Elt F) → (⟨S16x192x192, .i32⟩ : BufTy).Contents (Elt F)),
    ternary main_v240 main_v242 main_v233 main_v243 (select : (⟨S16x192x192, .i1⟩ : BufTy).Contents (Elt F) → (⟨S16x192x192, .i32⟩ : BufTy).Contents (Elt F) → (⟨S16x192x192, .i32⟩ : BufTy).Contents (Elt F) → (⟨S16x192x192, .i32⟩ : BufTy).Contents (Elt F)),
    unary main_v238 main_v244 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    unary main_v243 main_v245 (broadcastInDim S16x192x192x1 ![0, 1, 2] bcast_S16x192x192_S16x192x192x1_0_1_2 : (⟨S16x192x192, .i32⟩ : BufTy).Contents (Elt F) → (⟨S16x192x192x1, .i32⟩ : BufTy).Contents (Elt F)),
    binary main_v244 main_v245 main_v246 ((fun a b => concatenate S16x192x192x2 3 [⟨S16x192x192x1, a⟩, ⟨S16x192x192x1, b⟩] concatenates_S16x192x192x1_S16x192x192x1_S16x192x192x2_d3) : (⟨S16x192x192x1, .i32⟩ : BufTy).Contents (Elt F) → (⟨S16x192x192x1, .i32⟩ : BufTy).Contents (Elt F) → (⟨S16x192x192x2, .i32⟩ : BufTy).Contents (Elt F)),
    binary main_arg0 main_v246 main_v247 ((fun x i => Host.gather gather_S16x256x64x64_S16x192x192x2_S16x256x192x192_1_23_0_0_23_3_125611 x i) : (⟨S16x256x64x64, .f32⟩ : BufTy).Contents (Elt F) → (⟨S16x192x192x2, .i32⟩ : BufTy).Contents (Elt F) → (⟨S16x256x192x192, .f32⟩ : BufTy).Contents (Elt F)),
    nullary main_cst_80 (constant S_ .f32 0x00000000#32),
    TRef.unary (.of main_cst_80 : StableHlo.TRef sig ⟨S_, .f32⟩) main_call15.v0 id,
    TRef.unary main_call15.v0 main_call15.v1 (broadcastInDim S192x192 ![] bcast_S_S192x192),
    TRef.unary main_call15.v1 main_call15.v2 (broadcastInDim S16x192x192 ![1, 2] bcast_S192x192_S16x192x192_1_2),
    TRef.ternary (.of main_v231 : StableHlo.TRef sig ⟨S16x192x192, .i1⟩) (.of main_v220 : StableHlo.TRef sig ⟨S16x192x192, .f32⟩) main_call15.v2 main_call15.v3 select ]

/-- Operations 456 … 459 of the line. -/
abbrev rw9 : List (HloOp τ sig (Elt F)) :=
  [ unary main_v248 main_v249 (broadcastInDim S16x1x192x192 ![0, 2, 3] bcast_S16x192x192_S16x1x192x192_0_2_3 : (⟨S16x192x192, .f32⟩ : BufTy).Contents (Elt F) → (⟨S16x1x192x192, .f32⟩ : BufTy).Contents (Elt F)),
    unary main_v249 main_v250 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v250 main_v247 main_v251 (mulf : (⟨S16x256x192x192, .f32⟩ : BufTy).Contents (Elt F) → (⟨S16x256x192x192, .f32⟩ : BufTy).Contents (Elt F) → (⟨S16x256x192x192, .f32⟩ : BufTy).Contents (Elt F)),
    binary main_v205 main_v251 main_v252 (addf : (⟨S16x256x192x192, .f32⟩ : BufTy).Contents (Elt F) → (⟨S16x256x192x192, .f32⟩ : BufTy).Contents (Elt F) → (⟨S16x256x192x192, .f32⟩ : BufTy).Contents (Elt F)) ]

/-- Operations 460 … 482 of the line. -/
abbrev rw10 : List (HloOp τ sig (Elt F)) :=
  [ nullary main_c_81 (constantI S_ 32 0#32),
    unary main_c_81 main_v253 (broadcastInDim S192 ![] bcast_S_S192 : (⟨S_, .i32⟩ : BufTy).Contents (Elt F) → (⟨S192, .i32⟩ : BufTy).Contents (Elt F)),
    binary main_v2 main_v253 main_v254 (cmpi .slt : (⟨S192, .i32⟩ : BufTy).Contents (Elt F) → (⟨S192, .i32⟩ : BufTy).Contents (Elt F) → (⟨S192, .i1⟩ : BufTy).Contents (Elt F)),
    nullary main_c_82 (constantI S_ 32 64#32),
    unary main_c_82 main_v255 (broadcastInDim S192 ![] bcast_S_S192 : (⟨S_, .i32⟩ : BufTy).Contents (Elt F) → (⟨S192, .i32⟩ : BufTy).Contents (Elt F)),
    binary main_v2 main_v255 main_v256 (addi : (⟨S192, .i32⟩ : BufTy).Contents (Elt F) → (⟨S192, .i32⟩ : BufTy).Contents (Elt F) → (⟨S192, .i32⟩ : BufTy).Contents (Elt F)),
    ternary main_v254 main_v256 main_v2 main_v257 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v257 main_v258 (broadcastInDim S192x1 ![0] bcast_S192_S192x1_0 : (⟨S192, .i32⟩ : BufTy).Contents (Elt F) → (⟨S192x1, .i32⟩ : BufTy).Contents (Elt F)),
    binary main_arg2 main_v258 main_v259 ((fun x i => Host.gather gather_S16x1x64x64_S192x1_S16x1x192x64_013_2_n_n_2_1_161164 x i) : (⟨S16x1x64x64, .f32⟩ : BufTy).Contents (Elt F) → (⟨S192x1, .i32⟩ : BufTy).Contents (Elt F) → (⟨S16x1x192x64, .f32⟩ : BufTy).Contents (Elt F)),
    nullary main_c_83 (constantI S_ 32 0#32),
    unary main_c_83 main_v260 (broadcastInDim S192 ![] bcast_S_S192 : (⟨S_, .i32⟩ : BufTy).Contents (Elt F) → (⟨S192, .i32⟩ : BufTy).Contents (Elt F)),
    binary main_v3 main_v260 main_v261 (cmpi .slt : (⟨S192, .i32⟩ : BufTy).Contents (Elt F) → (⟨S192, .i32⟩ : BufTy).Contents (Elt F) → (⟨S192, .i1⟩ : BufTy).Contents (Elt F)),
    nullary main_c_84 (constantI S_ 32 64#32),
    unary main_c_84 main_v262 (broadcastInDim S192 ![] bcast_S_S192 : (⟨S_, .i32⟩ : BufTy).Contents (Elt F) → (⟨S192, .i32⟩ : BufTy).Contents (Elt F)),
    binary main_v3 main_v262 main_v263 (addi : (⟨S192, .i32⟩ : BufTy).Contents (Elt F) → (⟨S192, .i32⟩ : BufTy).Contents (Elt F) → (⟨S192, .i32⟩ : BufTy).Contents (Elt F)),
    ternary main_v261 main_v263 main_v3 main_v264 (select : (⟨S192, .i1⟩ : BufTy).Contents (Elt F) → (⟨S192, .i32⟩ : BufTy).Contents (Elt F) → (⟨S192, .i32⟩ : BufTy).Contents (Elt F) → (⟨S192, .i32⟩ : BufTy).Contents (Elt F)),
    unary main_v264 main_v265 (broadcastInDim S192x1 ![0] bcast_S192_S192x1_0 : (⟨S192, .i32⟩ : BufTy).Contents (Elt F) → (⟨S192x1, .i32⟩ : BufTy).Contents (Elt F)),
    binary main_v259 main_v265 main_v266 ((fun x i => Host.gather gather_S16x1x192x64_S192x1_S16x1x192x192_012_3_n_n_3_1_1611921 x i) : (⟨S16x1x192x64, .f32⟩ : BufTy).Contents (Elt F) → (⟨S192x1, .i32⟩ : BufTy).Contents (Elt F) → (⟨S16x1x192x192, .f32⟩ : BufTy).Contents (Elt F)),
    unary main_v266 main_v267 (broadcastInDim S16x256x192x192 ![0, 1, 2, 3] bcast_S16x1x192x192_S16x256x192x192_0_1_2_3 : (⟨S16x1x192x192, .f32⟩ : BufTy).Contents (Elt F) → (⟨S16x256x192x192, .f32⟩ : BufTy).Contents (Elt F)),
    binary main_v252 main_v267 main_v268 (mulf : (⟨S16x256x192x192, .f32⟩ : BufTy).Contents (Elt F) → (⟨S16x256x192x192, .f32⟩ : BufTy).Contents (Elt F) → (⟨S16x256x192x192, .f32⟩ : BufTy).Contents (Elt F)),
    reshape main_v268 main_v269 rfl shapeCasts_S16x256x192x192_S4x4x256x192x192,
    nullary main_cst_85 (constant S_ .f32 0x00000000#32),
    binary main_v269 main_cst_85 main_v270 ((fun x v => Host.reduceAdd x v reducesTo_S4x4x256x192x192_S4x256x192x192_d0 h_S_) : (⟨S4x4x256x192x192, .f32⟩ : BufTy).Contents (Elt F) → (⟨S_, .f32⟩ : BufTy).Contents (Elt F) → (⟨S4x256x192x192, .f32⟩ : BufTy).Contents (Elt F)) ]

set_option maxRecDepth 65536 in
/-- The line is the windows one after the other. -/
theorem ops_cuts : (ops : List (HloOp τ sig (Elt F))) = rw0 ++ (rw1 ++ (rw2 ++ (rw3 ++ (rw4 ++ (rw5 ++ (rw6 ++ (rw7 ++ (rw8 ++ (rw9 ++ (rw10)))))))))) := by
  simp only [ops, ops0, ops1, ops2, ops3, ops4, ops5, rw0, rw1, rw2, rw3, rw4, rw5, rw6, rw7, rw8, rw9, rw10, List.cons_append, List.nil_append]

end Cert.ReferenceIdeal.Line

end
-- ==== Proof.RefCuts0.lean ====
/- Window 0 of the reference's line as two halves, and that it is the first followed by the second. -/

import proofs.«160207_j39779987095835_2_alg».proof.Proof.RefCuts

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

abbrev rw0a : List (HloOp τ sig (Elt F)) :=
  [ nullary main_v0 (iotaInDim S192 32 0),
    nullary main_v1 (iotaInDim S192 32 0),
    nullary main_c (constantI S_ 32 3#32),
    TRef.unary (.of main_c : StableHlo.TRef sig ⟨S_, .i32⟩) main_call0.v0 id,
    TRef.unary main_call0.v0 main_call0.v1 (broadcastInDim S192 ![] bcast_S_S192),
    TRef.binary (.of main_v0 : StableHlo.TRef sig ⟨S192, .i32⟩) main_call0.v1 main_call0.v2 Host.divsi,
    TRef.unary (.of main_v0 : StableHlo.TRef sig ⟨S192, .i32⟩) main_call0.v3 signi,
    TRef.unary main_call0.v0 main_call0.v4 signi,
    TRef.unary main_call0.v4 main_call0.v5 (broadcastInDim S192 ![] bcast_S_S192),
    TRef.binary main_call0.v3 main_call0.v5 main_call0.v6 (cmpi .ne),
    TRef.unary main_call0.v0 main_call0.v7 (broadcastInDim S192 ![] bcast_S_S192),
    TRef.binary (.of main_v0 : StableHlo.TRef sig ⟨S192, .i32⟩) main_call0.v7 main_call0.v8 Host.remsi,
    TRef.nullary main_call0.c (constantI S_ 32 0#32),
    TRef.unary main_call0.c main_call0.v9 (broadcastInDim S192 ![] bcast_S_S192),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S192 ![] bcast_S_S192),
    TRef.binary main_call0.v2 main_call0.v12 main_call0.v13 subi,
    TRef.ternary main_call0.v11 main_call0.v13 main_call0.v2 main_call0.call0.v0 select,
    nullary main_c_0 (constantI S_ 32 3#32),
    TRef.unary (.of main_c_0 : StableHlo.TRef sig ⟨S_, .i32⟩) main_call1.v0 id,
    TRef.unary main_call1.v0 main_call1.v1 (broadcastInDim S192 ![] bcast_S_S192),
    TRef.binary (.of main_v1 : StableHlo.TRef sig ⟨S192, .i32⟩) main_call1.v1 main_call1.v2 Host.divsi,
    TRef.unary (.of main_v1 : StableHlo.TRef sig ⟨S192, .i32⟩) main_call1.v3 signi,
    TRef.unary main_call1.v0 main_call1.v4 signi,
    TRef.unary main_call1.v4 main_call1.v5 (broadcastInDim S192 ![] bcast_S_S192),
    TRef.binary main_call1.v3 main_call1.v5 main_call1.v6 (cmpi .ne),
    TRef.unary main_call1.v0 main_call1.v7 (broadcastInDim S192 ![] bcast_S_S192),
    TRef.binary (.of main_v1 : StableHlo.TRef sig ⟨S192, .i32⟩) main_call1.v7 main_call1.v8 Host.remsi,
    TRef.nullary main_call1.c (constantI S_ 32 0#32),
    TRef.unary main_call1.c main_call1.v9 (broadcastInDim S192 ![] bcast_S_S192),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S192 ![] bcast_S_S192),
    TRef.binary main_call1.v2 main_call1.v12 main_call1.v13 subi,
    TRef.ternary main_call1.v11 main_call1.v13 main_call1.v2 main_call1.call0.v0 select,
    nullary main_c_1 (constantI S_ 32 3#32),
    TRef.unary (.of main_c_1 : StableHlo.TRef sig ⟨S_, .i32⟩) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S192 ![] bcast_S_S192),
    TRef.binary (.of main_v0 : StableHlo.TRef sig ⟨S192, .i32⟩) main_call2.v3 main_call2.v4 Host.remsi,
    TRef.nullary main_call2.c_1 (constantI S_ 32 0#32),
    TRef.unary main_call2.c_1 main_call2.v5 (broadcastInDim S192 ![] bcast_S_S192),
    TRef.binary main_call2.v4 main_call2.v5 main_call2.v6 (cmpi .ne),
    TRef.nullary main_call2.c_2 (constantI S_ 32 0#32),
    TRef.unary main_call2.c_2 main_call2.v7 (broadcastInDim S192 ![] bcast_S_S192),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S192 ![] bcast_S_S192),
    TRef.binary main_call2.v8 main_call2.v10 main_call2.v11 (cmpi .ne),
    TRef.binary main_call2.v11 main_call2.v6 main_call2.v12 andi,
    TRef.unary main_call2.call0.v0 main_call2.v13 (broadcastInDim S192 ![] bcast_S_S192),
    TRef.binary main_call2.v4 main_call2.v13 main_call2.v14 addi,
    TRef.ternary main_call2.v12 main_call2.v14 main_call2.v4 main_call2.v15 select ]

abbrev rw0b : List (HloOp τ sig (Elt F)) :=
  [ nullary main_c_2 (constantI S_ 32 1#32),
    unary main_c_2 main_v5 (broadcastInDim S192 ![] bcast_S_S192 : (⟨S_, .i32⟩ : BufTy).Contents (Elt F) → (⟨S192, .i32⟩ : BufTy).Contents (Elt F)),
    binary main_v4 main_v5 main_v6 (subi : (⟨S192, .i32⟩ : BufTy).Contents (Elt F) → (⟨S192, .i32⟩ : BufTy).Contents (Elt F) → (⟨S192, .i32⟩ : BufTy).Contents (Elt F)),
    nullary main_c_3 (constantI S_ 32 3#32),
    TRef.unary (.of main_c_3 : StableHlo.TRef sig ⟨S_, .i32⟩) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S192 ![] bcast_S_S192),
    TRef.binary (.of main_v1 : StableHlo.TRef sig ⟨S192, .i32⟩) main_call3.v3 main_call3.v4 Host.remsi,
    TRef.nullary main_call3.c_1 (constantI S_ 32 0#32),
    TRef.unary main_call3.c_1 main_call3.v5 (broadcastInDim S192 ![] bcast_S_S192),
    TRef.binary main_call3.v4 main_call3.v5 main_call3.v6 (cmpi .ne),
    TRef.nullary main_call3.c_2 (constantI S_ 32 0#32),
    TRef.unary main_call3.c_2 main_call3.v7 (broadcastInDim S192 ![] bcast_S_S192),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S192 ![] bcast_S_S192),
    TRef.binary main_call3.v8 main_call3.v10 main_call3.v11 (cmpi .ne),
    TRef.binary main_call3.v11 main_call3.v6 main_call3.v12 andi,
    TRef.unary main_call3.call0.v0 main_call3.v13 (broadcastInDim S192 ![] bcast_S_S192),
    TRef.binary main_call3.v4 main_call3.v13 main_call3.v14 addi,
    TRef.ternary main_call3.v12 main_call3.v14 main_call3.v4 main_call3.v15 select ]

set_option maxRecDepth 65536 in
theorem rw0_split : (rw0 : List (HloOp τ sig (Elt F))) = rw0a ++ rw0b := by
  simp only [rw0, rw0a, rw0b, List.cons_append, List.nil_append]

end Cert.ReferenceIdeal.Line

end
-- ==== Proof.AgreeTactic.lean ====
/-
  The one argument every window of the comparison uses.

  Two straight lines of host operations, one from each program, are run from contents that agree on a table of paired
  buffers. After the lines, each paired buffer is, on either side, one of two things: the buffer as the line found it,
  when no operation of the line writes it; or the value of the one operation of the line that writes it, applied to
  operands that are again buffers of these two kinds. The two programs list the same operations on corresponding
  buffers. So reading both sides down to the buffers the lines found, and replacing the kernel's found buffers by the
  reference's through the agreement, leaves on the two sides the same operations of the same buffers, written with each
  program's own names for the same shapes and dimension records; those names unfold to the same literals.

  An operation inside a called function reads and writes its buffers through a change of type along an equation
  "the buffer's type is the value's type"; for a literal buffer the two types are the same by computation and the
  change of type is the identity. It is removed as soon as it appears, inside its own program, so that the two sides
  are compared as plain array expressions.
-/
import Idealize.ShloMosaic.Lib.StableHlo.Run

open Idealize.ShloMosaic.StableHlo

/-- `read_lines`: reads what literal lines of host operations leave at literal buffers down to the contents the lines
    start from — each operation's result at its own buffer is its function of its operands' contents, at any other
    buffer what was there (the two buffers told apart by computation) — dropping the identity changes of type. -/
syntax "read_lines" : tactic

macro_rules
  | `(tactic| read_lines) =>
    `(tactic| simp (disch := decide) only [after_cons, after_nil,
        nullary_result', unary_result', binary_result', ternary_result', quaternary_result', reshape_result', nary4_result',
        nary_result', unaryIndexed_result', binaryIndexed_result',
        nullary_result_ne', unary_result_ne', binary_result_ne', ternary_result_ne', quaternary_result_ne', reshape_result_ne',
        nary_result_ne', unaryIndexed_result_ne', binaryIndexed_result_ne', cast_eq])

/-- `agree_window h`, on a goal that is a conjunction of equations between what two literal lines of host operations
    leave at paired buffers, with `h` the agreement of the contents the lines start from: reads each side down to the
    starting contents, rewrites the kernel's starting buffers into the reference's by `h`, and closes each equation by
    unfolding the two programs' names for one shape. -/
syntax "agree_window " ident : tactic

macro_rules
  | `(tactic| agree_window $h:ident) =>
    `(tactic| (read_lines; all_goals (try simp only [$h:ident]); all_goals (and_intros <;> first | rfl | trivial)))
-- ==== Proof.AgreeStep0a.lean ====
/- The first half of window 0: contents that agree on the pairs before it agree on the pairs after it. -/

import proofs.«160207_j39779987095835_2_alg».proof.Proof.AgreeAt0
import proofs.«160207_j39779987095835_2_alg».proof.Proof.AgreeAt0b
import proofs.«160207_j39779987095835_2_alg».proof.Proof.KerCuts0
import proofs.«160207_j39779987095835_2_alg».proof.Proof.RefCuts0
import proofs.«160207_j39779987095835_2_alg».proof.Proof.AgreeTactic

set_option maxHeartbeats 4000000

noncomputable section

namespace Cert.FlowAccum.Agree

open Idealize.ShloMosaic Idealize.ShloMosaic.StableHlo

theorem step0a (Xk : VK) (Xr : VR) (h : At0 Xk Xr) :
    At0b (after (Cert.KernelIdeal.Bridge.kw0a (F := Ideal)) Xk) (after (Cert.ReferenceIdeal.Line.rw0a (F := Ideal)) Xr) := by
  unfold At0 at h
  unfold At0b
  simp only [Cert.KernelIdeal.Bridge.kw0a, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.ReferenceIdeal.Line.rw0a, List.cons_append, List.nil_append, List.append_nil]
  agree_window h

end Cert.FlowAccum.Agree

end
-- ==== Proof.AgreeAt1.lean ====
/- Cut 1 (after 85 operations of the kernel's prefix, 85 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 1: 6 pairs. -/
def At1 (Xk : VK) (Xr : VR) : Prop :=
  (Xk (Proc.devRef .tc Cert.KernelIdeal.main_arg1) : (⟨Cert.ReferenceIdeal.S16x2x64x64, .f32⟩ : BufTy).Contents (Elt Ideal)) = (Xr (Proc.devRef .tc Cert.ReferenceIdeal.main_arg1) : (⟨Cert.ReferenceIdeal.S16x2x64x64, .f32⟩ : BufTy).Contents (Elt Ideal))
  ∧ (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v6) : (⟨Cert.ReferenceIdeal.S192, .i32⟩ : BufTy).Contents (Elt Ideal)) = (Xr (Proc.devRef .tc Cert.ReferenceIdeal.main_v6) : (⟨Cert.ReferenceIdeal.S192, .i32⟩ : BufTy).Contents (Elt Ideal))
  ∧ (Xk (Proc.devRef .tc Cert.KernelIdeal.main_v7) : (⟨Cert.ReferenceIdeal.S192, .i32⟩ : BufTy).Contents (Elt Ideal)) = (Xr (Proc.devRef .tc Cert.ReferenceIdeal.main_v7) : (⟨Cert.ReferenceIdeal.S192, .i32⟩ : BufTy).Contents (Elt Ideal))

end Cert.FlowAccum.Agree

end
-- ==== Proof.AgreeStep0b.lean ====
/- The second half of window 0: contents that agree on the pairs before it agree on the pairs after it. -/

import proofs.«160207_j39779987095835_2_alg».proof.Proof.AgreeAt0b
import proofs.«160207_j39779987095835_2_alg».proof.Proof.AgreeAt1
import proofs.«160207_j39779987095835_2_alg».proof.Proof.KerCuts0
import proofs.«160207_j39779987095835_2_alg».proof.Proof.RefCuts0
import proofs.«160207_j39779987095835_2_alg».proof.Proof.AgreeTactic

set_option maxHeartbeats 4000000

noncomputable section

namespace Cert.FlowAccum.Agree

open Idealize.ShloMosaic Idealize.ShloMosaic.StableHlo

theorem step0b (Xk : VK) (Xr : VR) (h : At0b Xk Xr) :
    At1 (after (Cert.KernelIdeal.Bridge.kw0b (F := Ideal)) Xk) (after (Cert.ReferenceIdeal.Line.rw0b (F := Ideal)) Xr) := by
  unfold At0b at h
  unfold At1
  simp only [Cert.KernelIdeal.Bridge.kw0b, Cert.KernelIdeal.Gen.hostOps0_6, Cert.KernelIdeal.Gen.hostOps0_7, Cert.ReferenceIdeal.Line.rw0b, List.cons_append, List.nil_append, List.append_nil]
  agree_window h

end Cert.FlowAccum.Agree

end
-- ==== Proof.AgreeStep0.lean ====
/- Window 0, from its two halves: the window's operations are the first half's followed by the second half's. -/

import proofs.«160207_j39779987095835_2_alg».proof.Proof.AgreeStep0a
import proofs.«160207_j39779987095835_2_alg».proof.Proof.AgreeStep0b
import proofs.«160207_j39779987095835_2_alg».proof.Proof.LibHostLine

noncomputable section

namespace Cert.FlowAccum.Agree

open Idealize.ShloMosaic Idealize.ShloMosaic.StableHlo

theorem step0 (Xk : VK) (Xr : VR) (h : At0 Xk Xr) :
    At1 (after (Cert.KernelIdeal.Bridge.kw0 (F := Ideal)) Xk) (after (Cert.ReferenceIdeal.Line.rw0 (F := Ideal)) Xr) := by
  rw [Cert.KernelIdeal.Bridge.kw0_split, Cert.ReferenceIdeal.Line.rw0_split, after_append, after_append]
  exact step0b _ _ (step0a _ _ h)

end Cert.FlowAccum.Agree

end
-- ==== Proof.AgreeAt2.lean ====
/- Cut 2 (after 205 operations of the kernel's prefix, 186 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 2: 14 pairs. -/
def At2 (Xk : VK) (Xr : VR) : Prop :=
  (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v49) : (⟨Cert.ReferenceIdeal.S16x192x192, .f32⟩ : BufTy).Contents (Elt Ideal)) = (Xr (Proc.devRef .tc Cert.ReferenceIdeal.main_v49) : (⟨Cert.ReferenceIdeal.S16x192x192, .f32⟩ : BufTy).Contents (Elt Ideal))
  ∧ (Xk (Proc.devRef .tc Cert.KernelIdeal.main_v57) : (⟨Cert.ReferenceIdeal.S16x192x192, .f32⟩ : BufTy).Contents (Elt Ideal)) = (Xr (Proc.devRef .tc Cert.ReferenceIdeal.main_v57) : (⟨Cert.ReferenceIdeal.S16x192x192, .f32⟩ : BufTy).Contents (Elt Ideal))
  ∧ (Xk (Proc.devRef .tc Cert.KernelIdeal.main_v74) : (⟨Cert.ReferenceIdeal.S16x192x192, .i32⟩ : BufTy).Contents (Elt Ideal)) = (Xr (Proc.devRef .tc Cert.ReferenceIdeal.main_v59) : (⟨Cert.ReferenceIdeal.S16x192x192, .i32⟩ : BufTy).Contents (Elt Ideal))
  ∧ (Xk (Proc.devRef .tc Cert.KernelIdeal.main_v76) : (⟨Cert.ReferenceIdeal.S16x192x192, .i32⟩ : BufTy).Contents (Elt Ideal)) = (Xr (Proc.devRef .tc Cert.ReferenceIdeal.main_v61) : (⟨Cert.ReferenceIdeal.S16x192x192, .i32⟩ : BufTy).Contents (Elt Ideal))
  ∧ (Xk (Proc.devRef .tc Cert.KernelIdeal.main_v77) : (⟨Cert.ReferenceIdeal.S256x192x192, .f32⟩ : BufTy).Contents (Elt Ideal)) = (Xr (Proc.devRef .tc Cert.ReferenceIdeal.main_v62) : (⟨Cert.ReferenceIdeal.S256x192x192, .f32⟩ : BufTy).Contents (Elt Ideal))
  ∧ (Xk (Proc.devRef .tc Cert.KernelIdeal.main_v79) : (⟨Cert.ReferenceIdeal.S16x192x192, .i32⟩ : BufTy).Contents (Elt Ideal)) = (Xr (Proc.devRef .tc Cert.ReferenceIdeal.main_v64) : (⟨Cert.ReferenceIdeal.S16x192x192, .i32⟩ : BufTy).Contents (Elt Ideal))
  ∧ (Xk (Proc.devRef .tc Cert.KernelIdeal.main_v81) : (⟨Cert.ReferenceIdeal.S16x192x192, .i32⟩ : BufTy).Contents (Elt Ideal)) = (Xr (Proc.devRef .tc Cert.ReferenceIdeal.main_v66) : (⟨Cert.ReferenceIdeal.S16x192x192, .i32⟩ : BufTy).Contents (Elt Ideal))
  ∧ (Xk (Proc.devRef .tc Cert.KernelIdeal.main_v92) : (⟨Cert.ReferenceIdeal.S16x192x192, .f32⟩ : BufTy).Contents (Elt Ideal)) = (Xr (Proc.devRef .tc Cert.ReferenceIdeal.main_v77) : (⟨Cert.ReferenceIdeal.S16x192x192, .f32⟩ : BufTy).Contents (Elt Ideal))
  ∧ (Xk (Proc.devRef .tc Cert.KernelIdeal.main_v103) : (⟨Cert.ReferenceIdeal.S16x192x192, .i1⟩ : BufTy).Contents (Elt Ideal)) = (Xr (Proc.devRef .tc Cert.ReferenceIdeal.main_v88) : (⟨Cert.ReferenceIdeal.S16x192x192, .i1⟩ : BufTy).Contents (Elt Ideal))
  ∧ (Xk (Proc.devRef .tc Cert.KernelIdeal.main_c_25) : (⟨Cert.ReferenceIdeal.S_, .i32⟩ : BufTy).Contents (Elt Ideal)) = (Xr (Proc.devRef .tc Cert.ReferenceIdeal.main_c_21) : (⟨Cert.ReferenceIdeal.S_, .i32⟩ : BufTy).Contents (Elt Ideal))
  ∧ (Xk (Proc.devRef .tc Cert.KernelIdeal.main_c_26) : (⟨Cert.ReferenceIdeal.S_, .i32⟩ : BufTy).Contents (Elt Ideal)) = (Xr (Proc.devRef .tc Cert.ReferenceIdeal.main_c_22) : (⟨Cert.ReferenceIdeal.S_, .i32⟩ : BufTy).Contents (Elt Ideal))

end Cert.FlowAccum.Agree

end
-- ==== Proof.AgreeStep1.lean ====
/- Window 1: contents that agree on the pairs of cut 1 still agree, after the window's operations on each side, on the pairs
   of cut 2 — each paired buffer is the same operation of operands that agree, or passes through the window unwritten. -/

import proofs.«160207_j39779987095835_2_alg».proof.Proof.AgreeAt1
import proofs.«160207_j39779987095835_2_alg».proof.Proof.AgreeAt2
import proofs.«160207_j39779987095835_2_alg».proof.Proof.KerCuts
import proofs.«160207_j39779987095835_2_alg».proof.Proof.RefCuts
import proofs.«160207_j39779987095835_2_alg».proof.Proof.AgreeTactic

set_option maxHeartbeats 4000000

noncomputable section

namespace Cert.FlowAccum.Agree

open Idealize.ShloMosaic Idealize.ShloMosaic.StableHlo

theorem step1 (Xk : VK) (Xr : VR) (h : At1 Xk Xr) :
    At2 (after (Cert.KernelIdeal.Bridge.kw1 (F := Ideal)) Xk) (after (Cert.ReferenceIdeal.Line.rw1 (F := Ideal)) Xr) := by
  unfold At1 at h
  unfold At2
  simp only [Cert.KernelIdeal.Bridge.kw1, Cert.KernelIdeal.Gen.hostOps0_8, Cert.ReferenceIdeal.Line.rw1, List.cons_append, List.nil_append, List.append_nil]
  agree_window h

end Cert.FlowAccum.Agree

end
-- ==== Proof.AgreeAt3.lean ====
/- Cut 3 (after 242 operations of the kernel's prefix, 223 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 3: 10 pairs. -/
def At3 (Xk : VK) (Xr : VR) : Prop :=
  (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v49) : (⟨Cert.ReferenceIdeal.S16x192x192, .f32⟩ : BufTy).Contents (Elt Ideal)) = (Xr (Proc.devRef .tc Cert.ReferenceIdeal.main_v49) : (⟨Cert.ReferenceIdeal.S16x192x192, .f32⟩ : BufTy).Contents (Elt Ideal))
  ∧ (Xk (Proc.devRef .tc Cert.KernelIdeal.main_v57) : (⟨Cert.ReferenceIdeal.S16x192x192, .f32⟩ : BufTy).Contents (Elt Ideal)) = (Xr (Proc.devRef .tc Cert.ReferenceIdeal.main_v57) : (⟨Cert.ReferenceIdeal.S16x192x192, .f32⟩ : BufTy).Contents (Elt Ideal))
  ∧ (Xk (Proc.devRef .tc Cert.KernelIdeal.main_v74) : (⟨Cert.ReferenceIdeal.S16x192x192, .i32⟩ : BufTy).Contents (Elt Ideal)) = (Xr (Proc.devRef .tc Cert.ReferenceIdeal.main_v59) : (⟨Cert.ReferenceIdeal.S16x192x192, .i32⟩ : BufTy).Contents (Elt Ideal))
  ∧ (Xk (Proc.devRef .tc Cert.KernelIdeal.main_v76) : (⟨Cert.ReferenceIdeal.S16x192x192, .i32⟩ : BufTy).Contents (Elt Ideal)) = (Xr (Proc.devRef .tc Cert.ReferenceIdeal.main_v61) : (⟨Cert.ReferenceIdeal.S16x192x192, .i32⟩ : BufTy).Contents (Elt Ideal))
  ∧ (Xk (Proc.devRef .tc Cert.KernelIdeal.main_v77) : (⟨Cert.ReferenceIdeal.S256x192x192, .f32⟩ : BufTy).Contents (Elt Ideal)) = (Xr (Proc.devRef .tc Cert.ReferenceIdeal.main_v62) : (⟨Cert.ReferenceIdeal.S256x192x192, .f32⟩ : BufTy).Contents (Elt Ideal))
  ∧ (Xk (Proc.devRef .tc Cert.KernelIdeal.main_v119) : (⟨Cert.ReferenceIdeal.S16x256x192x192, .f32⟩ : BufTy).Contents (Elt Ideal)) = (Xr (Proc.devRef .tc Cert.ReferenceIdeal.main_v104) : (⟨Cert.ReferenceIdeal.S16x256x192x192, .f32⟩ : BufTy).Contents (Elt Ideal))
  ∧ (Xk (Proc.devRef .tc Cert.KernelIdeal.main_v120) : (⟨Cert.ReferenceIdeal.S16x192x192, .f32⟩ : BufTy).Contents (Elt Ideal)) = (Xr (Proc.devRef .tc Cert.ReferenceIdeal.main_v105) : (⟨Cert.ReferenceIdeal.S16x192x192, .f32⟩ : BufTy).Contents (Elt Ideal))

end Cert.FlowAccum.Agree

end
-- ==== Proof.AgreeTacticJoin.lean ====
/-
  The window argument, for a window that joins two arrays along an axis.

  The host's concatenation takes its pieces as a list of arrays, each paired with its own shape; a piece is then not an
  argument of the operation that a rewriting pass can reach, and the contents the two pieces were read from stay
  unread. Stated as a function of the two arrays, the same joined array shows its pieces, and the argument of the
  other windows goes through: read down to the starting contents, read the two pieces too, replace the kernel's
  starting buffers by the reference's through the agreement, and compare.
-/
import Idealize.ShloMosaic.PureOps.ShapeOps
import proofs.«160207_j39779987095835_2_alg».proof.Proof.AgreeTactic

namespace Cert.FlowAccum.Agree

open Idealize.ShloMosaic

/-- Two arrays joined along an axis, as a function of the two arrays. -/
def join2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The concatenation of a two-element list of arrays is that function of the two. -/
theorem join2_def {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = join2 t a s₁ s₂ h x₁ x₂ := rfl

end Cert.FlowAccum.Agree

open Idealize.ShloMosaic.StableHlo

/-- `agree_window_join h`: as `agree_window h`, for lines that concatenate two arrays: after the first reading pass the
    concatenations are restated as functions of their two pieces and a second pass reads the pieces. -/
syntax "agree_window_join " ident : tactic

macro_rules
  | `(tactic| agree_window_join $h:ident) =>
    `(tactic| (read_lines; all_goals (try simp only [Cert.FlowAccum.Agree.join2_def]); all_goals (try read_lines);
               all_goals (try simp only [$h:ident]); all_goals (and_intros <;> first | rfl | trivial)))
-- ==== Proof.AgreeStep2.lean ====
/- Window 2: contents that agree on the pairs of cut 2 still agree, after the window's operations on each side, on the pairs
   of cut 3 — each paired buffer is the same operation of operands that agree, or passes through the window unwritten. -/

import proofs.«160207_j39779987095835_2_alg».proof.Proof.AgreeAt2
import proofs.«160207_j39779987095835_2_alg».proof.Proof.AgreeAt3
import proofs.«160207_j39779987095835_2_alg».proof.Proof.KerCuts
import proofs.«160207_j39779987095835_2_alg».proof.Proof.RefCuts
import proofs.«160207_j39779987095835_2_alg».proof.Proof.AgreeTacticJoin

set_option maxHeartbeats 4000000

noncomputable section

namespace Cert.FlowAccum.Agree

open Idealize.ShloMosaic Idealize.ShloMosaic.StableHlo

theorem step2 (Xk : VK) (Xr : VR) (h : At2 Xk Xr) :
    At3 (after (Cert.KernelIdeal.Bridge.kw2 (F := Ideal)) Xk) (after (Cert.ReferenceIdeal.Line.rw2 (F := Ideal)) Xr) := by
  unfold At2 at h
  unfold At3
  simp only [Cert.KernelIdeal.Bridge.kw2, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.ReferenceIdeal.Line.rw2, List.cons_append, List.nil_append, List.append_nil]
  agree_window_join h

end Cert.FlowAccum.Agree

end
-- ==== Proof.AgreeAt4.lean ====
/- Cut 4 (after 284 operations of the kernel's prefix, 265 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 4: 14 pairs. -/
def At4 (Xk : VK) (Xr : VR) : Prop :=
  (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v49) : (⟨Cert.ReferenceIdeal.S16x192x192, .f32⟩ : BufTy).Contents (Elt Ideal)) = (Xr (Proc.devRef .tc Cert.ReferenceIdeal.main_v49) : (⟨Cert.ReferenceIdeal.S16x192x192, .f32⟩ : BufTy).Contents (Elt Ideal))
  ∧ (Xk (Proc.devRef .tc Cert.KernelIdeal.main_v57) : (⟨Cert.ReferenceIdeal.S16x192x192, .f32⟩ : BufTy).Contents (Elt Ideal)) = (Xr (Proc.devRef .tc Cert.ReferenceIdeal.main_v57) : (⟨Cert.ReferenceIdeal.S16x192x192, .f32⟩ : BufTy).Contents (Elt Ideal))
  ∧ (Xk (Proc.devRef .tc Cert.KernelIdeal.main_v74) : (⟨Cert.ReferenceIdeal.S16x192x192, .i32⟩ : BufTy).Contents (Elt Ideal)) = (Xr (Proc.devRef .tc Cert.ReferenceIdeal.main_v59) : (⟨Cert.ReferenceIdeal.S16x192x192, .i32⟩ : BufTy).Contents (Elt Ideal))
  ∧ (Xk (Proc.devRef .tc Cert.KernelIdeal.main_v76) : (⟨Cert.ReferenceIdeal.S16x192x192, .i32⟩ : BufTy).Contents (Elt Ideal)) = (Xr (Proc.devRef .tc Cert.ReferenceIdeal.main_v61) : (⟨Cert.ReferenceIdeal.S16x192x192, .i32⟩ : BufTy).Contents (Elt Ideal))
  ∧ (Xk (Proc.devRef .tc Cert.KernelIdeal.main_v126) : (⟨Cert.ReferenceIdeal.S16x256x192x192, .f32⟩ : BufTy).Contents (Elt Ideal)) = (Xr (Proc.devRef .tc Cert.ReferenceIdeal.main_v111) : (⟨Cert.ReferenceIdeal.S16x256x192x192, .f32⟩ : BufTy).Contents (Elt Ideal))
  ∧ (Xk (Proc.devRef .tc Cert.KernelIdeal.main_v128) : (⟨Cert.ReferenceIdeal.S16x192x192, .i32⟩ : BufTy).Contents (Elt Ideal)) = (Xr (Proc.devRef .tc Cert.ReferenceIdeal.main_v113) : (⟨Cert.ReferenceIdeal.S16x192x192, .i32⟩ : BufTy).Contents (Elt Ideal))
  ∧ (Xk (Proc.devRef .tc Cert.KernelIdeal.main_v130) : (⟨Cert.ReferenceIdeal.S16x192x192, .i32⟩ : BufTy).Contents (Elt Ideal)) = (Xr (Proc.devRef .tc Cert.ReferenceIdeal.main_v115) : (⟨Cert.ReferenceIdeal.S16x192x192, .i32⟩ : BufTy).Contents (Elt Ideal))
  ∧ (Xk (Proc.devRef .tc Cert.KernelIdeal.main_v141) : (⟨Cert.ReferenceIdeal.S16x192x192, .f32⟩ : BufTy).Contents (Elt Ideal)) = (Xr (Proc.devRef .tc Cert.ReferenceIdeal.main_v126) : (⟨Cert.ReferenceIdeal.S16x192x192, .f32⟩ : BufTy).Contents (Elt Ideal))
  ∧ (Xk (Proc.devRef .tc Cert.KernelIdeal.main_v152) : (⟨Cert.ReferenceIdeal.S16x192x192, .i1⟩ : BufTy).Contents (Elt Ideal)) = (Xr (Proc.devRef .tc Cert.ReferenceIdeal.main_v137) : (⟨Cert.ReferenceIdeal.S16x192x192, .i1⟩ : BufTy).Contents (Elt Ideal))
  ∧ (Xk (Proc.devRef .tc Cert.KernelIdeal.main_c_42) : (⟨Cert.ReferenceIdeal.S_, .i32⟩ : BufTy).Contents (Elt Ideal)) = (Xr (Proc.devRef .tc Cert.ReferenceIdeal.main_c_38) : (⟨Cert.ReferenceIdeal.S_, .i32⟩ : BufTy).Contents (Elt Ideal))
  ∧ (Xk (Proc.devRef .tc Cert.KernelIdeal.main_c_43) : (⟨Cert.ReferenceIdeal.S_, .i32⟩ : BufTy).Contents (Elt Ideal)) = (Xr (Proc.devRef .tc Cert.ReferenceIdeal.main_c_39) : (⟨Cert.ReferenceIdeal.S_, .i32⟩ : BufTy).Contents (Elt Ideal))

end Cert.FlowAccum.Agree

end
-- ==== Proof.AgreeStep3.lean ====
/- Window 3: contents that agree on the pairs of cut 3 still agree, after the window's operations on each side, on the pairs
   of cut 4 — each paired buffer is the same operation of operands that agree, or passes through the window unwritten. -/

import proofs.«160207_j39779987095835_2_alg».proof.Proof.AgreeAt3
import proofs.«160207_j39779987095835_2_alg».proof.Proof.AgreeAt4
import proofs.«160207_j39779987095835_2_alg».proof.Proof.KerCuts
import proofs.«160207_j39779987095835_2_alg».proof.Proof.RefCuts
import proofs.«160207_j39779987095835_2_alg».proof.Proof.AgreeTactic

set_option maxHeartbeats 4000000

noncomputable section

namespace Cert.FlowAccum.Agree

open Idealize.ShloMosaic Idealize.ShloMosaic.StableHlo

theorem step3 (Xk : VK) (Xr : VR) (h : At3 Xk Xr) :
    At4 (after (Cert.KernelIdeal.Bridge.kw3 (F := Ideal)) Xk) (after (Cert.ReferenceIdeal.Line.rw3 (F := Ideal)) Xr) := by
  unfold At3 at h
  unfold At4
  simp only [Cert.KernelIdeal.Bridge.kw3, Cert.KernelIdeal.Gen.hostOps0_14, Cert.ReferenceIdeal.Line.rw3, List.cons_append, List.nil_append, List.append_nil]
  agree_window h

end Cert.FlowAccum.Agree

end
-- ==== Proof.AgreeAt5.lean ====
/- Cut 5 (after 321 operations of the kernel's prefix, 302 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 5: 10 pairs. -/
def At5 (Xk : VK) (Xr : VR) : Prop :=
  (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v49) : (⟨Cert.ReferenceIdeal.S16x192x192, .f32⟩ : BufTy).Contents (Elt Ideal)) = (Xr (Proc.devRef .tc Cert.ReferenceIdeal.main_v49) : (⟨Cert.ReferenceIdeal.S16x192x192, .f32⟩ : BufTy).Contents (Elt Ideal))
  ∧ (Xk (Proc.devRef .tc Cert.KernelIdeal.main_v57) : (⟨Cert.ReferenceIdeal.S16x192x192, .f32⟩ : BufTy).Contents (Elt Ideal)) = (Xr (Proc.devRef .tc Cert.ReferenceIdeal.main_v57) : (⟨Cert.ReferenceIdeal.S16x192x192, .f32⟩ : BufTy).Contents (Elt Ideal))
  ∧ (Xk (Proc.devRef .tc Cert.KernelIdeal.main_v74) : (⟨Cert.ReferenceIdeal.S16x192x192, .i32⟩ : BufTy).Contents (Elt Ideal)) = (Xr (Proc.devRef .tc Cert.ReferenceIdeal.main_v59) : (⟨Cert.ReferenceIdeal.S16x192x192, .i32⟩ : BufTy).Contents (Elt Ideal))
  ∧ (Xk (Proc.devRef .tc Cert.KernelIdeal.main_v76) : (⟨Cert.ReferenceIdeal.S16x192x192, .i32⟩ : BufTy).Contents (Elt Ideal)) = (Xr (Proc.devRef .tc Cert.ReferenceIdeal.main_v61) : (⟨Cert.ReferenceIdeal.S16x192x192, .i32⟩ : BufTy).Contents (Elt Ideal))
  ∧ (Xk (Proc.devRef .tc Cert.KernelIdeal.main_v126) : (⟨Cert.ReferenceIdeal.S16x256x192x192, .f32⟩ : BufTy).Contents (Elt Ideal)) = (Xr (Proc.devRef .tc Cert.ReferenceIdeal.main_v111) : (⟨Cert.ReferenceIdeal.S16x256x192x192, .f32⟩ : BufTy).Contents (Elt Ideal))
  ∧ (Xk (Proc.devRef .tc Cert.KernelIdeal.main_v168) : (⟨Cert.ReferenceIdeal.S16x256x192x192, .f32⟩ : BufTy).Contents (Elt Ideal)) = (Xr (Proc.devRef .tc Cert.ReferenceIdeal.main_v153) : (⟨Cert.ReferenceIdeal.S16x256x192x192, .f32⟩ : BufTy).Contents (Elt Ideal))
  ∧ (Xk (Proc.devRef .tc Cert.KernelIdeal.main_v169) : (⟨Cert.ReferenceIdeal.S16x192x192, .f32⟩ : BufTy).Contents (Elt Ideal)) = (Xr (Proc.devRef .tc Cert.ReferenceIdeal.main_v154) : (⟨Cert.ReferenceIdeal.S16x192x192, .f32⟩ : BufTy).Contents (Elt Ideal))

end Cert.FlowAccum.Agree

end
-- ==== Proof.AgreeStep4.lean ====
/- Window 4: contents that agree on the pairs of cut 4 still agree, after the window's operations on each side, on the pairs
   of cut 5 — each paired buffer is the same operation of operands that agree, or passes through the window unwritten. -/

import proofs.«160207_j39779987095835_2_alg».proof.Proof.AgreeAt4
import proofs.«160207_j39779987095835_2_alg».proof.Proof.AgreeAt5
import proofs.«160207_j39779987095835_2_alg».proof.Proof.KerCuts
import proofs.«160207_j39779987095835_2_alg».proof.Proof.RefCuts
import proofs.«160207_j39779987095835_2_alg».proof.Proof.AgreeTacticJoin

set_option maxHeartbeats 4000000

noncomputable section

namespace Cert.FlowAccum.Agree

open Idealize.ShloMosaic Idealize.ShloMosaic.StableHlo

theorem step4 (Xk : VK) (Xr : VR) (h : At4 Xk Xr) :
    At5 (after (Cert.KernelIdeal.Bridge.kw4 (F := Ideal)) Xk) (after (Cert.ReferenceIdeal.Line.rw4 (F := Ideal)) Xr) := by
  unfold At4 at h
  unfold At5
  simp only [Cert.KernelIdeal.Bridge.kw4, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.ReferenceIdeal.Line.rw4, List.cons_append, List.nil_append, List.append_nil]
  agree_window_join h

end Cert.FlowAccum.Agree

end
-- ==== Proof.AgreeAt6.lean ====
/- Cut 6 (after 361 operations of the kernel's prefix, 342 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 6: 14 pairs. -/
def At6 (Xk : VK) (Xr : VR) : Prop :=
  (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v49) : (⟨Cert.ReferenceIdeal.S16x192x192, .f32⟩ : BufTy).Contents (Elt Ideal)) = (Xr (Proc.devRef .tc Cert.ReferenceIdeal.main_v49) : (⟨Cert.ReferenceIdeal.S16x192x192, .f32⟩ : BufTy).Contents (Elt Ideal))
  ∧ (Xk (Proc.devRef .tc Cert.KernelIdeal.main_v57) : (⟨Cert.ReferenceIdeal.S16x192x192, .f32⟩ : BufTy).Contents (Elt Ideal)) = (Xr (Proc.devRef .tc Cert.ReferenceIdeal.main_v57) : (⟨Cert.ReferenceIdeal.S16x192x192, .f32⟩ : BufTy).Contents (Elt Ideal))
  ∧ (Xk (Proc.devRef .tc Cert.KernelIdeal.main_v74) : (⟨Cert.ReferenceIdeal.S16x192x192, .i32⟩ : BufTy).Contents (Elt Ideal)) = (Xr (Proc.devRef .tc Cert.ReferenceIdeal.main_v59) : (⟨Cert.ReferenceIdeal.S16x192x192, .i32⟩ : BufTy).Contents (Elt Ideal))
  ∧ (Xk (Proc.devRef .tc Cert.KernelIdeal.main_v76) : (⟨Cert.ReferenceIdeal.S16x192x192, .i32⟩ : BufTy).Contents (Elt Ideal)) = (Xr (Proc.devRef .tc Cert.ReferenceIdeal.main_v61) : (⟨Cert.ReferenceIdeal.S16x192x192, .i32⟩ : BufTy).Contents (Elt Ideal))
  ∧ (Xk (Proc.devRef .tc Cert.KernelIdeal.main_v173) : (⟨Cert.ReferenceIdeal.S16x256x192x192, .f32⟩ : BufTy).Contents (Elt Ideal)) = (Xr (Proc.devRef .tc Cert.ReferenceIdeal.main_v158) : (⟨Cert.ReferenceIdeal.S16x256x192x192, .f32⟩ : BufTy).Contents (Elt Ideal))
  ∧ (Xk (Proc.devRef .tc Cert.KernelIdeal.main_v175) : (⟨Cert.ReferenceIdeal.S16x192x192, .i32⟩ : BufTy).Contents (Elt Ideal)) = (Xr (Proc.devRef .tc Cert.ReferenceIdeal.main_v160) : (⟨Cert.ReferenceIdeal.S16x192x192, .i32⟩ : BufTy).Contents (Elt Ideal))
  ∧ (Xk (Proc.devRef .tc Cert.KernelIdeal.main_v177) : (⟨Cert.ReferenceIdeal.S16x192x192, .i32⟩ : BufTy).Contents (Elt Ideal)) = (Xr (Proc.devRef .tc Cert.ReferenceIdeal.main_v162) : (⟨Cert.ReferenceIdeal.S16x192x192, .i32⟩ : BufTy).Contents (Elt Ideal))
  ∧ (Xk (Proc.devRef .tc Cert.KernelIdeal.main_v188) : (⟨Cert.ReferenceIdeal.S16x192x192, .f32⟩ : BufTy).Contents (Elt Ideal)) = (Xr (Proc.devRef .tc Cert.ReferenceIdeal.main_v173) : (⟨Cert.ReferenceIdeal.S16x192x192, .f32⟩ : BufTy).Contents (Elt Ideal))
  ∧ (Xk (Proc.devRef .tc Cert.KernelIdeal.main_v199) : (⟨Cert.ReferenceIdeal.S16x192x192, .i1⟩ : BufTy).Contents (Elt Ideal)) = (Xr (Proc.devRef .tc Cert.ReferenceIdeal.main_v184) : (⟨Cert.ReferenceIdeal.S16x192x192, .i1⟩ : BufTy).Contents (Elt Ideal))
  ∧ (Xk (Proc.devRef .tc Cert.KernelIdeal.main_c_59) : (⟨Cert.ReferenceIdeal.S_, .i32⟩ : BufTy).Contents (Elt Ideal)) = (Xr (Proc.devRef .tc Cert.ReferenceIdeal.main_c_55) : (⟨Cert.ReferenceIdeal.S_, .i32⟩ : BufTy).Contents (Elt Ideal))
  ∧ (Xk (Proc.devRef .tc Cert.KernelIdeal.main_c_60) : (⟨Cert.ReferenceIdeal.S_, .i32⟩ : BufTy).Contents (Elt Ideal)) = (Xr (Proc.devRef .tc Cert.ReferenceIdeal.main_c_56) : (⟨Cert.ReferenceIdeal.S_, .i32⟩ : BufTy).Contents (Elt Ideal))

end Cert.FlowAccum.Agree

end
-- ==== Proof.AgreeStep5.lean ====
/- Window 5: contents that agree on the pairs of cut 5 still agree, after the window's operations on each side, on the pairs
   of cut 6 — each paired buffer is the same operation of operands that agree, or passes through the window unwritten. -/

import proofs.«160207_j39779987095835_2_alg».proof.Proof.AgreeAt5
import proofs.«160207_j39779987095835_2_alg».proof.Proof.AgreeAt6
import proofs.«160207_j39779987095835_2_alg».proof.Proof.KerCuts
import proofs.«160207_j39779987095835_2_alg».proof.Proof.RefCuts
import proofs.«160207_j39779987095835_2_alg».proof.Proof.AgreeTactic

set_option maxHeartbeats 4000000

noncomputable section

namespace Cert.FlowAccum.Agree

open Idealize.ShloMosaic Idealize.ShloMosaic.StableHlo

theorem step5 (Xk : VK) (Xr : VR) (h : At5 Xk Xr) :
    At6 (after (Cert.KernelIdeal.Bridge.kw5 (F := Ideal)) Xk) (after (Cert.ReferenceIdeal.Line.rw5 (F := Ideal)) Xr) := by
  unfold At5 at h
  unfold At6
  simp only [Cert.KernelIdeal.Bridge.kw5, Cert.KernelIdeal.Gen.hostOps0_20, Cert.ReferenceIdeal.Line.rw5, List.cons_append, List.nil_append, List.append_nil]
  agree_window h

end Cert.FlowAccum.Agree

end
-- ==== Proof.AgreeAt7.lean ====
/- Cut 7 (after 398 operations of the kernel's prefix, 379 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 7: 10 pairs. -/
def At7 (Xk : VK) (Xr : VR) : Prop :=
  (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v49) : (⟨Cert.ReferenceIdeal.S16x192x192, .f32⟩ : BufTy).Contents (Elt Ideal)) = (Xr (Proc.devRef .tc Cert.ReferenceIdeal.main_v49) : (⟨Cert.ReferenceIdeal.S16x192x192, .f32⟩ : BufTy).Contents (Elt Ideal))
  ∧ (Xk (Proc.devRef .tc Cert.KernelIdeal.main_v57) : (⟨Cert.ReferenceIdeal.S16x192x192, .f32⟩ : BufTy).Contents (Elt Ideal)) = (Xr (Proc.devRef .tc Cert.ReferenceIdeal.main_v57) : (⟨Cert.ReferenceIdeal.S16x192x192, .f32⟩ : BufTy).Contents (Elt Ideal))
  ∧ (Xk (Proc.devRef .tc Cert.KernelIdeal.main_v74) : (⟨Cert.ReferenceIdeal.S16x192x192, .i32⟩ : BufTy).Contents (Elt Ideal)) = (Xr (Proc.devRef .tc Cert.ReferenceIdeal.main_v59) : (⟨Cert.ReferenceIdeal.S16x192x192, .i32⟩ : BufTy).Contents (Elt Ideal))
  ∧ (Xk (Proc.devRef .tc Cert.KernelIdeal.main_v76) : (⟨Cert.ReferenceIdeal.S16x192x192, .i32⟩ : BufTy).Contents (Elt Ideal)) = (Xr (Proc.devRef .tc Cert.ReferenceIdeal.main_v61) : (⟨Cert.ReferenceIdeal.S16x192x192, .i32⟩ : BufTy).Contents (Elt Ideal))
  ∧ (Xk (Proc.devRef .tc Cert.KernelIdeal.main_v173) : (⟨Cert.ReferenceIdeal.S16x256x192x192, .f32⟩ : BufTy).Contents (Elt Ideal)) = (Xr (Proc.devRef .tc Cert.ReferenceIdeal.main_v158) : (⟨Cert.ReferenceIdeal.S16x256x192x192, .f32⟩ : BufTy).Contents (Elt Ideal))
  ∧ (Xk (Proc.devRef .tc Cert.KernelIdeal.main_v215) : (⟨Cert.ReferenceIdeal.S16x256x192x192, .f32⟩ : BufTy).Contents (Elt Ideal)) = (Xr (Proc.devRef .tc Cert.ReferenceIdeal.main_v200) : (⟨Cert.ReferenceIdeal.S16x256x192x192, .f32⟩ : BufTy).Contents (Elt Ideal))
  ∧ (Xk (Proc.devRef .tc Cert.KernelIdeal.main_v216) : (⟨Cert.ReferenceIdeal.S16x192x192, .f32⟩ : BufTy).Contents (Elt Ideal)) = (Xr (Proc.devRef .tc Cert.ReferenceIdeal.main_v201) : (⟨Cert.ReferenceIdeal.S16x192x192, .f32⟩ : BufTy).Contents (Elt Ideal))

end Cert.FlowAccum.Agree

end
-- ==== Proof.AgreeStep6.lean ====
/- Window 6: contents that agree on the pairs of cut 6 still agree, after the window's operations on each side, on the pairs
   of cut 7 — each paired buffer is the same operation of operands that agree, or passes through the window unwritten. -/

import proofs.«160207_j39779987095835_2_alg».proof.Proof.AgreeAt6
import proofs.«160207_j39779987095835_2_alg».proof.Proof.AgreeAt7
import proofs.«160207_j39779987095835_2_alg».proof.Proof.KerCuts
import proofs.«160207_j39779987095835_2_alg».proof.Proof.RefCuts
import proofs.«160207_j39779987095835_2_alg».proof.Proof.AgreeTacticJoin

set_option maxHeartbeats 4000000

noncomputable section

namespace Cert.FlowAccum.Agree

open Idealize.ShloMosaic Idealize.ShloMosaic.StableHlo

theorem step6 (Xk : VK) (Xr : VR) (h : At6 Xk Xr) :
    At7 (after (Cert.KernelIdeal.Bridge.kw6 (F := Ideal)) Xk) (after (Cert.ReferenceIdeal.Line.rw6 (F := Ideal)) Xr) := by
  unfold At6 at h
  unfold At7
  simp only [Cert.KernelIdeal.Bridge.kw6, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.ReferenceIdeal.Line.rw6, List.cons_append, List.nil_append, List.append_nil]
  agree_window_join h

end Cert.FlowAccum.Agree

end
-- ==== Proof.AgreeAt8.lean ====
/- Cut 8 (after 438 operations of the kernel's prefix, 419 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 8: 10 pairs. -/
def At8 (Xk : VK) (Xr : VR) : Prop :=
  (Xk (Proc.devRef .tc Cert.KernelIdeal.main_arg0) : (⟨Cert.ReferenceIdeal.S16x256x64x64, .f32⟩ : BufTy).Contents (Elt Ideal)) = (Xr (Proc.devRef .tc Cert.ReferenceIdeal.main_arg0) : (⟨Cert.ReferenceIdeal.S16x256x64x64, .f32⟩ : BufTy).Contents (Elt Ideal))
  ∧ (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v220) : (⟨Cert.ReferenceIdeal.S16x256x192x192, .f32⟩ : BufTy).Contents (Elt Ideal)) = (Xr (Proc.devRef .tc Cert.ReferenceIdeal.main_v205) : (⟨Cert.ReferenceIdeal.S16x256x192x192, .f32⟩ : BufTy).Contents (Elt Ideal))
  ∧ (Xk (Proc.devRef .tc Cert.KernelIdeal.main_v222) : (⟨Cert.ReferenceIdeal.S16x192x192, .i32⟩ : BufTy).Contents (Elt Ideal)) = (Xr (Proc.devRef .tc Cert.ReferenceIdeal.main_v207) : (⟨Cert.ReferenceIdeal.S16x192x192, .i32⟩ : BufTy).Contents (Elt Ideal))
  ∧ (Xk (Proc.devRef .tc Cert.KernelIdeal.main_v224) : (⟨Cert.ReferenceIdeal.S16x192x192, .i32⟩ : BufTy).Contents (Elt Ideal)) = (Xr (Proc.devRef .tc Cert.ReferenceIdeal.main_v209) : (⟨Cert.ReferenceIdeal.S16x192x192, .i32⟩ : BufTy).Contents (Elt Ideal))
  ∧ (Xk (Proc.devRef .tc Cert.KernelIdeal.main_v235) : (⟨Cert.ReferenceIdeal.S16x192x192, .f32⟩ : BufTy).Contents (Elt Ideal)) = (Xr (Proc.devRef .tc Cert.ReferenceIdeal.main_v220) : (⟨Cert.ReferenceIdeal.S16x192x192, .f32⟩ : BufTy).Contents (Elt Ideal))
  ∧ (Xk (Proc.devRef .tc Cert.KernelIdeal.main_v246) : (⟨Cert.ReferenceIdeal.S16x192x192, .i1⟩ : BufTy).Contents (Elt Ideal)) = (Xr (Proc.devRef .tc Cert.ReferenceIdeal.main_v231) : (⟨Cert.ReferenceIdeal.S16x192x192, .i1⟩ : BufTy).Contents (Elt Ideal))
  ∧ (Xk (Proc.devRef .tc Cert.KernelIdeal.main_c_76) : (⟨Cert.ReferenceIdeal.S_, .i32⟩ : BufTy).Contents (Elt Ideal)) = (Xr (Proc.devRef .tc Cert.ReferenceIdeal.main_c_72) : (⟨Cert.ReferenceIdeal.S_, .i32⟩ : BufTy).Contents (Elt Ideal))
  ∧ (Xk (Proc.devRef .tc Cert.KernelIdeal.main_c_77) : (⟨Cert.ReferenceIdeal.S_, .i32⟩ : BufTy).Contents (Elt Ideal)) = (Xr (Proc.devRef .tc Cert.ReferenceIdeal.main_c_73) : (⟨Cert.ReferenceIdeal.S_, .i32⟩ : BufTy).Contents (Elt Ideal))

end Cert.FlowAccum.Agree

end
-- ==== Proof.AgreeStep7.lean ====
/- Window 7: contents that agree on the pairs of cut 7 still agree, after the window's operations on each side, on the pairs
   of cut 8 — each paired buffer is the same operation of operands that agree, or passes through the window unwritten. -/

import proofs.«160207_j39779987095835_2_alg».proof.Proof.AgreeAt7
import proofs.«160207_j39779987095835_2_alg».proof.Proof.AgreeAt8
import proofs.«160207_j39779987095835_2_alg».proof.Proof.KerCuts
import proofs.«160207_j39779987095835_2_alg».proof.Proof.RefCuts
import proofs.«160207_j39779987095835_2_alg».proof.Proof.AgreeTactic

set_option maxHeartbeats 4000000

noncomputable section

namespace Cert.FlowAccum.Agree

open Idealize.ShloMosaic Idealize.ShloMosaic.StableHlo

theorem step7 (Xk : VK) (Xr : VR) (h : At7 Xk Xr) :
    At8 (after (Cert.KernelIdeal.Bridge.kw7 (F := Ideal)) Xk) (after (Cert.ReferenceIdeal.Line.rw7 (F := Ideal)) Xr) := by
  unfold At7 at h
  unfold At8
  simp only [Cert.KernelIdeal.Bridge.kw7, Cert.KernelIdeal.Gen.hostOps0_26, Cert.ReferenceIdeal.Line.rw7, List.cons_append, List.nil_append, List.append_nil]
  agree_window h

end Cert.FlowAccum.Agree

end
-- ==== Proof.AgreeAt9.lean ====
/- Cut 9 (after 475 operations of the kernel's prefix, 456 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 9: 5 pairs. -/
def At9 (Xk : VK) (Xr : VR) : Prop :=
  (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v220) : (⟨Cert.ReferenceIdeal.S16x256x192x192, .f32⟩ : BufTy).Contents (Elt Ideal)) = (Xr (Proc.devRef .tc Cert.ReferenceIdeal.main_v205) : (⟨Cert.ReferenceIdeal.S16x256x192x192, .f32⟩ : BufTy).Contents (Elt Ideal))
  ∧ (Xk (Proc.devRef .tc Cert.KernelIdeal.main_v262) : (⟨Cert.ReferenceIdeal.S16x256x192x192, .f32⟩ : BufTy).Contents (Elt Ideal)) = (Xr (Proc.devRef .tc Cert.ReferenceIdeal.main_v247) : (⟨Cert.ReferenceIdeal.S16x256x192x192, .f32⟩ : BufTy).Contents (Elt Ideal))
  ∧ (Xk (Proc.devRef .tc Cert.KernelIdeal.main_v263) : (⟨Cert.ReferenceIdeal.S16x192x192, .f32⟩ : BufTy).Contents (Elt Ideal)) = (Xr (Proc.devRef .tc Cert.ReferenceIdeal.main_v248) : (⟨Cert.ReferenceIdeal.S16x192x192, .f32⟩ : BufTy).Contents (Elt Ideal))

end Cert.FlowAccum.Agree

end
-- ==== Proof.AgreeStep8.lean ====
/- Window 8: contents that agree on the pairs of cut 8 still agree, after the window's operations on each side, on the pairs
   of cut 9 — each paired buffer is the same operation of operands that agree, or passes through the window unwritten. -/

import proofs.«160207_j39779987095835_2_alg».proof.Proof.AgreeAt8
import proofs.«160207_j39779987095835_2_alg».proof.Proof.AgreeAt9
import proofs.«160207_j39779987095835_2_alg».proof.Proof.KerCuts
import proofs.«160207_j39779987095835_2_alg».proof.Proof.RefCuts
import proofs.«160207_j39779987095835_2_alg».proof.Proof.AgreeTacticJoin

set_option maxHeartbeats 4000000

noncomputable section

namespace Cert.FlowAccum.Agree

open Idealize.ShloMosaic Idealize.ShloMosaic.StableHlo

theorem step8 (Xk : VK) (Xr : VR) (h : At8 Xk Xr) :
    At9 (after (Cert.KernelIdeal.Bridge.kw8 (F := Ideal)) Xk) (after (Cert.ReferenceIdeal.Line.rw8 (F := Ideal)) Xr) := by
  unfold At8 at h
  unfold At9
  simp only [Cert.KernelIdeal.Bridge.kw8, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.ReferenceIdeal.Line.rw8, List.cons_append, List.nil_append, List.append_nil]
  agree_window_join h

end Cert.FlowAccum.Agree

end
-- ==== Proof.AgreeAt10.lean ====
/- Cut 10 (after 483 operations of the kernel's prefix, 460 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 10: 3 pairs. -/
def At10 (Xk : VK) (Xr : VR) : Prop :=
  (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v267) : (⟨Cert.ReferenceIdeal.S16x256x192x192, .f32⟩ : BufTy).Contents (Elt Ideal)) = (Xr (Proc.devRef .tc Cert.ReferenceIdeal.main_v252) : (⟨Cert.ReferenceIdeal.S16x256x192x192, .f32⟩ : BufTy).Contents (Elt Ideal))

end Cert.FlowAccum.Agree

end
-- ==== Proof.AgreeStep9.lean ====
/- Window 9: contents that agree on the pairs of cut 9 still agree, after the window's operations on each side, on the pairs
   of cut 10 — each paired buffer is the same operation of operands that agree, or passes through the window unwritten. -/

import proofs.«160207_j39779987095835_2_alg».proof.Proof.AgreeAt9
import proofs.«160207_j39779987095835_2_alg».proof.Proof.AgreeAt10
import proofs.«160207_j39779987095835_2_alg».proof.Proof.KerCuts
import proofs.«160207_j39779987095835_2_alg».proof.Proof.RefCuts
import proofs.«160207_j39779987095835_2_alg».proof.Proof.AgreeTactic

set_option maxHeartbeats 4000000

noncomputable section

namespace Cert.FlowAccum.Agree

open Idealize.ShloMosaic Idealize.ShloMosaic.StableHlo

theorem step9 (Xk : VK) (Xr : VR) (h : At9 Xk Xr) :
    At10 (after (Cert.KernelIdeal.Bridge.kw9 (F := Ideal)) Xk) (after (Cert.ReferenceIdeal.Line.rw9 (F := Ideal)) Xr) := by
  unfold At9 at h
  unfold At10
  simp only [Cert.KernelIdeal.Bridge.kw9, Cert.KernelIdeal.Gen.hostOps0_32, Cert.ReferenceIdeal.Line.rw9, List.cons_append, List.nil_append, List.append_nil]
  agree_window h

end Cert.FlowAccum.Agree

end
-- ==== Proof.AgreeAt11.lean ====
/- Cut 11 (after 483 operations of the kernel's prefix, 483 of the reference's line): the buffers of the two programs that later
   operations still read, paired — the kernel's buffer and the reference's buffer that hold the value of the same operation of the same
   operands — and what it is for contents of the two programs' buffers to agree on the pairs. -/

import proofs.«160207_j39779987095835_2_alg».proof.Proof.AgreeBase

noncomputable section

namespace Cert.FlowAccum.Agree

open Idealize.ShloMosaic Idealize.ShloMosaic.StableHlo

/-- Agreement at cut 11: 3 pairs. -/
def At11 (Xk : VK) (Xr : VR) : Prop :=
  (Xk (Proc.devRef .tc Cert.KernelIdeal.main_v2) : (⟨Cert.ReferenceIdeal.S192, .i32⟩ : BufTy).Contents (Elt Ideal)) = (Xr (Proc.devRef .tc Cert.ReferenceIdeal.main_v2) : (⟨Cert.ReferenceIdeal.S192, .i32⟩ : BufTy).Contents (Elt Ideal))
  ∧ (Xk (Proc.devRef .tc Cert.KernelIdeal.main_v3) : (⟨Cert.ReferenceIdeal.S192, .i32⟩ : BufTy).Contents (Elt Ideal)) = (Xr (Proc.devRef .tc Cert.ReferenceIdeal.main_v3) : (⟨Cert.ReferenceIdeal.S192, .i32⟩ : BufTy).Contents (Elt Ideal))
  ∧ (Xk (Proc.devRef .tc Cert.KernelIdeal.main_v267) : (⟨Cert.ReferenceIdeal.S16x256x192x192, .f32⟩ : BufTy).Contents (Elt Ideal)) = (Xr (Proc.devRef .tc Cert.ReferenceIdeal.main_v252) : (⟨Cert.ReferenceIdeal.S16x256x192x192, .f32⟩ : BufTy).Contents (Elt Ideal))

end Cert.FlowAccum.Agree

end
-- ==== Proof.AgreeStep10.lean ====
/- Window 10: contents that agree on the pairs of cut 10 still agree, after the window's operations on each side, on the pairs
   of cut 11 — each paired buffer is the same operation of operands that agree, or passes through the window unwritten. -/

import proofs.«160207_j39779987095835_2_alg».proof.Proof.AgreeAt10
import proofs.«160207_j39779987095835_2_alg».proof.Proof.AgreeAt11
import proofs.«160207_j39779987095835_2_alg».proof.Proof.KerCuts
import proofs.«160207_j39779987095835_2_alg».proof.Proof.RefCuts
import proofs.«160207_j39779987095835_2_alg».proof.Proof.AgreeTactic

set_option maxHeartbeats 4000000

noncomputable section

namespace Cert.FlowAccum.Agree

open Idealize.ShloMosaic Idealize.ShloMosaic.StableHlo

theorem step10 (Xk : VK) (Xr : VR) (h : At10 Xk Xr) :
    At11 Xk (after (Cert.ReferenceIdeal.Line.rw10 (F := Ideal)) Xr) := by
  unfold At10 at h
  unfold At11
  simp only [Cert.ReferenceIdeal.Line.rw10, List.cons_append, List.nil_append, List.append_nil]
  agree_window h

end Cert.FlowAccum.Agree

end
-- ==== Proof.AgreeChain.lean ====
/- The windows chained: contents that agree on the three arguments agree, after the kernel's whole prefix and the reference's
   whole line, on the last cut's pairs — among them the sampled values. -/

import proofs.«160207_j39779987095835_2_alg».proof.Proof.AgreeStep0
import proofs.«160207_j39779987095835_2_alg».proof.Proof.AgreeStep1
import proofs.«160207_j39779987095835_2_alg».proof.Proof.AgreeStep2
import proofs.«160207_j39779987095835_2_alg».proof.Proof.AgreeStep3
import proofs.«160207_j39779987095835_2_alg».proof.Proof.AgreeStep4
import proofs.«160207_j39779987095835_2_alg».proof.Proof.AgreeStep5
import proofs.«160207_j39779987095835_2_alg».proof.Proof.AgreeStep6
import proofs.«160207_j39779987095835_2_alg».proof.Proof.AgreeStep7
import proofs.«160207_j39779987095835_2_alg».proof.Proof.AgreeStep8
import proofs.«160207_j39779987095835_2_alg».proof.Proof.AgreeStep9
import proofs.«160207_j39779987095835_2_alg».proof.Proof.AgreeStep10
import proofs.«160207_j39779987095835_2_alg».proof.Proof.LibHostLine

noncomputable section

namespace Cert.FlowAccum.Agree

open Idealize.ShloMosaic Idealize.ShloMosaic.StableHlo

theorem agree_end (Xk : VK) (Xr : VR) (h : At0 Xk Xr) :
    At11 (after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32]) Xk) (after Cert.ReferenceIdeal.Line.ops Xr) := by
  rw [Cert.KernelIdeal.Bridge.flat_cuts, Cert.ReferenceIdeal.Line.ops_cuts]
  simp only [after_append]
  exact step10 _ _ (step9 _ _ (step8 _ _ (step7 _ _ (step6 _ _ (step5 _ _ (step4 _ _ (step3 _ _ (step2 _ _ (step1 _ _ (step0 _ _ (h)))))))))))

end Cert.FlowAccum.Agree

end
-- ==== Proof.Bridge.lean ====
/-
  The reference's result is the kernel's.

  Run from launch memories that agree on the three arguments (source, flow field, masks), the reference's straight line
  leaves in its result buffer what the kernel's region and host tail leave in the kernel's: both are the one array of
  `value_eq` — the four mask-weighted bilinear samples of the candidates 4k + b summed in order from zero — of the
  same sampled values, the same mask and the same two source-index vectors. That the sampled values and the index
  vectors are the same is the chain of windows: the kernel's host prefix and the reference's line apply the same
  operations, in the same order, to the same arguments, the kernel only computing its mask gathers earlier.
-/
import proofs.«160207_j39779987095835_2_alg».proof.Proof.KernelAcc
import proofs.«160207_j39779987095835_2_alg».proof.Proof.BridgeValue
import proofs.«160207_j39779987095835_2_alg».proof.Proof.AgreeChain

noncomputable section

namespace Cert.FlowAccum

open Idealize.ShloMosaic Idealize.ShloMosaic.TcCoe Idealize.SL.Sem Idealize.ShloMosaic.StableHlo

/-- From contents that agree on the three arguments, what the reference's line leaves in its result buffer is the
    kernel's accumulated and re-split weighted samples, the kernel's input array being what its host prefix leaves. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : Agree.At0 (fun b => m (c, b)) (launchContents m' c)) :
    after Cert.ReferenceIdeal.Line.ops (launchContents m' c) (Proc.devRef .tc Cert.ReferenceIdeal.main_v270)
      = shapeCast Cert.KernelIdeal.S4x256x192x192 (acc4 (Cert.KernelIdeal.Gen.V m c Cert.KernelIdeal.main_v271))
          Cert.KernelIdeal.Facts₀.shapeCasts_S4x256x36864_S4x256x192x192 := by
  have hE := Agree.agree_end _ _ hag
  unfold Agree.At11 at hE
  obtain ⟨e2, e3, eS⟩ := hE
  unfold Agree.At0 at hag
  obtain ⟨-, -, ea⟩ := hag
  rw [Cert.ReferenceIdeal.Line.ref_result', Cert.KernelIdeal.Bridge.kernel_weighted, Cert.KernelIdeal.Bridge.kernel_v58,
    Cert.KernelIdeal.Bridge.kernel_v64, Cert.KernelIdeal.Bridge.kernel_v71]
  refine Eq.trans ?_ (value_eq _ _ _ _).symm
  rw [← eS, ← e2, ← e3, ← ea]

end Cert.FlowAccum

end
-- ==== Proof.lean ====
/-
  A flow-warping kernel against its reference, on the extended reals.

  Both programs take a source [16, 256, 64, 64], a flow field [16, 2, 64, 64] and masks [16, 1, 64, 64]. Each output
  pixel of a 192 × 192 image belongs to a 3 × 3 block of one flow cell; the flow at the cell, plus the pixel's centred
  offset in the block, gives a continuous source position, and the source is sampled there bilinearly (four corners,
  each weighted by its distance and dropped when it falls outside the image); the sample is multiplied by the cell's
  mask, and the sixteen images are summed four by four (candidates n = 4k + b, k = 0 … 3) into four.

  The kernel computes the weighted samples by host operations, merges the two image axes, and sums the four
  candidates of each output block in a pipelined region: the block is reset to zero at the first candidate and each
  candidate's block is added in turn, so an entry ends at (((0 + w₀) + w₁) + w₂) + w₃; a last reshape splits the image
  axes again. The reference computes the same weighted samples, reshapes to [4, 4, 256, 192, 192] and reduces the
  leading axis by addition from zero.

  frame claims: the two kernel programs' frames are the generated ones; the reference is a straight line of host
  operations none of which writes an argument (its run is read off the line).
  preserves: the idealization rewrote nothing.
  algebraic: the two host prefixes apply the same operations in the same order to the same arguments up to the sampled
  values (the kernel computing its mask gathers earlier, on the mask with its unit axis squeezed: the same entries);
  the ordered four-term sum is the reduction because addition of extended reals is associative and commutative with
  infinities too, so no finiteness of the inputs is used.
-/
import proofs.«160207_j39779987095835_2_alg».proof.Defs
import proofs.«160207_j39779987095835_2_alg».proof.Proof.Gen.Kernel
import proofs.«160207_j39779987095835_2_alg».proof.Proof.Gen.Kernel.Frame
import proofs.«160207_j39779987095835_2_alg».proof.Proof.Gen.KernelIdeal
import proofs.«160207_j39779987095835_2_alg».proof.Proof.Gen.KernelIdeal.Frame
import proofs.«160207_j39779987095835_2_alg».proof.Proof.Gen.ReferenceIdeal
import proofs.«160207_j39779987095835_2_alg».proof.Proof.Gen.Pre_finite_inputs
import proofs.«160207_j39779987095835_2_alg».proof.Proof.KernelAcc
import proofs.«160207_j39779987095835_2_alg».proof.Proof.RefRun
import proofs.«160207_j39779987095835_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference is a straight line of host operations; none writes an argument. -/
theorem frame_ri : Cert.frame_ReferenceIdeal := fun m ρ _ => Cert.ReferenceIdeal.Line.frame_line (F := Ideal) m ρ

theorem preserves : Cert.preserves_Kernel_KernelIdeal := trivial

/-- Both programs end with the ordered four-candidate sum of the same weighted samples. -/
theorem algebraic : Cert.algebraic_KernelIdeal_ReferenceIdeal := by
  intro m ρ m' ρ' _ hagree
  refine ⟨fun c => shapeCast Cert.KernelIdeal.S4x256x192x192
      (Cert.FlowAccum.acc4 (Cert.KernelIdeal.Gen.V m c Cert.KernelIdeal.main_v271))
      Cert.KernelIdeal.Facts₀.shapeCasts_S4x256x36864_S4x256x192x192, Cert.KernelIdeal.Acc.run m ρ, ?_⟩
  refine (θ_run Cert.ReferenceIdeal.defs _ _).mono (fun r h c => ⟨?_, ?_, ?_, ?_⟩)
    (Cert.ReferenceIdeal.Line.run_line (F := Ideal) m' ρ')
  · exact (h c Cert.ReferenceIdeal.main_v270).trans
      (Cert.FlowAccum.result_eq m m' c ⟨(hagree c).1.symm, (hagree c).2.1.symm, (hagree c).2.2.symm⟩)
  · exact (h c Cert.ReferenceIdeal.main_arg0).trans (Cert.ReferenceIdeal.Line.kept0 _)
  · exact (h c Cert.ReferenceIdeal.main_arg1).trans (Cert.ReferenceIdeal.Line.kept1 _)
  · exact (h c Cert.ReferenceIdeal.main_arg2).trans (Cert.ReferenceIdeal.Line.kept2 _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
